-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512x21 : Shape := ⟨5, ![16, 1, 512, 512, 21]⟩
abbrev S_ : Shape := ⟨0, ![]⟩

class Facts : Prop where
  bcast_S_S16x1x512x512x21 : S_.BroadcastsInDim S16x1x512x512x21 (![] : Fin 0 → Fin S16x1x512x512x21.rank)
  reducesTo_S16x1x512x512x21_S_d0_1_2_3_4 : S16x1x512x512x21.ReducesTo [0, 1, 2, 3, 4] S_
  h_S_ : 0 < S_.numel

variable [Facts]

def fn {F : FTy → Type} [FloatOps F] (main_arg0 : FVec F S16x1x512x512x21 .f32) (main_arg1 : FVec F S16x1x512x512x21 .f32) : IVec S_ 1 :=
  let main_v0 : FVec F S16x1x512x512x21 .f32 := Host.absf main_arg0
  let main_cst : FVec F S_ .f32 := constant S_ .f32 0x7F800000#32
  let main_v1 : FVec F S16x1x512x512x21 .f32 := broadcastInDim S16x1x512x512x21 ![] bcast_S_S16x1x512x512x21 main_cst
  let main_v2 : IVec S16x1x512x512x21 1 := cmpf .olt main_v0 main_v1
  let main_c : IVec S_ 1 := constantI S_ 1 1#1
  let main_v3 : IVec S_ 1 := (fun x v => Host.reduce IntOp.andi x v reducesTo_S16x1x512x512x21_S_d0_1_2_3_4 h_S_) main_v2 main_c
  let main_v4 : FVec F S16x1x512x512x21 .f32 := Host.absf main_arg1
  let main_cst_0 : FVec F S_ .f32 := constant S_ .f32 0x7F800000#32
  let main_v5 : FVec F S16x1x512x512x21 .f32 := broadcastInDim S16x1x512x512x21 ![] bcast_S_S16x1x512x512x21 main_cst_0
  let main_v6 : IVec S16x1x512x512x21 1 := cmpf .olt main_v4 main_v5
  let main_c_1 : IVec S_ 1 := constantI S_ 1 1#1
  let main_v7 : IVec S_ 1 := (fun x v => Host.reduce IntOp.andi x v reducesTo_S16x1x512x512x21_S_d0_1_2_3_4 h_S_) main_v6 main_c_1
  let main_v8 : IVec S_ 1 := andi main_v3 main_v7
  main_v8
-- ==== Kernel.lean ====
abbrev S16x1x512x512x21 : Shape := ⟨5, ![16, 1, 512, 512, 21]⟩
abbrev S16x1x21x512x512 : Shape := ⟨5, ![16, 1, 21, 512, 512]⟩
abbrev S16x10 : Shape := ⟨2, ![16, 10]⟩
abbrev S8x1x21x32x512 : Shape := ⟨5, ![8, 1, 21, 32, 512]⟩
abbrev S8x10 : Shape := ⟨2, ![8, 10]⟩
abbrev S8x1 : Shape := ⟨2, ![8, 1]⟩
abbrev S8x21x32x512 : Shape := ⟨4, ![8, 21, 32, 512]⟩
abbrev S8x32x512 : Shape := ⟨3, ![8, 32, 512]⟩
abbrev S8x32 : Shape := ⟨2, ![8, 32]⟩
abbrev S8x512 : Shape := ⟨2, ![8, 512]⟩
abbrev S8 : Shape := ⟨1, ![8]⟩
abbrev S16x1 : Shape := ⟨2, ![16, 1]⟩
abbrev S16 : Shape := ⟨1, ![16]⟩
abbrev S_ : Shape := ⟨0, ![]⟩

abbrev nBuf : Space → Nat
  | .hbm => 94
  | .vmem => 16
  | .smem => 0
  | _ => 0

abbrev bufTy : (tb : Table) → Fin (tcTables nBuf tb) → BufTy
  | .hbm, ⟨0, _⟩ => ⟨S16x1x512x512x21, .f32⟩
  | .hbm, ⟨1, _⟩ => ⟨S16x1x512x512x21, .f32⟩
  | .hbm, ⟨2, _⟩ => ⟨S16x1x21x512x512, .f32⟩
  | .hbm, ⟨3, _⟩ => ⟨S16x1x21x512x512, .f32⟩
  | .hbm, ⟨4, _⟩ => ⟨S16x10, .f32⟩
  | .hbm, ⟨5, _⟩ => ⟨S16x1, .f32⟩
  | .hbm, ⟨6, _⟩ => ⟨S16, .f32⟩
  | .hbm, ⟨7, _⟩ => ⟨S16x1, .f32⟩
  | .hbm, ⟨8, _⟩ => ⟨S16, .f32⟩
  | .hbm, ⟨9, _⟩ => ⟨S16x1, .f32⟩
  | .hbm, ⟨10, _⟩ => ⟨S16, .f32⟩
  | .hbm, ⟨11, _⟩ => ⟨S16x1, .f32⟩
  | .hbm, ⟨12, _⟩ => ⟨S16, .f32⟩
  | .hbm, ⟨13, _⟩ => ⟨S16x1, .f32⟩
  | .hbm, ⟨14, _⟩ => ⟨S16, .f32⟩
  | .hbm, ⟨15, _⟩ => ⟨S16x1, .f32⟩
  | .hbm, ⟨16, _⟩ => ⟨S16, .f32⟩
  | .hbm, ⟨17, _⟩ => ⟨S16x1, .f32⟩
  | .hbm, ⟨18, _⟩ => ⟨S16, .f32⟩
  | .hbm, ⟨19, _⟩ => ⟨S16x1, .f32⟩
  | .hbm, ⟨20, _⟩ => ⟨S16, .f32⟩
  | .hbm, ⟨21, _⟩ => ⟨S16x1, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .i1⟩
  | .hbm, ⟨26, _⟩ => ⟨S16x1, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .i1⟩
  | .hbm, ⟨31, _⟩ => ⟨S16, .i1⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S16, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .local _ .vmem, ⟨0, _⟩ => ⟨S8x1x21x32x512, .f32⟩
  | .local _ .vmem, ⟨1, _⟩ => ⟨S8x1x21x32x512, .f32⟩
  | .local _ .vmem, ⟨2, _⟩ => ⟨S8x1x21x32x512, .f32⟩
  | .local _ .vmem, ⟨3, _⟩ => ⟨S8x1x21x32x512, .f32⟩
  | .local _ .vmem, ⟨4, _⟩ => ⟨S8x10, .f32⟩
  | .local _ .vmem, ⟨5, _⟩ => ⟨S8x10, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | .local _ .vmem, ⟨11, _⟩ => ⟨S8x1, .f32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | _, _ => ⟨S16x1x512x512x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_call0_cst : Ref sig .tc := ⟨.hbm, 51, rfl⟩
abbrev main_call0_v0 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_call1_v0 : Ref sig .tc := ⟨.hbm, 85, rfl⟩
abbrev main_call1_v1 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v151 : BitVec 1 := Scalar.cmpi .eq arg1 c15_i32
  let v152 : BitVec 32 := Scalar.extui v151
  let c0_i32_94 : BitVec 32 := 0#32
  let v153 : BitVec 1 := Scalar.cmpi .ne v152 c0_i32_94
  v153

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1x21x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x21x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16x1x512x512x21_S16x1x21x512x512_0_1_4_2_3 : S16x1x512x512x21.Transposes [0, 1, 4, 2, 3] S16x1x21x512x512
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x1x21x32x512_S8x1x21x32x512_0_0_0_0_0 : ∀ a, (![0, 0, 0, 0, 0] : Fin 5 → Nat) a + S8x1x21x32x512.size a ≤ S8x1x21x32x512.size a
  h_S8x1x21x32x512 : 0 < S8x1x21x32x512.numel
  shapeCasts_S8x1x21x32x512_S8x21x32x512 : S8x1x21x32x512.ShapeCasts S8x21x32x512
  reduces_S8x21x32x512_S8x32x512 : S8x21x32x512.Reduces [1] S8x32x512
  reduces_S8x32x512_S8x32 : S8x32x512.Reduces [2] S8x32
  reduces_S8x32x512_S8x512 : S8x32x512.Reduces [1] S8x512
  iota_S8x32_d1_w32 : S8x32.Iotas .tc 32 [1]
  iota_S8x512_d1_w32 : S8x512.Iotas .tc 32 [1]
  reduces_S8x32_S8 : S8x32.Reduces [1] S8
  shapeCasts_S8_S8x1 : S8.ShapeCasts S8x1
  reduces_S8x512_S8 : S8x512.Reduces [1] S8
  natLt_1_32 : 1 < 32
  concatenates_S8x1_S8x1_S8x1_S8x1_S8x1_S8x1_S8x1_S8x1_S8x1_S8x1_S8x10_d1 : Shape.Concatenates [S8x1, S8x1, S8x1, S8x1, S8x1, S8x1, S8x1, S8x1, S8x1, S8x1] S8x10 1
  inb_S8x10_S8x10_0_0 : ∀ a, (![0, 0] : Fin 2 → Nat) a + S8x10.size a ≤ S8x10.size a
  h_S8x10 : 0 < S8x10.numel
  slices_S16x10_S16x1_0_0 : S16x10.Slices ![0, 0] S16x1
  shapeCasts_S16x1_S16 : S16x1.ShapeCasts S16
  slices_S16x10_S16x1_0_1 : S16x10.Slices ![0, 1] S16x1
  slices_S16x10_S16x1_0_2 : S16x10.Slices ![0, 2] S16x1
  slices_S16x10_S16x1_0_3 : S16x10.Slices ![0, 3] S16x1
  slices_S16x10_S16x1_0_4 : S16x10.Slices ![0, 4] S16x1
  slices_S16x10_S16x1_0_5 : S16x10.Slices ![0, 5] S16x1
  slices_S16x10_S16x1_0_6 : S16x10.Slices ![0, 6] S16x1
  slices_S16x10_S16x1_0_7 : S16x10.Slices ![0, 7] S16x1
  slices_S16x10_S16x1_0_8 : S16x10.Slices ![0, 8] S16x1
  bcast_S_S16 : S_.BroadcastsInDim S16 (![] : Fin 0 → Fin S16.rank)
  slices_S16x10_S16x1_0_9 : S16x10.Slices ![0, 9] S16x1
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x21x32x512.size a ≤ S16x1x21x512x512.size a
  hwx0_0 : ∀ i : grid0.Coords, EltTy.bits .f32 = 32 ∨ (Rect.block (s := S16x1x21x512x512) S8x1x21x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x21x32x512.size a ≤ S16x1x21x512x512.size a
  hwx0_1 : ∀ i : grid0.Coords, EltTy.bits .f32 = 32 ∨ (Rect.block (s := S16x1x21x512x512) S8x1x21x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x10.size a ≤ S16x10.size a
  hwx0_2 : ∀ i : grid0.Coords, EltTy.bits .f32 = 32 ∨ (Rect.block (s := S16x10) S8x10.size (cc0_transform_2 i) (hinb0_2 i)).WholeWords (EltTy.packing .f32)

variable [Facts₀]

abbrev win0_0 : Pipeline.Window sig grid0 :=
  Pipeline.Window.ofSpec (Memref.whole main_v0) S8x1x21x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1x21x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1x512x512x21 : Shape := ⟨5, ![16, 1, 512, 512, 21]⟩
abbrev S_ : Shape := ⟨0, ![]⟩
abbrev S16x1x512x512 : Shape := ⟨4, ![16, 1, 512, 512]⟩
abbrev S512 : Shape := ⟨1, ![512]⟩
abbrev S1x1x512x1 : Shape := ⟨4, ![1, 1, 512, 1]⟩
abbrev S1x1x1x512 : Shape := ⟨4, ![1, 1, 1, 512]⟩
abbrev S16 : Shape := ⟨1, ![16]⟩

abbrev nBuf : Space → Nat
  | .hbm => 145
  | .vmem => 0
  | .smem => 0
  | _ => 0

abbrev hbmTy0_0 (i : Nat) : BufTy := match i % 128 with
  | 0 => ⟨S16x1x512x512x21, .f32⟩
  | 1 => ⟨S16x1x512x512x21, .f32⟩
  | 2 => ⟨S_, .f32⟩
  | 3 => ⟨S16x1x512x512, .f32⟩
  | 4 => ⟨S_, .f32⟩
  | 5 => ⟨S16x1x512x512, .f32⟩
  | 6 => ⟨S16x1x512x512, .i1⟩
  | 7 => ⟨S_, .f32⟩
  | 8 => ⟨S16x1x512x512, .f32⟩
  | 9 => ⟨S_, .f32⟩
  | 10 => ⟨S16x1x512x512, .f32⟩
  | 11 => ⟨S16x1x512x512, .i1⟩
  | 12 => ⟨S512, .i32⟩
  | 13 => ⟨S1x1x512x1, .i32⟩
  | 14 => ⟨S512, .i32⟩
  | 15 => ⟨S1x1x1x512, .i32⟩
  | 16 => ⟨S_, .i32⟩
  | 17 => ⟨S16x1x512x512, .i32⟩
  | 18 => ⟨S16x1x512x512, .i32⟩
  | 19 => ⟨S16x1x512x512, .i32⟩
  | 20 => ⟨S_, .i32⟩
  | 21 => ⟨S16, .i32⟩
  | 22 => ⟨S_, .i32⟩
  | 23 => ⟨S16x1x512x512, .i32⟩
  | 24 => ⟨S16x1x512x512, .i32⟩
  | 25 => ⟨S16x1x512x512, .i32⟩
  | 26 => ⟨S_, .i32⟩
  | 27 => ⟨S16, .i32⟩
  | 28 => ⟨S_, .i32⟩
  | 29 => ⟨S_, .i32⟩
  | 30 => ⟨S16x1x512x512, .i32⟩
  | 31 => ⟨S16x1x512x512, .i32⟩
  | 32 => ⟨S16x1x512x512, .i32⟩
  | 33 => ⟨S_, .i32⟩
  | 34 => ⟨S16, .i32⟩
  | 35 => ⟨S_, .i32⟩
  | 36 => ⟨S_, .i32⟩
  | 37 => ⟨S16x1x512x512, .i32⟩
  | 38 => ⟨S16x1x512x512, .i32⟩
  | 39 => ⟨S16x1x512x512, .i32⟩
  | 40 => ⟨S_, .i32⟩
  | 41 => ⟨S16, .i32⟩
  | 42 => ⟨S512, .i32⟩
  | 43 => ⟨S1x1x512x1, .i32⟩
  | 44 => ⟨S512, .i32⟩
  | 45 => ⟨S1x1x1x512, .i32⟩
  | 46 => ⟨S_, .i32⟩
  | 47 => ⟨S16x1x512x512, .i32⟩
  | 48 => ⟨S16x1x512x512, .i32⟩
  | 49 => ⟨S16x1x512x512, .i32⟩
  | 50 => ⟨S_, .i32⟩
  | 51 => ⟨S16, .i32⟩
  | 52 => ⟨S_, .i32⟩
  | 53 => ⟨S16x1x512x512, .i32⟩
  | 54 => ⟨S16x1x512x512, .i32⟩
  | 55 => ⟨S16x1x512x512, .i32⟩
  | 56 => ⟨S_, .i32⟩
  | 57 => ⟨S16, .i32⟩
  | 58 => ⟨S_, .i32⟩
  | 59 => ⟨S_, .i32⟩
  | 60 => ⟨S16x1x512x512, .i32⟩
  | 61 => ⟨S16x1x512x512, .i32⟩
  | 62 => ⟨S16x1x512x512, .i32⟩
  | 63 => ⟨S_, .i32⟩
  | 64 => ⟨S16, .i32⟩
  | 65 => ⟨S_, .i32⟩
  | 66 => ⟨S_, .i32⟩
  | 67 => ⟨S16x1x512x512, .i32⟩
  | 68 => ⟨S16x1x512x512, .i32⟩
  | 69 => ⟨S16x1x512x512, .i32⟩
  | 70 => ⟨S_, .i32⟩
  | 71 => ⟨S16, .i32⟩
  | 72 => ⟨S_, .i1⟩
  | 73 => ⟨S16, .i1⟩
  | 74 => ⟨S_, .i1⟩
  | 75 => ⟨S16, .i1⟩
  | 76 => ⟨S16, .i1⟩
  | 77 => ⟨S16, .i32⟩
  | 78 => ⟨S_, .i32⟩
  | 79 => ⟨S16, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S16, .f32⟩
  | 87 => ⟨S16, .i32⟩
  | 88 => ⟨S_, .i32⟩
  | 89 => ⟨S16, .i32⟩
  | 90 => ⟨S16, .i32⟩
  | 91 => ⟨S16, .i32⟩
  | 92 => ⟨S_, .i32⟩
  | 93 => ⟨S16, .i32⟩
  | 94 => ⟨S16, .i32⟩
  | 95 => ⟨S16, .i32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S16, .f32⟩
  | 105 => ⟨S16, .i32⟩
  | 106 => ⟨S16, .f32⟩
  | 107 => ⟨S_, .f32⟩
  | 108 => ⟨S16, .f32⟩
  | 109 => ⟨S16, .f32⟩
  | 110 => ⟨S16, .i32⟩
  | 111 => ⟨S16, .f32⟩
  | 112 => ⟨S_, .f32⟩
  | 113 => ⟨S16, .f32⟩
  | 114 => ⟨S16, .f32⟩
  | 115 => ⟨S16, .i32⟩
  | 116 => ⟨S16, .f32⟩
  | 117 => ⟨S_, .f32⟩
  | 118 => ⟨S16, .f32⟩
  | 119 => ⟨S16, .f32⟩
  | 120 => ⟨S16, .i32⟩
  | 121 => ⟨S16, .f32⟩
  | 122 => ⟨S_, .f32⟩
  | 123 => ⟨S16, .f32⟩
  | 124 => ⟨S16, .f32⟩
  | 125 => ⟨S16, .f32⟩
  | 126 => ⟨S16, .f32⟩
  | 127 => ⟨S16, .f32⟩
  | _ => ⟨S16x1x512x512x21, .f32⟩

abbrev hbmTy0_1 (i : Nat) : BufTy := match i % 128 with
  | 0 => ⟨S16, .f32⟩
  | 1 => ⟨S16, .f32⟩
  | 2 => ⟨S16, .f32⟩
  | 3 => ⟨S_, .f32⟩
  | 4 => ⟨S16, .f32⟩
  | 5 => ⟨S16, .f32⟩
  | 6 => ⟨S16, .f32⟩
  | 7 => ⟨S_, .f32⟩
  | 8 => ⟨S_, .f32⟩
  | 9 => ⟨S16, .f32⟩
  | 10 => ⟨S16, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | _ => ⟨S16x1x512x512x21, .f32⟩

abbrev hbmTy (i : Nat) : BufTy := match i / 128 with
  | 0 => hbmTy0_0 i
  | 1 => hbmTy0_1 i
  | _ => ⟨S16x1x512x512x21, .f32⟩

abbrev bufTy : (tb : Table) → Fin (tcTables nBuf tb) → BufTy
  | .hbm, ⟨i, _⟩ => hbmTy i
  | _, _ => ⟨S16x1x512x512x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_c_6 : Ref sig .tc := ⟨.hbm, 28, rfl⟩
abbrev main_v14 : Ref sig .tc := ⟨.hbm, 29, rfl⟩
abbrev main_call2_v0 : Ref sig .tc := ⟨.hbm, 30, rfl⟩
abbrev main_call2_v1 : Ref sig .tc := ⟨.hbm, 31, rfl⟩
abbrev main_v15 : Ref sig .tc := ⟨.hbm, 32, rfl⟩
abbrev main_c_7 : Ref sig .tc := ⟨.hbm, 33, rfl⟩
abbrev main_v16 : Ref sig .tc := ⟨.hbm, 34, rfl⟩
abbrev main_c_8 : Ref sig .tc := ⟨.hbm, 35, rfl⟩
abbrev main_v17 : Ref sig .tc := ⟨.hbm, 36, rfl⟩
abbrev main_call3_v0 : Ref sig .tc := ⟨.hbm, 37, rfl⟩
abbrev main_call3_v1 : Ref sig .tc := ⟨.hbm, 38, rfl⟩
abbrev main_v18 : Ref sig .tc := ⟨.hbm, 39, rfl⟩
abbrev main_c_9 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_10 : Ref sig .tc := ⟨.hbm, 46, rfl⟩
abbrev main_call4_v0 : Ref sig .tc := ⟨.hbm, 47, rfl⟩
abbrev main_call4_v1 : Ref sig .tc := ⟨.hbm, 48, rfl⟩
abbrev main_v24 : Ref sig .tc := ⟨.hbm, 49, rfl⟩
abbrev main_c_11 : Ref sig .tc := ⟨.hbm, 50, rfl⟩
abbrev main_v25 : Ref sig .tc := ⟨.hbm, 51, rfl⟩
abbrev main_c_12 : Ref sig .tc := ⟨.hbm, 52, rfl⟩
abbrev main_call5_v0 : Ref sig .tc := ⟨.hbm, 53, rfl⟩
abbrev main_call5_v1 : Ref sig .tc := ⟨.hbm, 54, rfl⟩
abbrev main_v26 : Ref sig .tc := ⟨.hbm, 55, rfl⟩
abbrev main_c_13 : Ref sig .tc := ⟨.hbm, 56, rfl⟩
abbrev main_v27 : Ref sig .tc := ⟨.hbm, 57, rfl⟩
abbrev main_c_14 : Ref sig .tc := ⟨.hbm, 58, rfl⟩
abbrev main_v28 : Ref sig .tc := ⟨.hbm, 59, rfl⟩
abbrev main_call6_v0 : Ref sig .tc := ⟨.hbm, 60, rfl⟩
abbrev main_call6_v1 : Ref sig .tc := ⟨.hbm, 61, rfl⟩
abbrev main_v29 : Ref sig .tc := ⟨.hbm, 62, rfl⟩
abbrev main_c_15 : Ref sig .tc := ⟨.hbm, 63, rfl⟩
abbrev main_v30 : Ref sig .tc := ⟨.hbm, 64, rfl⟩
abbrev main_c_16 : Ref sig .tc := ⟨.hbm, 65, rfl⟩
abbrev main_v31 : Ref sig .tc := ⟨.hbm, 66, rfl⟩
abbrev main_call7_v0 : Ref sig .tc := ⟨.hbm, 67, rfl⟩
abbrev main_call7_v1 : Ref sig .tc := ⟨.hbm, 68, rfl⟩
abbrev main_v32 : Ref sig .tc := ⟨.hbm, 69, rfl⟩
abbrev main_c_17 : Ref sig .tc := ⟨.hbm, 70, rfl⟩
abbrev main_v33 : Ref sig .tc := ⟨.hbm, 71, rfl⟩
abbrev main_c_18 : Ref sig .tc := ⟨.hbm, 72, rfl⟩
abbrev main_v34 : Ref sig .tc := ⟨.hbm, 73, rfl⟩
abbrev main_c_19 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_c_20 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_21 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_22 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_23 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_call8_cst : Ref sig .tc := ⟨.hbm, 98, rfl⟩
abbrev main_call8_v0 : Ref sig .tc := ⟨.hbm, 99, rfl⟩
abbrev main_v54 : Ref sig .tc := ⟨.hbm, 100, rfl⟩
abbrev main_cst_24 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_25 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_26 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_27 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_28 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_29 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_30 : Ref sig .tc := ⟨.hbm, 135, rfl⟩
abbrev main_call9_v0 : Ref sig .tc := ⟨.hbm, 136, rfl⟩
abbrev main_call9_v1 : Ref sig .tc := ⟨.hbm, 137, rfl⟩
abbrev main_v83 : Ref sig .tc := ⟨.hbm, 138, rfl⟩
abbrev main_cst_31 : Ref sig .tc := ⟨.hbm, 139, rfl⟩
abbrev main_v84 : Ref sig .tc := ⟨.hbm, 140, rfl⟩
abbrev main_cst_32 : Ref sig .tc := ⟨.hbm, 141, rfl⟩
abbrev main_v85 : Ref sig .tc := ⟨.hbm, 142, rfl⟩
abbrev main_cst_33 : Ref sig .tc := ⟨.hbm, 143, rfl⟩
abbrev main_v86 : Ref sig .tc := ⟨.hbm, 144, rfl⟩

abbrev nD : Nat := 1
abbrev τ : Topo := Topo.v7x

variable {F : FTy → Type} [FloatOps F]

class Facts₀ : Prop where
  reducesTo_S16x1x512x512x21_S16x1x512x512_d4 : S16x1x512x512x21.ReducesTo [4] S16x1x512x512
  h_S_ : 0 < S_.numel
  bcast_S_S16x1x512x512 : S_.BroadcastsInDim S16x1x512x512 (![] : Fin 0 → Fin S16x1x512x512.rank)
  shapeCasts_S512_S1x1x512x1 : S512.ShapeCasts S1x1x512x1
  shapeCasts_S512_S1x1x1x512 : S512.ShapeCasts S1x1x1x512
  bcast_S1x1x512x1_S16x1x512x512_0_1_2_3 : S1x1x512x1.BroadcastsInDim S16x1x512x512 (![0, 1, 2, 3] : Fin 4 → Fin S16x1x512x512.rank)
  reducesTo_S16x1x512x512_S16_d1_2_3 : S16x1x512x512.ReducesTo [1, 2, 3] S16
  bcast_S1x1x1x512_S16x1x512x512_0_1_2_3 : S1x1x1x512.BroadcastsInDim S16x1x512x512 (![0, 1, 2, 3] : Fin 4 → Fin S16x1x512x512.rank)
  bcast_S_S16 : S_.BroadcastsInDim S16 (![] : Fin 0 → Fin S16.rank)
  reducesTo_S16_S_d0 : S16.ReducesTo [0] S_

variable [Facts₀]

class Facts : Prop extends Facts₀ where

variable [Facts]
-- ==== Proof.KbKit.lean ====
/-
  The program around its one pallas_call: two transposes, the region, then the lines that turn the
  sixteen rows of ten statistics into one number. Here: the buffers as the region finds them, the
  reduction of the whole program to "region, then the later lines", the facts about those lines the
  launch theorem asks for (they touch only unscoped buffers, allocate nothing, write no array the
  region stages, and never write an argument), the input blocks a grid point sees, the two branch
  conditions of the body decided over the 2 x 16 grid (first row tile, last row tile), and the ten
  accumulators the body keeps between row tiles.
-/
import proofs.«124476_j14413910245512_2_alg».proof.Proof.Gen.Kernel.Launch
import proofs.«124476_j14413910245512_2_alg».proof.Proof.Gen.Kernel.Skeleton
import proofs.«124476_j14413910245512_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffers when the region is entered: the launch contents after the two transposes. -/
abbrev V0 (c : Dev nD) : Valuation τ sig (Elt F) := StableHlo.after (List.flatten [hostOps0]) (fun b => m (c, b))
/-- The same at a reference. -/
abbrev V (c : Dev nD) (b : Ref sig .tc) : Buf (Elt F) ((c : Thread nD τ).loc b) := V0 m c (Proc.devRef .tc b)

/-- The lines after the region, stretch by stretch. -/
abbrev sfx : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The whole program is: the transposes, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main [hostOps0] sfx (by simp only [List.Forall]; exact hostOps0_sub)
    (by simp only [List.Forall]; exact hostOps0_fresh) main_chain

theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No line of this stretch writes an array the region stages: each writes its own result only. -/
theorem hostOps1_keeps : (hostOps1 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No line of this stretch writes an array the region stages: each writes its own result only. -/
theorem hostOps1_1_keeps : (hostOps1_1 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No line of this stretch writes an array the region stages: each writes its own result only. -/
theorem hostOps1_2_keeps : (hostOps1_2 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No line of this stretch writes an array the region stages: each writes its own result only. -/
theorem hostOps1_3_keeps : (hostOps1_3 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No line of this stretch writes an array the region stages: each writes its own result only. -/
theorem hostOps1_4_keeps : (hostOps1_4 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

theorem sfx_keeps : ∀ ops ∈ (sfx : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- Neither transpose writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_keeps_arg0 : (hostOps1 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps_arg0 : (hostOps1_1 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps_arg0 : (hostOps1_2 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps_arg0 : (hostOps1_3 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps_arg0 : (hostOps1_4 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later line writes argument 0: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) sfx c main_arg0 = m ((c : Thread nD τ).loc main_arg0) := by
  unfold Pipeline.afterTail₀
  rw [StableHlo.after_of_forall_not_mem (b := Proc.devRef .tc main_arg0) _ _ (by
      intro op hop
      simp only [List.flatten_cons, List.flatten_nil, List.append_nil, List.mem_append] at hop
      rcases hop with hop | hop | hop | hop | hop
      · exact (List.forall_iff_forall_mem.mp hostOps1_keeps_arg0) op hop
      · exact (List.forall_iff_forall_mem.mp hostOps1_1_keeps_arg0) op hop
      · exact (List.forall_iff_forall_mem.mp hostOps1_2_keeps_arg0) op hop
      · exact (List.forall_iff_forall_mem.mp hostOps1_3_keeps_arg0) op hop
      · exact (List.forall_iff_forall_mem.mp hostOps1_4_keeps_arg0) op hop),
    Pipeline.withArrays_of_ne _ c (V0 m c) _ main_arg0 (by exact (by decide : ∀ w, Pipeline.arrRef spec0 w ≠ main_arg0))]
  exact V_main_arg0 m c

/-- Neither transpose writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_keeps_arg1 : (hostOps1 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps_arg1 : (hostOps1_1 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps_arg1 : (hostOps1_2 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps_arg1 : (hostOps1_3 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps_arg1 : (hostOps1_4 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later line writes argument 1: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) sfx c main_arg1 = m ((c : Thread nD τ).loc main_arg1) := by
  unfold Pipeline.afterTail₀
  rw [StableHlo.after_of_forall_not_mem (b := Proc.devRef .tc main_arg1) _ _ (by
      intro op hop
      simp only [List.flatten_cons, List.flatten_nil, List.append_nil, List.mem_append] at hop
      rcases hop with hop | hop | hop | hop | hop
      · exact (List.forall_iff_forall_mem.mp hostOps1_keeps_arg1) op hop
      · exact (List.forall_iff_forall_mem.mp hostOps1_1_keeps_arg1) op hop
      · exact (List.forall_iff_forall_mem.mp hostOps1_2_keeps_arg1) op hop
      · exact (List.forall_iff_forall_mem.mp hostOps1_3_keeps_arg1) op hop
      · exact (List.forall_iff_forall_mem.mp hostOps1_4_keeps_arg1) op hop),
    Pipeline.withArrays_of_ne _ c (V0 m c) _ main_arg1 (by exact (by decide : ∀ w, Pipeline.arrRef spec0 w ≠ main_arg1))]
  exact V_main_arg1 m c

/-! ## The blocks a grid point sees -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the frame run's -/

/-- Both arguments end as launched: neither is an array the region stages, and no line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's two branches -/

/-- First row tile of a batch block: the accumulators are re-initialised. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- Last row tile of a batch block: the ten accumulators are written out side by side. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last row tile nothing is stored into the output block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## Staging buffers and accumulators as the body is called with them -/

abbrev VO : View sig .tc .vmem S8x10 .f32 := (Memref.whole cc0_stg2_0 : Memref sig .tc .vmem S8x10 .f32).view
abbrev ms0 (t : Fin cfg0.N) : Memref sig .tc .vmem S8x1x21x32x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1x21x32x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x10 .f32 := win0_2.stage (cfg0.slots t 2)
abbrev hs2 (t : Fin cfg0.N) : (ms2 t).IsWhole := hstage0_2 ((cfg0.slots t 2).cast nbuf0_2)
abbrev sc0 : Memref sig .tc .vmem S8x1 .f32 := Memref.whole cc0_scratch0
abbrev sc1 : Memref sig .tc .vmem S8x1 .f32 := Memref.whole cc0_scratch1
abbrev sc2 : Memref sig .tc .vmem S8x1 .f32 := Memref.whole cc0_scratch2
abbrev sc3 : Memref sig .tc .vmem S8x1 .f32 := Memref.whole cc0_scratch3
abbrev sc4 : Memref sig .tc .vmem S8x1 .f32 := Memref.whole cc0_scratch4
abbrev sc5 : Memref sig .tc .vmem S8x1 .f32 := Memref.whole cc0_scratch5
abbrev sc6 : Memref sig .tc .vmem S8x1 .f32 := Memref.whole cc0_scratch6
abbrev sc7 : Memref sig .tc .vmem S8x1 .f32 := Memref.whole cc0_scratch7
abbrev sc8 : Memref sig .tc .vmem S8x1 .f32 := Memref.whole cc0_scratch8
abbrev sc9 : Memref sig .tc .vmem S8x1 .f32 := Memref.whole cc0_scratch9

/-- What the launch hands the region besides the windows: the ten accumulators at some contents, and the generator register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

/-- A store through the whole buffer, last, leaves its payload whatever was stored before. -/
theorem read_writes_last {sp : Space} {S : Shape} {e : EltTy} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

end Cert.Kernel.Hand

end
-- ==== Proof.KbRunB.lean ====
/-
  The body at a row tile that is neither the first nor the last of its batch block: both input
  blocks are loaded, the tile's ten statistics are folded into the ten accumulators (each loaded,
  combined by min or max, stored back whole), and nothing is stored into the output block. The
  symbolic run leaves, per accumulator, the list of pieces stored into it.
-/
import proofs.«124476_j14413910245512_2_alg».proof.Proof.KbKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_B (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    Σ' (L0 : List (View.Piece (Elt F) S8x1 .f32)) (L1 : List (View.Piece (Elt F) S8x1 .f32)) (L2 : List (View.Piece (Elt F) S8x1 .f32)) (L3 : List (View.Piece (Elt F) S8x1 .f32)) (L4 : List (View.Piece (Elt F) S8x1 .f32)) (L5 : List (View.Piece (Elt F) S8x1 .f32)) (L6 : List (View.Piece (Elt F) S8x1 .f32)) (L7 : List (View.Piece (Elt F) S8x1 .f32)) (L8 : List (View.Piece (Elt F) S8x1 .f32)), { L9 : List (View.Piece (Elt F) S8x1 .f32) //
      ∀ (xi2 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4 ∗ owns (c : Thread nD τ) arg10 fullShare xs5 ∗ owns (c : Thread nD τ) arg11 fullShare xs6 ∗ owns (c : Thread nD τ) arg12 fullShare xs7 ∗ owns (c : Thread nD τ) arg13 fullShare xs8 ∗ owns (c : Thread nD τ) arg14 fullShare xs9
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9)) -∗ K ⟨⟩))
          ⊢ wp frame (wpE (defs₀ (F := F)) Variants.none c none) E (cc0__bbox_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, ?_, fun xi2 E K => ?run⟩
  case run =>
    simp only [cc0__bbox_kernel_eq_skeleton]; unfold cc0__bbox_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2; obtain rfl := harg8.eq_unread hfs3; obtain rfl := harg9.eq_unread hfs4; obtain rfl := harg10.eq_unread hfs5; obtain rfl := harg11.eq_unread hfs6; obtain rfl := harg12.eq_unread hfs7; obtain rfl := harg13.eq_unread hfs8; obtain rfl := harg14.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Hand

end
-- ==== Proof.KbRunA.lean ====
/-
  The body at the first row tile of a batch block: the ten accumulators are first stored whole with
  their starting values (the large positive word for the four minima, its negative for the four
  maxima, zero for the two "any" flags), whatever they held before, and then the tile's statistics
  are folded in as at every other tile.
-/
import proofs.«124476_j14413910245512_2_alg».proof.Proof.KbRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_A (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    Σ' (L0 : List (View.Piece (Elt F) S8x1 .f32)) (L1 : List (View.Piece (Elt F) S8x1 .f32)) (L2 : List (View.Piece (Elt F) S8x1 .f32)) (L3 : List (View.Piece (Elt F) S8x1 .f32)) (L4 : List (View.Piece (Elt F) S8x1 .f32)) (L5 : List (View.Piece (Elt F) S8x1 .f32)) (L6 : List (View.Piece (Elt F) S8x1 .f32)) (L7 : List (View.Piece (Elt F) S8x1 .f32)) (L8 : List (View.Piece (Elt F) S8x1 .f32)), { L9 : List (View.Piece (Elt F) S8x1 .f32) //
      ∀ (xi2 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9)) -∗ K ⟨⟩))
          ⊢ wp frame (wpE (defs₀ (F := F)) Variants.none c none) E (cc0__bbox_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, ?_, fun xi2 E K => ?run⟩
  case run =>
    simp only [cc0__bbox_kernel_eq_skeleton]; unfold cc0__bbox_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Hand

end
-- ==== Proof.KbRunC.lean ====
/-
  The body at the last row tile of a batch block: after the tile's statistics are folded into the
  ten accumulators, the accumulators are loaded back and stored side by side, as the ten columns of
  the output block, which the pipeline then writes back.
-/
import proofs.«124476_j14413910245512_2_alg».proof.Proof.KbRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_C (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    Σ' (Lo : List (View.Piece (Elt F) S8x10 .f32)) (L0 : List (View.Piece (Elt F) S8x1 .f32)) (L1 : List (View.Piece (Elt F) S8x1 .f32)) (L2 : List (View.Piece (Elt F) S8x1 .f32)) (L3 : List (View.Piece (Elt F) S8x1 .f32)) (L4 : List (View.Piece (Elt F) S8x1 .f32)) (L5 : List (View.Piece (Elt F) S8x1 .f32)) (L6 : List (View.Piece (Elt F) S8x1 .f32)) (L7 : List (View.Piece (Elt F) S8x1 .f32)) (L8 : List (View.Piece (Elt F) S8x1 .f32)), { L9 : List (View.Piece (Elt F) S8x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4 ∗ owns (c : Thread nD τ) arg10 fullShare xs5 ∗ owns (c : Thread nD τ) arg11 fullShare xs6 ∗ owns (c : Thread nD τ) arg12 fullShare xs7 ∗ owns (c : Thread nD τ) arg13 fullShare xs8 ∗ owns (c : Thread nD τ) arg14 fullShare xs9
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f Lo) ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9)) -∗ K ⟨⟩))
          ⊢ wp frame (wpE (defs₀ (F := F)) Variants.none c none) E (cc0__bbox_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, ?_, ?_, fun E K => ?run⟩
  case run =>
    simp only [cc0__bbox_kernel_eq_skeleton]; unfold cc0__bbox_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1
    obtain rfl := harg5.eq_unread hfs0; obtain rfl := harg6.eq_unread hfs1; obtain rfl := harg7.eq_unread hfs2; obtain rfl := harg8.eq_unread hfs3; obtain rfl := harg9.eq_unread hfs4; obtain rfl := harg10.eq_unread hfs5; obtain rfl := harg11.eq_unread hfs6; obtain rfl := harg12.eq_unread hfs7; obtain rfl := harg13.eq_unread hfs8; obtain rfl := harg14.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Hand

end
-- ==== Proof.KbAcc.lean ====
/-
  What each grid point leaves in the ten accumulators and the output block, defined from the three
  symbolic runs by recursion on the point: the first row tile of a batch block starts afresh, a later
  tile folds into what the tile before left, the last tile also writes the ten columns out. Every
  accumulator is stored whole at every point, so what it holds does not depend on what it held.
-/
import proofs.«124476_j14413910245512_2_alg».proof.Proof.KbRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An accumulator's contents after a list of stores (read through one fixed view: the choice does not matter once the stores cover it). -/
def rd (L : List (View.Piece (Elt F) S8x1 .f32)) : Vec F S8x1 .f32 :=
  (sc0 : Memref sig .tc .vmem S8x1 .f32).view.read (Elt F) ((sc0 : Memref sig .tc .vmem S8x1 .f32).view.writes (Elt F) (sc0 : Memref sig .tc .vmem S8x1 .f32).view.junk L)
/-- The output block's contents after a list of stores. -/
def rdo (L : List (View.Piece (Elt F) S8x10 .f32)) : Vec F S8x10 .f32 :=
  VO.read (Elt F) (VO.writes (Elt F) VO.junk L)

/-- What a grid point leaves: the output block and the ten accumulators. -/
structure Acc (F : FTy → Type) where
  out : Vec F S8x10 .f32
  s0 : Vec F S8x1 .f32
  s1 : Vec F S8x1 .f32
  s2 : Vec F S8x1 .f32
  s3 : Vec F S8x1 .f32
  s4 : Vec F S8x1 .f32
  s5 : Vec F S8x1 .f32
  s6 : Vec F S8x1 .f32
  s7 : Vec F S8x1 .f32
  s8 : Vec F S8x1 .f32
  s9 : Vec F S8x1 .f32

/-- The three runs at a grid point's own buffers and blocks. -/
def runA (c : Dev nD) (t : Fin cfg0.N) (h0 : cond0_0 (grid0.coords t)) (h1 : ¬cond0_1 (grid0.coords t)) :=
  kernelRun_A (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t)
def runB (c : Dev nD) (t : Fin cfg0.N) (h0 : ¬cond0_0 (grid0.coords t)) (h1 : ¬cond0_1 (grid0.coords t)) (p : Acc F) :=
  kernelRun_B (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9
def runC (c : Dev nD) (t : Fin cfg0.N) (h0 : ¬cond0_0 (grid0.coords t)) (h1 : cond0_1 (grid0.coords t)) (p : Acc F) :=
  kernelRun_C (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9

def accA (c : Dev nD) (t : Fin cfg0.N) (h0 : cond0_0 (grid0.coords t)) (h1 : ¬cond0_1 (grid0.coords t)) : Acc F :=
  ⟨VO.read (Elt F) VO.junk, rd (runA m c t h0 h1).1, rd (runA m c t h0 h1).2.1, rd (runA m c t h0 h1).2.2.1, rd (runA m c t h0 h1).2.2.2.1, rd (runA m c t h0 h1).2.2.2.2.1, rd (runA m c t h0 h1).2.2.2.2.2.1, rd (runA m c t h0 h1).2.2.2.2.2.2.1, rd (runA m c t h0 h1).2.2.2.2.2.2.2.1, rd (runA m c t h0 h1).2.2.2.2.2.2.2.2.1, rd (runA m c t h0 h1).2.2.2.2.2.2.2.2.2.1⟩
def accB (c : Dev nD) (t : Fin cfg0.N) (h0 : ¬cond0_0 (grid0.coords t)) (h1 : ¬cond0_1 (grid0.coords t)) (p : Acc F) : Acc F :=
  ⟨VO.read (Elt F) VO.junk, rd (runB m c t h0 h1 p).1, rd (runB m c t h0 h1 p).2.1, rd (runB m c t h0 h1 p).2.2.1, rd (runB m c t h0 h1 p).2.2.2.1, rd (runB m c t h0 h1 p).2.2.2.2.1, rd (runB m c t h0 h1 p).2.2.2.2.2.1, rd (runB m c t h0 h1 p).2.2.2.2.2.2.1, rd (runB m c t h0 h1 p).2.2.2.2.2.2.2.1, rd (runB m c t h0 h1 p).2.2.2.2.2.2.2.2.1, rd (runB m c t h0 h1 p).2.2.2.2.2.2.2.2.2.1⟩
def accC (c : Dev nD) (t : Fin cfg0.N) (h0 : ¬cond0_0 (grid0.coords t)) (h1 : cond0_1 (grid0.coords t)) (p : Acc F) : Acc F :=
  ⟨rdo (runC m c t h0 h1 p).1, rd (runC m c t h0 h1 p).2.1, rd (runC m c t h0 h1 p).2.2.1, rd (runC m c t h0 h1 p).2.2.2.1, rd (runC m c t h0 h1 p).2.2.2.2.1, rd (runC m c t h0 h1 p).2.2.2.2.2.1, rd (runC m c t h0 h1 p).2.2.2.2.2.2.1, rd (runC m c t h0 h1 p).2.2.2.2.2.2.2.1, rd (runC m c t h0 h1 p).2.2.2.2.2.2.2.2.1, rd (runC m c t h0 h1 p).2.2.2.2.2.2.2.2.2.1, rd (runC m c t h0 h1 p).2.2.2.2.2.2.2.2.2.2.1⟩

/-! ## Every accumulator is stored whole at every point -/

theorem coverA_0 (c : Dev nD) (t : Fin cfg0.N) (h0 : cond0_0 (grid0.coords t)) (h1 : ¬cond0_1 (grid0.coords t)) (y : S8x1.Idx) :
    ∃ pc ∈ (runA m c t h0 h1).1, y ∈ pc.1.set := by
  unfold runA; exact View.cover_of_tiledL _ S8x1.size (by sl_kernel_rfl) y
theorem coverB_0 (c : Dev nD) (t : Fin cfg0.N) (h0 : ¬cond0_0 (grid0.coords t)) (h1 : ¬cond0_1 (grid0.coords t)) (p : Acc F) (y : S8x1.Idx) :
    ∃ pc ∈ (runB m c t h0 h1 p).1, y ∈ pc.1.set := by
  unfold runB; exact View.cover_of_tiledL _ S8x1.size (by sl_kernel_rfl) y
theorem coverC_0 (c : Dev nD) (t : Fin cfg0.N) (h0 : ¬cond0_0 (grid0.coords t)) (h1 : cond0_1 (grid0.coords t)) (p : Acc F) (y : S8x1.Idx) :
    ∃ pc ∈ (runC m c t h0 h1 p).2.1, y ∈ pc.1.set := by
  unfold runC; exact View.cover_of_tiledL _ S8x1.size (by sl_kernel_rfl) y
theorem coverA_1 (c : Dev nD) (t : Fin cfg0.N) (h0 : cond0_0 (grid0.coords t)) (h1 : ¬cond0_1 (grid0.coords t)) (y : S8x1.Idx) :
    ∃ pc ∈ (runA m c t h0 h1).2.1, y ∈ pc.1.set := by
  unfold runA; exact View.cover_of_tiledL _ S8x1.size (by sl_kernel_rfl) y
theorem coverB_1 (c : Dev nD) (t : Fin cfg0.N) (h0 : ¬cond0_0 (grid0.coords t)) (h1 : ¬cond0_1 (grid0.coords t)) (p : Acc F) (y : S8x1.Idx) :
    ∃ pc ∈ (runB m c t h0 h1 p).2.1, y ∈ pc.1.set := by
  unfold runB; exact View.cover_of_tiledL _ S8x1.size (by sl_kernel_rfl) y
theorem coverC_1 (c : Dev nD) (t : Fin cfg0.N) (h0 : ¬cond0_0 (grid0.coords t)) (h1 : cond0_1 (grid0.coords t)) (p : Acc F) (y : S8x1.Idx) :
    ∃ pc ∈ (runC m c t h0 h1 p).2.2.1, y ∈ pc.1.set := by
  unfold runC; exact View.cover_of_tiledL _ S8x1.size (by sl_kernel_rfl) y
theorem coverA_2 (c : Dev nD) (t : Fin cfg0.N) (h0 : cond0_0 (grid0.coords t)) (h1 : ¬cond0_1 (grid0.coords t)) (y : S8x1.Idx) :
    ∃ pc ∈ (runA m c t h0 h1).2.2.1, y ∈ pc.1.set := by
  unfold runA; exact View.cover_of_tiledL _ S8x1.size (by sl_kernel_rfl) y
theorem coverB_2 (c : Dev nD) (t : Fin cfg0.N) (h0 : ¬cond0_0 (grid0.coords t)) (h1 : ¬cond0_1 (grid0.coords t)) (p : Acc F) (y : S8x1.Idx) :
    ∃ pc ∈ (runB m c t h0 h1 p).2.2.1, y ∈ pc.1.set := by
  unfold runB; exact View.cover_of_tiledL _ S8x1.size (by sl_kernel_rfl) y
theorem coverC_2 (c : Dev nD) (t : Fin cfg0.N) (h0 : ¬cond0_0 (grid0.coords t)) (h1 : cond0_1 (grid0.coords t)) (p : Acc F) (y : S8x1.Idx) :
    ∃ pc ∈ (runC m c t h0 h1 p).2.2.2.1, y ∈ pc.1.set := by
  unfold runC; exact View.cover_of_tiledL _ S8x1.size (by sl_kernel_rfl) y
theorem coverA_3 (c : Dev nD) (t : Fin cfg0.N) (h0 : cond0_0 (grid0.coords t)) (h1 : ¬cond0_1 (grid0.coords t)) (y : S8x1.Idx) :
    ∃ pc ∈ (runA m c t h0 h1).2.2.2.1, y ∈ pc.1.set := by
  unfold runA; exact View.cover_of_tiledL _ S8x1.size (by sl_kernel_rfl) y
theorem coverB_3 (c : Dev nD) (t : Fin cfg0.N) (h0 : ¬cond0_0 (grid0.coords t)) (h1 : ¬cond0_1 (grid0.coords t)) (p : Acc F) (y : S8x1.Idx) :
    ∃ pc ∈ (runB m c t h0 h1 p).2.2.2.1, y ∈ pc.1.set := by
  unfold runB; exact View.cover_of_tiledL _ S8x1.size (by sl_kernel_rfl) y
theorem coverC_3 (c : Dev nD) (t : Fin cfg0.N) (h0 : ¬cond0_0 (grid0.coords t)) (h1 : cond0_1 (grid0.coords t)) (p : Acc F) (y : S8x1.Idx) :
    ∃ pc ∈ (runC m c t h0 h1 p).2.2.2.2.1, y ∈ pc.1.set := by
  unfold runC; exact View.cover_of_tiledL _ S8x1.size (by sl_kernel_rfl) y
theorem coverA_4 (c : Dev nD) (t : Fin cfg0.N) (h0 : cond0_0 (grid0.coords t)) (h1 : ¬cond0_1 (grid0.coords t)) (y : S8x1.Idx) :
    ∃ pc ∈ (runA m c t h0 h1).2.2.2.2.1, y ∈ pc.1.set := by
  unfold runA; exact View.cover_of_tiledL _ S8x1.size (by sl_kernel_rfl) y
theorem coverB_4 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.1, y ∈ pc.1.set := by
  unfold runB; exact View.cover_of_tiledL _ S8x1.size (by sl_kernel_rfl) y
theorem coverC_4 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.1, y ∈ pc.1.set := by
  unfold runC; exact View.cover_of_tiledL _ S8x1.size (by sl_kernel_rfl) y
theorem coverA_5 (c : Dev nD) (t : Fin cfg0.N) (h0 : cond0_0 (grid0.coords t)) (h1 : ¬cond0_1 (grid0.coords t)) (y : S8x1.Idx) :
    ∃ pc ∈ (runA m c t h0 h1).2.2.2.2.2.1, y ∈ pc.1.set := by
  unfold runA; exact View.cover_of_tiledL _ S8x1.size (by sl_kernel_rfl) y
theorem coverB_5 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.1, y ∈ pc.1.set := by
  unfold runB; exact View.cover_of_tiledL _ S8x1.size (by sl_kernel_rfl) y
theorem coverC_5 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.1, y ∈ pc.1.set := by
  unfold runC; exact View.cover_of_tiledL _ S8x1.size (by sl_kernel_rfl) y
theorem coverA_6 (c : Dev nD) (t : Fin cfg0.N) (h0 : cond0_0 (grid0.coords t)) (h1 : ¬cond0_1 (grid0.coords t)) (y : S8x1.Idx) :
    ∃ pc ∈ (runA m c t h0 h1).2.2.2.2.2.2.1, y ∈ pc.1.set := by
  unfold runA; exact View.cover_of_tiledL _ S8x1.size (by sl_kernel_rfl) y
theorem coverB_6 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.2.1, y ∈ pc.1.set := by
  unfold runB; exact View.cover_of_tiledL _ S8x1.size (by sl_kernel_rfl) y
theorem coverC_6 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.2.1, y ∈ pc.1.set := by
  unfold runC; exact View.cover_of_tiledL _ S8x1.size (by sl_kernel_rfl) y
theorem coverA_7 (c : Dev nD) (t : Fin cfg0.N) (h0 : cond0_0 (grid0.coords t)) (h1 : ¬cond0_1 (grid0.coords t)) (y : S8x1.Idx) :
    ∃ pc ∈ (runA m c t h0 h1).2.2.2.2.2.2.2.1, y ∈ pc.1.set := by
  unfold runA; exact View.cover_of_tiledL _ S8x1.size (by sl_kernel_rfl) y
theorem coverB_7 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.2.2.1, y ∈ pc.1.set := by
  unfold runB; exact View.cover_of_tiledL _ S8x1.size (by sl_kernel_rfl) y
theorem coverC_7 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.2.2.1, y ∈ pc.1.set := by
  unfold runC; exact View.cover_of_tiledL _ S8x1.size (by sl_kernel_rfl) y
theorem coverA_8 (c : Dev nD) (t : Fin cfg0.N) (h0 : cond0_0 (grid0.coords t)) (h1 : ¬cond0_1 (grid0.coords t)) (y : S8x1.Idx) :
    ∃ pc ∈ (runA m c t h0 h1).2.2.2.2.2.2.2.2.1, y ∈ pc.1.set := by
  unfold runA; exact View.cover_of_tiledL _ S8x1.size (by sl_kernel_rfl) y
theorem coverB_8 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.2.2.2.1, y ∈ pc.1.set := by
  unfold runB; exact View.cover_of_tiledL _ S8x1.size (by sl_kernel_rfl) y
theorem coverC_8 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.2.2.2.1, y ∈ pc.1.set := by
  unfold runC; exact View.cover_of_tiledL _ S8x1.size (by sl_kernel_rfl) y
theorem coverA_9 (c : Dev nD) (t : Fin cfg0.N) (h0 : cond0_0 (grid0.coords t)) (h1 : ¬cond0_1 (grid0.coords t)) (y : S8x1.Idx) :
    ∃ pc ∈ (runA m c t h0 h1).2.2.2.2.2.2.2.2.2.1, y ∈ pc.1.set := by
  unfold runA; exact View.cover_of_tiledL _ S8x1.size (by sl_kernel_rfl) y
theorem coverB_9 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.2.2.2.2.1, y ∈ pc.1.set := by
  unfold runB; exact View.cover_of_tiledL _ S8x1.size (by sl_kernel_rfl) y
theorem coverC_9 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.2.2.2.2.1, y ∈ pc.1.set := by
  unfold runC; exact View.cover_of_tiledL _ S8x1.size (by sl_kernel_rfl) y
theorem coverC_out (c : Dev nD) (t : Fin cfg0.N) (h0 : ¬cond0_0 (grid0.coords t)) (h1 : cond0_1 (grid0.coords t)) (p : Acc F) (y : S8x10.Idx) :
    ∃ pc ∈ (runC m c t h0 h1 p).1, y ∈ pc.1.set := by
  unfold runC; exact View.cover_of_tiledL _ S8x10.size (by sl_kernel_rfl) y

/-! ## What each point leaves, by recursion on the point -/

def outsAt (c : Dev nD) : (n : ℕ) → n < cfg0.N → Acc F
  | 0, hn => accA m c ⟨0, hn⟩ ((hcond0_0 ⟨0, hn⟩).mpr (Nat.zero_mod _)) (fun h => by have h' := (hcond0_1 ⟨0, hn⟩).mp h; dsimp only at h'; omega)
  | n + 1, hn =>
    if h0 : (n + 1) % 16 = 0 then
      if h1 : (n + 1) % 16 = 15 then False.elim (by omega)
      else accA m c ⟨n + 1, hn⟩ ((hcond0_0 ⟨n + 1, hn⟩).mpr h0) (fun h => h1 ((hcond0_1 ⟨n + 1, hn⟩).mp h))
    else
      if h1 : (n + 1) % 16 = 15 then
        accC m c ⟨n + 1, hn⟩ (fun h => h0 ((hcond0_0 ⟨n + 1, hn⟩).mp h)) ((hcond0_1 ⟨n + 1, hn⟩).mpr h1) (outsAt c n (Nat.lt_of_succ_lt hn))
      else
        accB m c ⟨n + 1, hn⟩ (fun h => h0 ((hcond0_0 ⟨n + 1, hn⟩).mp h)) (fun h => h1 ((hcond0_1 ⟨n + 1, hn⟩).mp h)) (outsAt c n (Nat.lt_of_succ_lt hn))

theorem outsAt_A (c : Dev nD) (t : Fin cfg0.N) (h0 : t.val % 16 = 0) (h1 : ¬t.val % 16 = 15) :
    outsAt m c t.val t.isLt = accA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt_B (c : Dev nD) (t : Fin cfg0.N) (h0 : ¬t.val % 16 = 0) (h1 : ¬t.val % 16 = 15) :
    outsAt m c t.val t.isLt = accB m c t (fun h => h0 ((hcond0_0 t).mp h)) (fun h => h1 ((hcond0_1 t).mp h))
      (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 16 = 0) (h1 : t.val % 16 = 15) :
    outsAt m c t.val t.isLt = accC m c t (fun h => h0 ((hcond0_0 t).mp h)) ((hcond0_1 t).mpr h1)
      (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.Kernel.Hand

end
-- ==== Proof.KbBody.lean ====
/-
  The body obligation of the pallas_call, put together from three small parts per control case so that nothing is
  rewritten inside a goal that carries the kernel's call: (1) what the region invariant hands the body entails the
  form the case's symbolic run asks for; (2) from that form the run gives the body's weakest precondition with the
  case's own postcondition — the ten accumulators at what the case's stores leave, read through the covers; (3) that
  postcondition entails what the pipeline asks of the body at the point. Monotonicity of the weakest precondition in
  its postcondition joins (2) and (3).
-/
import proofs.«124476_j14413910245512_2_alg».proof.Proof.KbAcc

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulators at what an `Acc` says, and the generator register at some state. -/
def accOwned (c : Dev nD) (a : Acc F) : sProp 𝕄 :=
  iprop(iprop(owns (c : Thread nD τ) sc0 fullShare a.s0 ∗ owns (c : Thread nD τ) sc1 fullShare a.s1 ∗ owns (c : Thread nD τ) sc2 fullShare a.s2 ∗ owns (c : Thread nD τ) sc3 fullShare a.s3 ∗ owns (c : Thread nD τ) sc4 fullShare a.s4 ∗ owns (c : Thread nD τ) sc5 fullShare a.s5 ∗ owns (c : Thread nD τ) sc6 fullShare a.s6 ∗ owns (c : Thread nD τ) sc7 fullShare a.s7 ∗ owns (c : Thread nD τ) sc8 fullShare a.s8 ∗ owns (c : Thread nD τ) sc9 fullShare a.s9) ∗ (∃ r, prngReg c r))

/-- The region invariant before position `n`: at the start what the launch hands over; afterwards the accumulators at what the point before left. -/
def PhiS (c : Dev nD) : (n : ℕ) → n ≤ cfg0.N → sProp 𝕄
  | 0, _ => Pipeline.ΦA spec0 c
  | n + 1, hn => accOwned c (outsAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = accOwned c (outsAt m c n hn) := rfl
theorem PhiS_pos (c : Dev nD) (n : ℕ) (h : n ≤ cfg0.N) (hz : n ≠ 0) :
    PhiS m c n h = accOwned c (outsAt m c (n - 1) (by omega)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).out := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-! ## The three parts -/

/-- The ten accumulators at some contents, and the generator register at some state. -/
def accAny (c : Dev nD) : sProp 𝕄 :=
  iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r))

theorem PhiA_accAny (c : Dev nD) : (Pipeline.ΦA spec0 c : sProp 𝕄) ⊢ accAny c := by
  rewrite [PhiA0_eq]; unfold accAny; exact Entails.refl _

theorem accOwned_accAny (c : Dev nD) (a : Acc F) : accOwned c a ⊢ accAny c := by
  unfold accOwned accAny
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

theorem PhiS_accAny (c : Dev nD) : ∀ (n : ℕ) (h : n ≤ cfg0.N), PhiS m c n h ⊢ accAny c
  | 0, _ => PhiA_accAny c
  | n + 1, hn => accOwned_accAny c _

/-- What the body is handed, with the invariant's part as a parameter. -/
def preN (c : Dev nD) (t : Fin cfg0.N) (Φ : sProp 𝕄) : sProp 𝕄 :=
  iprop(Φ ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What a case's run leaves: the accumulators at `a`, the inputs' buffers at their blocks, the output's buffer as `L2` says. -/
def postN (c : Dev nD) (t : Fin cfg0.N) (a : Acc F) (L2 : sProp 𝕄) : sProp 𝕄 :=
  iprop(accOwned c a ∗ (dats m 0 c).owesAt () t.castSucc
    ∗ owns (c : Thread nD τ) (ms0 t) fullShare (iblk m c 0 t)
    ∗ owns (c : Thread nD τ) (ms1 t) fullShare (iblk m c 1 t)
    ∗ L2)

theorem bodyPre_preN (c : Dev nD) (t : Fin cfg0.N) (Φ : sProp 𝕄) (h : (dats m 0 c).Φ t.castSucc ⊢ Φ) :
    bodyPre m c t ⊢ preN m c t Φ := by
  unfold bodyPre preN; exact sep_mono_l h

/-- (3) for a point that neither stores into the output block nor writes it back. -/
theorem postN_idle (c : Dev nD) (t : Fin cfg0.N) (hc1 : ¬cond0_1 (grid0.coords t)) (a : Acc F)
    (ha : outsAt m c t.val t.isLt = a) :
    postN m c t a iprop(∃ d, owns (c : Thread nD τ) (ms2 t) fullShare ((dats m 0 c).before 2 t d)) ⊢ bodyPost m c t := by
  unfold bodyPost postN
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [liveAt0_0 t], after0_0]
  rewrite [show (dats m 0 c).leavesExact 1 t = owns (c : Thread nD τ) (ms1 t) fullShare ((dats m 0 c).after 1 t) from by
    unfold Dat.leavesExact; rw [liveAt0_1 t], after0_1]
  rewrite [Dat.leavesExact_idle (dats m 0 c) 2 t (idleAt0_2 t hc1) (noFlush0_2 t hc1), ha]
  exact Entails.refl _

/-- (3) for the last row tile of a batch block: the output's buffer holds the ten columns. -/
theorem postN_live (c : Dev nD) (t : Fin cfg0.N) (hc1 : cond0_1 (grid0.coords t)) (a : Acc F)
    (ha : outsAt m c t.val t.isLt = a) :
    postN m c t a (owns (c : Thread nD τ) (ms2 t) fullShare a.out) ⊢ bodyPost m c t := by
  unfold bodyPost postN
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [liveAt0_0 t], after0_0]
  rewrite [show (dats m 0 c).leavesExact 1 t = owns (c : Thread nD τ) (ms1 t) fullShare ((dats m 0 c).after 1 t) from by
    unfold Dat.leavesExact; rw [liveAt0_1 t], after0_1]
  rewrite [show (dats m 0 c).leavesExact 2 t = owns (c : Thread nD τ) (ms2 t) fullShare ((dats m 0 c).after 2 t) from by
    unfold Dat.leavesExact; rw [liveAt0_2 t hc1], after0_2, ha]
  exact Entails.refl _

set_option maxHeartbeats 4000000 in
/-- (2) at the first row tile of a batch block: whatever the accumulators held, they are started afresh. -/
theorem caseA (c : Dev nD) (t : Fin cfg0.N) (hc0 : cond0_0 (grid0.coords t)) (hc1 : ¬cond0_1 (grid0.coords t)) :
    preN m c t (accAny c) ⊢ wp frame (wpE (defs₀ (F := F)) Variants.none c none) Set.univ (bodyAt0 t)
      (fun _ => postN m c t (accA m c t hc0 hc1)
        iprop(∃ d, owns (c : Thread nD τ) (ms2 t) fullShare ((dats m 0 c).before 2 t d))) := by
  unfold preN postN accAny bodyAt0
  simp only [before0_0, before0_1]
  iintro ⟨⟨⟨HS0, HS1, HS2, HS3, HS4, HS5, HS6, HS7, HS8, HS9⟩, Hg⟩, Ho, ⟨%d0, H0⟩, ⟨%d1, H1⟩, ⟨%d2, H2⟩⟩
  iapply ((runA m c t hc0 hc1).2.2.2.2.2.2.2.2.2.2 _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩⟩
  isplitl [HS0 HS1 HS2 HS3 HS4 HS5 HS6 HS7 HS8 HS9 Hg]
  · unfold accOwned accA; dsimp only
    isplitl [HS0 HS1 HS2 HS3 HS4 HS5 HS6 HS7 HS8 HS9]
    · isplitl [HS0]
      · unfold owns rd; iexists _; isplitr
        swap; · iexact HS0
        ipureintro; exact View.read_writes_of_cover _ _ _ _ _ (coverA_0 m c t hc0 hc1)
      isplitl [HS1]
      · unfold owns rd; iexists _; isplitr
        swap; · iexact HS1
        ipureintro; exact View.read_writes_of_cover _ _ _ _ _ (coverA_1 m c t hc0 hc1)
      isplitl [HS2]
      · unfold owns rd; iexists _; isplitr
        swap; · iexact HS2
        ipureintro; exact View.read_writes_of_cover _ _ _ _ _ (coverA_2 m c t hc0 hc1)
      isplitl [HS3]
      · unfold owns rd; iexists _; isplitr
        swap; · iexact HS3
        ipureintro; exact View.read_writes_of_cover _ _ _ _ _ (coverA_3 m c t hc0 hc1)
      isplitl [HS4]
      · unfold owns rd; iexists _; isplitr
        swap; · iexact HS4
        ipureintro; exact View.read_writes_of_cover _ _ _ _ _ (coverA_4 m c t hc0 hc1)
      isplitl [HS5]
      · unfold owns rd; iexists _; isplitr
        swap; · iexact HS5
        ipureintro; exact View.read_writes_of_cover _ _ _ _ _ (coverA_5 m c t hc0 hc1)
      isplitl [HS6]
      · unfold owns rd; iexists _; isplitr
        swap; · iexact HS6
        ipureintro; exact View.read_writes_of_cover _ _ _ _ _ (coverA_6 m c t hc0 hc1)
      isplitl [HS7]
      · unfold owns rd; iexists _; isplitr
        swap; · iexact HS7
        ipureintro; exact View.read_writes_of_cover _ _ _ _ _ (coverA_7 m c t hc0 hc1)
      isplitl [HS8]
      · unfold owns rd; iexists _; isplitr
        swap; · iexact HS8
        ipureintro; exact View.read_writes_of_cover _ _ _ _ _ (coverA_8 m c t hc0 hc1)
      unfold owns rd; iexists _; isplitr
      swap; · iexact HS9
      ipureintro; exact View.read_writes_of_cover _ _ _ _ _ (coverA_9 m c t hc0 hc1)
    iexact Hg
  isplitl [Ho]; · iexact Ho
  isplitl [H0]; · iexact H0
  isplitl [H1]; · iexact H1
  iexists _; iexact H2

set_option maxHeartbeats 4000000 in
/-- (2) at a middle row tile: the tile is folded into what the tile before left. -/
theorem caseB (c : Dev nD) (t : Fin cfg0.N) (hc0 : ¬cond0_0 (grid0.coords t)) (hc1 : ¬cond0_1 (grid0.coords t)) (p : Acc F) :
    preN m c t (accOwned c p) ⊢ wp frame (wpE (defs₀ (F := F)) Variants.none c none) Set.univ (bodyAt0 t)
      (fun _ => postN m c t (accB m c t hc0 hc1 p)
        iprop(∃ d, owns (c : Thread nD τ) (ms2 t) fullShare ((dats m 0 c).before 2 t d))) := by
  unfold preN postN bodyAt0
  simp only [before0_0, before0_1]
  unfold accOwned
  iintro ⟨⟨⟨HS0, HS1, HS2, HS3, HS4, HS5, HS6, HS7, HS8, HS9⟩, Hg⟩, Ho, ⟨%d0, H0⟩, ⟨%d1, H1⟩, ⟨%d2, H2⟩⟩
  iapply ((runB m c t hc0 hc1 _).2.2.2.2.2.2.2.2.2.2 _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩⟩
  isplitl [HS0 HS1 HS2 HS3 HS4 HS5 HS6 HS7 HS8 HS9 Hg]
  · unfold accB; dsimp only
    isplitl [HS0 HS1 HS2 HS3 HS4 HS5 HS6 HS7 HS8 HS9]
    · isplitl [HS0]
      · unfold owns rd; iexists _; isplitr
        swap; · iexact HS0
        ipureintro; exact View.read_writes_of_cover _ _ _ _ _ (coverB_0 m c t hc0 hc1 p)
      isplitl [HS1]
      · unfold owns rd; iexists _; isplitr
        swap; · iexact HS1
        ipureintro; exact View.read_writes_of_cover _ _ _ _ _ (coverB_1 m c t hc0 hc1 p)
      isplitl [HS2]
      · unfold owns rd; iexists _; isplitr
        swap; · iexact HS2
        ipureintro; exact View.read_writes_of_cover _ _ _ _ _ (coverB_2 m c t hc0 hc1 p)
      isplitl [HS3]
      · unfold owns rd; iexists _; isplitr
        swap; · iexact HS3
        ipureintro; exact View.read_writes_of_cover _ _ _ _ _ (coverB_3 m c t hc0 hc1 p)
      isplitl [HS4]
      · unfold owns rd; iexists _; isplitr
        swap; · iexact HS4
        ipureintro; exact View.read_writes_of_cover _ _ _ _ _ (coverB_4 m c t hc0 hc1 p)
      isplitl [HS5]
      · unfold owns rd; iexists _; isplitr
        swap; · iexact HS5
        ipureintro; exact View.read_writes_of_cover _ _ _ _ _ (coverB_5 m c t hc0 hc1 p)
      isplitl [HS6]
      · unfold owns rd; iexists _; isplitr
        swap; · iexact HS6
        ipureintro; exact View.read_writes_of_cover _ _ _ _ _ (coverB_6 m c t hc0 hc1 p)
      isplitl [HS7]
      · unfold owns rd; iexists _; isplitr
        swap; · iexact HS7
        ipureintro; exact View.read_writes_of_cover _ _ _ _ _ (coverB_7 m c t hc0 hc1 p)
      isplitl [HS8]
      · unfold owns rd; iexists _; isplitr
        swap; · iexact HS8
        ipureintro; exact View.read_writes_of_cover _ _ _ _ _ (coverB_8 m c t hc0 hc1 p)
      unfold owns rd; iexists _; isplitr
      swap; · iexact HS9
      ipureintro; exact View.read_writes_of_cover _ _ _ _ _ (coverB_9 m c t hc0 hc1 p)
    iexact Hg
  isplitl [Ho]; · iexact Ho
  isplitl [H0]; · iexact H0
  isplitl [H1]; · iexact H1
  iexists _; iexact H2

set_option maxHeartbeats 4000000 in
/-- (2) at the last row tile: the tile is folded in and the ten columns are written out. -/
theorem caseC (c : Dev nD) (t : Fin cfg0.N) (hc0 : ¬cond0_0 (grid0.coords t)) (hc1 : cond0_1 (grid0.coords t)) (p : Acc F) :
    preN m c t (accOwned c p) ⊢ wp frame (wpE (defs₀ (F := F)) Variants.none c none) Set.univ (bodyAt0 t)
      (fun _ => postN m c t (accC m c t hc0 hc1 p)
        (owns (c : Thread nD τ) (ms2 t) fullShare (accC m c t hc0 hc1 p).out)) := by
  unfold preN postN bodyAt0
  simp only [before0_0, before0_1]
  unfold accOwned
  iintro ⟨⟨⟨HS0, HS1, HS2, HS3, HS4, HS5, HS6, HS7, HS8, HS9⟩, Hg⟩, Ho, ⟨%d0, H0⟩, ⟨%d1, H1⟩, ⟨%d2, H2⟩⟩
  iapply ((runC m c t hc0 hc1 _).2.2.2.2.2.2.2.2.2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, ⟨%e2, H2⟩, ⟨%e3, HS0⟩, ⟨%e4, HS1⟩, ⟨%e5, HS2⟩, ⟨%e6, HS3⟩, ⟨%e7, HS4⟩, ⟨%e8, HS5⟩, ⟨%e9, HS6⟩, ⟨%e10, HS7⟩, ⟨%e11, HS8⟩, ⟨%e12, HS9⟩⟩
  isplitl [HS0 HS1 HS2 HS3 HS4 HS5 HS6 HS7 HS8 HS9 Hg]
  · unfold accC; dsimp only
    isplitl [HS0 HS1 HS2 HS3 HS4 HS5 HS6 HS7 HS8 HS9]
    · isplitl [HS0]
      · unfold owns rd; iexists _; isplitr
        swap; · iexact HS0
        ipureintro; exact View.read_writes_of_cover _ _ _ _ _ (coverC_0 m c t hc0 hc1 p)
      isplitl [HS1]
      · unfold owns rd; iexists _; isplitr
        swap; · iexact HS1
        ipureintro; exact View.read_writes_of_cover _ _ _ _ _ (coverC_1 m c t hc0 hc1 p)
      isplitl [HS2]
      · unfold owns rd; iexists _; isplitr
        swap; · iexact HS2
        ipureintro; exact View.read_writes_of_cover _ _ _ _ _ (coverC_2 m c t hc0 hc1 p)
      isplitl [HS3]
      · unfold owns rd; iexists _; isplitr
        swap; · iexact HS3
        ipureintro; exact View.read_writes_of_cover _ _ _ _ _ (coverC_3 m c t hc0 hc1 p)
      isplitl [HS4]
      · unfold owns rd; iexists _; isplitr
        swap; · iexact HS4
        ipureintro; exact View.read_writes_of_cover _ _ _ _ _ (coverC_4 m c t hc0 hc1 p)
      isplitl [HS5]
      · unfold owns rd; iexists _; isplitr
        swap; · iexact HS5
        ipureintro; exact View.read_writes_of_cover _ _ _ _ _ (coverC_5 m c t hc0 hc1 p)
      isplitl [HS6]
      · unfold owns rd; iexists _; isplitr
        swap; · iexact HS6
        ipureintro; exact View.read_writes_of_cover _ _ _ _ _ (coverC_6 m c t hc0 hc1 p)
      isplitl [HS7]
      · unfold owns rd; iexists _; isplitr
        swap; · iexact HS7
        ipureintro; exact View.read_writes_of_cover _ _ _ _ _ (coverC_7 m c t hc0 hc1 p)
      isplitl [HS8]
      · unfold owns rd; iexists _; isplitr
        swap; · iexact HS8
        ipureintro; exact View.read_writes_of_cover _ _ _ _ _ (coverC_8 m c t hc0 hc1 p)
      unfold owns rd; iexists _; isplitr
      swap; · iexact HS9
      ipureintro; exact View.read_writes_of_cover _ _ _ _ _ (coverC_9 m c t hc0 hc1 p)
    iexact Hg
  isplitl [Ho]; · iexact Ho
  isplitl [H0]; · iexact H0
  isplitl [H1]; · iexact H1
  unfold accC; dsimp only
  unfold owns rdo; iexists _; isplitr
  swap; · iexact H2
  ipureintro; exact View.read_writes_of_cover _ _ _ _ _ (coverC_out m c t hc0 hc1 p)

/-- The body at any point: the point's position in its batch block says which of the three runs applies. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    refine (bodyPre_preN m c t (accAny c) ?_).trans ((caseA m c t hc0 hc1).trans
      (wp_mono _ _ _ fun _ => postN_idle m c t hc1 _ (outsAt_A m c t h0 h1)))
    rewrite [PhiS_castSucc m c t]
    exact PhiS_accAny m c _ _
  · have hz : t.val ≠ 0 := fun h => h0 (by rw [h])
    have hc0 : ¬cond0_0 (grid0.coords t) := fun h => h0 ((hcond0_0 t).mp h)
    have hΦ : (dats m 0 c).Φ t.castSucc
        ⊢ accOwned c (outsAt m c (t.val - 1) (Nat.lt_of_le_of_lt (Nat.sub_le _ _) t.isLt)) := by
      rewrite [PhiS_castSucc m c t, PhiS_pos m c _ _ hz]
      exact Entails.refl _
    by_cases h1 : t.val % 16 = 15
    · have hc1 : cond0_1 (grid0.coords t) := (hcond0_1 t).mpr h1
      exact (bodyPre_preN m c t _ hΦ).trans ((caseC m c t hc0 hc1 _).trans
        (wp_mono _ _ _ fun _ => postN_live m c t hc1 _ (outsAt_C m c t h0 h1)))
    · have hc1 : ¬cond0_1 (grid0.coords t) := fun h => h1 ((hcond0_1 t).mp h)
      exact (bodyPre_preN m c t _ hΦ).trans ((caseB m c t hc0 hc1 _).trans
        (wp_mono _ _ _ fun _ => postN_idle m c t hc1 _ (outsAt_B m c t h0 h1)))

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbFrame.lean ====
/-
  The pallas_call's run put together. What the ten accumulators (and, at the last row tile of a
  batch block, the output block) hold after each grid point is defined by recursion on the point:
  the first tile of a block starts the accumulators afresh, every later tile folds into what the
  tile before left, the last tile also writes the ten columns out. With that as the proof data the
  body meets its obligation at every point (by the three symbolic runs), and the launch theorem for
  "host lines, region, host lines" gives the run of the whole program, hence the frame.
-/
import proofs.«124476_j14413910245512_2_alg».proof.Proof.KbBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold accOwned
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

theorem hout (c : Dev nD) : (dats m 0 c).Φ (Fin.last cfg0.N) ⊢ Pipeline.ΦA spec0 c :=
  Phi_out m c _ (by rw [Fin.val_last]; have : cfg0.N = 32 := N_0; omega)

/-! ## The run of the whole program, and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) sfx)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hin := hin m) (hout := hout m)

/-- Every weakly fair execution of the program terminates without a fault and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KiKit.lean ====
/-
  The program around its one pallas_call: two transposes, the region, then the lines that turn the
  sixteen rows of ten statistics into one number. Here: the buffers as the region finds them, the
  reduction of the whole program to "region, then the later lines", the facts about those lines the
  launch theorem asks for (they touch only unscoped buffers, allocate nothing, write no array the
  region stages, and never write an argument), the input blocks a grid point sees, the two branch
  conditions of the body decided over the 2 x 16 grid (first row tile, last row tile), and the ten
  accumulators the body keeps between row tiles.
-/
import proofs.«124476_j14413910245512_2_alg».proof.Proof.Gen.KernelIdeal.Launch
import proofs.«124476_j14413910245512_2_alg».proof.Proof.Gen.KernelIdeal.Skeleton
import proofs.«124476_j14413910245512_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffers when the region is entered: the launch contents after the two transposes. -/
abbrev V0 (c : Dev nD) : Valuation τ sig (Elt F) := StableHlo.after (List.flatten [hostOps0]) (fun b => m (c, b))
/-- The same at a reference. -/
abbrev V (c : Dev nD) (b : Ref sig .tc) : Buf (Elt F) ((c : Thread nD τ).loc b) := V0 m c (Proc.devRef .tc b)

/-- The lines after the region, stretch by stretch. -/
abbrev sfx : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The whole program is: the transposes, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main [hostOps0] sfx (by simp only [List.Forall]; exact hostOps0_sub)
    (by simp only [List.Forall]; exact hostOps0_fresh) main_chain

theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No line of this stretch writes an array the region stages: each writes its own result only. -/
theorem hostOps1_keeps : (hostOps1 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No line of this stretch writes an array the region stages: each writes its own result only. -/
theorem hostOps1_1_keeps : (hostOps1_1 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No line of this stretch writes an array the region stages: each writes its own result only. -/
theorem hostOps1_2_keeps : (hostOps1_2 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No line of this stretch writes an array the region stages: each writes its own result only. -/
theorem hostOps1_3_keeps : (hostOps1_3 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
/-- No line of this stretch writes an array the region stages: each writes its own result only. -/
theorem hostOps1_4_keeps : (hostOps1_4 : List (HloOp τ sig (Elt F))).Forall fun op => ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

theorem sfx_keeps : ∀ ops ∈ (sfx : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- Neither transpose writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_keeps_arg0 : (hostOps1 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps_arg0 : (hostOps1_1 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps_arg0 : (hostOps1_2 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps_arg0 : (hostOps1_3 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps_arg0 : (hostOps1_4 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later line writes argument 0: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) sfx c main_arg0 = m ((c : Thread nD τ).loc main_arg0) := by
  unfold Pipeline.afterTail₀
  rw [StableHlo.after_of_forall_not_mem (b := Proc.devRef .tc main_arg0) _ _ (by
      intro op hop
      simp only [List.flatten_cons, List.flatten_nil, List.append_nil, List.mem_append] at hop
      rcases hop with hop | hop | hop | hop | hop
      · exact (List.forall_iff_forall_mem.mp hostOps1_keeps_arg0) op hop
      · exact (List.forall_iff_forall_mem.mp hostOps1_1_keeps_arg0) op hop
      · exact (List.forall_iff_forall_mem.mp hostOps1_2_keeps_arg0) op hop
      · exact (List.forall_iff_forall_mem.mp hostOps1_3_keeps_arg0) op hop
      · exact (List.forall_iff_forall_mem.mp hostOps1_4_keeps_arg0) op hop),
    Pipeline.withArrays_of_ne _ c (V0 m c) _ main_arg0 (by exact (by decide : ∀ w, Pipeline.arrRef spec0 w ≠ main_arg0))]
  exact V_main_arg0 m c

/-- Neither transpose writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_keeps_arg1 : (hostOps1 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps_arg1 : (hostOps1_1 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps_arg1 : (hostOps1_2 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps_arg1 : (hostOps1_3 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps_arg1 : (hostOps1_4 : List (HloOp τ sig (Elt F))).Forall fun op => Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later line writes argument 1: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) sfx c main_arg1 = m ((c : Thread nD τ).loc main_arg1) := by
  unfold Pipeline.afterTail₀
  rw [StableHlo.after_of_forall_not_mem (b := Proc.devRef .tc main_arg1) _ _ (by
      intro op hop
      simp only [List.flatten_cons, List.flatten_nil, List.append_nil, List.mem_append] at hop
      rcases hop with hop | hop | hop | hop | hop
      · exact (List.forall_iff_forall_mem.mp hostOps1_keeps_arg1) op hop
      · exact (List.forall_iff_forall_mem.mp hostOps1_1_keeps_arg1) op hop
      · exact (List.forall_iff_forall_mem.mp hostOps1_2_keeps_arg1) op hop
      · exact (List.forall_iff_forall_mem.mp hostOps1_3_keeps_arg1) op hop
      · exact (List.forall_iff_forall_mem.mp hostOps1_4_keeps_arg1) op hop),
    Pipeline.withArrays_of_ne _ c (V0 m c) _ main_arg1 (by exact (by decide : ∀ w, Pipeline.arrRef spec0 w ≠ main_arg1))]
  exact V_main_arg1 m c

/-! ## The blocks a grid point sees -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the frame run's -/

/-- Both arguments end as launched: neither is an array the region stages, and no line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's two branches -/

/-- First row tile of a batch block: the accumulators are re-initialised. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- Last row tile of a batch block: the ten accumulators are written out side by side. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last row tile nothing is stored into the output block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## Staging buffers and accumulators as the body is called with them -/

abbrev VO : View sig .tc .vmem S8x10 .f32 := (Memref.whole cc0_stg2_0 : Memref sig .tc .vmem S8x10 .f32).view
abbrev ms0 (t : Fin cfg0.N) : Memref sig .tc .vmem S8x1x21x32x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1x21x32x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x10 .f32 := win0_2.stage (cfg0.slots t 2)
abbrev hs2 (t : Fin cfg0.N) : (ms2 t).IsWhole := hstage0_2 ((cfg0.slots t 2).cast nbuf0_2)
abbrev sc0 : Memref sig .tc .vmem S8x1 .f32 := Memref.whole cc0_scratch0
abbrev sc1 : Memref sig .tc .vmem S8x1 .f32 := Memref.whole cc0_scratch1
abbrev sc2 : Memref sig .tc .vmem S8x1 .f32 := Memref.whole cc0_scratch2
abbrev sc3 : Memref sig .tc .vmem S8x1 .f32 := Memref.whole cc0_scratch3
abbrev sc4 : Memref sig .tc .vmem S8x1 .f32 := Memref.whole cc0_scratch4
abbrev sc5 : Memref sig .tc .vmem S8x1 .f32 := Memref.whole cc0_scratch5
abbrev sc6 : Memref sig .tc .vmem S8x1 .f32 := Memref.whole cc0_scratch6
abbrev sc7 : Memref sig .tc .vmem S8x1 .f32 := Memref.whole cc0_scratch7
abbrev sc8 : Memref sig .tc .vmem S8x1 .f32 := Memref.whole cc0_scratch8
abbrev sc9 : Memref sig .tc .vmem S8x1 .f32 := Memref.whole cc0_scratch9

/-- What the launch hands the region besides the windows: the ten accumulators at some contents, and the generator register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

/-- A store through the whole buffer, last, leaves its payload whatever was stored before. -/
theorem read_writes_last {sp : Space} {S : Shape} {e : EltTy} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

end Cert.KernelIdeal.Hand

end
-- ==== Proof.KiRunB.lean ====
/-
  The body at a row tile that is neither the first nor the last of its batch block: both input
  blocks are loaded, the tile's ten statistics are folded into the ten accumulators (each loaded,
  combined by min or max, stored back whole), and nothing is stored into the output block. The
  symbolic run leaves, per accumulator, the list of pieces stored into it.
-/
import proofs.«124476_j14413910245512_2_alg».proof.Proof.KiKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_B (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    Σ' (L0 : List (View.Piece (Elt F) S8x1 .f32)) (L1 : List (View.Piece (Elt F) S8x1 .f32)) (L2 : List (View.Piece (Elt F) S8x1 .f32)) (L3 : List (View.Piece (Elt F) S8x1 .f32)) (L4 : List (View.Piece (Elt F) S8x1 .f32)) (L5 : List (View.Piece (Elt F) S8x1 .f32)) (L6 : List (View.Piece (Elt F) S8x1 .f32)) (L7 : List (View.Piece (Elt F) S8x1 .f32)) (L8 : List (View.Piece (Elt F) S8x1 .f32)), { L9 : List (View.Piece (Elt F) S8x1 .f32) //
      ∀ (xi2 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4 ∗ owns (c : Thread nD τ) arg10 fullShare xs5 ∗ owns (c : Thread nD τ) arg11 fullShare xs6 ∗ owns (c : Thread nD τ) arg12 fullShare xs7 ∗ owns (c : Thread nD τ) arg13 fullShare xs8 ∗ owns (c : Thread nD τ) arg14 fullShare xs9
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9)) -∗ K ⟨⟩))
          ⊢ wp frame (wpE (defs₀ (F := F)) Variants.none c none) E (cc0__bbox_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, ?_, fun xi2 E K => ?run⟩
  case run =>
    simp only [cc0__bbox_kernel_eq_skeleton]; unfold cc0__bbox_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2; obtain rfl := harg8.eq_unread hfs3; obtain rfl := harg9.eq_unread hfs4; obtain rfl := harg10.eq_unread hfs5; obtain rfl := harg11.eq_unread hfs6; obtain rfl := harg12.eq_unread hfs7; obtain rfl := harg13.eq_unread hfs8; obtain rfl := harg14.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Hand

end
-- ==== Proof.KiRunA.lean ====
/-
  The body at the first row tile of a batch block: the ten accumulators are first stored whole with
  their starting values (the large positive word for the four minima, its negative for the four
  maxima, zero for the two "any" flags), whatever they held before, and then the tile's statistics
  are folded in as at every other tile.
-/
import proofs.«124476_j14413910245512_2_alg».proof.Proof.KiRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_A (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    Σ' (L0 : List (View.Piece (Elt F) S8x1 .f32)) (L1 : List (View.Piece (Elt F) S8x1 .f32)) (L2 : List (View.Piece (Elt F) S8x1 .f32)) (L3 : List (View.Piece (Elt F) S8x1 .f32)) (L4 : List (View.Piece (Elt F) S8x1 .f32)) (L5 : List (View.Piece (Elt F) S8x1 .f32)) (L6 : List (View.Piece (Elt F) S8x1 .f32)) (L7 : List (View.Piece (Elt F) S8x1 .f32)) (L8 : List (View.Piece (Elt F) S8x1 .f32)), { L9 : List (View.Piece (Elt F) S8x1 .f32) //
      ∀ (xi2 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9)) -∗ K ⟨⟩))
          ⊢ wp frame (wpE (defs₀ (F := F)) Variants.none c none) E (cc0__bbox_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, ?_, fun xi2 E K => ?run⟩
  case run =>
    simp only [cc0__bbox_kernel_eq_skeleton]; unfold cc0__bbox_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Hand

end
-- ==== Proof.KiRunC.lean ====
/-
  The body at the last row tile of a batch block: after the tile's statistics are folded into the
  ten accumulators, the accumulators are loaded back and stored side by side, as the ten columns of
  the output block, which the pipeline then writes back.
-/
import proofs.«124476_j14413910245512_2_alg».proof.Proof.KiRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_C (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    Σ' (Lo : List (View.Piece (Elt F) S8x10 .f32)) (L0 : List (View.Piece (Elt F) S8x1 .f32)) (L1 : List (View.Piece (Elt F) S8x1 .f32)) (L2 : List (View.Piece (Elt F) S8x1 .f32)) (L3 : List (View.Piece (Elt F) S8x1 .f32)) (L4 : List (View.Piece (Elt F) S8x1 .f32)) (L5 : List (View.Piece (Elt F) S8x1 .f32)) (L6 : List (View.Piece (Elt F) S8x1 .f32)) (L7 : List (View.Piece (Elt F) S8x1 .f32)) (L8 : List (View.Piece (Elt F) S8x1 .f32)), { L9 : List (View.Piece (Elt F) S8x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4 ∗ owns (c : Thread nD τ) arg10 fullShare xs5 ∗ owns (c : Thread nD τ) arg11 fullShare xs6 ∗ owns (c : Thread nD τ) arg12 fullShare xs7 ∗ owns (c : Thread nD τ) arg13 fullShare xs8 ∗ owns (c : Thread nD τ) arg14 fullShare xs9
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f Lo) ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9)) -∗ K ⟨⟩))
          ⊢ wp frame (wpE (defs₀ (F := F)) Variants.none c none) E (cc0__bbox_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, ?_, ?_, fun E K => ?run⟩
  case run =>
    simp only [cc0__bbox_kernel_eq_skeleton]; unfold cc0__bbox_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1
    obtain rfl := harg5.eq_unread hfs0; obtain rfl := harg6.eq_unread hfs1; obtain rfl := harg7.eq_unread hfs2; obtain rfl := harg8.eq_unread hfs3; obtain rfl := harg9.eq_unread hfs4; obtain rfl := harg10.eq_unread hfs5; obtain rfl := harg11.eq_unread hfs6; obtain rfl := harg12.eq_unread hfs7; obtain rfl := harg13.eq_unread hfs8; obtain rfl := harg14.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Hand

end
-- ==== Proof.KiAcc.lean ====
/-
  What each grid point leaves in the ten accumulators and the output block, defined from the three
  symbolic runs by recursion on the point: the first row tile of a batch block starts afresh, a later
  tile folds into what the tile before left, the last tile also writes the ten columns out. Every
  accumulator is stored whole at every point, so what it holds does not depend on what it held.
-/
import proofs.«124476_j14413910245512_2_alg».proof.Proof.KiRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An accumulator's contents after a list of stores (read through one fixed view: the choice does not matter once the stores cover it). -/
def rd (L : List (View.Piece (Elt F) S8x1 .f32)) : Vec F S8x1 .f32 :=
  (sc0 : Memref sig .tc .vmem S8x1 .f32).view.read (Elt F) ((sc0 : Memref sig .tc .vmem S8x1 .f32).view.writes (Elt F) (sc0 : Memref sig .tc .vmem S8x1 .f32).view.junk L)
/-- The output block's contents after a list of stores. -/
def rdo (L : List (View.Piece (Elt F) S8x10 .f32)) : Vec F S8x10 .f32 :=
  VO.read (Elt F) (VO.writes (Elt F) VO.junk L)

/-- What a grid point leaves: the output block and the ten accumulators. -/
structure Acc (F : FTy → Type) where
  out : Vec F S8x10 .f32
  s0 : Vec F S8x1 .f32
  s1 : Vec F S8x1 .f32
  s2 : Vec F S8x1 .f32
  s3 : Vec F S8x1 .f32
  s4 : Vec F S8x1 .f32
  s5 : Vec F S8x1 .f32
  s6 : Vec F S8x1 .f32
  s7 : Vec F S8x1 .f32
  s8 : Vec F S8x1 .f32
  s9 : Vec F S8x1 .f32

/-- The three runs at a grid point's own buffers and blocks. -/
def runA (c : Dev nD) (t : Fin cfg0.N) (h0 : cond0_0 (grid0.coords t)) (h1 : ¬cond0_1 (grid0.coords t)) :=
  kernelRun_A (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t)
def runB (c : Dev nD) (t : Fin cfg0.N) (h0 : ¬cond0_0 (grid0.coords t)) (h1 : ¬cond0_1 (grid0.coords t)) (p : Acc F) :=
  kernelRun_B (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9
def runC (c : Dev nD) (t : Fin cfg0.N) (h0 : ¬cond0_0 (grid0.coords t)) (h1 : cond0_1 (grid0.coords t)) (p : Acc F) :=
  kernelRun_C (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9

def accA (c : Dev nD) (t : Fin cfg0.N) (h0 : cond0_0 (grid0.coords t)) (h1 : ¬cond0_1 (grid0.coords t)) : Acc F :=
  ⟨VO.read (Elt F) VO.junk, rd (runA m c t h0 h1).1, rd (runA m c t h0 h1).2.1, rd (runA m c t h0 h1).2.2.1, rd (runA m c t h0 h1).2.2.2.1, rd (runA m c t h0 h1).2.2.2.2.1, rd (runA m c t h0 h1).2.2.2.2.2.1, rd (runA m c t h0 h1).2.2.2.2.2.2.1, rd (runA m c t h0 h1).2.2.2.2.2.2.2.1, rd (runA m c t h0 h1).2.2.2.2.2.2.2.2.1, rd (runA m c t h0 h1).2.2.2.2.2.2.2.2.2.1⟩
def accB (c : Dev nD) (t : Fin cfg0.N) (h0 : ¬cond0_0 (grid0.coords t)) (h1 : ¬cond0_1 (grid0.coords t)) (p : Acc F) : Acc F :=
  ⟨VO.read (Elt F) VO.junk, rd (runB m c t h0 h1 p).1, rd (runB m c t h0 h1 p).2.1, rd (runB m c t h0 h1 p).2.2.1, rd (runB m c t h0 h1 p).2.2.2.1, rd (runB m c t h0 h1 p).2.2.2.2.1, rd (runB m c t h0 h1 p).2.2.2.2.2.1, rd (runB m c t h0 h1 p).2.2.2.2.2.2.1, rd (runB m c t h0 h1 p).2.2.2.2.2.2.2.1, rd (runB m c t h0 h1 p).2.2.2.2.2.2.2.2.1, rd (runB m c t h0 h1 p).2.2.2.2.2.2.2.2.2.1⟩
def accC (c : Dev nD) (t : Fin cfg0.N) (h0 : ¬cond0_0 (grid0.coords t)) (h1 : cond0_1 (grid0.coords t)) (p : Acc F) : Acc F :=
  ⟨rdo (runC m c t h0 h1 p).1, rd (runC m c t h0 h1 p).2.1, rd (runC m c t h0 h1 p).2.2.1, rd (runC m c t h0 h1 p).2.2.2.1, rd (runC m c t h0 h1 p).2.2.2.2.1, rd (runC m c t h0 h1 p).2.2.2.2.2.1, rd (runC m c t h0 h1 p).2.2.2.2.2.2.1, rd (runC m c t h0 h1 p).2.2.2.2.2.2.2.1, rd (runC m c t h0 h1 p).2.2.2.2.2.2.2.2.1, rd (runC m c t h0 h1 p).2.2.2.2.2.2.2.2.2.1, rd (runC m c t h0 h1 p).2.2.2.2.2.2.2.2.2.2.1⟩

/-! ## Every accumulator is stored whole at every point -/

theorem coverA_0 (c : Dev nD) (t : Fin cfg0.N) (h0 : cond0_0 (grid0.coords t)) (h1 : ¬cond0_1 (grid0.coords t)) (y : S8x1.Idx) :
    ∃ pc ∈ (runA m c t h0 h1).1, y ∈ pc.1.set := by
  unfold runA; exact View.cover_of_tiledL _ S8x1.size (by sl_kernel_rfl) y
theorem coverB_0 (c : Dev nD) (t : Fin cfg0.N) (h0 : ¬cond0_0 (grid0.coords t)) (h1 : ¬cond0_1 (grid0.coords t)) (p : Acc F) (y : S8x1.Idx) :
    ∃ pc ∈ (runB m c t h0 h1 p).1, y ∈ pc.1.set := by
  unfold runB; exact View.cover_of_tiledL _ S8x1.size (by sl_kernel_rfl) y
theorem coverC_0 (c : Dev nD) (t : Fin cfg0.N) (h0 : ¬cond0_0 (grid0.coords t)) (h1 : cond0_1 (grid0.coords t)) (p : Acc F) (y : S8x1.Idx) :
    ∃ pc ∈ (runC m c t h0 h1 p).2.1, y ∈ pc.1.set := by
  unfold runC; exact View.cover_of_tiledL _ S8x1.size (by sl_kernel_rfl) y
theorem coverA_1 (c : Dev nD) (t : Fin cfg0.N) (h0 : cond0_0 (grid0.coords t)) (h1 : ¬cond0_1 (grid0.coords t)) (y : S8x1.Idx) :
    ∃ pc ∈ (runA m c t h0 h1).2.1, y ∈ pc.1.set := by
  unfold runA; exact View.cover_of_tiledL _ S8x1.size (by sl_kernel_rfl) y
theorem coverB_1 (c : Dev nD) (t : Fin cfg0.N) (h0 : ¬cond0_0 (grid0.coords t)) (h1 : ¬cond0_1 (grid0.coords t)) (p : Acc F) (y : S8x1.Idx) :
    ∃ pc ∈ (runB m c t h0 h1 p).2.1, y ∈ pc.1.set := by
  unfold runB; exact View.cover_of_tiledL _ S8x1.size (by sl_kernel_rfl) y
theorem coverC_1 (c : Dev nD) (t : Fin cfg0.N) (h0 : ¬cond0_0 (grid0.coords t)) (h1 : cond0_1 (grid0.coords t)) (p : Acc F) (y : S8x1.Idx) :
    ∃ pc ∈ (runC m c t h0 h1 p).2.2.1, y ∈ pc.1.set := by
  unfold runC; exact View.cover_of_tiledL _ S8x1.size (by sl_kernel_rfl) y
theorem coverA_2 (c : Dev nD) (t : Fin cfg0.N) (h0 : cond0_0 (grid0.coords t)) (h1 : ¬cond0_1 (grid0.coords t)) (y : S8x1.Idx) :
    ∃ pc ∈ (runA m c t h0 h1).2.2.1, y ∈ pc.1.set := by
  unfold runA; exact View.cover_of_tiledL _ S8x1.size (by sl_kernel_rfl) y
theorem coverB_2 (c : Dev nD) (t : Fin cfg0.N) (h0 : ¬cond0_0 (grid0.coords t)) (h1 : ¬cond0_1 (grid0.coords t)) (p : Acc F) (y : S8x1.Idx) :
    ∃ pc ∈ (runB m c t h0 h1 p).2.2.1, y ∈ pc.1.set := by
  unfold runB; exact View.cover_of_tiledL _ S8x1.size (by sl_kernel_rfl) y
theorem coverC_2 (c : Dev nD) (t : Fin cfg0.N) (h0 : ¬cond0_0 (grid0.coords t)) (h1 : cond0_1 (grid0.coords t)) (p : Acc F) (y : S8x1.Idx) :
    ∃ pc ∈ (runC m c t h0 h1 p).2.2.2.1, y ∈ pc.1.set := by
  unfold runC; exact View.cover_of_tiledL _ S8x1.size (by sl_kernel_rfl) y
theorem coverA_3 (c : Dev nD) (t : Fin cfg0.N) (h0 : cond0_0 (grid0.coords t)) (h1 : ¬cond0_1 (grid0.coords t)) (y : S8x1.Idx) :
    ∃ pc ∈ (runA m c t h0 h1).2.2.2.1, y ∈ pc.1.set := by
  unfold runA; exact View.cover_of_tiledL _ S8x1.size (by sl_kernel_rfl) y
theorem coverB_3 (c : Dev nD) (t : Fin cfg0.N) (h0 : ¬cond0_0 (grid0.coords t)) (h1 : ¬cond0_1 (grid0.coords t)) (p : Acc F) (y : S8x1.Idx) :
    ∃ pc ∈ (runB m c t h0 h1 p).2.2.2.1, y ∈ pc.1.set := by
  unfold runB; exact View.cover_of_tiledL _ S8x1.size (by sl_kernel_rfl) y
theorem coverC_3 (c : Dev nD) (t : Fin cfg0.N) (h0 : ¬cond0_0 (grid0.coords t)) (h1 : cond0_1 (grid0.coords t)) (p : Acc F) (y : S8x1.Idx) :
    ∃ pc ∈ (runC m c t h0 h1 p).2.2.2.2.1, y ∈ pc.1.set := by
  unfold runC; exact View.cover_of_tiledL _ S8x1.size (by sl_kernel_rfl) y
theorem coverA_4 (c : Dev nD) (t : Fin cfg0.N) (h0 : cond0_0 (grid0.coords t)) (h1 : ¬cond0_1 (grid0.coords t)) (y : S8x1.Idx) :
    ∃ pc ∈ (runA m c t h0 h1).2.2.2.2.1, y ∈ pc.1.set := by
  unfold runA; exact View.cover_of_tiledL _ S8x1.size (by sl_kernel_rfl) y
theorem coverB_4 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.1, y ∈ pc.1.set := by
  unfold runB; exact View.cover_of_tiledL _ S8x1.size (by sl_kernel_rfl) y
theorem coverC_4 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.1, y ∈ pc.1.set := by
  unfold runC; exact View.cover_of_tiledL _ S8x1.size (by sl_kernel_rfl) y
theorem coverA_5 (c : Dev nD) (t : Fin cfg0.N) (h0 : cond0_0 (grid0.coords t)) (h1 : ¬cond0_1 (grid0.coords t)) (y : S8x1.Idx) :
    ∃ pc ∈ (runA m c t h0 h1).2.2.2.2.2.1, y ∈ pc.1.set := by
  unfold runA; exact View.cover_of_tiledL _ S8x1.size (by sl_kernel_rfl) y
theorem coverB_5 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.1, y ∈ pc.1.set := by
  unfold runB; exact View.cover_of_tiledL _ S8x1.size (by sl_kernel_rfl) y
theorem coverC_5 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.1, y ∈ pc.1.set := by
  unfold runC; exact View.cover_of_tiledL _ S8x1.size (by sl_kernel_rfl) y
theorem coverA_6 (c : Dev nD) (t : Fin cfg0.N) (h0 : cond0_0 (grid0.coords t)) (h1 : ¬cond0_1 (grid0.coords t)) (y : S8x1.Idx) :
    ∃ pc ∈ (runA m c t h0 h1).2.2.2.2.2.2.1, y ∈ pc.1.set := by
  unfold runA; exact View.cover_of_tiledL _ S8x1.size (by sl_kernel_rfl) y
theorem coverB_6 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.2.1, y ∈ pc.1.set := by
  unfold runB; exact View.cover_of_tiledL _ S8x1.size (by sl_kernel_rfl) y
theorem coverC_6 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.2.1, y ∈ pc.1.set := by
  unfold runC; exact View.cover_of_tiledL _ S8x1.size (by sl_kernel_rfl) y
theorem coverA_7 (c : Dev nD) (t : Fin cfg0.N) (h0 : cond0_0 (grid0.coords t)) (h1 : ¬cond0_1 (grid0.coords t)) (y : S8x1.Idx) :
    ∃ pc ∈ (runA m c t h0 h1).2.2.2.2.2.2.2.1, y ∈ pc.1.set := by
  unfold runA; exact View.cover_of_tiledL _ S8x1.size (by sl_kernel_rfl) y
theorem coverB_7 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.2.2.1, y ∈ pc.1.set := by
  unfold runB; exact View.cover_of_tiledL _ S8x1.size (by sl_kernel_rfl) y
theorem coverC_7 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.2.2.1, y ∈ pc.1.set := by
  unfold runC; exact View.cover_of_tiledL _ S8x1.size (by sl_kernel_rfl) y
theorem coverA_8 (c : Dev nD) (t : Fin cfg0.N) (h0 : cond0_0 (grid0.coords t)) (h1 : ¬cond0_1 (grid0.coords t)) (y : S8x1.Idx) :
    ∃ pc ∈ (runA m c t h0 h1).2.2.2.2.2.2.2.2.1, y ∈ pc.1.set := by
  unfold runA; exact View.cover_of_tiledL _ S8x1.size (by sl_kernel_rfl) y
theorem coverB_8 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.2.2.2.1, y ∈ pc.1.set := by
  unfold runB; exact View.cover_of_tiledL _ S8x1.size (by sl_kernel_rfl) y
theorem coverC_8 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.2.2.2.1, y ∈ pc.1.set := by
  unfold runC; exact View.cover_of_tiledL _ S8x1.size (by sl_kernel_rfl) y
theorem coverA_9 (c : Dev nD) (t : Fin cfg0.N) (h0 : cond0_0 (grid0.coords t)) (h1 : ¬cond0_1 (grid0.coords t)) (y : S8x1.Idx) :
    ∃ pc ∈ (runA m c t h0 h1).2.2.2.2.2.2.2.2.2.1, y ∈ pc.1.set := by
  unfold runA; exact View.cover_of_tiledL _ S8x1.size (by sl_kernel_rfl) y
theorem coverB_9 (c : Dev nD) (t : Fin cfg0.N) (h0 : ¬cond0_0 (grid0.coords t)) (h1 : ¬cond0_1 (grid0.coords t)) (p : Acc F) (y : S8x1.Idx) :
    ∃ pc ∈ (runB m c t h0 h1 p).2.2.2.2.2.2.2.2.2.1, y ∈ pc.1.set := by
  unfold runB; exact View.cover_of_tiledL _ S8x1.size (by sl_kernel_rfl) y
theorem coverC_9 (c : Dev nD) (t : Fin cfg0.N) (h0 : ¬cond0_0 (grid0.coords t)) (h1 : cond0_1 (grid0.coords t)) (p : Acc F) (y : S8x1.Idx) :
    ∃ pc ∈ (runC m c t h0 h1 p).2.2.2.2.2.2.2.2.2.2.1, y ∈ pc.1.set := by
  unfold runC; exact View.cover_of_tiledL _ S8x1.size (by sl_kernel_rfl) y
theorem coverC_out (c : Dev nD) (t : Fin cfg0.N) (h0 : ¬cond0_0 (grid0.coords t)) (h1 : cond0_1 (grid0.coords t)) (p : Acc F) (y : S8x10.Idx) :
    ∃ pc ∈ (runC m c t h0 h1 p).1, y ∈ pc.1.set := by
  unfold runC; exact View.cover_of_tiledL _ S8x10.size (by sl_kernel_rfl) y

/-! ## What each point leaves, by recursion on the point -/

def outsAt (c : Dev nD) : (n : ℕ) → n < cfg0.N → Acc F
  | 0, hn => accA m c ⟨0, hn⟩ ((hcond0_0 ⟨0, hn⟩).mpr (Nat.zero_mod _)) (fun h => by have h' := (hcond0_1 ⟨0, hn⟩).mp h; dsimp only at h'; omega)
  | n + 1, hn =>
    if h0 : (n + 1) % 16 = 0 then
      if h1 : (n + 1) % 16 = 15 then False.elim (by omega)
      else accA m c ⟨n + 1, hn⟩ ((hcond0_0 ⟨n + 1, hn⟩).mpr h0) (fun h => h1 ((hcond0_1 ⟨n + 1, hn⟩).mp h))
    else
      if h1 : (n + 1) % 16 = 15 then
        accC m c ⟨n + 1, hn⟩ (fun h => h0 ((hcond0_0 ⟨n + 1, hn⟩).mp h)) ((hcond0_1 ⟨n + 1, hn⟩).mpr h1) (outsAt c n (Nat.lt_of_succ_lt hn))
      else
        accB m c ⟨n + 1, hn⟩ (fun h => h0 ((hcond0_0 ⟨n + 1, hn⟩).mp h)) (fun h => h1 ((hcond0_1 ⟨n + 1, hn⟩).mp h)) (outsAt c n (Nat.lt_of_succ_lt hn))

theorem outsAt_A (c : Dev nD) (t : Fin cfg0.N) (h0 : t.val % 16 = 0) (h1 : ¬t.val % 16 = 15) :
    outsAt m c t.val t.isLt = accA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt_B (c : Dev nD) (t : Fin cfg0.N) (h0 : ¬t.val % 16 = 0) (h1 : ¬t.val % 16 = 15) :
    outsAt m c t.val t.isLt = accB m c t (fun h => h0 ((hcond0_0 t).mp h)) (fun h => h1 ((hcond0_1 t).mp h))
      (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 16 = 0) (h1 : t.val % 16 = 15) :
    outsAt m c t.val t.isLt = accC m c t (fun h => h0 ((hcond0_0 t).mp h)) ((hcond0_1 t).mpr h1)
      (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.KernelIdeal.Hand

end
-- ==== Proof.KiBody.lean ====
/-
  The body obligation of the pallas_call, put together from three small parts per control case so that nothing is
  rewritten inside a goal that carries the kernel's call: (1) what the region invariant hands the body entails the
  form the case's symbolic run asks for; (2) from that form the run gives the body's weakest precondition with the
  case's own postcondition — the ten accumulators at what the case's stores leave, read through the covers; (3) that
  postcondition entails what the pipeline asks of the body at the point. Monotonicity of the weakest precondition in
  its postcondition joins (2) and (3).
-/
import proofs.«124476_j14413910245512_2_alg».proof.Proof.KiAcc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulators at what an `Acc` says, and the generator register at some state. -/
def accOwned (c : Dev nD) (a : Acc F) : sProp 𝕄 :=
  iprop(iprop(owns (c : Thread nD τ) sc0 fullShare a.s0 ∗ owns (c : Thread nD τ) sc1 fullShare a.s1 ∗ owns (c : Thread nD τ) sc2 fullShare a.s2 ∗ owns (c : Thread nD τ) sc3 fullShare a.s3 ∗ owns (c : Thread nD τ) sc4 fullShare a.s4 ∗ owns (c : Thread nD τ) sc5 fullShare a.s5 ∗ owns (c : Thread nD τ) sc6 fullShare a.s6 ∗ owns (c : Thread nD τ) sc7 fullShare a.s7 ∗ owns (c : Thread nD τ) sc8 fullShare a.s8 ∗ owns (c : Thread nD τ) sc9 fullShare a.s9) ∗ (∃ r, prngReg c r))

/-- The region invariant before position `n`: at the start what the launch hands over; afterwards the accumulators at what the point before left. -/
def PhiS (c : Dev nD) : (n : ℕ) → n ≤ cfg0.N → sProp 𝕄
  | 0, _ => Pipeline.ΦA spec0 c
  | n + 1, hn => accOwned c (outsAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = accOwned c (outsAt m c n hn) := rfl
theorem PhiS_pos (c : Dev nD) (n : ℕ) (h : n ≤ cfg0.N) (hz : n ≠ 0) :
    PhiS m c n h = accOwned c (outsAt m c (n - 1) (by omega)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).out := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-! ## The three parts -/

/-- The ten accumulators at some contents, and the generator register at some state. -/
def accAny (c : Dev nD) : sProp 𝕄 :=
  iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r))

theorem PhiA_accAny (c : Dev nD) : (Pipeline.ΦA spec0 c : sProp 𝕄) ⊢ accAny c := by
  rewrite [PhiA0_eq]; unfold accAny; exact Entails.refl _

theorem accOwned_accAny (c : Dev nD) (a : Acc F) : accOwned c a ⊢ accAny c := by
  unfold accOwned accAny
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

theorem PhiS_accAny (c : Dev nD) : ∀ (n : ℕ) (h : n ≤ cfg0.N), PhiS m c n h ⊢ accAny c
  | 0, _ => PhiA_accAny c
  | n + 1, hn => accOwned_accAny c _

/-- What the body is handed, with the invariant's part as a parameter. -/
def preN (c : Dev nD) (t : Fin cfg0.N) (Φ : sProp 𝕄) : sProp 𝕄 :=
  iprop(Φ ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What a case's run leaves: the accumulators at `a`, the inputs' buffers at their blocks, the output's buffer as `L2` says. -/
def postN (c : Dev nD) (t : Fin cfg0.N) (a : Acc F) (L2 : sProp 𝕄) : sProp 𝕄 :=
  iprop(accOwned c a ∗ (dats m 0 c).owesAt () t.castSucc
    ∗ owns (c : Thread nD τ) (ms0 t) fullShare (iblk m c 0 t)
    ∗ owns (c : Thread nD τ) (ms1 t) fullShare (iblk m c 1 t)
    ∗ L2)

theorem bodyPre_preN (c : Dev nD) (t : Fin cfg0.N) (Φ : sProp 𝕄) (h : (dats m 0 c).Φ t.castSucc ⊢ Φ) :
    bodyPre m c t ⊢ preN m c t Φ := by
  unfold bodyPre preN; exact sep_mono_l h

/-- (3) for a point that neither stores into the output block nor writes it back. -/
theorem postN_idle (c : Dev nD) (t : Fin cfg0.N) (hc1 : ¬cond0_1 (grid0.coords t)) (a : Acc F)
    (ha : outsAt m c t.val t.isLt = a) :
    postN m c t a iprop(∃ d, owns (c : Thread nD τ) (ms2 t) fullShare ((dats m 0 c).before 2 t d)) ⊢ bodyPost m c t := by
  unfold bodyPost postN
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [liveAt0_0 t], after0_0]
  rewrite [show (dats m 0 c).leavesExact 1 t = owns (c : Thread nD τ) (ms1 t) fullShare ((dats m 0 c).after 1 t) from by
    unfold Dat.leavesExact; rw [liveAt0_1 t], after0_1]
  rewrite [Dat.leavesExact_idle (dats m 0 c) 2 t (idleAt0_2 t hc1) (noFlush0_2 t hc1), ha]
  exact Entails.refl _

/-- (3) for the last row tile of a batch block: the output's buffer holds the ten columns. -/
theorem postN_live (c : Dev nD) (t : Fin cfg0.N) (hc1 : cond0_1 (grid0.coords t)) (a : Acc F)
    (ha : outsAt m c t.val t.isLt = a) :
    postN m c t a (owns (c : Thread nD τ) (ms2 t) fullShare a.out) ⊢ bodyPost m c t := by
  unfold bodyPost postN
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [liveAt0_0 t], after0_0]
  rewrite [show (dats m 0 c).leavesExact 1 t = owns (c : Thread nD τ) (ms1 t) fullShare ((dats m 0 c).after 1 t) from by
    unfold Dat.leavesExact; rw [liveAt0_1 t], after0_1]
  rewrite [show (dats m 0 c).leavesExact 2 t = owns (c : Thread nD τ) (ms2 t) fullShare ((dats m 0 c).after 2 t) from by
    unfold Dat.leavesExact; rw [liveAt0_2 t hc1], after0_2, ha]
  exact Entails.refl _

set_option maxHeartbeats 4000000 in
/-- (2) at the first row tile of a batch block: whatever the accumulators held, they are started afresh. -/
theorem caseA (c : Dev nD) (t : Fin cfg0.N) (hc0 : cond0_0 (grid0.coords t)) (hc1 : ¬cond0_1 (grid0.coords t)) :
    preN m c t (accAny c) ⊢ wp frame (wpE (defs₀ (F := F)) Variants.none c none) Set.univ (bodyAt0 t)
      (fun _ => postN m c t (accA m c t hc0 hc1)
        iprop(∃ d, owns (c : Thread nD τ) (ms2 t) fullShare ((dats m 0 c).before 2 t d))) := by
  unfold preN postN accAny bodyAt0
  simp only [before0_0, before0_1]
  iintro ⟨⟨⟨HS0, HS1, HS2, HS3, HS4, HS5, HS6, HS7, HS8, HS9⟩, Hg⟩, Ho, ⟨%d0, H0⟩, ⟨%d1, H1⟩, ⟨%d2, H2⟩⟩
  iapply ((runA m c t hc0 hc1).2.2.2.2.2.2.2.2.2.2 _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩⟩
  isplitl [HS0 HS1 HS2 HS3 HS4 HS5 HS6 HS7 HS8 HS9 Hg]
  · unfold accOwned accA; dsimp only
    isplitl [HS0 HS1 HS2 HS3 HS4 HS5 HS6 HS7 HS8 HS9]
    · isplitl [HS0]
      · unfold owns rd; iexists _; isplitr
        swap; · iexact HS0
        ipureintro; exact View.read_writes_of_cover _ _ _ _ _ (coverA_0 m c t hc0 hc1)
      isplitl [HS1]
      · unfold owns rd; iexists _; isplitr
        swap; · iexact HS1
        ipureintro; exact View.read_writes_of_cover _ _ _ _ _ (coverA_1 m c t hc0 hc1)
      isplitl [HS2]
      · unfold owns rd; iexists _; isplitr
        swap; · iexact HS2
        ipureintro; exact View.read_writes_of_cover _ _ _ _ _ (coverA_2 m c t hc0 hc1)
      isplitl [HS3]
      · unfold owns rd; iexists _; isplitr
        swap; · iexact HS3
        ipureintro; exact View.read_writes_of_cover _ _ _ _ _ (coverA_3 m c t hc0 hc1)
      isplitl [HS4]
      · unfold owns rd; iexists _; isplitr
        swap; · iexact HS4
        ipureintro; exact View.read_writes_of_cover _ _ _ _ _ (coverA_4 m c t hc0 hc1)
      isplitl [HS5]
      · unfold owns rd; iexists _; isplitr
        swap; · iexact HS5
        ipureintro; exact View.read_writes_of_cover _ _ _ _ _ (coverA_5 m c t hc0 hc1)
      isplitl [HS6]
      · unfold owns rd; iexists _; isplitr
        swap; · iexact HS6
        ipureintro; exact View.read_writes_of_cover _ _ _ _ _ (coverA_6 m c t hc0 hc1)
      isplitl [HS7]
      · unfold owns rd; iexists _; isplitr
        swap; · iexact HS7
        ipureintro; exact View.read_writes_of_cover _ _ _ _ _ (coverA_7 m c t hc0 hc1)
      isplitl [HS8]
      · unfold owns rd; iexists _; isplitr
        swap; · iexact HS8
        ipureintro; exact View.read_writes_of_cover _ _ _ _ _ (coverA_8 m c t hc0 hc1)
      unfold owns rd; iexists _; isplitr
      swap; · iexact HS9
      ipureintro; exact View.read_writes_of_cover _ _ _ _ _ (coverA_9 m c t hc0 hc1)
    iexact Hg
  isplitl [Ho]; · iexact Ho
  isplitl [H0]; · iexact H0
  isplitl [H1]; · iexact H1
  iexists _; iexact H2

set_option maxHeartbeats 4000000 in
/-- (2) at a middle row tile: the tile is folded into what the tile before left. -/
theorem caseB (c : Dev nD) (t : Fin cfg0.N) (hc0 : ¬cond0_0 (grid0.coords t)) (hc1 : ¬cond0_1 (grid0.coords t)) (p : Acc F) :
    preN m c t (accOwned c p) ⊢ wp frame (wpE (defs₀ (F := F)) Variants.none c none) Set.univ (bodyAt0 t)
      (fun _ => postN m c t (accB m c t hc0 hc1 p)
        iprop(∃ d, owns (c : Thread nD τ) (ms2 t) fullShare ((dats m 0 c).before 2 t d))) := by
  unfold preN postN bodyAt0
  simp only [before0_0, before0_1]
  unfold accOwned
  iintro ⟨⟨⟨HS0, HS1, HS2, HS3, HS4, HS5, HS6, HS7, HS8, HS9⟩, Hg⟩, Ho, ⟨%d0, H0⟩, ⟨%d1, H1⟩, ⟨%d2, H2⟩⟩
  iapply ((runB m c t hc0 hc1 _).2.2.2.2.2.2.2.2.2.2 _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩⟩
  isplitl [HS0 HS1 HS2 HS3 HS4 HS5 HS6 HS7 HS8 HS9 Hg]
  · unfold accB; dsimp only
    isplitl [HS0 HS1 HS2 HS3 HS4 HS5 HS6 HS7 HS8 HS9]
    · isplitl [HS0]
      · unfold owns rd; iexists _; isplitr
        swap; · iexact HS0
        ipureintro; exact View.read_writes_of_cover _ _ _ _ _ (coverB_0 m c t hc0 hc1 p)
      isplitl [HS1]
      · unfold owns rd; iexists _; isplitr
        swap; · iexact HS1
        ipureintro; exact View.read_writes_of_cover _ _ _ _ _ (coverB_1 m c t hc0 hc1 p)
      isplitl [HS2]
      · unfold owns rd; iexists _; isplitr
        swap; · iexact HS2
        ipureintro; exact View.read_writes_of_cover _ _ _ _ _ (coverB_2 m c t hc0 hc1 p)
      isplitl [HS3]
      · unfold owns rd; iexists _; isplitr
        swap; · iexact HS3
        ipureintro; exact View.read_writes_of_cover _ _ _ _ _ (coverB_3 m c t hc0 hc1 p)
      isplitl [HS4]
      · unfold owns rd; iexists _; isplitr
        swap; · iexact HS4
        ipureintro; exact View.read_writes_of_cover _ _ _ _ _ (coverB_4 m c t hc0 hc1 p)
      isplitl [HS5]
      · unfold owns rd; iexists _; isplitr
        swap; · iexact HS5
        ipureintro; exact View.read_writes_of_cover _ _ _ _ _ (coverB_5 m c t hc0 hc1 p)
      isplitl [HS6]
      · unfold owns rd; iexists _; isplitr
        swap; · iexact HS6
        ipureintro; exact View.read_writes_of_cover _ _ _ _ _ (coverB_6 m c t hc0 hc1 p)
      isplitl [HS7]
      · unfold owns rd; iexists _; isplitr
        swap; · iexact HS7
        ipureintro; exact View.read_writes_of_cover _ _ _ _ _ (coverB_7 m c t hc0 hc1 p)
      isplitl [HS8]
      · unfold owns rd; iexists _; isplitr
        swap; · iexact HS8
        ipureintro; exact View.read_writes_of_cover _ _ _ _ _ (coverB_8 m c t hc0 hc1 p)
      unfold owns rd; iexists _; isplitr
      swap; · iexact HS9
      ipureintro; exact View.read_writes_of_cover _ _ _ _ _ (coverB_9 m c t hc0 hc1 p)
    iexact Hg
  isplitl [Ho]; · iexact Ho
  isplitl [H0]; · iexact H0
  isplitl [H1]; · iexact H1
  iexists _; iexact H2

set_option maxHeartbeats 4000000 in
/-- (2) at the last row tile: the tile is folded in and the ten columns are written out. -/
theorem caseC (c : Dev nD) (t : Fin cfg0.N) (hc0 : ¬cond0_0 (grid0.coords t)) (hc1 : cond0_1 (grid0.coords t)) (p : Acc F) :
    preN m c t (accOwned c p) ⊢ wp frame (wpE (defs₀ (F := F)) Variants.none c none) Set.univ (bodyAt0 t)
      (fun _ => postN m c t (accC m c t hc0 hc1 p)
        (owns (c : Thread nD τ) (ms2 t) fullShare (accC m c t hc0 hc1 p).out)) := by
  unfold preN postN bodyAt0
  simp only [before0_0, before0_1]
  unfold accOwned
  iintro ⟨⟨⟨HS0, HS1, HS2, HS3, HS4, HS5, HS6, HS7, HS8, HS9⟩, Hg⟩, Ho, ⟨%d0, H0⟩, ⟨%d1, H1⟩, ⟨%d2, H2⟩⟩
  iapply ((runC m c t hc0 hc1 _).2.2.2.2.2.2.2.2.2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, ⟨%e2, H2⟩, ⟨%e3, HS0⟩, ⟨%e4, HS1⟩, ⟨%e5, HS2⟩, ⟨%e6, HS3⟩, ⟨%e7, HS4⟩, ⟨%e8, HS5⟩, ⟨%e9, HS6⟩, ⟨%e10, HS7⟩, ⟨%e11, HS8⟩, ⟨%e12, HS9⟩⟩
  isplitl [HS0 HS1 HS2 HS3 HS4 HS5 HS6 HS7 HS8 HS9 Hg]
  · unfold accC; dsimp only
    isplitl [HS0 HS1 HS2 HS3 HS4 HS5 HS6 HS7 HS8 HS9]
    · isplitl [HS0]
      · unfold owns rd; iexists _; isplitr
        swap; · iexact HS0
        ipureintro; exact View.read_writes_of_cover _ _ _ _ _ (coverC_0 m c t hc0 hc1 p)
      isplitl [HS1]
      · unfold owns rd; iexists _; isplitr
        swap; · iexact HS1
        ipureintro; exact View.read_writes_of_cover _ _ _ _ _ (coverC_1 m c t hc0 hc1 p)
      isplitl [HS2]
      · unfold owns rd; iexists _; isplitr
        swap; · iexact HS2
        ipureintro; exact View.read_writes_of_cover _ _ _ _ _ (coverC_2 m c t hc0 hc1 p)
      isplitl [HS3]
      · unfold owns rd; iexists _; isplitr
        swap; · iexact HS3
        ipureintro; exact View.read_writes_of_cover _ _ _ _ _ (coverC_3 m c t hc0 hc1 p)
      isplitl [HS4]
      · unfold owns rd; iexists _; isplitr
        swap; · iexact HS4
        ipureintro; exact View.read_writes_of_cover _ _ _ _ _ (coverC_4 m c t hc0 hc1 p)
      isplitl [HS5]
      · unfold owns rd; iexists _; isplitr
        swap; · iexact HS5
        ipureintro; exact View.read_writes_of_cover _ _ _ _ _ (coverC_5 m c t hc0 hc1 p)
      isplitl [HS6]
      · unfold owns rd; iexists _; isplitr
        swap; · iexact HS6
        ipureintro; exact View.read_writes_of_cover _ _ _ _ _ (coverC_6 m c t hc0 hc1 p)
      isplitl [HS7]
      · unfold owns rd; iexists _; isplitr
        swap; · iexact HS7
        ipureintro; exact View.read_writes_of_cover _ _ _ _ _ (coverC_7 m c t hc0 hc1 p)
      isplitl [HS8]
      · unfold owns rd; iexists _; isplitr
        swap; · iexact HS8
        ipureintro; exact View.read_writes_of_cover _ _ _ _ _ (coverC_8 m c t hc0 hc1 p)
      unfold owns rd; iexists _; isplitr
      swap; · iexact HS9
      ipureintro; exact View.read_writes_of_cover _ _ _ _ _ (coverC_9 m c t hc0 hc1 p)
    iexact Hg
  isplitl [Ho]; · iexact Ho
  isplitl [H0]; · iexact H0
  isplitl [H1]; · iexact H1
  unfold accC; dsimp only
  unfold owns rdo; iexists _; isplitr
  swap; · iexact H2
  ipureintro; exact View.read_writes_of_cover _ _ _ _ _ (coverC_out m c t hc0 hc1 p)

/-- The body at any point: the point's position in its batch block says which of the three runs applies. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    refine (bodyPre_preN m c t (accAny c) ?_).trans ((caseA m c t hc0 hc1).trans
      (wp_mono _ _ _ fun _ => postN_idle m c t hc1 _ (outsAt_A m c t h0 h1)))
    rewrite [PhiS_castSucc m c t]
    exact PhiS_accAny m c _ _
  · have hz : t.val ≠ 0 := fun h => h0 (by rw [h])
    have hc0 : ¬cond0_0 (grid0.coords t) := fun h => h0 ((hcond0_0 t).mp h)
    have hΦ : (dats m 0 c).Φ t.castSucc
        ⊢ accOwned c (outsAt m c (t.val - 1) (Nat.lt_of_le_of_lt (Nat.sub_le _ _) t.isLt)) := by
      rewrite [PhiS_castSucc m c t, PhiS_pos m c _ _ hz]
      exact Entails.refl _
    by_cases h1 : t.val % 16 = 15
    · have hc1 : cond0_1 (grid0.coords t) := (hcond0_1 t).mpr h1
      exact (bodyPre_preN m c t _ hΦ).trans ((caseC m c t hc0 hc1 _).trans
        (wp_mono _ _ _ fun _ => postN_live m c t hc1 _ (outsAt_C m c t h0 h1)))
    · have hc1 : ¬cond0_1 (grid0.coords t) := fun h => h1 ((hcond0_1 t).mp h)
      exact (bodyPre_preN m c t _ hΦ).trans ((caseB m c t hc0 hc1 _).trans
        (wp_mono _ _ _ fun _ => postN_idle m c t hc1 _ (outsAt_B m c t h0 h1)))

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiFrame.lean ====
/-
  The pallas_call's run put together. What the ten accumulators (and, at the last row tile of a
  batch block, the output block) hold after each grid point is defined by recursion on the point:
  the first tile of a block starts the accumulators afresh, every later tile folds into what the
  tile before left, the last tile also writes the ten columns out. With that as the proof data the
  body meets its obligation at every point (by the three symbolic runs), and the launch theorem for
  "host lines, region, host lines" gives the run of the whole program, hence the frame.
-/
import proofs.«124476_j14413910245512_2_alg».proof.Proof.KiBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold accOwned
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

theorem hout (c : Dev nD) : (dats m 0 c).Φ (Fin.last cfg0.N) ⊢ Pipeline.ΦA spec0 c :=
  Phi_out m c _ (by rw [Fin.val_last]; have : cfg0.N = 32 := N_0; omega)

/-! ## The run of the whole program, and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) sfx)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hin := hin m) (hout := hout m)

/-- Every weakly fair execution of the program terminates without a fault and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.KiStatsArr.lean ====
/-
  The statistics array the pallas_call leaves, as a function of what each grid point leaves in the output's staging
  buffer. The output window (sixteen rows of ten numbers, blocks of eight rows) is written back only at the last row
  tile of each batch block, so row j of the array is row j % 8 of what point 16·(j / 8) + 15 left.
-/
import proofs.«124476_j14413910245512_2_alg».proof.Proof.KiAcc
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- What the output's staging buffer holds after grid position n (past the grid: the buffer's initial reading). -/
def outTot (c : Dev nD) (n : ℕ) : Vec F S8x10 .f32 :=
  if h : n < cfg0.N then (outsAt m c n h).out else VO.read (Elt F) VO.junk

theorem outTot_of_eq (c : Dev nD) (t : Fin cfg0.N) (n : ℕ) (hn : n = t.val) :
    outTot m c n = (outsAt m c t.val t.isLt).out := by
  subst hn; unfold outTot; rw [dif_pos t.isLt]

/-- THE STATISTICS ARRAY after the run: row j is row j % 8 of what the last row tile of batch block j / 8 left. -/
def statsArr (c : Dev nD) : Buf (Elt F) ((c : Thread nD τ).loc main_v2) :=
  fun (j : S16x10.Idx) => outTot m c (16 * ((j 0).val / 8) + 15)
    (ix2 (⟨(j 0).val % 8, Nat.mod_lt _ (by decide)⟩ : Fin 8) (⟨(j 1).val, (j 1).isLt⟩ : Fin 10))

/-- The array at an index of the block that flushing point t covers is the block's entry. -/
theorem statsArr_at (c : Dev nD) (t : Fin cfg0.N) (h15 : t.val % 16 = 15) (i : S16x10.Idx) (y : S8x10.Idx)
    (h0 : (i 0).val = 8 * (t.val / 16) + (y 0).val) (h1 : (i 1).val = (y 1).val) :
    (statsArr m c : S16x10.Idx → Elt F .f32) i = (outsAt m c t.val t.isLt).out y := by
  have hy0 : (y 0).val < 8 := (y 0).isLt
  show outTot m c (16 * ((i 0).val / 8) + 15) _ = _
  rw [outTot_of_eq m c t _ (by omega)]
  congr 1
  funext a
  match a with
  | ⟨0, _⟩ => exact Fin.ext (by show (i 0).val % 8 = (y 0).val; omega)
  | ⟨1, _⟩ => exact Fin.ext (by show (i 1).val = (y 1).val; exact h1)

end Cert.KernelIdeal.Hand

end
-- ==== Proof.KiValueDefs.lean ====
/-
  The values the kernel body works with between row tiles, as definitions: the starting values of the ten
  accumulators, one row tile folded into the accumulators (each accumulator combined, by minimum or maximum, with the
  tile's statistic), the ten accumulators written out side by side, and the fold over the tiles of a batch block
  (start afresh at the block's first tile, fold the tile in otherwise).
-/
import proofs.«124476_j14413910245512_2_alg».proof.Proof.KiAcc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz5 : (![0, 0, 0, 0, 0] : Fin 5 → Nat) = fun _ => 0 := funext fun a => by fin_cases a <;> rfl

/-- The starting values. -/
def initAcc : Acc F := ⟨VO.read (Elt F) VO.junk, (k0_pay5 (F := F)), (k0_pay6 (F := F)), (k0_pay7 (F := F)), (k0_pay8 (F := F)), (k0_pay9 (F := F)), (k0_pay10 (F := F)), (k0_pay11 (F := F)), (k0_pay13 (k0_pay12 (F := F))), (k0_pay14 (F := F)), (k0_pay15 (F := F))⟩

/-- One row tile folded into the accumulators `p` (the output block untouched). -/
def upd (i : grid0.Coords) (x0 x1 : Vec F S8x1x21x32x512 .f32) (p : Acc F) : Acc F :=
  ⟨VO.read (Elt F) VO.junk,
   k0_pay36 (k0_pay22 (k0_pay18 x0) (k0_pay20 i)) p.s0,
   k0_pay38 (k0_pay37 (k0_pay24 (k0_pay19 x0) (k0_pay21 (F := F))) p.s1),
   k0_pay39 (k0_pay23 (k0_pay18 x0) (k0_pay20 i)) p.s2,
   k0_pay40 (k0_pay25 (k0_pay19 x0) (k0_pay21 (F := F))) p.s3,
   k0_pay41 (k0_pay31 (k0_pay27 (F := F) (k0_pay17 x1)) (Scalar.muli (BitVec.ofNat 32 (i 1).val) 32#32) (iota .tc S8x32 32 [1] iota_S8x32_d1_w32)) p.s4,
   k0_pay42 (k0_pay33 (k0_pay28 (F := F) (k0_pay17 x1))) p.s5,
   k0_pay43 (k0_pay32 (k0_pay27 (F := F) (k0_pay17 x1)) (Scalar.muli (BitVec.ofNat 32 (i 1).val) 32#32) (iota .tc S8x32 32 [1] iota_S8x32_d1_w32)) p.s6,
   k0_pay1 (k0_pay44 (k0_pay34 (k0_pay28 (F := F) (k0_pay17 x1))) p.s7),
   k0_pay2 (k0_pay26 (k0_pay18 x0)) p.s8,
   k0_pay3 (k0_pay35 (k0_pay27 (F := F) (k0_pay17 x1))) p.s9⟩

/-- The same, with the ten columns written out. -/
def fin (a : Acc F) : Acc F := { a with out := k0_pay4 a.s0 a.s1 a.s2 a.s3 a.s4 a.s5 a.s6 a.s7 a.s8 a.s9 }

/-- The accumulators after point `n`, as a fold: start afresh at the first tile of a batch block, fold the tile in otherwise. -/
def chain (c : Dev nD) : (n : ℕ) → n < cfg0.N → Acc F
  | 0, h => upd (grid0.coords ⟨0, h⟩) (iblk m c 0 ⟨0, h⟩) (iblk m c 1 ⟨0, h⟩) initAcc
  | n + 1, h =>
    if (n + 1) % 16 = 0 then upd (grid0.coords ⟨n + 1, h⟩) (iblk m c 0 ⟨n + 1, h⟩) (iblk m c 1 ⟨n + 1, h⟩) initAcc
    else upd (grid0.coords ⟨n + 1, h⟩) (iblk m c 0 ⟨n + 1, h⟩) (iblk m c 1 ⟨n + 1, h⟩) (chain c n (Nat.lt_of_succ_lt h))

end Cert.KernelIdeal.Hand

end
-- ==== Proof.KiRdA.lean ====
/-
  What the symbolic run of the body at the first row tile of a batch block leaves in each accumulator, read back as a value: the last store into an
  accumulator is a store of the whole buffer, so the buffer reads back as that store's payload, whose loads are the
  input blocks and the accumulators' old contents.
-/
import proofs.«124476_j14413910245512_2_alg».proof.Proof.KiValueDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem rdA_0 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).1 = k0_pay36 (k0_pay22 (k0_pay18 x0) (k0_pay20 i)) (k0_pay5 (F := F)) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_1 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.1 = k0_pay38 (k0_pay37 (k0_pay24 (k0_pay19 x0) (k0_pay21 (F := F))) (k0_pay6 (F := F))) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_2 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.2.1 = k0_pay39 (k0_pay23 (k0_pay18 x0) (k0_pay20 i)) (k0_pay7 (F := F)) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_3 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.2.2.1 = k0_pay40 (k0_pay25 (k0_pay19 x0) (k0_pay21 (F := F))) (k0_pay8 (F := F)) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_4 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.1 = k0_pay41 (k0_pay31 (k0_pay27 (F := F) (k0_pay17 x1)) (Scalar.muli (BitVec.ofNat 32 (i 1).val) 32#32) (iota .tc S8x32 32 [1] iota_S8x32_d1_w32)) (k0_pay9 (F := F)) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_5 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.1 = k0_pay42 (k0_pay33 (k0_pay28 (F := F) (k0_pay17 x1))) (k0_pay10 (F := F)) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_6 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.1 = k0_pay43 (k0_pay32 (k0_pay27 (F := F) (k0_pay17 x1)) (Scalar.muli (BitVec.ofNat 32 (i 1).val) 32#32) (iota .tc S8x32 32 [1] iota_S8x32_d1_w32)) (k0_pay11 (F := F)) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_7 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.2.1 = k0_pay1 (k0_pay44 (k0_pay34 (k0_pay28 (F := F) (k0_pay17 x1))) (k0_pay13 (k0_pay12 (F := F)))) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_8 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.2.2.1 = k0_pay2 (k0_pay26 (k0_pay18 x0)) (k0_pay14 (F := F)) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdA_9 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : cond0_0 i) (hc1 : ¬cond0_1 i)
    (x0 x1 : Vec F S8x1x21x32x512 .f32) :
    rd (kernelRun_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1).2.2.2.2.2.2.2.2.2.1 = k0_pay3 (k0_pay35 (k0_pay27 (F := F) (k0_pay17 x1))) (k0_pay15 (F := F)) := by
  unfold rd kernelRun_A
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]

end Cert.KernelIdeal.Hand

end
-- ==== Proof.KiRdB.lean ====
/-
  What the symbolic run of the body at a row tile that is neither first nor last of its batch block leaves in each accumulator, read back as a value: the last store into an
  accumulator is a store of the whole buffer, so the buffer reads back as that store's payload, whose loads are the
  input blocks and the accumulators' old contents.
-/
import proofs.«124476_j14413910245512_2_alg».proof.Proof.KiValueDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem rdB_0 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).1 = k0_pay36 (k0_pay22 (k0_pay18 x0) (k0_pay20 i)) xs0 := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_1 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.1 = k0_pay38 (k0_pay37 (k0_pay24 (k0_pay19 x0) (k0_pay21 (F := F))) xs1) := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_2 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.1 = k0_pay39 (k0_pay23 (k0_pay18 x0) (k0_pay20 i)) xs2 := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_3 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.1 = k0_pay40 (k0_pay25 (k0_pay19 x0) (k0_pay21 (F := F))) xs3 := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_4 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.1 = k0_pay41 (k0_pay31 (k0_pay27 (F := F) (k0_pay17 x1)) (Scalar.muli (BitVec.ofNat 32 (i 1).val) 32#32) (iota .tc S8x32 32 [1] iota_S8x32_d1_w32)) xs4 := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_5 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.1 = k0_pay42 (k0_pay33 (k0_pay28 (F := F) (k0_pay17 x1))) xs5 := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_6 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.1 = k0_pay43 (k0_pay32 (k0_pay27 (F := F) (k0_pay17 x1)) (Scalar.muli (BitVec.ofNat 32 (i 1).val) 32#32) (iota .tc S8x32 32 [1] iota_S8x32_d1_w32)) xs6 := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_7 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.2.1 = k0_pay1 (k0_pay44 (k0_pay34 (k0_pay28 (F := F) (k0_pay17 x1))) xs7) := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_8 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.2.2.1 = k0_pay2 (k0_pay26 (k0_pay18 x0)) xs8 := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdB_9 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : ¬cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.2.2.2.1 = k0_pay3 (k0_pay35 (k0_pay27 (F := F) (k0_pay17 x1))) xs9 := by
  unfold rd kernelRun_B
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]

end Cert.KernelIdeal.Hand

end
-- ==== Proof.KiRdC.lean ====
/-
  What the symbolic run of the body at the last row tile of a batch block leaves in each accumulator and in the output block, read back as a value: the last store into an
  accumulator is a store of the whole buffer, so the buffer reads back as that store's payload, whose loads are the
  input blocks and the accumulators' old contents.
-/
import proofs.«124476_j14413910245512_2_alg».proof.Proof.KiValueDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem rdC_0 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.1 = k0_pay36 (k0_pay22 (k0_pay18 x0) (k0_pay20 i)) xs0 := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_1 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.1 = k0_pay38 (k0_pay37 (k0_pay24 (k0_pay19 x0) (k0_pay21 (F := F))) xs1) := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_2 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.1 = k0_pay39 (k0_pay23 (k0_pay18 x0) (k0_pay20 i)) xs2 := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_3 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.1 = k0_pay40 (k0_pay25 (k0_pay19 x0) (k0_pay21 (F := F))) xs3 := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_4 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.1 = k0_pay41 (k0_pay31 (k0_pay27 (F := F) (k0_pay17 x1)) (Scalar.muli (BitVec.ofNat 32 (i 1).val) 32#32) (iota .tc S8x32 32 [1] iota_S8x32_d1_w32)) xs4 := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_5 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.1 = k0_pay42 (k0_pay33 (k0_pay28 (F := F) (k0_pay17 x1))) xs5 := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_6 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.2.1 = k0_pay43 (k0_pay32 (k0_pay27 (F := F) (k0_pay17 x1)) (Scalar.muli (BitVec.ofNat 32 (i 1).val) 32#32) (iota .tc S8x32 32 [1] iota_S8x32_d1_w32)) xs6 := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_7 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.2.2.1 = k0_pay1 (k0_pay44 (k0_pay34 (k0_pay28 (F := F) (k0_pay17 x1))) xs7) := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_8 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.2.2.2.1 = k0_pay2 (k0_pay26 (k0_pay18 x0)) xs8 := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_9 (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rd (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).2.2.2.2.2.2.2.2.2.2.1 = k0_pay3 (k0_pay35 (k0_pay27 (F := F) (k0_pay17 x1))) xs9 := by
  unfold rd kernelRun_C
  dsimp only
  refine (read_writes_last (F := F) _ _ hz2 inb_S8x1_S8x1_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]
theorem rdC_out (c : Dev nD) (i : grid0.Coords) (arg2 : Memref sig .tc .vmem S8x1x21x32x512 .f32) (harg2 : arg2.IsWhole) (arg3 : Memref sig .tc .vmem S8x1x21x32x512 .f32) (harg3 : arg3.IsWhole) (arg4 : Memref sig .tc .vmem S8x10 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1 .f32) (harg13 : arg13.IsWhole) (arg14 : Memref sig .tc .vmem S8x1 .f32) (harg14 : arg14.IsWhole) (hc0 : ¬cond0_0 i) (hc1 : cond0_1 i)
    (x0 x1 : Vec F S8x1x21x32x512 .f32) (xs0 : Vec F S8x1 .f32) (xs1 : Vec F S8x1 .f32) (xs2 : Vec F S8x1 .f32) (xs3 : Vec F S8x1 .f32) (xs4 : Vec F S8x1 .f32) (xs5 : Vec F S8x1 .f32) (xs6 : Vec F S8x1 .f32) (xs7 : Vec F S8x1 .f32) (xs8 : Vec F S8x1 .f32) (xs9 : Vec F S8x1 .f32) :
    rdo (kernelRun_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 xs5 xs6 xs7 xs8 xs9).1
      = k0_pay4 (k0_pay36 (k0_pay22 (k0_pay18 x0) (k0_pay20 i)) xs0) (k0_pay38 (k0_pay37 (k0_pay24 (k0_pay19 x0) (k0_pay21 (F := F))) xs1)) (k0_pay39 (k0_pay23 (k0_pay18 x0) (k0_pay20 i)) xs2) (k0_pay40 (k0_pay25 (k0_pay19 x0) (k0_pay21 (F := F))) xs3) (k0_pay41 (k0_pay31 (k0_pay27 (F := F) (k0_pay17 x1)) (Scalar.muli (BitVec.ofNat 32 (i 1).val) 32#32) (iota .tc S8x32 32 [1] iota_S8x32_d1_w32)) xs4) (k0_pay42 (k0_pay33 (k0_pay28 (F := F) (k0_pay17 x1))) xs5) (k0_pay43 (k0_pay32 (k0_pay27 (F := F) (k0_pay17 x1)) (Scalar.muli (BitVec.ofNat 32 (i 1).val) 32#32) (iota .tc S8x32 32 [1] iota_S8x32_d1_w32)) xs6) (k0_pay1 (k0_pay44 (k0_pay34 (k0_pay28 (F := F) (k0_pay17 x1))) xs7)) (k0_pay2 (k0_pay26 (k0_pay18 x0)) xs8) (k0_pay3 (k0_pay35 (k0_pay27 (F := F) (k0_pay17 x1))) xs9) := by
  unfold rdo kernelRun_C
  dsimp only
  refine (read_writes_last (F := F) _ _ hz2 inb_S8x10_S8x10_0_0 _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x1) hz2, View.ld_unit_zero (S := S8x10) hz2, View.ld_unit_zero (S := S8x1x21x32x512) hz5, View.readCov_unit_zero (S := S8x1) _ hz2]

end Cert.KernelIdeal.Hand

end
-- ==== Proof.KiValue.lean ====
/-
  What the three runs leave, as values. At every row tile each accumulator ends at "its old
  contents combined (min for the lower bounds, max for the upper bounds and the flags) with the
  tile's statistic"; at the first tile of a batch block the old contents are the starting values; at
  the last tile the output block is the ten accumulators side by side. So the accumulators after a
  point are a fold over the tiles of the point's batch block, by induction on the point.
-/
import proofs.«124476_j14413910245512_2_alg».proof.Proof.KiRdA
import proofs.«124476_j14413910245512_2_alg».proof.Proof.KiRdB
import proofs.«124476_j14413910245512_2_alg».proof.Proof.KiRdC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Two values with equal fields are equal. -/
theorem Acc.ext' {a b : Acc F} (ho : a.out = b.out) (h0 : a.s0 = b.s0) (h1 : a.s1 = b.s1) (h2 : a.s2 = b.s2) (h3 : a.s3 = b.s3)
    (h4 : a.s4 = b.s4) (h5 : a.s5 = b.s5) (h6 : a.s6 = b.s6) (h7 : a.s7 = b.s7) (h8 : a.s8 = b.s8) (h9 : a.s9 = b.s9) : a = b := by
  obtain ⟨ao, a0, a1, a2, a3, a4, a5, a6, a7, a8, a9⟩ := a
  obtain ⟨bo, b0, b1, b2, b3, b4, b5, b6, b7, b8, b9⟩ := b
  dsimp only at ho h0 h1 h2 h3 h4 h5 h6 h7 h8 h9
  subst ho h0 h1 h2 h3 h4 h5 h6 h7 h8 h9
  rfl

set_option maxHeartbeats 4000000 in
theorem accA_eq (c : Dev nD) (t : Fin cfg0.N) (h0 : cond0_0 (grid0.coords t)) (h1 : ¬cond0_1 (grid0.coords t)) :
    accA m c t h0 h1 = upd (grid0.coords t) (iblk m c 0 t) (iblk m c 1 t) initAcc :=
  Acc.ext' rfl
    (rdA_0 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_1 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_2 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_3 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_4 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_5 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_6 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_7 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_8 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
    (rdA_9 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t))
set_option maxHeartbeats 4000000 in
theorem accB_eq (c : Dev nD) (t : Fin cfg0.N) (h0 : ¬cond0_0 (grid0.coords t)) (h1 : ¬cond0_1 (grid0.coords t)) (p : Acc F) :
    accB m c t h0 h1 p = upd (grid0.coords t) (iblk m c 0 t) (iblk m c 1 t) p :=
  Acc.ext' rfl
    (rdB_0 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_1 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_2 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_3 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_4 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_5 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_6 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_7 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_8 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdB_9 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
set_option maxHeartbeats 4000000 in
theorem accC_eq (c : Dev nD) (t : Fin cfg0.N) (h0 : ¬cond0_0 (grid0.coords t)) (h1 : cond0_1 (grid0.coords t)) (p : Acc F) :
    accC m c t h0 h1 p = fin (upd (grid0.coords t) (iblk m c 0 t) (iblk m c 1 t) p) :=
  Acc.ext' (rdC_out (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_0 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_1 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_2 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_3 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_4 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_5 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_6 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_7 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_8 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)
    (rdC_9 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) h0 h1 (iblk m c 0 t) (iblk m c 1 t) p.s0 p.s1 p.s2 p.s3 p.s4 p.s5 p.s6 p.s7 p.s8 p.s9)

/-- What the recursion over the runs' found pieces leaves IS that fold — up to the output block, which is the ten columns at a last tile. -/
theorem outsAt_eq (c : Dev nD) : ∀ (n : ℕ) (h : n < cfg0.N),
    outsAt m c n h = if n % 16 = 15 then fin (chain m c n h) else chain m c n h
  | 0, h => by
    rw [if_neg (by decide)]
    exact (outsAt_A m c ⟨0, h⟩ (Nat.zero_mod _) (by dsimp only; omega)).trans (accA_eq m c _ _ _)
  | n + 1, h => by
    have hN : cfg0.N = 32 := N_0
    by_cases h0 : (n + 1) % 16 = 0
    · have h1 : ¬(n + 1) % 16 = 15 := by omega
      rw [if_neg h1, outsAt_A m c ⟨n + 1, h⟩ h0 h1, accA_eq]
      show _ = chain m c (n + 1) h
      rw [chain, if_pos h0]
    · have ih := outsAt_eq c n (Nat.lt_of_succ_lt h)
      have hn : ¬n % 16 = 15 := by omega
      rw [if_neg hn] at ih
      by_cases h1 : (n + 1) % 16 = 15
      · rw [if_pos h1, outsAt_C m c ⟨n + 1, h⟩ h0 h1, accC_eq]
        show fin (upd _ _ _ (outsAt m c n _)) = fin (chain m c (n + 1) h)
        rw [ih, chain, if_neg h0]
      · rw [if_neg h1, outsAt_B m c ⟨n + 1, h⟩ h0 h1, accB_eq]
        show upd _ _ _ (outsAt m c n _) = chain m c (n + 1) h
        rw [ih, chain, if_neg h0]

end Cert.KernelIdeal.Hand

end
-- ==== Proof.TailSpec.lean ====
/-
  The arithmetic that follows the bounding-box statistics, as ONE function of the statistics array.

  The array `s` has one row per batch entry `b` (sixteen of them) and ten columns: columns 0..3 hold
  (ymin, xmin, ymax, xmax) of the first mask, columns 4..7 the same four numbers of the second mask, column 8 is 1
  when the first mask has a true entry and 0 otherwise, column 9 likewise for the second mask. From a row the
  penalty of the entry is computed: when both masks are non-empty it is

      max (A₁ - A₂) 0 / (A₂ + 1)  +  √((cy₁ - cy₂)² + (cx₁ - cx₂)²) / 20,

  with Aᵢ = (ymaxᵢ - yminᵢ + 1)(xmaxᵢ - xminᵢ + 1) the area of box i and (cyᵢ, cxᵢ) = ((yminᵢ + ymaxᵢ)/2,
  (xminᵢ + xmaxᵢ)/2) its centre; otherwise it is 1. The result is 0.05 times the mean of the sixteen penalties.
  Everything is over the extended reals, each operation the exact one; the float constants are kept as the words
  the program writes (0x3F800000 is 1, 0x40000000 is 2, 0x41A00000 is 20, 0x41800000 is 16, 0x3F000000 is 1/2,
  0x3D4CCCCD is the float nearest 0.05), and the lemmas at the end give the values of those that are whole or
  half numbers.
-/
import Idealize.ShloMosaic.PureOps.Ideal
import Idealize.ShloMosaic.PureOps.Ideal.Laws
import Idealize.ShloMosaic.Lib.ValueIdx

noncomputable section

open scoped BigOperators

namespace Cert.TailSide

open Idealize.ShloMosaic Idealize.ShloMosaic.ValueIdx

/-- The statistics array's shape: sixteen batch entries, ten numbers each. -/
abbrev SStats : Shape := ⟨2, ![16, 10]⟩
/-- One number per batch entry. -/
abbrev SBatch : Shape := ⟨1, ![16]⟩
/-- The scalar shape. -/
abbrev SScalar : Shape := ⟨0, ![]⟩
/-- A statistics array at the ideal values. -/
abbrev Stats : Type := SStats.Idx → EReal

/-- Both masks of entry `b` are non-empty: columns 8 and 9 are above one half. -/
def validK (s : Stats) (b : Fin 16) : BitVec 1 :=
  IntOp.andi (Ideal.cmp .ogt (s (ix2 b 8)) (Ideal.ofBits .f32 0x3F000000#32))
    (Ideal.cmp .ogt (s (ix2 b 9)) (Ideal.ofBits .f32 0x3F000000#32))

/-- The area of the box whose (ymin, xmin, ymax, xmax) are columns `y1 x1 y2 x2` of row `b`:
    (ymax - ymin + 1)(xmax - xmin + 1). -/
def areaK (s : Stats) (b : Fin 16) (y1 x1 y2 x2 : Fin 10) : EReal :=
  (s (ix2 b y2) - s (ix2 b y1) + Ideal.ofBits .f32 0x3F800000#32)
    * (s (ix2 b x2) - s (ix2 b x1) + Ideal.ofBits .f32 0x3F800000#32)

/-- The first mask's box area. -/
def predAreaK (s : Stats) (b : Fin 16) : EReal := areaK s b 0 1 2 3
/-- The second mask's box area. -/
def trueAreaK (s : Stats) (b : Fin 16) : EReal := areaK s b 4 5 6 7

/-- The area penalty: the excess of the first area over the second, cut at zero, relative to the second area plus one. -/
def areaPenK (s : Stats) (b : Fin 16) : EReal :=
  Ideal.div (max (predAreaK s b - trueAreaK s b) (Ideal.ofBits .f32 0x00000000#32))
    (trueAreaK s b + Ideal.ofBits .f32 0x3F800000#32)

/-- The midpoint of columns `lo` and `hi` of row `b`: a centre coordinate of a box. -/
def midK (s : Stats) (b : Fin 16) (lo hi : Fin 10) : EReal :=
  Ideal.div (s (ix2 b lo) + s (ix2 b hi)) (Ideal.ofBits .f32 0x40000000#32)

/-- The distance between the two boxes' centres, over twenty. -/
def offsetK (s : Stats) (b : Fin 16) : EReal :=
  Ideal.div
    (Ideal.sqrt ((midK s b 0 2 - midK s b 4 6) * (midK s b 0 2 - midK s b 4 6)
      + (midK s b 1 3 - midK s b 5 7) * (midK s b 1 3 - midK s b 5 7)))
    (Ideal.ofBits .f32 0x41A00000#32)

/-- The penalty of entry `b`: area penalty plus centre offset when both masks are non-empty, else 1. -/
def penK (s : Stats) (b : Fin 16) : EReal :=
  Scalar.select (validK s b) (areaPenK s b + offsetK s b) (Ideal.ofBits .f32 0x3F800000#32)

/-- THE RESULT as a function of the statistics: 0.05 (its float word) times the sum of the sixteen penalties over sixteen. -/
def tailK (s : Stats) : SScalar.Idx → EReal := fun _ =>
  Ideal.ofBits .f32 0x3D4CCCCD#32
    * Ideal.div (Ideal.ofBits .f32 0x00000000#32 + ∑ j : SBatch.Idx, penK s (j 0)) (Ideal.ofBits .f32 0x41800000#32)

/-! ## The result depends on the statistics only through the penalties -/

/-- Two statistics arrays with the same sixteen penalties give the same result. -/
theorem tailK_congr {s s' : Stats} (h : ∀ b : Fin 16, penK s b = penK s' b) : tailK s = tailK s' := by
  funext i
  unfold tailK
  rw [Finset.sum_congr rfl fun j _ => h (j 0)]

/-! ## The words that denote whole or half numbers -/

theorem word_one : Ideal.ofBits .f32 0x3F800000#32 = 1 := IdealRules.sign_bit.ideal_onePat .f32
theorem word_zero : Ideal.ofBits .f32 0x00000000#32 = 0 := Ideal.ofBits_zero_f32
theorem word_two : Ideal.ofBits .f32 0x40000000#32 = 2 := by
  simp [Ideal.ofBits, Ideal.ieee, -EReal.coe_mul]; norm_num; norm_cast
theorem word_half : Ideal.ofBits .f32 0x3F000000#32 = ((1 / 2 : ℝ) : EReal) := by
  simp [Ideal.ofBits, Ideal.ieee, -EReal.coe_mul]; norm_num
theorem word_sixteen : Ideal.ofBits .f32 0x41800000#32 = 16 := by
  simp [Ideal.ofBits, Ideal.ieee, -EReal.coe_mul]; norm_num; norm_cast
theorem word_twenty : Ideal.ofBits .f32 0x41A00000#32 = 20 := by
  simp [Ideal.ofBits, Ideal.ieee, -EReal.coe_mul]; norm_num; norm_cast

/-! ## The valid bit and the select, by the order -/

/-- A conjunction of two bits is set exactly when both are. -/
theorem andi_eq_one_iff (c d : BitVec 1) : IntOp.andi c d = 1#1 ↔ c = 1#1 ∧ d = 1#1 := by
  revert c d; decide

/-- The comparison "greater than" answers 1 exactly when the order says so. -/
theorem cmp_ogt_eq_one_iff (x y : EReal) : Ideal.cmp .ogt x y = 1#1 ↔ y < x := by
  unfold Ideal.cmp
  by_cases h : y < x <;> simp [h]

/-- The valid bit is set exactly when columns 8 and 9 are both above one half. -/
theorem validK_eq_one_iff (s : Stats) (b : Fin 16) :
    validK s b = 1#1 ↔ ((1 / 2 : ℝ) : EReal) < s (ix2 b 8) ∧ ((1 / 2 : ℝ) : EReal) < s (ix2 b 9) := by
  unfold validK
  rw [word_half, andi_eq_one_iff, cmp_ogt_eq_one_iff, cmp_ogt_eq_one_iff]

/-- With both masks non-empty the penalty is the area penalty plus the centre offset … -/
theorem penK_of_valid {s : Stats} {b : Fin 16} (h : validK s b = 1#1) : penK s b = areaPenK s b + offsetK s b := by
  unfold penK; rw [h]; exact select_one _ _

/-- … and otherwise it is 1. -/
theorem penK_of_not_valid {s : Stats} {b : Fin 16} (h : ¬validK s b = 1#1) : penK s b = 1 := by
  unfold penK; rw [eq_zero_of_ne_one h, select_zero, word_one]

end Cert.TailSide

end
-- ==== Proof.TileLib.lean ====
/-
  Facts about the extended reals and about reductions along one axis that the tile statistics are read with; no
  program is mentioned here.

  * the words for -inf and +inf, and folds of max / min that start from them;
  * a maximum or minimum reduction along one axis, read at an index, as the fold of max / min over that axis's
    coordinates, and the source index such a reduction visits, coordinate by coordinate, for the five pairs of
    shapes the tile computation reduces between;
  * "some entry of a row is set": the maximum over a row of (1 where the bit is set, 0 elsewhere) is above 0
    exactly when some bit of the row is set;
  * a signed 32-bit integer that is a small natural number converts to that number.
-/
import proofs.«124476_j14413910245512_2_alg».proof.Proof.TailSpec
import Idealize.ShloMosaic.Lib.Pipeline.Value

noncomputable section

open scoped BigOperators

namespace Cert.TileSide

open Idealize.ShloMosaic Idealize.ShloMosaic.ValueIdx
open Cert.TailSide (word_one word_zero cmp_ogt_eq_one_iff)

/-! ## The infinities' words -/

theorem word_ninf : Ideal.ofBits .f32 0xFF800000#32 = ⊥ := by
  simp [Ideal.ofBits, Ideal.ieee]
theorem word_pinf : Ideal.ofBits .f32 0x7F800000#32 = ⊤ := by
  simp [Ideal.ofBits, Ideal.ieee]

/-! ## A reduction along one axis is a fold over that axis's coordinates -/

/-- A maximum reduction along axis `a`, from the word of -inf, read at `j`. -/
theorem maxRed_apply {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j
      = (Finset.univ : Finset (Fin (s.size a))).fold max (Ideal.ofBits .f32 0xFF800000#32) (fun k => src (h.lift j k)) :=
  Ideal.multiReduction_maximumf_single src _ h hφ hacc j

/-- A minimum reduction along axis `a`, from the word of +inf, read at `j`. -/
theorem minRed_apply {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).fold min (Ideal.ofBits .f32 0x7F800000#32) (fun k => src (h.lift j k)) := by
  rw [multiReduction_minimumf_eq_fold]
  exact h.fold_filter_drop_single _ _ src j

/-! ## The index a one-axis reduction visits, for the shapes of the tile computation -/

theorem lift_chan (h : (⟨4, ![8, 21, 32, 512]⟩ : Shape).Reduces [1] ⟨3, ![8, 32, 512]⟩) (p : Fin 8) (r : Fin 32) (w : Fin 512)
    (c : Fin 21) : h.lift (ix3 p r w) c = ix4 p c r w := by
  funext a
  match a with
  | ⟨0, _⟩ => exact Fin.ext rfl
  | ⟨1, _⟩ => exact Fin.ext rfl
  | ⟨2, _⟩ => exact Fin.ext rfl
  | ⟨3, _⟩ => exact Fin.ext rfl

theorem lift_lane (h : (⟨3, ![8, 32, 512]⟩ : Shape).Reduces [2] ⟨2, ![8, 32]⟩) (p : Fin 8) (r : Fin 32) (w : Fin 512) :
    h.lift (ix2 p r) w = ix3 p r w := by
  funext a
  match a with
  | ⟨0, _⟩ => exact Fin.ext rfl
  | ⟨1, _⟩ => exact Fin.ext rfl
  | ⟨2, _⟩ => exact Fin.ext rfl

theorem lift_sub (h : (⟨3, ![8, 32, 512]⟩ : Shape).Reduces [1] ⟨2, ![8, 512]⟩) (p : Fin 8) (r : Fin 32) (w : Fin 512) :
    h.lift (ix2 p w) r = ix3 p r w := by
  funext a
  match a with
  | ⟨0, _⟩ => exact Fin.ext rfl
  | ⟨1, _⟩ => exact Fin.ext rfl
  | ⟨2, _⟩ => exact Fin.ext rfl

theorem lift_row (h : (⟨2, ![8, 32]⟩ : Shape).Reduces [1] ⟨1, ![8]⟩) (p : Fin 8) (r : Fin 32) :
    h.lift (ix1 p) r = ix2 p r := by
  funext a
  match a with
  | ⟨0, _⟩ => exact Fin.ext rfl
  | ⟨1, _⟩ => exact Fin.ext rfl

theorem lift_col (h : (⟨2, ![8, 512]⟩ : Shape).Reduces [1] ⟨1, ![8]⟩) (p : Fin 8) (w : Fin 512) :
    h.lift (ix1 p) w = ix2 p w := by
  funext a
  match a with
  | ⟨0, _⟩ => exact Fin.ext rfl
  | ⟨1, _⟩ => exact Fin.ext rfl

/-! ## "Some bit is set" as a maximum of ones and zeros -/

/-- Over any finite index type: the maximum, from -inf, of (1 where the bit is set, 0 elsewhere) is above 0 exactly
    when some bit is set. -/
theorem zero_lt_fold_max_select {ι : Type} [Fintype ι] (m : ι → BitVec 1) :
    Ideal.ofBits .f32 0x00000000#32
        < (Finset.univ : Finset ι).fold max (Ideal.ofBits .f32 0xFF800000#32)
            (fun k => Scalar.select (m k) (Ideal.ofBits .f32 0x3F800000#32) (Ideal.ofBits .f32 0x00000000#32))
      ↔ ∃ k, m k = 1#1 := by
  rw [word_zero, word_one, word_ninf, Finset.lt_fold_max]
  constructor
  · rintro (h | ⟨k, _, hk⟩)
    · exact absurd h (not_lt.mpr bot_le)
    · refine ⟨k, ?_⟩
      by_contra hne
      rw [eq_zero_of_ne_one hne, select_zero] at hk
      exact lt_irrefl _ hk
  · rintro ⟨k, hk⟩
    refine Or.inr ⟨k, Finset.mem_univ _, ?_⟩
    rw [hk, select_one]
    exact zero_lt_one

/-! ## Small integers convert to themselves -/

/-- A 32-bit word that is the natural number `n` below 2^31, read as a signed integer and converted, is `n`. -/
theorem sitofp_ofNat (n : Nat) (hn : n < 2 ^ 31) :
    FloatOps.sitofp (F := Ideal) .f32 (BitVec.ofNat 32 n) = ((n : ℝ) : EReal) := by
  show (((BitVec.ofNat 32 n).toInt : ℝ) : EReal) = _
  have h : (BitVec.ofNat 32 n).toInt = (n : Int) := by
    rw [BitVec.toInt_eq_toNat_of_lt (by rw [BitVec.toNat_ofNat]; omega), BitVec.toNat_ofNat]
    omega
  rw [h]
  norm_cast

/-- The row number of row `r` of tile `t`: the word `t · 32 + r`, computed in 32-bit arithmetic, converts to that number. -/
theorem sitofp_rowNumber (t r : Nat) (ht : t < 16) (hr : r < 32) :
    FloatOps.sitofp (F := Ideal) .f32 (IntOp.addi (IntOp.muli (BitVec.ofNat 32 t) 32#32) (BitVec.ofNat 32 r))
      = (((t * 32 + r : Nat) : ℝ) : EReal) := by
  have h : IntOp.addi (IntOp.muli (BitVec.ofNat 32 t) 32#32) (BitVec.ofNat 32 r) = BitVec.ofNat 32 (t * 32 + r) := by
    show BitVec.ofNat 32 t * 32#32 + BitVec.ofNat 32 r = _
    apply BitVec.eq_of_toNat_eq
    simp only [BitVec.toNat_add, BitVec.toNat_mul, BitVec.toNat_ofNat]
    omega
  rw [h]
  exact sitofp_ofNat _ (by omega)

/-- A one-bit word, zero-extended to 32 bits and converted: 1 for a set bit, 0 otherwise. -/
theorem sitofp_extui_bit (b : BitVec 1) :
    FloatOps.sitofp (F := Ideal) .f32 (b.setWidth 32) = if b = 1#1 then (1 : EReal) else 0 := by
  rcases BitVec.eq_zero_or_eq_one b with h | h <;> subst h
  · show ((((0#1 : BitVec 1).setWidth 32).toInt : ℝ) : EReal) = _
    simp
  · show ((((1#1 : BitVec 1).setWidth 32).toInt : ℝ) : EReal) = _
    simp

end Cert.TileSide

end
-- ==== Proof.TileMask.lean ====
/-
  The two masks of a tile and their "some entry set" bits, read at an index.

  A loaded block `v` has shape [8, 1, 21, 32, 512]: eight batch entries, a unit axis, 21 channels, the tile's 32
  rows and the 512 columns. The mask at (p, r, w) is set when the maximum over the 21 channels of v(p, 0, c, r, w)
  is above the threshold word; the row bit at (p, r) is set when some column of row r is in the mask, the column
  bit at (p, w) when some row of the tile is in the mask at column w. The program spells the two bits as the
  maximum along the row (column) of 1 where the mask is set and 0 elsewhere, compared with 0.
-/
import proofs.«124476_j14413910245512_2_alg».proof.Proof.Gen.KernelIdeal.Skeleton
import proofs.«124476_j14413910245512_2_alg».proof.Proof.TileLib

noncomputable section

namespace Cert.TileSide

open Cert.KernelIdeal Cert.KernelIdeal.Gen Idealize.ShloMosaic Idealize.ShloMosaic.ValueIdx
open Cert.TailSide (word_one word_zero cmp_ogt_eq_one_iff)

/-- The maximum over the 21 channels of block `v` at batch entry `p`, tile row `r`, column `w`, from the word of -inf. -/
def chanMax (v : Vec Ideal S8x1x21x32x512 .f32) (p : Fin 8) (r : Fin 32) (w : Fin 512) : EReal :=
  (Finset.univ : Finset (Fin 21)).fold max (Ideal.ofBits .f32 0xFF800000#32) (fun c => v (ix5 p 0 c r w))

/-- The channel maximum as the program computes it: drop the unit axis, reduce along the channel axis. -/
theorem chanRed_apply (v : Vec Ideal S8x1x21x32x512 .f32) (p : Fin 8) (r : Fin 32) (w : Fin 512) :
    multiReduction (F := Ideal) .maximumf [1] S8x32x512 (shapeCast S8x21x32x512 v shapeCasts_S8x1x21x32x512_S8x21x32x512)
        0xFF800000#32 reduces_S8x21x32x512_S8x32x512 (.inl rfl) rfl (ix3 p r w) = chanMax v p r w := by
  refine (maxRed_apply (shapeCast S8x21x32x512 v shapeCasts_S8x1x21x32x512_S8x21x32x512)
    reduces_S8x21x32x512_S8x32x512 (.inl rfl) rfl (ix3 p r w)).trans ?_
  unfold chanMax
  refine Finset.fold_congr fun c _ => ?_
  show shapeCast S8x21x32x512 v shapeCasts_S8x1x21x32x512_S8x21x32x512
      (reduces_S8x21x32x512_S8x32x512.lift (ix3 p r w) c) = _
  rw [lift_chan reduces_S8x21x32x512_S8x32x512 p r w c]
  refine shapeCast_apply v shapeCasts_S8x1x21x32x512_S8x21x32x512 (ix4 p c r w) (ix5 p 0 c r w) ?_
  rw [Shape.rowMajor_val_five, Shape.rowMajor_val_four]
  show (((p.val * 1 + 0) * 21 + c.val) * 32 + r.val) * 512 + w.val = ((p.val * 21 + c.val) * 32 + r.val) * 512 + w.val
  omega

/-- A mask of the tile for a threshold word `θ`, at (p, r, w). -/
theorem mask_core (θ : BitVec 32) (v : Vec Ideal S8x1x21x32x512 .f32) (p : Fin 8) (r : Fin 32) (w : Fin 512) :
    cmpf (F := Ideal) .ogt
        (multiReduction (F := Ideal) .maximumf [1] S8x32x512
          (shapeCast S8x21x32x512 v shapeCasts_S8x1x21x32x512_S8x21x32x512) 0xFF800000#32
          reduces_S8x21x32x512_S8x32x512 (.inl rfl) rfl)
        (broadcast S8x32x512 (Scalar.ofBits (F := Ideal) .f32 θ)) (ix3 p r w) = 1#1
      ↔ Ideal.ofBits .f32 θ < chanMax v p r w := by
  rw [cmpf_apply, broadcast_apply, Ideal.cmpf_def, Ideal.ofBits_def, cmp_ogt_eq_one_iff, chanRed_apply]

/-- THE FIRST MASK at (p, r, w): the channel maximum is above the word 0x3E99999A (the float nearest 0.3). -/
theorem pay16_apply (v : Vec Ideal S8x1x21x32x512 .f32) (p : Fin 8) (r : Fin 32) (w : Fin 512) :
    k0_pay16 v (ix3 p r w) = 1#1 ↔ Ideal.ofBits .f32 0x3E99999A#32 < chanMax v p r w := by
  unfold k0_pay16
  exact mask_core _ v p r w

/-- THE SECOND MASK at (p, r, w): the channel maximum is above the word 0x3F000000 (one half). -/
theorem pay17_apply (v : Vec Ideal S8x1x21x32x512 .f32) (p : Fin 8) (r : Fin 32) (w : Fin 512) :
    k0_pay17 v (ix3 p r w) = 1#1 ↔ Ideal.ofBits .f32 0x3F000000#32 < chanMax v p r w := by
  unfold k0_pay17
  exact mask_core _ v p r w

/-- The first mask's bit at (p, r, w) AS A COMPARISON: the channel maximum, as a fold of the maximum operation from the
    word of -inf over the 21 channels, compared with the threshold word. -/
theorem pay16_eq (v : Vec Ideal S8x1x21x32x512 .f32) (p : Fin 8) (r : Fin 32) (w : Fin 512) :
    k0_pay16 v (ix3 p r w)
      = FloatOps.cmpf (F := Ideal) .ogt
          ((Finset.univ : Finset (Fin 21)).fold FloatOps.maximumf (Ideal.ofBits .f32 0xFF800000#32)
            (fun c => v (ix5 p 0 c r w)))
          (Ideal.ofBits .f32 0x3E99999A#32) := by
  unfold k0_pay16
  rw [cmpf_apply, broadcast_apply, chanRed_apply]
  rfl

/-- The second mask's bit likewise, with the word of one half. -/
theorem pay17_eq (v : Vec Ideal S8x1x21x32x512 .f32) (p : Fin 8) (r : Fin 32) (w : Fin 512) :
    k0_pay17 v (ix3 p r w)
      = FloatOps.cmpf (F := Ideal) .ogt
          ((Finset.univ : Finset (Fin 21)).fold FloatOps.maximumf (Ideal.ofBits .f32 0xFF800000#32)
            (fun c => v (ix5 p 0 c r w)))
          (Ideal.ofBits .f32 0x3F000000#32) := by
  unfold k0_pay17
  rw [cmpf_apply, broadcast_apply, chanRed_apply]
  rfl

/-- "Some column of row r is in the mask", for any mask `m` of the tile. -/
theorem rowAny_core (m : IVec S8x32x512 1) (p : Fin 8) (r : Fin 32) :
    cmpf (F := Ideal) .ogt
        (multiReduction (F := Ideal) .maximumf [2] S8x32
          (select m (broadcast S8x32x512 (Scalar.ofBits (F := Ideal) .f32 0x3F800000#32))
            (broadcast S8x32x512 (Scalar.ofBits (F := Ideal) .f32 0x00000000#32)))
          0xFF800000#32 reduces_S8x32x512_S8x32 (.inl rfl) rfl)
        (broadcast S8x32 (Scalar.ofBits (F := Ideal) .f32 0x00000000#32)) (ix2 p r) = 1#1
      ↔ ∃ w : Fin 512, m (ix3 p r w) = 1#1 := by
  rw [cmpf_apply, broadcast_apply, Ideal.cmpf_def, Ideal.ofBits_def, cmp_ogt_eq_one_iff]
  have e := maxRed_apply
    (select m (broadcast S8x32x512 (Scalar.ofBits (F := Ideal) .f32 0x3F800000#32))
      (broadcast S8x32x512 (Scalar.ofBits (F := Ideal) .f32 0x00000000#32)))
    reduces_S8x32x512_S8x32 (.inl rfl) rfl (ix2 p r)
  refine (Iff.of_eq (congrArg (fun x => Ideal.ofBits .f32 0x00000000#32 < x) (e.trans ?_))).trans
    (zero_lt_fold_max_select fun w : Fin 512 => m (ix3 p r w))
  refine Finset.fold_congr fun w _ => ?_
  show Scalar.select (m (reduces_S8x32x512_S8x32.lift (ix2 p r) w)) _ _ = _
  rw [lift_lane reduces_S8x32x512_S8x32 p r w]
  rfl

/-- "Some row of the tile is in the mask at column w", for any mask `m` of the tile. -/
theorem colAny_core (m : IVec S8x32x512 1) (p : Fin 8) (w : Fin 512) :
    cmpf (F := Ideal) .ogt
        (multiReduction (F := Ideal) .maximumf [1] S8x512
          (select m (broadcast S8x32x512 (Scalar.ofBits (F := Ideal) .f32 0x3F800000#32))
            (broadcast S8x32x512 (Scalar.ofBits (F := Ideal) .f32 0x00000000#32)))
          0xFF800000#32 reduces_S8x32x512_S8x512 (.inl rfl) rfl)
        (broadcast S8x512 (Scalar.ofBits (F := Ideal) .f32 0x00000000#32)) (ix2 p w) = 1#1
      ↔ ∃ r : Fin 32, m (ix3 p r w) = 1#1 := by
  rw [cmpf_apply, broadcast_apply, Ideal.cmpf_def, Ideal.ofBits_def, cmp_ogt_eq_one_iff]
  have e := maxRed_apply
    (select m (broadcast S8x32x512 (Scalar.ofBits (F := Ideal) .f32 0x3F800000#32))
      (broadcast S8x32x512 (Scalar.ofBits (F := Ideal) .f32 0x00000000#32)))
    reduces_S8x32x512_S8x512 (.inl rfl) rfl (ix2 p w)
  refine (Iff.of_eq (congrArg (fun x => Ideal.ofBits .f32 0x00000000#32 < x) (e.trans ?_))).trans
    (zero_lt_fold_max_select fun r : Fin 32 => m (ix3 p r w))
  refine Finset.fold_congr fun r _ => ?_
  show Scalar.select (m (reduces_S8x32x512_S8x512.lift (ix2 p w) r)) _ _ = _
  rw [lift_sub reduces_S8x32x512_S8x512 p r w]
  rfl

/-- THE FIRST MASK'S ROW BIT at (p, r): some column of row r is in the first mask. -/
theorem pay18_apply (v : Vec Ideal S8x1x21x32x512 .f32) (p : Fin 8) (r : Fin 32) :
    k0_pay18 v (ix2 p r) = 1#1 ↔ ∃ w : Fin 512, k0_pay16 v (ix3 p r w) = 1#1 := by
  unfold k0_pay18
  exact rowAny_core (k0_pay16 v) p r

/-- THE FIRST MASK'S COLUMN BIT at (p, w): some row of the tile is in the first mask at column w. -/
theorem pay19_apply (v : Vec Ideal S8x1x21x32x512 .f32) (p : Fin 8) (w : Fin 512) :
    k0_pay19 v (ix2 p w) = 1#1 ↔ ∃ r : Fin 32, k0_pay16 v (ix3 p r w) = 1#1 := by
  unfold k0_pay19
  exact colAny_core (k0_pay16 v) p w

/-- THE SECOND MASK'S ROW BIT at (p, r), from the mask `m` the program passes on. -/
theorem pay27_apply (m : IVec S8x32x512 1) (p : Fin 8) (r : Fin 32) :
    k0_pay27 (F := Ideal) m (ix2 p r) = 1#1 ↔ ∃ w : Fin 512, m (ix3 p r w) = 1#1 := by
  unfold k0_pay27
  exact rowAny_core m p r

/-- THE SECOND MASK'S COLUMN BIT at (p, w). -/
theorem pay28_apply (m : IVec S8x32x512 1) (p : Fin 8) (w : Fin 512) :
    k0_pay28 (F := Ideal) m (ix2 p w) = 1#1 ↔ ∃ r : Fin 32, m (ix3 p r w) = 1#1 := by
  unfold k0_pay28
  exact colAny_core m p w

end Cert.TileSide

end
-- ==== Proof.TileNum.lean ====
/-
  The row and column numbers of a tile as floats.

  At grid point `i` the row tile is `(i 1)`, one of sixteen; row `r` of the tile is row `(i 1) · 32 + r` of the
  image, computed by the program in 32-bit integers (the tile number times 32 plus a counter along the row axis)
  and converted to a float; the column number is the counter along the column axis, converted. Both are small
  natural numbers, so the conversions are exact and the floats are those numbers.
-/
import proofs.«124476_j14413910245512_2_alg».proof.Proof.Gen.KernelIdeal.Skeleton
import proofs.«124476_j14413910245512_2_alg».proof.Proof.TileLib

noncomputable section

namespace Cert.TileSide

open Cert.KernelIdeal Cert.KernelIdeal.Gen Idealize.ShloMosaic Idealize.ShloMosaic.ValueIdx
open Cert.TailSide (word_one word_zero cmp_ogt_eq_one_iff)

/-- The row numbers, for a tile number `t` below sixteen. -/
theorem rowNum_core (t : Nat) (ht : t < 16) (p : Fin 8) (r : Fin 32) :
    sitofp (F := Ideal) .f32
        (addi (broadcast S8x32 (Scalar.muli (BitVec.ofNat 32 t) 32#32)) (iota .tc S8x32 32 [1] iota_S8x32_d1_w32)) (ix2 p r)
      = (((t * 32 + r.val : Nat) : ℝ) : EReal) := by
  show FloatOps.sitofp (F := Ideal) .f32
      (IntOp.addi (IntOp.muli (BitVec.ofNat 32 t) 32#32) (iota .tc S8x32 32 [1] iota_S8x32_d1_w32 (ix2 p r))) = _
  rw [iota_single_apply]
  exact sitofp_rowNumber t r.val ht r.isLt

/-- The column numbers. -/
theorem colNum_core (p : Fin 8) (w : Fin 512) :
    sitofp (F := Ideal) .f32 (iota .tc S8x512 32 [1] iota_S8x512_d1_w32) (ix2 p w) = ((w.val : ℝ) : EReal) := by
  show FloatOps.sitofp (F := Ideal) .f32 (iota .tc S8x512 32 [1] iota_S8x512_d1_w32 (ix2 p w)) = _
  rw [iota_single_apply]
  exact sitofp_ofNat w.val (by have := w.isLt; omega)

/-- THE ROW NUMBERS of the tile at grid point `i`, at (p, r): the image row `(i 1) · 32 + r`. -/
theorem pay20_apply (i : grid0.Coords) (p : Fin 8) (r : Fin 32) :
    k0_pay20 (F := Ideal) i (ix2 p r) = ((((i 1).val * 32 + r.val : Nat) : ℝ) : EReal) :=
  rowNum_core (i 1).val (i 1).isLt p r

/-- THE COLUMN NUMBERS at (p, w): the column `w`. -/
theorem pay21_apply (p : Fin 8) (w : Fin 512) : k0_pay21 (F := Ideal) (ix2 p w) = ((w.val : ℝ) : EReal) :=
  colNum_core p w

/-- The row numbers again, as the second half of the body recomputes them from the tile number's word and the counter. -/
theorem pay29_apply (t : Nat) (ht : t < 16) (p : Fin 8) (r : Fin 32) :
    k0_pay29 (F := Ideal) (Scalar.muli (BitVec.ofNat 32 t) 32#32) (iota .tc S8x32 32 [1] iota_S8x32_d1_w32) (ix2 p r)
      = (((t * 32 + r.val : Nat) : ℝ) : EReal) :=
  rowNum_core t ht p r

/-- The column numbers again. -/
theorem pay30_apply (p : Fin 8) (w : Fin 512) : k0_pay30 (F := Ideal) (ix2 p w) = ((w.val : ℝ) : EReal) :=
  colNum_core p w

/-- The two spellings of the row numbers agree as vectors (so facts about one carry to the other). -/
theorem pay29_eq_pay20 (i : grid0.Coords) :
    k0_pay29 (F := Ideal) (Scalar.muli (BitVec.ofNat 32 (i 1).val) 32#32) (iota .tc S8x32 32 [1] iota_S8x32_d1_w32)
      = k0_pay20 (F := Ideal) i := rfl

/-- The two spellings of the column numbers agree as vectors. -/
theorem pay30_eq_pay21 : k0_pay30 (F := Ideal) = k0_pay21 (F := Ideal) := rfl

end Cert.TileSide

end
-- ==== Proof.TileRed.lean ====
/-
  The statistics of one tile, read at a batch entry.

  From the row bits ("this row of the tile has an entry in the mask") and the row numbers the tile's smallest and
  largest masked row are taken as a minimum and a maximum along the rows, a row that is not in the mask contributing
  the word 0x4E6E6B28 (1e9) to the minimum and 0xCE6E6B28 (-1e9) to the maximum; the minimum starts from the word of
  +inf and the maximum from the word of -inf. Columns likewise along the 512 columns. The "any" flag is 1 when some
  row bit is set and 0 otherwise. Each is produced as an [8, 1] column, read here at (p, 0).
-/
import proofs.«124476_j14413910245512_2_alg».proof.Proof.Gen.KernelIdeal.Skeleton
import proofs.«124476_j14413910245512_2_alg».proof.Proof.TileLib

noncomputable section

namespace Cert.TileSide

open Cert.KernelIdeal Cert.KernelIdeal.Gen Idealize.ShloMosaic Idealize.ShloMosaic.ValueIdx
open Cert.TailSide (word_one word_zero cmp_ogt_eq_one_iff)

/-- The minimum over `n` candidates of (the candidate's number where its bit is set, the word 1e9 elsewhere), from +inf. -/
def tileMin {n : Nat} (bit : Fin n → BitVec 1) (num : Fin n → EReal) : EReal :=
  (Finset.univ : Finset (Fin n)).fold min (Ideal.ofBits .f32 0x7F800000#32)
    (fun k => Scalar.select (bit k) (num k) (Ideal.ofBits .f32 0x4E6E6B28#32))

/-- The maximum over `n` candidates of (the candidate's number where its bit is set, the word -1e9 elsewhere), from -inf. -/
def tileMax {n : Nat} (bit : Fin n → BitVec 1) (num : Fin n → EReal) : EReal :=
  (Finset.univ : Finset (Fin n)).fold max (Ideal.ofBits .f32 0xFF800000#32)
    (fun k => Scalar.select (bit k) (num k) (Ideal.ofBits .f32 0xCE6E6B28#32))

/-- The flag "some bit is set": 1 or 0. -/
def tileAny {n : Nat} (bit : Fin n → BitVec 1) : EReal := if ∃ k, bit k = 1#1 then 1 else 0

/-- An [8] vector viewed as an [8, 1] column, read at (p, 0). -/
theorem col_of_vec {α : Type} (x : S8.Idx → α) (p : Fin 8) :
    shapeCast S8x1 x shapeCasts_S8_S8x1 (ix2 p 0) = x (ix1 p) := by
  refine shapeCast_apply x shapeCasts_S8_S8x1 (ix2 p (0 : Fin 1)) (ix1 p) ?_
  rw [Shape.rowMajor_val_one, Shape.rowMajor_val_two]
  show p.val = p.val * 1 + 0
  omega

/-- The tile's smallest masked row, for any row bits and row numbers. -/
theorem rowMin_core (bit : IVec S8x32 1) (num : FVec Ideal S8x32 .f32) (p : Fin 8) :
    shapeCast S8x1
        (multiReduction (F := Ideal) .minimumf [1] S8
          (select bit num (broadcast S8x32 (Scalar.ofBits (F := Ideal) .f32 0x4E6E6B28#32))) 0x7F800000#32
          reduces_S8x32_S8 (.inl rfl) rfl)
        shapeCasts_S8_S8x1 (ix2 p 0)
      = tileMin (fun r : Fin 32 => bit (ix2 p r)) (fun r => num (ix2 p r)) := by
  rw [col_of_vec]
  refine (minRed_apply _ reduces_S8x32_S8 (.inl rfl) rfl (ix1 p)).trans ?_
  unfold tileMin
  refine Finset.fold_congr fun r _ => ?_
  show Scalar.select (bit (reduces_S8x32_S8.lift (ix1 p) r)) (num (reduces_S8x32_S8.lift (ix1 p) r)) _ = _
  rw [lift_row reduces_S8x32_S8 p r]
  rfl

/-- The tile's largest masked row. -/
theorem rowMax_core (bit : IVec S8x32 1) (num : FVec Ideal S8x32 .f32) (p : Fin 8) :
    shapeCast S8x1
        (multiReduction (F := Ideal) .maximumf [1] S8
          (select bit num (broadcast S8x32 (Scalar.ofBits (F := Ideal) .f32 0xCE6E6B28#32))) 0xFF800000#32
          reduces_S8x32_S8 (.inl rfl) rfl)
        shapeCasts_S8_S8x1 (ix2 p 0)
      = tileMax (fun r : Fin 32 => bit (ix2 p r)) (fun r => num (ix2 p r)) := by
  rw [col_of_vec]
  refine (maxRed_apply _ reduces_S8x32_S8 (.inl rfl) rfl (ix1 p)).trans ?_
  unfold tileMax
  refine Finset.fold_congr fun r _ => ?_
  show Scalar.select (bit (reduces_S8x32_S8.lift (ix1 p) r)) (num (reduces_S8x32_S8.lift (ix1 p) r)) _ = _
  rw [lift_row reduces_S8x32_S8 p r]
  rfl

/-- The smallest masked column. -/
theorem colMin_core (bit : IVec S8x512 1) (num : FVec Ideal S8x512 .f32) (p : Fin 8) :
    shapeCast S8x1
        (multiReduction (F := Ideal) .minimumf [1] S8
          (select bit num (broadcast S8x512 (Scalar.ofBits (F := Ideal) .f32 0x4E6E6B28#32))) 0x7F800000#32
          reduces_S8x512_S8 (.inl rfl) rfl)
        shapeCasts_S8_S8x1 (ix2 p 0)
      = tileMin (fun w : Fin 512 => bit (ix2 p w)) (fun w => num (ix2 p w)) := by
  rw [col_of_vec]
  refine (minRed_apply _ reduces_S8x512_S8 (.inl rfl) rfl (ix1 p)).trans ?_
  unfold tileMin
  refine Finset.fold_congr fun w _ => ?_
  show Scalar.select (bit (reduces_S8x512_S8.lift (ix1 p) w)) (num (reduces_S8x512_S8.lift (ix1 p) w)) _ = _
  rw [lift_col reduces_S8x512_S8 p w]
  rfl

/-- The largest masked column. -/
theorem colMax_core (bit : IVec S8x512 1) (num : FVec Ideal S8x512 .f32) (p : Fin 8) :
    shapeCast S8x1
        (multiReduction (F := Ideal) .maximumf [1] S8
          (select bit num (broadcast S8x512 (Scalar.ofBits (F := Ideal) .f32 0xCE6E6B28#32))) 0xFF800000#32
          reduces_S8x512_S8 (.inl rfl) rfl)
        shapeCasts_S8_S8x1 (ix2 p 0)
      = tileMax (fun w : Fin 512 => bit (ix2 p w)) (fun w => num (ix2 p w)) := by
  rw [col_of_vec]
  refine (maxRed_apply _ reduces_S8x512_S8 (.inl rfl) rfl (ix1 p)).trans ?_
  unfold tileMax
  refine Finset.fold_congr fun w _ => ?_
  show Scalar.select (bit (reduces_S8x512_S8.lift (ix1 p) w)) (num (reduces_S8x512_S8.lift (ix1 p) w)) _ = _
  rw [lift_col reduces_S8x512_S8 p w]
  rfl

/-- The flag "some row of the tile is in the mask". -/
theorem any_core (bit : IVec S8x32 1) (p : Fin 8) :
    sitofp (F := Ideal) .f32
        (extui 32
          (shapeCast S8x1
            (cmpf (F := Ideal) .ogt
              (multiReduction (F := Ideal) .maximumf [1] S8
                (select bit (broadcast S8x32 (Scalar.ofBits (F := Ideal) .f32 0x3F800000#32))
                  (broadcast S8x32 (Scalar.ofBits (F := Ideal) .f32 0x00000000#32)))
                0xFF800000#32 reduces_S8x32_S8 (.inl rfl) rfl)
              (broadcast S8 (Scalar.ofBits (F := Ideal) .f32 0x00000000#32)))
            shapeCasts_S8_S8x1)
          natLt_1_32) (ix2 p 0)
      = tileAny (fun r : Fin 32 => bit (ix2 p r)) := by
  rw [sitofp_apply, extui_apply, col_of_vec, sitofp_extui_bit]
  unfold tileAny
  refine if_congr ?_ rfl rfl
  rw [cmpf_apply, broadcast_apply, Ideal.cmpf_def, Ideal.ofBits_def, cmp_ogt_eq_one_iff]
  have e := maxRed_apply
    (select bit (broadcast S8x32 (Scalar.ofBits (F := Ideal) .f32 0x3F800000#32))
      (broadcast S8x32 (Scalar.ofBits (F := Ideal) .f32 0x00000000#32)))
    reduces_S8x32_S8 (.inl rfl) rfl (ix1 p)
  refine (Iff.of_eq (congrArg (fun x => Ideal.ofBits .f32 0x00000000#32 < x) (e.trans ?_))).trans
    (zero_lt_fold_max_select fun r : Fin 32 => bit (ix2 p r))
  refine Finset.fold_congr fun r _ => ?_
  show Scalar.select (bit (reduces_S8x32_S8.lift (ix1 p) r)) _ _ = _
  rw [lift_row reduces_S8x32_S8 p r]
  rfl

/-! ## The payloads -/

/-- THE TILE'S SMALLEST MASKED ROW (first mask) at (p, 0). -/
theorem pay22_apply (bit : IVec S8x32 1) (num : FVec Ideal S8x32 .f32) (p : Fin 8) :
    k0_pay22 bit num (ix2 p 0) = tileMin (fun r : Fin 32 => bit (ix2 p r)) (fun r => num (ix2 p r)) := by
  unfold k0_pay22; exact rowMin_core bit num p
/-- THE TILE'S LARGEST MASKED ROW (first mask) at (p, 0). -/
theorem pay23_apply (bit : IVec S8x32 1) (num : FVec Ideal S8x32 .f32) (p : Fin 8) :
    k0_pay23 bit num (ix2 p 0) = tileMax (fun r : Fin 32 => bit (ix2 p r)) (fun r => num (ix2 p r)) := by
  unfold k0_pay23; exact rowMax_core bit num p
/-- THE TILE'S SMALLEST MASKED COLUMN (first mask) at (p, 0). -/
theorem pay24_apply (bit : IVec S8x512 1) (num : FVec Ideal S8x512 .f32) (p : Fin 8) :
    k0_pay24 bit num (ix2 p 0) = tileMin (fun w : Fin 512 => bit (ix2 p w)) (fun w => num (ix2 p w)) := by
  unfold k0_pay24; exact colMin_core bit num p
/-- THE TILE'S LARGEST MASKED COLUMN (first mask) at (p, 0). -/
theorem pay25_apply (bit : IVec S8x512 1) (num : FVec Ideal S8x512 .f32) (p : Fin 8) :
    k0_pay25 bit num (ix2 p 0) = tileMax (fun w : Fin 512 => bit (ix2 p w)) (fun w => num (ix2 p w)) := by
  unfold k0_pay25; exact colMax_core bit num p
/-- THE TILE'S "ANY" FLAG (first mask) at (p, 0). -/
theorem pay26_apply (bit : IVec S8x32 1) (p : Fin 8) :
    k0_pay26 (F := Ideal) bit (ix2 p 0) = tileAny (fun r : Fin 32 => bit (ix2 p r)) := by
  unfold k0_pay26; exact any_core bit p

/-- The second mask's four numbers and flag: the same functions, of the second mask's bits, the row numbers being the
    recomputed ones. -/
theorem pay31_apply (bit : IVec S8x32 1) (v69 : BitVec 32) (v70 : IVec S8x32 32) (p : Fin 8) :
    k0_pay31 (F := Ideal) bit v69 v70 (ix2 p 0)
      = tileMin (fun r : Fin 32 => bit (ix2 p r)) (fun r => k0_pay29 (F := Ideal) v69 v70 (ix2 p r)) := by
  unfold k0_pay31; exact rowMin_core bit (k0_pay29 v69 v70) p
theorem pay32_apply (bit : IVec S8x32 1) (v69 : BitVec 32) (v70 : IVec S8x32 32) (p : Fin 8) :
    k0_pay32 (F := Ideal) bit v69 v70 (ix2 p 0)
      = tileMax (fun r : Fin 32 => bit (ix2 p r)) (fun r => k0_pay29 (F := Ideal) v69 v70 (ix2 p r)) := by
  unfold k0_pay32; exact rowMax_core bit (k0_pay29 v69 v70) p
theorem pay33_apply (bit : IVec S8x512 1) (p : Fin 8) :
    k0_pay33 (F := Ideal) bit (ix2 p 0)
      = tileMin (fun w : Fin 512 => bit (ix2 p w)) (fun w => k0_pay30 (F := Ideal) (ix2 p w)) := by
  unfold k0_pay33; exact colMin_core bit k0_pay30 p
theorem pay34_apply (bit : IVec S8x512 1) (p : Fin 8) :
    k0_pay34 (F := Ideal) bit (ix2 p 0)
      = tileMax (fun w : Fin 512 => bit (ix2 p w)) (fun w => k0_pay30 (F := Ideal) (ix2 p w)) := by
  unfold k0_pay34; exact colMax_core bit k0_pay30 p
theorem pay35_apply (bit : IVec S8x32 1) (p : Fin 8) :
    k0_pay35 (F := Ideal) bit (ix2 p 0) = tileAny (fun r : Fin 32 => bit (ix2 p r)) := by
  unfold k0_pay35; exact any_core bit p

end Cert.TileSide

end
-- ==== Proof.TileStats.lean ====
/-
  THE TEN NUMBERS OF ONE TILE, in closed form, from the two loaded blocks and the grid point.

  For the block `v` of the first input (second input) loaded at grid point `i` — row tile `(i 1)` of sixteen — and a
  batch entry `p` of the block, with M(p, r, w) the mask bit at tile row r and column w:

    ymin = the minimum over the tile's rows r of (the image row (i 1)·32 + r where some column of r is in the mask,
           the word 1e9 elsewhere), from the word of +inf;
    ymax = the maximum over the rows of (that row number where …, the word -1e9 elsewhere), from the word of -inf;
    xmin, xmax the same over the 512 columns w, a column counting when some row of the tile is in the mask there;
    any  = 1 when some row has a column in the mask, else 0.

  These are the values the body folds into its running minima and maxima (module TileUpd, a sibling of this one).
-/
import proofs.«124476_j14413910245512_2_alg».proof.Proof.TileMask
import proofs.«124476_j14413910245512_2_alg».proof.Proof.TileNum
import proofs.«124476_j14413910245512_2_alg».proof.Proof.TileRed

noncomputable section

namespace Cert.TileSide

open Cert.KernelIdeal Cert.KernelIdeal.Gen Idealize.ShloMosaic Idealize.ShloMosaic.ValueIdx
open Cert.TailSide (word_one word_zero)

/-- The minimum over `n` candidates of (the candidate's number where it counts, the word 1e9 elsewhere), from +inf. -/
def boxMin {n : Nat} (hit : Fin n → Prop) [DecidablePred hit] (num : Fin n → EReal) : EReal :=
  (Finset.univ : Finset (Fin n)).fold min (Ideal.ofBits .f32 0x7F800000#32)
    (fun k => if hit k then num k else Ideal.ofBits .f32 0x4E6E6B28#32)

/-- The maximum over `n` candidates of (the candidate's number where it counts, the word -1e9 elsewhere), from -inf. -/
def boxMax {n : Nat} (hit : Fin n → Prop) [DecidablePred hit] (num : Fin n → EReal) : EReal :=
  (Finset.univ : Finset (Fin n)).fold max (Ideal.ofBits .f32 0xFF800000#32)
    (fun k => if hit k then num k else Ideal.ofBits .f32 0xCE6E6B28#32)

/-- 1 when some candidate counts, else 0. -/
def boxAny {n : Nat} (hit : Fin n → Prop) [DecidablePred hit] : EReal := if ∃ k, hit k then 1 else 0

theorem tileMin_eq_boxMin {n : Nat} (bit : Fin n → BitVec 1) (hit : Fin n → Prop) [DecidablePred hit]
    (num num' : Fin n → EReal) (h : ∀ k, bit k = 1#1 ↔ hit k) (hn : ∀ k, num k = num' k) :
    tileMin bit num = boxMin hit num' := by
  unfold tileMin boxMin
  refine Finset.fold_congr fun k _ => ?_
  unfold Scalar.select
  rw [hn k]
  exact if_congr (h k) rfl rfl

theorem tileMax_eq_boxMax {n : Nat} (bit : Fin n → BitVec 1) (hit : Fin n → Prop) [DecidablePred hit]
    (num num' : Fin n → EReal) (h : ∀ k, bit k = 1#1 ↔ hit k) (hn : ∀ k, num k = num' k) :
    tileMax bit num = boxMax hit num' := by
  unfold tileMax boxMax
  refine Finset.fold_congr fun k _ => ?_
  unfold Scalar.select
  rw [hn k]
  exact if_congr (h k) rfl rfl

theorem tileAny_eq_boxAny {n : Nat} (bit : Fin n → BitVec 1) (hit : Fin n → Prop) [DecidablePred hit]
    (h : ∀ k, bit k = 1#1 ↔ hit k) : tileAny bit = boxAny hit := by
  unfold tileAny boxAny
  exact if_congr (exists_congr h) rfl rfl

/-- The flag with the float words of one and zero in place of the numbers. -/
theorem boxAny_eq_words {n : Nat} (hit : Fin n → Prop) [DecidablePred hit] :
    boxAny hit = if ∃ k, hit k then Ideal.ofBits .f32 0x3F800000#32 else Ideal.ofBits .f32 0x00000000#32 := by
  unfold boxAny; rw [word_one, word_zero]

/-- The image row of row `r` of the tile at grid point `i`, as an extended real. -/
def rowNumber (i : grid0.Coords) (r : Fin 32) : EReal := ((((i 1).val * 32 + r.val : Nat) : ℝ) : EReal)
/-- The column `w` as an extended real. -/
def colNumber (w : Fin 512) : EReal := ((w.val : ℝ) : EReal)

section FirstMask
variable (v : Vec Ideal S8x1x21x32x512 .f32) (i : grid0.Coords) (p : Fin 8)

/-- FIRST MASK, the tile's ymin at (p, 0). -/
theorem tile_ymin1 :
    k0_pay22 (k0_pay18 v) (k0_pay20 (F := Ideal) i) (ix2 p 0)
      = boxMin (fun r : Fin 32 => ∃ w : Fin 512, k0_pay16 v (ix3 p r w) = 1#1) (rowNumber i) :=
  (pay22_apply _ _ p).trans (tileMin_eq_boxMin _ _ _ _ (fun r => pay18_apply v p r) (fun r => pay20_apply i p r))

/-- FIRST MASK, the tile's ymax at (p, 0). -/
theorem tile_ymax1 :
    k0_pay23 (k0_pay18 v) (k0_pay20 (F := Ideal) i) (ix2 p 0)
      = boxMax (fun r : Fin 32 => ∃ w : Fin 512, k0_pay16 v (ix3 p r w) = 1#1) (rowNumber i) :=
  (pay23_apply _ _ p).trans (tileMax_eq_boxMax _ _ _ _ (fun r => pay18_apply v p r) (fun r => pay20_apply i p r))

/-- FIRST MASK, the tile's xmin at (p, 0). -/
theorem tile_xmin1 :
    k0_pay24 (k0_pay19 v) (k0_pay21 (F := Ideal)) (ix2 p 0)
      = boxMin (fun w : Fin 512 => ∃ r : Fin 32, k0_pay16 v (ix3 p r w) = 1#1) colNumber :=
  (pay24_apply _ _ p).trans (tileMin_eq_boxMin _ _ _ _ (fun w => pay19_apply v p w) (fun w => pay21_apply p w))

/-- FIRST MASK, the tile's xmax at (p, 0). -/
theorem tile_xmax1 :
    k0_pay25 (k0_pay19 v) (k0_pay21 (F := Ideal)) (ix2 p 0)
      = boxMax (fun w : Fin 512 => ∃ r : Fin 32, k0_pay16 v (ix3 p r w) = 1#1) colNumber :=
  (pay25_apply _ _ p).trans (tileMax_eq_boxMax _ _ _ _ (fun w => pay19_apply v p w) (fun w => pay21_apply p w))

/-- FIRST MASK, the tile's "any" flag at (p, 0). -/
theorem tile_any1 :
    k0_pay26 (F := Ideal) (k0_pay18 v) (ix2 p 0)
      = boxAny (fun r : Fin 32 => ∃ w : Fin 512, k0_pay16 v (ix3 p r w) = 1#1) :=
  (pay26_apply _ p).trans (tileAny_eq_boxAny _ _ (fun r => pay18_apply v p r))

end FirstMask

section SecondMask
variable (v : Vec Ideal S8x1x21x32x512 .f32) (i : grid0.Coords) (p : Fin 8)

/-- The tile number's word times 32, as the body passes it on. -/
abbrev tileBase (i : grid0.Coords) : BitVec 32 := Scalar.muli (BitVec.ofNat 32 (i 1).val) 32#32
/-- The counter along the rows, as the body passes it on. -/
abbrev rowIota : IVec S8x32 32 := iota .tc S8x32 32 [1] iota_S8x32_d1_w32

/-- SECOND MASK, the tile's ymin at (p, 0). -/
theorem tile_ymin2 :
    k0_pay31 (F := Ideal) (k0_pay27 (F := Ideal) (k0_pay17 v)) (tileBase i) rowIota (ix2 p 0)
      = boxMin (fun r : Fin 32 => ∃ w : Fin 512, k0_pay17 v (ix3 p r w) = 1#1) (rowNumber i) :=
  (pay31_apply _ _ _ p).trans (tileMin_eq_boxMin _ _ _ _ (fun r => pay27_apply (k0_pay17 v) p r)
    (fun r => pay29_apply (i 1).val (i 1).isLt p r))

/-- SECOND MASK, the tile's ymax at (p, 0). -/
theorem tile_ymax2 :
    k0_pay32 (F := Ideal) (k0_pay27 (F := Ideal) (k0_pay17 v)) (tileBase i) rowIota (ix2 p 0)
      = boxMax (fun r : Fin 32 => ∃ w : Fin 512, k0_pay17 v (ix3 p r w) = 1#1) (rowNumber i) :=
  (pay32_apply _ _ _ p).trans (tileMax_eq_boxMax _ _ _ _ (fun r => pay27_apply (k0_pay17 v) p r)
    (fun r => pay29_apply (i 1).val (i 1).isLt p r))

/-- SECOND MASK, the tile's xmin at (p, 0). -/
theorem tile_xmin2 :
    k0_pay33 (F := Ideal) (k0_pay28 (F := Ideal) (k0_pay17 v)) (ix2 p 0)
      = boxMin (fun w : Fin 512 => ∃ r : Fin 32, k0_pay17 v (ix3 p r w) = 1#1) colNumber :=
  (pay33_apply _ p).trans (tileMin_eq_boxMin _ _ _ _ (fun w => pay28_apply (k0_pay17 v) p w) (fun w => pay30_apply p w))

/-- SECOND MASK, the tile's xmax at (p, 0). -/
theorem tile_xmax2 :
    k0_pay34 (F := Ideal) (k0_pay28 (F := Ideal) (k0_pay17 v)) (ix2 p 0)
      = boxMax (fun w : Fin 512 => ∃ r : Fin 32, k0_pay17 v (ix3 p r w) = 1#1) colNumber :=
  (pay34_apply _ p).trans (tileMax_eq_boxMax _ _ _ _ (fun w => pay28_apply (k0_pay17 v) p w) (fun w => pay30_apply p w))

/-- SECOND MASK, the tile's "any" flag at (p, 0). -/
theorem tile_any2 :
    k0_pay35 (F := Ideal) (k0_pay27 (F := Ideal) (k0_pay17 v)) (ix2 p 0)
      = boxAny (fun r : Fin 32 => ∃ w : Fin 512, k0_pay17 v (ix3 p r w) = 1#1) :=
  (pay35_apply _ p).trans (tileAny_eq_boxAny _ _ (fun r => pay27_apply (k0_pay17 v) p r))

end SecondMask

end Cert.TileSide

end
-- ==== Proof.TileFold.lean ====
/-
  From the sixteen tiles of a batch entry to the whole image.

  The kernel keeps, per batch entry, a running minimum that starts at the word 1e9 and takes in, tile after tile, the
  tile's minimum (the row numbers of the rows that count, the word 1e9 for the others); likewise a running maximum
  from -1e9, and a running maximum of the "any" flags from 0. Such a running value is characterised by what lies
  below (above) it: c ≤ min a b exactly when c ≤ a and c ≤ b. Here: a tile's minimum and maximum in that form, the
  passage from "every tile, every row of the tile" to "every row of the image", and the conclusion — when some row
  counts, the running minimum over all tiles is the smallest row that counts, a natural number below 512 (1e9 never
  wins), the running maximum the largest, and the flag is 1; when none does, the flag is 0.
-/
import proofs.«124476_j14413910245512_2_alg».proof.Proof.TileStats

noncomputable section

namespace Cert.TileSide

open Idealize.ShloMosaic Idealize.ShloMosaic.ValueIdx
open Cert.TailSide (word_one word_zero)

/-! ## The two fill words -/

theorem word_big : Ideal.ofBits .f32 0x4E6E6B28#32 = ((1000000000 : ℝ) : EReal) := by
  simp [Ideal.ofBits, Ideal.ieee, -EReal.coe_mul]; norm_num
theorem word_negbig : Ideal.ofBits .f32 0xCE6E6B28#32 = ((-1000000000 : ℝ) : EReal) := by
  simp [Ideal.ofBits, Ideal.ieee, -EReal.coe_mul]; norm_num

/-- A coordinate below 512 is below the word 1e9 … -/
theorem coe_le_big (k : Nat) (hk : k < 512) : ((k : ℝ) : EReal) ≤ Ideal.ofBits .f32 0x4E6E6B28#32 := by
  rw [word_big, EReal.coe_le_coe_iff]
  have : (k : ℝ) < 512 := by exact_mod_cast hk
  linarith
/-- … and above the word -1e9. -/
theorem negbig_le_coe (k : Nat) : Ideal.ofBits .f32 0xCE6E6B28#32 ≤ ((k : ℝ) : EReal) := by
  rw [word_negbig, EReal.coe_le_coe_iff]
  have : (0 : ℝ) ≤ (k : ℝ) := Nat.cast_nonneg k
  linarith

/-! ## A tile's minimum and maximum by what lies below and above them -/

theorem le_boxMin_iff {n : Nat} (hit : Fin n → Prop) [DecidablePred hit] (num : Fin n → EReal) (c : EReal) :
    c ≤ boxMin hit num ↔ ∀ k : Fin n, c ≤ (if hit k then num k else Ideal.ofBits .f32 0x4E6E6B28#32) := by
  unfold boxMin
  rw [Finset.le_fold_min, word_pinf]
  exact ⟨fun h k => h.2 k (Finset.mem_univ k), fun h => ⟨le_top, fun k _ => h k⟩⟩

theorem boxMax_le_iff {n : Nat} (hit : Fin n → Prop) [DecidablePred hit] (num : Fin n → EReal) (c : EReal) :
    boxMax hit num ≤ c ↔ ∀ k : Fin n, (if hit k then num k else Ideal.ofBits .f32 0xCE6E6B28#32) ≤ c := by
  unfold boxMax
  rw [Finset.fold_max_le, word_ninf]
  exact ⟨fun h k => h.2 k (Finset.mem_univ k), fun h => ⟨bot_le, fun k _ => h k⟩⟩

/-- A tile's minimum is at most the number of every candidate that counts … -/
theorem boxMin_le {n : Nat} (hit : Fin n → Prop) [DecidablePred hit] (num : Fin n → EReal) (k : Fin n) (hk : hit k) :
    boxMin hit num ≤ num k := by
  have h := (le_boxMin_iff hit num (boxMin hit num)).mp le_rfl k
  rwa [if_pos hk] at h

/-- … and at least every lower bound of the word 1e9 and of those numbers. -/
theorem le_boxMin {n : Nat} (hit : Fin n → Prop) [DecidablePred hit] (num : Fin n → EReal) (c : EReal)
    (hc : c ≤ Ideal.ofBits .f32 0x4E6E6B28#32) (h : ∀ k, hit k → c ≤ num k) : c ≤ boxMin hit num := by
  rw [le_boxMin_iff]
  intro k
  split_ifs with hk
  · exact h k hk
  · exact hc

/-- A tile's maximum is at least the number of every candidate that counts … -/
theorem le_boxMax {n : Nat} (hit : Fin n → Prop) [DecidablePred hit] (num : Fin n → EReal) (k : Fin n) (hk : hit k) :
    num k ≤ boxMax hit num := by
  have h := (boxMax_le_iff hit num (boxMax hit num)).mp le_rfl k
  rwa [if_pos hk] at h

/-- … and at most every upper bound of the word -1e9 and of those numbers. -/
theorem boxMax_le {n : Nat} (hit : Fin n → Prop) [DecidablePred hit] (num : Fin n → EReal) (c : EReal)
    (hc : Ideal.ofBits .f32 0xCE6E6B28#32 ≤ c) (h : ∀ k, hit k → num k ≤ c) : boxMax hit num ≤ c := by
  rw [boxMax_le_iff]
  intro k
  split_ifs with hk
  · exact h k hk
  · exact hc

/-- A tile's flag is the word of one when a candidate counts … -/
theorem boxAny_of_exists {n : Nat} (hit : Fin n → Prop) [DecidablePred hit] (h : ∃ k, hit k) :
    boxAny hit = Ideal.ofBits .f32 0x3F800000#32 := by
  rw [boxAny_eq_words, if_pos h]

/-- … and the word of zero when none does. -/
theorem boxAny_of_not_exists {n : Nat} (hit : Fin n → Prop) [DecidablePred hit] (h : ¬∃ k, hit k) :
    boxAny hit = Ideal.ofBits .f32 0x00000000#32 := by
  rw [boxAny_eq_words, if_neg h]

/-- Below the word 1e9, "below every tile's minimum" is "below the number of every candidate that counts". -/
theorem tiles_le_iff {T n : Nat} (hitT : Fin T → Fin n → Prop) [∀ t, DecidablePred (hitT t)] (numT : Fin T → Fin n → EReal)
    (c : EReal) (hc : c ≤ Ideal.ofBits .f32 0x4E6E6B28#32) :
    (∀ t, c ≤ boxMin (hitT t) (numT t)) ↔ ∀ t k, hitT t k → c ≤ numT t k := by
  simp only [le_boxMin_iff]
  constructor
  · intro h t k hk; have := h t k; rwa [if_pos hk] at this
  · intro h t k; split_ifs with hk
    · exact h t k hk
    · exact hc

/-- Above the word -1e9, "above every tile's maximum" is "above the number of every candidate that counts". -/
theorem tiles_ge_iff {T n : Nat} (hitT : Fin T → Fin n → Prop) [∀ t, DecidablePred (hitT t)] (numT : Fin T → Fin n → EReal)
    (c : EReal) (hc : Ideal.ofBits .f32 0xCE6E6B28#32 ≤ c) :
    (∀ t, boxMax (hitT t) (numT t) ≤ c) ↔ ∀ t k, hitT t k → numT t k ≤ c := by
  simp only [boxMax_le_iff]
  constructor
  · intro h t k hk; have := h t k; rwa [if_pos hk] at this
  · intro h t k; split_ifs with hk
    · exact h t k hk
    · exact hc

/-! ## Rows of the tiles are the rows of the image -/

/-- Row `r` of row tile `t` as a row of the image. -/
def tileRow (t : Fin 16) (r : Fin 32) : Fin 512 := ⟨t.val * 32 + r.val, by have := t.isLt; have := r.isLt; omega⟩

theorem tileRow_val (t : Fin 16) (r : Fin 32) : (tileRow t r).val = t.val * 32 + r.val := rfl

/-- Every row of the image is a row of exactly one tile. -/
theorem forall_tileRow {P : Fin 512 → Prop} : (∀ t r, P (tileRow t r)) ↔ ∀ h, P h := by
  constructor
  · intro H h
    have e : tileRow ⟨h.val / 32, by have := h.isLt; omega⟩ ⟨h.val % 32, Nat.mod_lt _ (by decide)⟩ = h :=
      Fin.ext (by show h.val / 32 * 32 + h.val % 32 = h.val; omega)
    exact e ▸ H _ _
  · intro H t r; exact H _

theorem exists_tileRow {P : Fin 512 → Prop} : (∃ t r, P (tileRow t r)) ↔ ∃ h, P h := by
  constructor
  · rintro ⟨t, r, h⟩; exact ⟨_, h⟩
  · rintro ⟨h, hp⟩
    have e : tileRow ⟨h.val / 32, by have := h.isLt; omega⟩ ⟨h.val % 32, Nat.mod_lt _ (by decide)⟩ = h :=
      Fin.ext (by show h.val / 32 * 32 + h.val % 32 = h.val; omega)
    exact ⟨_, _, e ▸ hp⟩

/-! ## The running values over all tiles -/

/-- A value whose lower bounds are exactly the lower bounds of the word 1e9 and of every coordinate in a non-empty set
    `S` of coordinates below 512 is the smallest coordinate in `S`. -/
theorem eq_coe_min' (a : EReal) (S : Finset (Fin 512)) (hne : S.Nonempty)
    (ha : ∀ c : EReal, c ≤ a ↔ c ≤ Ideal.ofBits .f32 0x4E6E6B28#32 ∧ ∀ k ∈ S, c ≤ ((k.val : ℝ) : EReal)) :
    a = (((S.min' hne).val : ℝ) : EReal) := by
  refine eq_of_forall_le_iff fun c => ?_
  rw [ha c]
  constructor
  · rintro ⟨_, h⟩; exact h _ (S.min'_mem hne)
  · intro h
    refine ⟨h.trans (coe_le_big _ (S.min' hne).isLt), fun k hk => h.trans ?_⟩
    rw [EReal.coe_le_coe_iff]
    exact_mod_cast (Fin.le_iff_val_le_val.mp (S.min'_le k hk))

/-- A value whose upper bounds are exactly the upper bounds of the word -1e9 and of every coordinate in a non-empty set
    `S` is the largest coordinate in `S`. -/
theorem eq_coe_max' (a : EReal) (S : Finset (Fin 512)) (hne : S.Nonempty)
    (ha : ∀ c : EReal, a ≤ c ↔ Ideal.ofBits .f32 0xCE6E6B28#32 ≤ c ∧ ∀ k ∈ S, ((k.val : ℝ) : EReal) ≤ c) :
    a = (((S.max' hne).val : ℝ) : EReal) := by
  refine eq_of_forall_ge_iff fun c => ?_
  rw [ha c]
  constructor
  · rintro ⟨_, h⟩; exact h _ (S.max'_mem hne)
  · intro h
    refine ⟨(negbig_le_coe _).trans h, fun k hk => le_trans ?_ h⟩
    rw [EReal.coe_le_coe_iff]
    exact_mod_cast (Fin.le_iff_val_le_val.mp (S.le_max' k hk))

/-- The flag of a tile is 0 or 1, and is 1 exactly when a candidate counts. -/
theorem boxAny_le_iff {n : Nat} (hit : Fin n → Prop) [DecidablePred hit] (c : EReal) (hc : 0 ≤ c) :
    boxAny hit ≤ c ↔ ((∃ k, hit k) → 1 ≤ c) := by
  unfold boxAny
  split_ifs with h
  · exact ⟨fun hh _ => hh, fun hh => hh h⟩
  · exact ⟨fun _ hh => absurd hh h, fun _ => hc⟩

/-- A value whose upper bounds are exactly the non-negative upper bounds of every tile's flag is 1 when a candidate of
    some tile counts and 0 otherwise (as the float words of one and zero). -/
theorem eq_any_of_le_iff {T n : Nat} (hitT : Fin T → Fin n → Prop) [∀ t, DecidablePred (hitT t)] (a : EReal)
    (ha : ∀ c : EReal, a ≤ c ↔ Ideal.ofBits .f32 0x00000000#32 ≤ c ∧ ∀ t, boxAny (hitT t) ≤ c) :
    ((∃ t k, hitT t k) → a = Ideal.ofBits .f32 0x3F800000#32)
      ∧ ((¬∃ t k, hitT t k) → a = Ideal.ofBits .f32 0x00000000#32) := by
  rw [word_one, word_zero]
  rw [word_zero] at ha
  constructor
  · rintro ⟨t, k, hk⟩
    refine eq_of_forall_ge_iff fun c => ?_
    rw [ha c]
    constructor
    · rintro ⟨h0, h⟩; exact (boxAny_le_iff _ c h0).mp (h t) ⟨k, hk⟩
    · intro h1
      have h0 : (0 : EReal) ≤ c := zero_le_one.trans h1
      exact ⟨h0, fun t' => (boxAny_le_iff _ c h0).mpr fun _ => h1⟩
  · intro hno
    refine eq_of_forall_ge_iff fun c => ?_
    rw [ha c]
    constructor
    · rintro ⟨h0, _⟩; exact h0
    · intro h0
      exact ⟨h0, fun t' => (boxAny_le_iff _ c h0).mpr fun ⟨k, hk⟩ => absurd ⟨t', k, hk⟩ hno⟩

end Cert.TileSide

end
-- ==== Proof.TileFacts.lean ====
/-
  The tile's numbers by their universal properties, in terms of the pixels of the tile that are in the mask: a tile
  minimum is at most the row (column) number of every masked pixel of the tile and at least every lower bound of the
  word 1e9 and of those numbers; a tile maximum dually with the word -1e9; the flag is the word of one when the tile
  has a masked pixel and the word of zero otherwise. This is the form in which a running minimum / maximum over the
  sixteen tiles is compared with the smallest / largest masked row and column of the whole image.
-/
import proofs.«124476_j14413910245512_2_alg».proof.Proof.TileFold

noncomputable section

namespace Cert.TileSide

open Cert.KernelIdeal Cert.KernelIdeal.Gen Idealize.ShloMosaic Idealize.ShloMosaic.ValueIdx

section Mask1
variable (v : Vec Ideal S8x1x21x32x512 .f32) (i : grid0.Coords) (p : Fin 8)

/-- The tile's ymin is at most the image row of every pixel of the tile in the mask … -/
theorem ymin1_le (r : Fin 32) (w : Fin 512) (h : k0_pay16 v (ix3 p r w) = 1#1) :
    k0_pay22 (k0_pay18 v) (k0_pay20 (F := Ideal) i) (ix2 p 0) ≤ rowNumber i r := by
  rw [tile_ymin1 v i p]; exact boxMin_le _ _ r ⟨w, h⟩
/-- … and at least every `c` below the word 1e9 that is at most all those rows. -/
theorem le_ymin1 (c : EReal) (hc : c ≤ Ideal.ofBits .f32 0x4E6E6B28#32)
    (h : ∀ (r : Fin 32) (w : Fin 512), k0_pay16 v (ix3 p r w) = 1#1 → c ≤ rowNumber i r) :
    c ≤ k0_pay22 (k0_pay18 v) (k0_pay20 (F := Ideal) i) (ix2 p 0) := by
  rw [tile_ymin1 v i p]; exact le_boxMin _ _ c hc fun r ⟨w, hw⟩ => h r w hw

/-- The tile's ymax is at least the image row of every pixel of the tile in the mask … -/
theorem le_ymax1 (r : Fin 32) (w : Fin 512) (h : k0_pay16 v (ix3 p r w) = 1#1) :
    rowNumber i r ≤ k0_pay23 (k0_pay18 v) (k0_pay20 (F := Ideal) i) (ix2 p 0) := by
  rw [tile_ymax1 v i p]; exact le_boxMax _ _ r ⟨w, h⟩
/-- … and at most every `c` above the word -1e9 that is at least all those rows. -/
theorem ymax1_le (c : EReal) (hc : Ideal.ofBits .f32 0xCE6E6B28#32 ≤ c)
    (h : ∀ (r : Fin 32) (w : Fin 512), k0_pay16 v (ix3 p r w) = 1#1 → rowNumber i r ≤ c) :
    k0_pay23 (k0_pay18 v) (k0_pay20 (F := Ideal) i) (ix2 p 0) ≤ c := by
  rw [tile_ymax1 v i p]; exact boxMax_le _ _ c hc fun r ⟨w, hw⟩ => h r w hw

/-- The tile's xmin is at most the column of every pixel of the tile in the mask … -/
theorem xmin1_le (r : Fin 32) (w : Fin 512) (h : k0_pay16 v (ix3 p r w) = 1#1) :
    k0_pay24 (k0_pay19 v) (k0_pay21 (F := Ideal)) (ix2 p 0) ≤ colNumber w := by
  rw [tile_xmin1 v p]; exact boxMin_le _ _ w ⟨r, h⟩
/-- … and at least every `c` below the word 1e9 that is at most all those columns. -/
theorem le_xmin1 (c : EReal) (hc : c ≤ Ideal.ofBits .f32 0x4E6E6B28#32)
    (h : ∀ (r : Fin 32) (w : Fin 512), k0_pay16 v (ix3 p r w) = 1#1 → c ≤ colNumber w) :
    c ≤ k0_pay24 (k0_pay19 v) (k0_pay21 (F := Ideal)) (ix2 p 0) := by
  rw [tile_xmin1 v p]; exact le_boxMin _ _ c hc fun w ⟨r, hr⟩ => h r w hr

/-- The tile's xmax is at least the column of every pixel of the tile in the mask … -/
theorem le_xmax1 (r : Fin 32) (w : Fin 512) (h : k0_pay16 v (ix3 p r w) = 1#1) :
    colNumber w ≤ k0_pay25 (k0_pay19 v) (k0_pay21 (F := Ideal)) (ix2 p 0) := by
  rw [tile_xmax1 v p]; exact le_boxMax _ _ w ⟨r, h⟩
/-- … and at most every `c` above the word -1e9 that is at least all those columns. -/
theorem xmax1_le (c : EReal) (hc : Ideal.ofBits .f32 0xCE6E6B28#32 ≤ c)
    (h : ∀ (r : Fin 32) (w : Fin 512), k0_pay16 v (ix3 p r w) = 1#1 → colNumber w ≤ c) :
    k0_pay25 (k0_pay19 v) (k0_pay21 (F := Ideal)) (ix2 p 0) ≤ c := by
  rw [tile_xmax1 v p]; exact boxMax_le _ _ c hc fun w ⟨r, hr⟩ => h r w hr

/-- The tile's flag is the word of one when some pixel of the tile is in the mask … -/
theorem any1_of (r : Fin 32) (w : Fin 512) (h : k0_pay16 v (ix3 p r w) = 1#1) :
    k0_pay26 (F := Ideal) (k0_pay18 v) (ix2 p 0) = Ideal.ofBits .f32 0x3F800000#32 := by
  rw [tile_any1 v p]; exact boxAny_of_exists _ ⟨r, w, h⟩
/-- … and the word of zero when none is. -/
theorem any1_of_not (h : ∀ (r : Fin 32) (w : Fin 512), ¬k0_pay16 v (ix3 p r w) = 1#1) :
    k0_pay26 (F := Ideal) (k0_pay18 v) (ix2 p 0) = Ideal.ofBits .f32 0x00000000#32 := by
  rw [tile_any1 v p]; exact boxAny_of_not_exists _ fun ⟨r, w, hw⟩ => h r w hw
/-- In either case it is one of the two words. -/
theorem any1_cases :
    k0_pay26 (F := Ideal) (k0_pay18 v) (ix2 p 0) = Ideal.ofBits .f32 0x00000000#32 ∨ k0_pay26 (F := Ideal) (k0_pay18 v) (ix2 p 0) = Ideal.ofBits .f32 0x3F800000#32 := by
  by_cases h : ∃ (r : Fin 32) (w : Fin 512), k0_pay16 v (ix3 p r w) = 1#1
  · obtain ⟨r, w, hw⟩ := h; exact Or.inr (any1_of v p r w hw)
  · exact Or.inl (any1_of_not v p fun r w hw => h ⟨r, w, hw⟩)

end Mask1

section Mask2
variable (v : Vec Ideal S8x1x21x32x512 .f32) (i : grid0.Coords) (p : Fin 8)

/-- The tile's ymin is at most the image row of every pixel of the tile in the mask … -/
theorem ymin2_le (r : Fin 32) (w : Fin 512) (h : k0_pay17 v (ix3 p r w) = 1#1) :
    k0_pay31 (F := Ideal) (k0_pay27 (F := Ideal) (k0_pay17 v)) (tileBase i) rowIota (ix2 p 0) ≤ rowNumber i r := by
  rw [tile_ymin2 v i p]; exact boxMin_le _ _ r ⟨w, h⟩
/-- … and at least every `c` below the word 1e9 that is at most all those rows. -/
theorem le_ymin2 (c : EReal) (hc : c ≤ Ideal.ofBits .f32 0x4E6E6B28#32)
    (h : ∀ (r : Fin 32) (w : Fin 512), k0_pay17 v (ix3 p r w) = 1#1 → c ≤ rowNumber i r) :
    c ≤ k0_pay31 (F := Ideal) (k0_pay27 (F := Ideal) (k0_pay17 v)) (tileBase i) rowIota (ix2 p 0) := by
  rw [tile_ymin2 v i p]; exact le_boxMin _ _ c hc fun r ⟨w, hw⟩ => h r w hw

/-- The tile's ymax is at least the image row of every pixel of the tile in the mask … -/
theorem le_ymax2 (r : Fin 32) (w : Fin 512) (h : k0_pay17 v (ix3 p r w) = 1#1) :
    rowNumber i r ≤ k0_pay32 (F := Ideal) (k0_pay27 (F := Ideal) (k0_pay17 v)) (tileBase i) rowIota (ix2 p 0) := by
  rw [tile_ymax2 v i p]; exact le_boxMax _ _ r ⟨w, h⟩
/-- … and at most every `c` above the word -1e9 that is at least all those rows. -/
theorem ymax2_le (c : EReal) (hc : Ideal.ofBits .f32 0xCE6E6B28#32 ≤ c)
    (h : ∀ (r : Fin 32) (w : Fin 512), k0_pay17 v (ix3 p r w) = 1#1 → rowNumber i r ≤ c) :
    k0_pay32 (F := Ideal) (k0_pay27 (F := Ideal) (k0_pay17 v)) (tileBase i) rowIota (ix2 p 0) ≤ c := by
  rw [tile_ymax2 v i p]; exact boxMax_le _ _ c hc fun r ⟨w, hw⟩ => h r w hw

/-- The tile's xmin is at most the column of every pixel of the tile in the mask … -/
theorem xmin2_le (r : Fin 32) (w : Fin 512) (h : k0_pay17 v (ix3 p r w) = 1#1) :
    k0_pay33 (F := Ideal) (k0_pay28 (F := Ideal) (k0_pay17 v)) (ix2 p 0) ≤ colNumber w := by
  rw [tile_xmin2 v p]; exact boxMin_le _ _ w ⟨r, h⟩
/-- … and at least every `c` below the word 1e9 that is at most all those columns. -/
theorem le_xmin2 (c : EReal) (hc : c ≤ Ideal.ofBits .f32 0x4E6E6B28#32)
    (h : ∀ (r : Fin 32) (w : Fin 512), k0_pay17 v (ix3 p r w) = 1#1 → c ≤ colNumber w) :
    c ≤ k0_pay33 (F := Ideal) (k0_pay28 (F := Ideal) (k0_pay17 v)) (ix2 p 0) := by
  rw [tile_xmin2 v p]; exact le_boxMin _ _ c hc fun w ⟨r, hr⟩ => h r w hr

/-- The tile's xmax is at least the column of every pixel of the tile in the mask … -/
theorem le_xmax2 (r : Fin 32) (w : Fin 512) (h : k0_pay17 v (ix3 p r w) = 1#1) :
    colNumber w ≤ k0_pay34 (F := Ideal) (k0_pay28 (F := Ideal) (k0_pay17 v)) (ix2 p 0) := by
  rw [tile_xmax2 v p]; exact le_boxMax _ _ w ⟨r, h⟩
/-- … and at most every `c` above the word -1e9 that is at least all those columns. -/
theorem xmax2_le (c : EReal) (hc : Ideal.ofBits .f32 0xCE6E6B28#32 ≤ c)
    (h : ∀ (r : Fin 32) (w : Fin 512), k0_pay17 v (ix3 p r w) = 1#1 → colNumber w ≤ c) :
    k0_pay34 (F := Ideal) (k0_pay28 (F := Ideal) (k0_pay17 v)) (ix2 p 0) ≤ c := by
  rw [tile_xmax2 v p]; exact boxMax_le _ _ c hc fun w ⟨r, hr⟩ => h r w hr

/-- The tile's flag is the word of one when some pixel of the tile is in the mask … -/
theorem any2_of (r : Fin 32) (w : Fin 512) (h : k0_pay17 v (ix3 p r w) = 1#1) :
    k0_pay35 (F := Ideal) (k0_pay27 (F := Ideal) (k0_pay17 v)) (ix2 p 0) = Ideal.ofBits .f32 0x3F800000#32 := by
  rw [tile_any2 v p]; exact boxAny_of_exists _ ⟨r, w, h⟩
/-- … and the word of zero when none is. -/
theorem any2_of_not (h : ∀ (r : Fin 32) (w : Fin 512), ¬k0_pay17 v (ix3 p r w) = 1#1) :
    k0_pay35 (F := Ideal) (k0_pay27 (F := Ideal) (k0_pay17 v)) (ix2 p 0) = Ideal.ofBits .f32 0x00000000#32 := by
  rw [tile_any2 v p]; exact boxAny_of_not_exists _ fun ⟨r, w, hw⟩ => h r w hw
/-- In either case it is one of the two words. -/
theorem any2_cases :
    k0_pay35 (F := Ideal) (k0_pay27 (F := Ideal) (k0_pay17 v)) (ix2 p 0) = Ideal.ofBits .f32 0x00000000#32 ∨ k0_pay35 (F := Ideal) (k0_pay27 (F := Ideal) (k0_pay17 v)) (ix2 p 0) = Ideal.ofBits .f32 0x3F800000#32 := by
  by_cases h : ∃ (r : Fin 32) (w : Fin 512), k0_pay17 v (ix3 p r w) = 1#1
  · obtain ⟨r, w, hw⟩ := h; exact Or.inr (any2_of v p r w hw)
  · exact Or.inl (any2_of_not v p fun r w hw => h ⟨r, w, hw⟩)

end Mask2

end Cert.TileSide

end
-- ==== Proof.TileUpd.lean ====
/-
  The stores of the kernel body, read at an index: the running minima and maxima that carry the statistics from one
  row tile to the next, their initial values, and the final assembly of the ten columns.

  Ten [8, 1] scratch columns hold, per batch entry, the running (ymin, xmin, ymax, xmax) of the first mask, the same
  four of the second mask, and the two "any" flags. At the first row tile they are set to the words 1e9 (minima),
  -1e9 (maxima) and 0 (flags); at every tile each is replaced by the minimum (maximum) of what it held and the
  tile's number; at the last tile the ten columns are laid side by side as the [8, 10] block of the statistics.
-/
import proofs.«124476_j14413910245512_2_alg».proof.Proof.Gen.KernelIdeal.Skeleton
import proofs.«124476_j14413910245512_2_alg».proof.Proof.TileLib

noncomputable section

namespace Cert.TileSide

open Cert.KernelIdeal Cert.KernelIdeal.Gen Idealize.ShloMosaic Idealize.ShloMosaic.ValueIdx
open Cert.TailSide (word_one word_zero cmp_ogt_eq_one_iff)

/-! ## The initial values -/

theorem pay5_apply (j : S8x1.Idx) : k0_pay5 (F := Ideal) j = Ideal.ofBits .f32 0x4E6E6B28#32 := by
  unfold k0_pay5; rw [shapeCast_self]; rfl
theorem pay6_apply (j : S8x1.Idx) : k0_pay6 (F := Ideal) j = Ideal.ofBits .f32 0x4E6E6B28#32 := by
  unfold k0_pay6; rw [shapeCast_self]; rfl
theorem pay7_apply (j : S8x1.Idx) : k0_pay7 (F := Ideal) j = Ideal.ofBits .f32 0xCE6E6B28#32 := by
  unfold k0_pay7; rw [shapeCast_self]; rfl
theorem pay8_apply (j : S8x1.Idx) : k0_pay8 (F := Ideal) j = Ideal.ofBits .f32 0xCE6E6B28#32 := by
  unfold k0_pay8; rw [shapeCast_self]; rfl
theorem pay9_apply (j : S8x1.Idx) : k0_pay9 (F := Ideal) j = Ideal.ofBits .f32 0x4E6E6B28#32 := by
  unfold k0_pay9; rw [shapeCast_self]; rfl
theorem pay10_apply (j : S8x1.Idx) : k0_pay10 (F := Ideal) j = Ideal.ofBits .f32 0x4E6E6B28#32 := by
  unfold k0_pay10; rw [shapeCast_self]; rfl
theorem pay11_apply (j : S8x1.Idx) : k0_pay11 (F := Ideal) j = Ideal.ofBits .f32 0xCE6E6B28#32 := by
  unfold k0_pay11; rw [shapeCast_self]; rfl
theorem pay12_apply (j : S8x1.Idx) : k0_pay12 (F := Ideal) j = Ideal.ofBits .f32 0xCE6E6B28#32 := rfl
theorem pay13_eq (v : FVec Ideal S8x1 .f32) : k0_pay13 v = v := by
  unfold k0_pay13; exact shapeCast_self v _
theorem pay14_apply (j : S8x1.Idx) : k0_pay14 (F := Ideal) j = Ideal.ofBits .f32 0x00000000#32 := by
  unfold k0_pay14; rw [shapeCast_self]; rfl
theorem pay15_apply (j : S8x1.Idx) : k0_pay15 (F := Ideal) j = Ideal.ofBits .f32 0x00000000#32 := by
  unfold k0_pay15; rw [shapeCast_self]; rfl

/-! ## The updates: old value against the tile's value -/

/-- First mask's ymin: the smaller of the old value and the tile's. -/
theorem pay36_apply (tile : FVec Ideal S8x1 .f32) (old : Vec Ideal S8x1 .f32) (j : S8x1.Idx) :
    k0_pay36 tile old j = min (old j) (tile j) := by
  unfold k0_pay36; rw [shapeCast_self]; rfl
/-- First mask's xmin (the value, before it is stored). -/
theorem pay37_apply (tile : FVec Ideal S8x1 .f32) (old : Vec Ideal S8x1 .f32) (j : S8x1.Idx) :
    k0_pay37 tile old j = min (old j) (tile j) := rfl
/-- … and what is stored is that value. -/
theorem pay38_eq (v : FVec Ideal S8x1 .f32) : k0_pay38 v = v := by
  unfold k0_pay38; exact shapeCast_self v _
/-- First mask's ymax. -/
theorem pay39_apply (tile : FVec Ideal S8x1 .f32) (old : Vec Ideal S8x1 .f32) (j : S8x1.Idx) :
    k0_pay39 tile old j = max (old j) (tile j) := by
  unfold k0_pay39; rw [shapeCast_self]; rfl
/-- First mask's xmax. -/
theorem pay40_apply (tile : FVec Ideal S8x1 .f32) (old : Vec Ideal S8x1 .f32) (j : S8x1.Idx) :
    k0_pay40 tile old j = max (old j) (tile j) := by
  unfold k0_pay40; rw [shapeCast_self]; rfl
/-- Second mask's ymin. -/
theorem pay41_apply (tile : FVec Ideal S8x1 .f32) (old : Vec Ideal S8x1 .f32) (j : S8x1.Idx) :
    k0_pay41 tile old j = min (old j) (tile j) := by
  unfold k0_pay41; rw [shapeCast_self]; rfl
/-- Second mask's xmin. -/
theorem pay42_apply (tile : FVec Ideal S8x1 .f32) (old : Vec Ideal S8x1 .f32) (j : S8x1.Idx) :
    k0_pay42 tile old j = min (old j) (tile j) := by
  unfold k0_pay42; rw [shapeCast_self]; rfl
/-- Second mask's ymax. -/
theorem pay43_apply (tile : FVec Ideal S8x1 .f32) (old : Vec Ideal S8x1 .f32) (j : S8x1.Idx) :
    k0_pay43 tile old j = max (old j) (tile j) := by
  unfold k0_pay43; rw [shapeCast_self]; rfl
/-- Second mask's xmax (the value, before it is stored). -/
theorem pay44_apply (tile : FVec Ideal S8x1 .f32) (old : Vec Ideal S8x1 .f32) (j : S8x1.Idx) :
    k0_pay44 tile old j = max (old j) (tile j) := rfl
/-- … and what is stored is that value. -/
theorem pay1_eq (v : FVec Ideal S8x1 .f32) : k0_pay1 v = v := by
  unfold k0_pay1; exact shapeCast_self v _
/-- First mask's "any" flag. -/
theorem pay2_apply (tile : FVec Ideal S8x1 .f32) (old : Vec Ideal S8x1 .f32) (j : S8x1.Idx) :
    k0_pay2 tile old j = max (old j) (tile j) := by
  unfold k0_pay2; rw [shapeCast_self]; rfl
/-- Second mask's "any" flag. -/
theorem pay3_apply (tile : FVec Ideal S8x1 .f32) (old : Vec Ideal S8x1 .f32) (j : S8x1.Idx) :
    k0_pay3 tile old j = max (old j) (tile j) := by
  unfold k0_pay3; rw [shapeCast_self]; rfl

/-! ## The ten columns side by side -/

/-- Column `k` of the assembled [8, 10] block at batch entry `p` is the `k`-th scratch column at (p, 0). -/
theorem pay4_apply (v : Fin 10 → Vec Ideal S8x1 .f32) (p : Fin 8) (k : Fin 10) :
    k0_pay4 (v 0) (v 1) (v 2) (v 3) (v 4) (v 5) (v 6) (v 7) (v 8) (v 9) (ix2 p k) = v k (ix2 p 0) := by
  unfold k0_pay4
  have hi : ∀ (k : Fin 10) (b : Fin S8x1.rank), b.cast (rfl : S8x1.rank = S8x10.rank) ≠ (1 : Fin S8x10.rank) →
      ((ix2 p (0 : Fin 1) : S8x1.Idx) b).val = ((ix2 p k : S8x10.Idx) (b.cast rfl)).val := by
    intro k b hb
    match b with
    | ⟨0, _⟩ => rfl
    | ⟨1, _⟩ => exact absurd rfl hb
  fin_cases k
  · refine concatenate_apply_piece (t := S8x10) 1 _ _ _ 0 ?_ S8x1 _ ?_ rfl 0 ?_ (ix2 p 0) ?_ ?_ <;> first | rfl | (show _ < 10; omega) | exact hi _ | decide
  · refine concatenate_apply_piece (t := S8x10) 1 _ _ _ 1 ?_ S8x1 _ ?_ rfl 1 ?_ (ix2 p 0) ?_ ?_ <;> first | rfl | (show _ < 10; omega) | exact hi _ | decide
  · refine concatenate_apply_piece (t := S8x10) 1 _ _ _ 2 ?_ S8x1 _ ?_ rfl 2 ?_ (ix2 p 0) ?_ ?_ <;> first | rfl | (show _ < 10; omega) | exact hi _ | decide
  · refine concatenate_apply_piece (t := S8x10) 1 _ _ _ 3 ?_ S8x1 _ ?_ rfl 3 ?_ (ix2 p 0) ?_ ?_ <;> first | rfl | (show _ < 10; omega) | exact hi _ | decide
  · refine concatenate_apply_piece (t := S8x10) 1 _ _ _ 4 ?_ S8x1 _ ?_ rfl 4 ?_ (ix2 p 0) ?_ ?_ <;> first | rfl | (show _ < 10; omega) | exact hi _ | decide
  · refine concatenate_apply_piece (t := S8x10) 1 _ _ _ 5 ?_ S8x1 _ ?_ rfl 5 ?_ (ix2 p 0) ?_ ?_ <;> first | rfl | (show _ < 10; omega) | exact hi _ | decide
  · refine concatenate_apply_piece (t := S8x10) 1 _ _ _ 6 ?_ S8x1 _ ?_ rfl 6 ?_ (ix2 p 0) ?_ ?_ <;> first | rfl | (show _ < 10; omega) | exact hi _ | decide
  · refine concatenate_apply_piece (t := S8x10) 1 _ _ _ 7 ?_ S8x1 _ ?_ rfl 7 ?_ (ix2 p 0) ?_ ?_ <;> first | rfl | (show _ < 10; omega) | exact hi _ | decide
  · refine concatenate_apply_piece (t := S8x10) 1 _ _ _ 8 ?_ S8x1 _ ?_ rfl 8 ?_ (ix2 p 0) ?_ ?_ <;> first | rfl | (show _ < 10; omega) | exact hi _ | decide
  · refine concatenate_apply_piece (t := S8x10) 1 _ _ _ 9 ?_ S8x1 _ ?_ rfl 9 ?_ (ix2 p 0) ?_ ?_ <;> first | rfl | (show _ < 10; omega) | exact hi _ | decide

end Cert.TileSide

end
-- ==== Proof.TileBlock.lean ====
/-
  The input blocks a grid point sees, as entries of the launched arguments.

  Before the region the two arguments, of shape [16, 1, 512, 512, 21], are transposed to [16, 1, 21, 512, 512] (the
  channel axis moved in front of the rows). The grid has 2 x 16 points; point t = 16·bi + hi stages, of each
  transposed array, the block of batch entries 8·bi … 8·bi + 7 and rows 32·hi … 32·hi + 31, all channels and all
  columns. So entry (p, 0, ch, r, w) of the block at point t is the argument at (8·bi + p, 0, 32·hi + r, w, ch).
-/
import proofs.«124476_j14413910245512_2_alg».proof.Proof.KiKit
import Idealize.ShloMosaic.Lib.ValueIdx

noncomputable section

namespace Cert.TileSide

open Idealize.ShloMosaic Idealize.ShloMosaic.TcCoe Idealize.ShloMosaic.ValueIdx Idealize.SL.Sem Idealize.ShloMosaic.StableHlo
open Cert.KernelIdeal Cert.KernelIdeal.Gen Cert.KernelIdeal.Hand

variable {F : FTy → Type} [FloatOps F]
variable (m : (ℓ : Loc nD τ sig) → Buf (Elt F) ℓ)

/-- The first staged array as the region finds it: the first argument, transposed. -/
theorem V_main_v0 (c : Dev nD) :
    (V m c main_v0 : S16x1x21x512x512.Idx → Elt F .f32)
      = transpose S16x1x21x512x512 [0, 1, 4, 2, 3] (m ((c : Thread nD τ).loc main_arg0) : S16x1x512x512x21.Idx → Elt F .f32)
          transposes_S16x1x512x512x21_S16x1x21x512x512_0_1_4_2_3 := by
  dsimp only [V, V0]
  simp only [hostOps0, List.flatten_cons, List.flatten_nil, List.append_nil, List.cons_append, List.nil_append]
  after_results

/-- The second staged array: the second argument, transposed. -/
theorem V_main_v1 (c : Dev nD) :
    (V m c main_v1 : S16x1x21x512x512.Idx → Elt F .f32)
      = transpose S16x1x21x512x512 [0, 1, 4, 2, 3] (m ((c : Thread nD τ).loc main_arg1) : S16x1x512x512x21.Idx → Elt F .f32)
          transposes_S16x1x512x512x21_S16x1x21x512x512_0_1_4_2_3 := by
  dsimp only [V, V0]
  simp only [hostOps0, List.flatten_cons, List.flatten_nil, List.append_nil, List.cons_append, List.nil_append]
  after_results

/-- Which block of the first staged array point `t` stages: batch block t / 16, row tile t % 16, everything else whole. -/
theorem idx0 : ∀ t : Fin cfg0.N, win0_0.index t 0 = t.val / 16 ∧ win0_0.index t 1 = 0 ∧ win0_0.index t 2 = 0
    ∧ win0_0.index t 3 = t.val % 16 ∧ win0_0.index t 4 = 0 :=
  (by decide +kernel : ∀ t : Fin grid0.N, win0_0.index t 0 = t.val / 16 ∧ win0_0.index t 1 = 0 ∧ win0_0.index t 2 = 0
    ∧ win0_0.index t 3 = t.val % 16 ∧ win0_0.index t 4 = 0)

/-- The same for the second staged array. -/
theorem idx1 : ∀ t : Fin cfg0.N, win0_1.index t 0 = t.val / 16 ∧ win0_1.index t 1 = 0 ∧ win0_1.index t 2 = 0
    ∧ win0_1.index t 3 = t.val % 16 ∧ win0_1.index t 4 = 0 :=
  (by decide +kernel : ∀ t : Fin grid0.N, win0_1.index t 0 = t.val / 16 ∧ win0_1.index t 1 = 0 ∧ win0_1.index t 2 = 0
    ∧ win0_1.index t 3 = t.val % 16 ∧ win0_1.index t 4 = 0)

/-- THE FIRST INPUT'S BLOCK at point `t`, entry (p, 0, ch, r, w): the first argument at the index `k` whose batch
    coordinate is 8·(t / 16) + p, row 32·(t % 16) + r, column w and channel ch. -/
theorem iblk0_apply (c : Dev nD) (t : Fin cfg0.N) (p : Fin 8) (ch : Fin 21) (r : Fin 32) (w : Fin 512)
    (k : S16x1x512x512x21.Idx) (hk0 : (k 0).val = 8 * (t.val / 16) + p.val)
    (hk2 : (k 2).val = 32 * (t.val % 16) + r.val) (hk3 : (k 3).val = w.val) (hk4 : (k 4).val = ch.val) :
    (iblk m c 0 t : Vec F S8x1x21x32x512 .f32) (ix5 p 0 ch r w)
      = (m ((c : Thread nD τ).loc main_arg0) : S16x1x512x512x21.Idx → Elt F .f32) k := by
  obtain ⟨h0, h1, h2, h3, h4⟩ := idx0 t
  have hk1 : (k 1).val < 1 := (k 1).isLt
  unfold iblk
  rw [View.read_apply]
  show V m c main_v0 _ = _
  refine (congrFun (V_main_v0 m c) _).trans ?_
  refine transpose_apply _ _ _ _ k fun b => ?_
  match b with
  | ⟨0, _⟩ => show (k 0).val = win0_0.index t 0 * 8 + 1 * p.val; rw [h0, hk0]; omega
  | ⟨1, _⟩ => show (k 1).val = win0_0.index t 1 * 1 + 1 * 0; rw [h1]; omega
  | ⟨2, _⟩ => show (k 4).val = win0_0.index t 2 * 21 + 1 * ch.val; rw [h2, hk4]; omega
  | ⟨3, _⟩ => show (k 2).val = win0_0.index t 3 * 32 + 1 * r.val; rw [h3, hk2]; omega
  | ⟨4, _⟩ => show (k 3).val = win0_0.index t 4 * 512 + 1 * w.val; rw [h4, hk3]; omega

/-- THE SECOND INPUT'S BLOCK at point `t` likewise, of the second argument. -/
theorem iblk1_apply (c : Dev nD) (t : Fin cfg0.N) (p : Fin 8) (ch : Fin 21) (r : Fin 32) (w : Fin 512)
    (k : S16x1x512x512x21.Idx) (hk0 : (k 0).val = 8 * (t.val / 16) + p.val)
    (hk2 : (k 2).val = 32 * (t.val % 16) + r.val) (hk3 : (k 3).val = w.val) (hk4 : (k 4).val = ch.val) :
    (iblk m c 1 t : Vec F S8x1x21x32x512 .f32) (ix5 p 0 ch r w)
      = (m ((c : Thread nD τ).loc main_arg1) : S16x1x512x512x21.Idx → Elt F .f32) k := by
  obtain ⟨h0, h1, h2, h3, h4⟩ := idx1 t
  have hk1 : (k 1).val < 1 := (k 1).isLt
  unfold iblk
  rw [View.read_apply]
  show V m c main_v1 _ = _
  refine (congrFun (V_main_v1 m c) _).trans ?_
  refine transpose_apply _ _ _ _ k fun b => ?_
  match b with
  | ⟨0, _⟩ => show (k 0).val = win0_1.index t 0 * 8 + 1 * p.val; rw [h0, hk0]; omega
  | ⟨1, _⟩ => show (k 1).val = win0_1.index t 1 * 1 + 1 * 0; rw [h1]; omega
  | ⟨2, _⟩ => show (k 4).val = win0_1.index t 2 * 21 + 1 * ch.val; rw [h2, hk4]; omega
  | ⟨3, _⟩ => show (k 2).val = win0_1.index t 3 * 32 + 1 * r.val; rw [h3, hk2]; omega
  | ⟨4, _⟩ => show (k 3).val = win0_1.index t 4 * 512 + 1 * w.val; rw [h4, hk3]; omega

/-- The argument index the block entry (p, ·, ch, r, w) at point `t` comes from. -/
def srcIdx (t : Fin cfg0.N) (p : Fin 8) (ch : Fin 21) (r : Fin 32) (w : Fin 512) : S16x1x512x512x21.Idx :=
  ix5 (⟨8 * (t.val / 16) + p.val, by have := t.isLt; have hN : cfg0.N = 32 := N_0; have := p.isLt; omega⟩ : Fin 16) (0 : Fin 1)
    (⟨32 * (t.val % 16) + r.val, by have := r.isLt; omega⟩ : Fin 512) w ch

theorem iblk0_src (c : Dev nD) (t : Fin cfg0.N) (p : Fin 8) (ch : Fin 21) (r : Fin 32) (w : Fin 512) :
    (iblk m c 0 t : Vec F S8x1x21x32x512 .f32) (ix5 p 0 ch r w)
      = (m ((c : Thread nD τ).loc main_arg0) : S16x1x512x512x21.Idx → Elt F .f32) (srcIdx t p ch r w) :=
  iblk0_apply m c t p ch r w _ rfl rfl rfl rfl

theorem iblk1_src (c : Dev nD) (t : Fin cfg0.N) (p : Fin 8) (ch : Fin 21) (r : Fin 32) (w : Fin 512) :
    (iblk m c 1 t : Vec F S8x1x21x32x512 .f32) (ix5 p 0 ch r w)
      = (m ((c : Thread nD τ).loc main_arg1) : S16x1x512x512x21.Idx → Elt F .f32) (srcIdx t p ch r w) :=
  iblk1_apply m c t p ch r w _ rfl rfl rfl rfl

end Cert.TileSide

end
-- ==== Proof.RefSpec.lean ====
/-
  The reference's result as closed mathematics, index by index, over the two argument arrays
  x, y : f32[16, 1, 512, 512, 21] read at the ideal instance (floats are extended reals).

  For a batch entry b and a pixel (h, w) the MASK bit of an array is "threshold < max over the 21 channels",
  the maximum a fold from -∞. From a mask M the four integer BOUNDS of entry b are folds over all pixels (h, w):
  the signed minimum, from INT_MAX, of (h if M b h w else 2^30), the signed maximum, from INT_MIN, of
  (h if M b h w else -2^30), and the same two with w in place of h; the ANY bit is the fold of "or" from 0.
  The PENALTY of entry b is, when both masks have a set pixel, area term + centre term of the two boxes
  (integer areas and coordinate sums converted exactly), and 1 otherwise; the result is 0.05 · (Σ_b penalty b) / 16.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.RefSide

open Idealize.ShloMosaic Idealize.ShloMosaic.ValueIdx

/-- The shape of the two argument arrays. -/
abbrev SArg : Shape := ⟨5, ![16, 1, 512, 512, 21]⟩
/-- The shape of the result: a scalar. -/
abbrev SRes : Shape := ⟨0, ![]⟩

/-- A mask: one bit per batch entry and pixel. -/
abbrev Mask : Type := Fin 16 → Fin 512 → Fin 512 → BitVec 1

/-- The maximum over the 21 channels at a pixel, folded from -∞. -/
def chanMax (x : FVec Ideal SArg .f32) (b : Fin 16) (h w : Fin 512) : Ideal .f32 :=
  (Finset.univ : Finset (Fin 21)).fold (FloatOps.maximumf (F := Ideal) (φ := .f32)) (Ideal.ofBits .f32 0xFF800000#32)
    (fun c => x (ix5 b (0 : Fin 1) h w c))

/-- The mask of an array at a threshold word: the bit of "threshold < channel maximum". -/
def mask (thr : BitVec 32) (x : FVec Ideal SArg .f32) : Mask :=
  fun b h w => FloatOps.cmpf (F := Ideal) .ogt (chanMax x b h w) (Ideal.ofBits .f32 thr)

/-- The prediction's mask (threshold 0.3) and the target's (threshold 0.5). -/
abbrev maskP (x : FVec Ideal SArg .f32) : Mask := mask 0x3E99999A#32 x
abbrev maskT (y : FVec Ideal SArg .f32) : Mask := mask 0x3F000000#32 y

/-- Smallest row of the mask's entry b as an int32 word: signed minimum from INT_MAX of (h if set else 2^30). -/
def yminW (M : Mask) (b : Fin 16) : BitVec 32 :=
  (Finset.univ : Finset (Fin 512 × Fin 512)).fold IntOp.minsi 2147483647#32
    (fun p => Scalar.select (M b p.1 p.2) (BitVec.ofNat 32 p.1.val) 1073741824#32)
/-- Smallest column. -/
def xminW (M : Mask) (b : Fin 16) : BitVec 32 :=
  (Finset.univ : Finset (Fin 512 × Fin 512)).fold IntOp.minsi 2147483647#32
    (fun p => Scalar.select (M b p.1 p.2) (BitVec.ofNat 32 p.2.val) 1073741824#32)
/-- Largest row: signed maximum from INT_MIN of (h if set else -2^30). -/
def ymaxW (M : Mask) (b : Fin 16) : BitVec 32 :=
  (Finset.univ : Finset (Fin 512 × Fin 512)).fold IntOp.maxsi 2147483648#32
    (fun p => Scalar.select (M b p.1 p.2) (BitVec.ofNat 32 p.1.val) (-(1073741824#32)))
/-- Largest column. -/
def xmaxW (M : Mask) (b : Fin 16) : BitVec 32 :=
  (Finset.univ : Finset (Fin 512 × Fin 512)).fold IntOp.maxsi 2147483648#32
    (fun p => Scalar.select (M b p.1 p.2) (BitVec.ofNat 32 p.2.val) (-(1073741824#32)))
/-- Whether entry b of the mask has a set pixel: the "or" of all its bits, from 0. -/
def anyW (M : Mask) (b : Fin 16) : BitVec 1 :=
  (Finset.univ : Finset (Fin 512 × Fin 512)).fold IntOp.ori 0#1 (fun p => M b p.1 p.2)

/-- The box's area (rows)·(columns) in int32 arithmetic. -/
def areaW (M : Mask) (b : Fin 16) : BitVec 32 :=
  IntOp.muli (IntOp.addi (IntOp.subi (ymaxW M b) (yminW M b)) 1#32) (IntOp.addi (IntOp.subi (xmaxW M b) (xminW M b)) 1#32)
/-- Twice the box's centre row, in int32 arithmetic. -/
def ysumW (M : Mask) (b : Fin 16) : BitVec 32 := IntOp.addi (yminW M b) (ymaxW M b)
/-- Twice the box's centre column. -/
def xsumW (M : Mask) (b : Fin 16) : BitVec 32 := IntOp.addi (xminW M b) (xmaxW M b)

/-- The float tail of one entry from the two areas and the four coordinate sums (prediction first):
    max(aP - aT, 0) / (aT + 1) + sqrt((syP/2 - syT/2)^2 + (sxP/2 - sxT/2)^2) / 20. -/
def tail (aP aT syP sxP syT sxT : Ideal .f32) : Ideal .f32 :=
  Ideal.div (max (aP - aT) (Ideal.ofBits .f32 0x00000000#32)) (aT + Ideal.ofBits .f32 0x3F800000#32)
  + Ideal.div
      (Ideal.sqrt
        ((Ideal.div syP (Ideal.ofBits .f32 0x40000000#32) - Ideal.div syT (Ideal.ofBits .f32 0x40000000#32))
            * (Ideal.div syP (Ideal.ofBits .f32 0x40000000#32) - Ideal.div syT (Ideal.ofBits .f32 0x40000000#32))
          + (Ideal.div sxP (Ideal.ofBits .f32 0x40000000#32) - Ideal.div sxT (Ideal.ofBits .f32 0x40000000#32))
            * (Ideal.div sxP (Ideal.ofBits .f32 0x40000000#32) - Ideal.div sxT (Ideal.ofBits .f32 0x40000000#32))))
      (Ideal.ofBits .f32 0x41A00000#32)

/-- The exact conversion of an int32 word, read signed. -/
abbrev toF (v : BitVec 32) : Ideal .f32 := FloatOps.sitofp (F := Ideal) .f32 v

/-- The penalty of entry b from the two masks: the tail when both have a set pixel, else 1. -/
def pen (P T : Mask) (b : Fin 16) : Ideal .f32 :=
  Scalar.select (IntOp.andi (anyW P b) (anyW T b))
    (tail (toF (areaW P b)) (toF (areaW T b)) (toF (ysumW P b)) (toF (xsumW P b)) (toF (ysumW T b)) (toF (xsumW T b)))
    (Ideal.ofBits .f32 0x3F800000#32)

/-- The reference's result: 0.05 · ((0 + Σ_b penalty b) / 16), at the result's one index. -/
def refVal (x y : FVec Ideal SArg .f32) : FVec Ideal SRes .f32 := fun _ =>
  Ideal.ofBits .f32 0x3D4CCCCD#32
    * Ideal.div (Ideal.ofBits .f32 0x00000000#32 + ∑ b : Fin 16, pen (maskP x) (maskT y) b) (Ideal.ofBits .f32 0x41800000#32)

end Cert.RefSide

end
-- ==== Proof.TileMaskJoin.lean ====
/-
  A tile's channel maxima and mask bits are the argument arrays' channel maxima and mask bits. Grid point
  t = 16·bi + hi stages batch entries 8·bi … 8·bi + 7 and rows 32·hi … 32·hi + 31; entry (p, 0, ch, r, w) of a staged
  block is the argument at (8·bi + p, 0, 32·hi + r, w, ch). Hence the maximum over the 21 channels of the block at
  (p, r, w) is the argument's channel maximum at batch entry 8·bi + p, row 32·hi + r, column w, and the tile's
  mask bit there — that maximum compared with the threshold word — is the argument's mask bit at that pixel.
-/
import proofs.«124476_j14413910245512_2_alg».proof.Proof.TileBlock
import proofs.«124476_j14413910245512_2_alg».proof.Proof.TileMask
import proofs.«124476_j14413910245512_2_alg».proof.Proof.RefSpec

noncomputable section

namespace Cert.RefSide

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-- The batch entry that block entry p of grid point t holds: 8·(t / 16) + p. -/
def entryOf (t : Fin cfg0.N) (p : Fin 8) : Fin 16 :=
  ⟨8 * (t.val / 16) + p.val, by have := t.isLt; have hN : cfg0.N = 32 := N_0; have := p.isLt; omega⟩

/-- The row of the arrays that tile row r of grid point t holds: 32·(t % 16) + r. -/
def rowOf (t : Fin cfg0.N) (r : Fin 32) : Fin 512 :=
  ⟨32 * (t.val % 16) + r.val, by have := r.isLt; omega⟩

theorem entryOf_val (t : Fin cfg0.N) (p : Fin 8) : (entryOf t p).val = 8 * (t.val / 16) + p.val := rfl
theorem rowOf_val (t : Fin cfg0.N) (r : Fin 32) : (rowOf t r).val = 32 * (t.val % 16) + r.val := rfl

/-- The first input's block at point t: its channel maximum at (p, r, w) is the first argument's at the pixel. -/
theorem blockChanMax0 (c : Dev nD) (t : Fin cfg0.N) (p : Fin 8) (r : Fin 32) (w : Fin 512) :
    (Finset.univ : Finset (Fin 21)).fold (FloatOps.maximumf (F := Ideal) (φ := .f32)) (Ideal.ofBits .f32 0xFF800000#32)
        (fun ch => (iblk m c 0 t : Vec Ideal S8x1x21x32x512 .f32) (ix5 p 0 ch r w))
      = chanMax (m ((c : Thread nD τ).loc main_arg0)) (entryOf t p) (rowOf t r) w := by
  unfold chanMax
  refine Finset.fold_congr (fun ch _ => ?_)
  exact Cert.TileSide.iblk0_apply m c t p ch r w _ rfl rfl rfl rfl

/-- The second input's block at point t: its channel maximum at (p, r, w) is the second argument's at the pixel. -/
theorem blockChanMax1 (c : Dev nD) (t : Fin cfg0.N) (p : Fin 8) (r : Fin 32) (w : Fin 512) :
    (Finset.univ : Finset (Fin 21)).fold (FloatOps.maximumf (F := Ideal) (φ := .f32)) (Ideal.ofBits .f32 0xFF800000#32)
        (fun ch => (iblk m c 1 t : Vec Ideal S8x1x21x32x512 .f32) (ix5 p 0 ch r w))
      = chanMax (m ((c : Thread nD τ).loc main_arg1)) (entryOf t p) (rowOf t r) w := by
  unfold chanMax
  refine Finset.fold_congr (fun ch _ => ?_)
  exact Cert.TileSide.iblk1_apply m c t p ch r w _ rfl rfl rfl rfl

/-- The same two facts with the block-side channel maximum by its name. -/
theorem tileChanMax0 (c : Dev nD) (t : Fin cfg0.N) (p : Fin 8) (r : Fin 32) (w : Fin 512) :
    Cert.TileSide.chanMax (iblk m c 0 t : Vec Ideal S8x1x21x32x512 .f32) p r w
      = chanMax (m ((c : Thread nD τ).loc main_arg0)) (entryOf t p) (rowOf t r) w :=
  blockChanMax0 m c t p r w

theorem tileChanMax1 (c : Dev nD) (t : Fin cfg0.N) (p : Fin 8) (r : Fin 32) (w : Fin 512) :
    Cert.TileSide.chanMax (iblk m c 1 t : Vec Ideal S8x1x21x32x512 .f32) p r w
      = chanMax (m ((c : Thread nD τ).loc main_arg1)) (entryOf t p) (rowOf t r) w :=
  blockChanMax1 m c t p r w

/-- THE FIRST MASK of the tile at point t is the prediction's mask of the first argument at the pixel. -/
theorem pay16_block (c : Dev nD) (t : Fin cfg0.N) (p : Fin 8) (r : Fin 32) (w : Fin 512) :
    k0_pay16 (iblk m c 0 t : Vec Ideal S8x1x21x32x512 .f32) (ix3 p r w)
      = maskP (m ((c : Thread nD τ).loc main_arg0)) (entryOf t p) (rowOf t r) w := by
  rw [Cert.TileSide.pay16_eq, blockChanMax0]
  rfl

/-- THE SECOND MASK of the tile at point t is the target's mask of the second argument at the pixel. -/
theorem pay17_block (c : Dev nD) (t : Fin cfg0.N) (p : Fin 8) (r : Fin 32) (w : Fin 512) :
    k0_pay17 (iblk m c 1 t : Vec Ideal S8x1x21x32x512 .f32) (ix3 p r w)
      = maskT (m ((c : Thread nD τ).loc main_arg1)) (entryOf t p) (rowOf t r) w := by
  rw [Cert.TileSide.pay17_eq, blockChanMax1]
  rfl

end Cert.RefSide

end
-- ==== Proof.RefBox.lean ====
/-
  The reference's integer bounds as natural numbers. For a mask M and a batch entry b with at least one set pixel,
  the signed value of the min-reduce word over "row if set else 2^30" is the smallest row that has a set pixel,
  of the max-reduce word over "row if set else -2^30" the largest such row, and likewise for columns; the "or" of
  all bits is 1 exactly when some pixel is set. All these numbers are below 512, so the int32 arithmetic on them
  (differences, +1, the product of two extents at most 512·512, the sums of two bounds) never wraps, and the exact
  conversion of each such word is the natural-number expression itself.
-/
import Mathlib.Tactic
import Mathlib.Data.Finset.Fold
import Mathlib.Data.Finset.Max
import proofs.«124476_j14413910245512_2_alg».proof.Proof.RefSpec

noncomputable section

namespace Cert.RefSide

open Idealize.ShloMosaic Idealize.ShloMosaic.ValueIdx

/-! ## Words -/

/-- The signed minimum of two words has the minimum of their signed values. -/
theorem toInt_minsi (x y : BitVec 32) : (IntOp.minsi x y).toInt = min x.toInt y.toInt := by
  unfold IntOp.minsi
  by_cases h : x.slt y
  · rw [if_pos h]; exact (min_eq_left (le_of_lt (BitVec.slt_iff_toInt_lt.mp h))).symm
  · rw [if_neg h]; exact (min_eq_right (not_lt.mp (fun hlt => h (BitVec.slt_iff_toInt_lt.mpr hlt)))).symm

/-- The signed maximum of two words has the maximum of their signed values. -/
theorem toInt_maxsi (x y : BitVec 32) : (IntOp.maxsi x y).toInt = max x.toInt y.toInt := by
  unfold IntOp.maxsi
  by_cases h : y.slt x
  · rw [if_pos h]; exact (max_eq_left (le_of_lt (BitVec.slt_iff_toInt_lt.mp h))).symm
  · rw [if_neg h]; exact (max_eq_right (not_lt.mp (fun hlt => h (BitVec.slt_iff_toInt_lt.mpr hlt)))).symm

/-- The signed value of a fold of signed minima is the fold of minima of the signed values. -/
theorem toInt_fold_minsi {ι : Type} (S : Finset ι) (init : BitVec 32) (f : ι → BitVec 32) :
    (S.fold IntOp.minsi init f).toInt = S.fold min init.toInt (fun p => (f p).toInt) :=
  (Finset.fold_hom (op := IntOp.minsi) (op' := min) (m := BitVec.toInt) toInt_minsi).symm

/-- The signed value of a fold of signed maxima is the fold of maxima of the signed values. -/
theorem toInt_fold_maxsi {ι : Type} (S : Finset ι) (init : BitVec 32) (f : ι → BitVec 32) :
    (S.fold IntOp.maxsi init f).toInt = S.fold max init.toInt (fun p => (f p).toInt) :=
  (Finset.fold_hom (op := IntOp.maxsi) (op' := max) (m := BitVec.toInt) toInt_maxsi).symm

/-- A coordinate below 512, as a 32-bit word, has itself as signed value. -/
theorem toInt_ofNat_small (n : Nat) (hn : n < 512) : (BitVec.ofNat 32 n).toInt = (n : Int) := by
  have h1 : (BitVec.ofNat 32 n).toNat = n := by rw [BitVec.toNat_ofNat]; exact Nat.mod_eq_of_lt (by omega)
  rw [BitVec.toInt_eq_toNat_of_lt (by rw [h1]; omega), h1]

/-- The signed value of "coordinate if the bit is set, else 2^30". -/
theorem toInt_sel_min (c : BitVec 1) (n : Nat) (hn : n < 512) :
    (Scalar.select c (BitVec.ofNat 32 n) 1073741824#32).toInt = if c = 1#1 then (n : Int) else 1073741824 := by
  rcases BitVec.eq_zero_or_eq_one c with h | h <;> subst h
  · rw [select_zero, if_neg (by decide)]; rfl
  · rw [select_one, if_pos rfl]; exact toInt_ofNat_small n hn

/-- The signed value of "coordinate if the bit is set, else -2^30". -/
theorem toInt_sel_max (c : BitVec 1) (n : Nat) (hn : n < 512) :
    (Scalar.select c (BitVec.ofNat 32 n) (-(1073741824#32))).toInt = if c = 1#1 then (n : Int) else -1073741824 := by
  rcases BitVec.eq_zero_or_eq_one c with h | h <;> subst h
  · rw [select_zero, if_neg (by decide)]; rfl
  · rw [select_one, if_pos rfl]; exact toInt_ofNat_small n hn

/-- A one-bit "or" is 1 exactly when one of the two bits is. -/
theorem ori_eq_one (x y : BitVec 1) : IntOp.ori x y = 1#1 ↔ x = 1#1 ∨ y = 1#1 := by
  revert x y; decide

/-- The "or" of a family of bits, from 0, is 1 exactly when some bit is 1. -/
theorem fold_ori_eq_one {ι : Type} [DecidableEq ι] (S : Finset ι) (f : ι → BitVec 1) :
    S.fold IntOp.ori 0#1 f = 1#1 ↔ ∃ p ∈ S, f p = 1#1 := by
  induction S using Finset.induction_on with
  | empty => simp
  | insert a S ha ih =>
    rw [Finset.fold_insert ha, ori_eq_one, ih]
    constructor
    · rintro (h | ⟨p, hp, h⟩)
      · exact ⟨a, Finset.mem_insert_self _ _, h⟩
      · exact ⟨p, Finset.mem_insert_of_mem hp, h⟩
    · rintro ⟨p, hp, h⟩
      rcases Finset.mem_insert.mp hp with rfl | hp
      · exact Or.inl h
      · exact Or.inr ⟨p, hp, h⟩

/-! ## The folds over the pixels, for any coordinate of a pixel -/

/-- The min-fold over all pixels of "coordinate if set else 2^30", from INT_MAX, has as signed value the least
    element of any non-empty set R that consists exactly of the coordinates of the set pixels. -/
theorem fold_min_sel (M : Fin 512 → Fin 512 → BitVec 1) (coord : Fin 512 × Fin 512 → Fin 512) (R : Finset (Fin 512))
    (hR : ∀ k, k ∈ R ↔ ∃ p : Fin 512 × Fin 512, M p.1 p.2 = 1#1 ∧ coord p = k) (hne : R.Nonempty) :
    ((Finset.univ : Finset (Fin 512 × Fin 512)).fold IntOp.minsi 2147483647#32
        (fun p => Scalar.select (M p.1 p.2) (BitVec.ofNat 32 (coord p).val) 1073741824#32)).toInt
      = ((R.min' hne).val : Int) := by
  rw [toInt_fold_minsi]
  have hg : (fun p : Fin 512 × Fin 512 =>
        (Scalar.select (M p.1 p.2) (BitVec.ofNat 32 (coord p).val) 1073741824#32).toInt)
      = fun p => if M p.1 p.2 = 1#1 then ((coord p).val : Int) else 1073741824 :=
    funext fun p => toInt_sel_min _ _ (coord p).isLt
  rw [hg]
  have hinit : (2147483647#32 : BitVec 32).toInt = 2147483647 := rfl
  rw [hinit]
  have hmem : R.min' hne ∈ R := Finset.min'_mem _ _
  obtain ⟨p0, hp0, hc0⟩ := (hR _).mp hmem
  have hlt : ((R.min' hne).val : Int) < 512 := by exact_mod_cast (R.min' hne).isLt
  apply le_antisymm
  · rw [Finset.fold_min_le]
    refine Or.inr ⟨p0, Finset.mem_univ _, ?_⟩
    rw [if_pos hp0, hc0]
  · rw [Finset.le_fold_min]
    refine ⟨by omega, fun p _ => ?_⟩
    by_cases hM : M p.1 p.2 = 1#1
    · rw [if_pos hM]
      have hle : R.min' hne ≤ coord p := Finset.min'_le _ _ ((hR _).mpr ⟨p, hM, rfl⟩)
      exact_mod_cast hle
    · rw [if_neg hM]; omega

/-- The max-fold over all pixels of "coordinate if set else -2^30", from INT_MIN, has as signed value the greatest
    element of any non-empty set R that consists exactly of the coordinates of the set pixels. -/
theorem fold_max_sel (M : Fin 512 → Fin 512 → BitVec 1) (coord : Fin 512 × Fin 512 → Fin 512) (R : Finset (Fin 512))
    (hR : ∀ k, k ∈ R ↔ ∃ p : Fin 512 × Fin 512, M p.1 p.2 = 1#1 ∧ coord p = k) (hne : R.Nonempty) :
    ((Finset.univ : Finset (Fin 512 × Fin 512)).fold IntOp.maxsi 2147483648#32
        (fun p => Scalar.select (M p.1 p.2) (BitVec.ofNat 32 (coord p).val) (-(1073741824#32)))).toInt
      = ((R.max' hne).val : Int) := by
  rw [toInt_fold_maxsi]
  have hg : (fun p : Fin 512 × Fin 512 =>
        (Scalar.select (M p.1 p.2) (BitVec.ofNat 32 (coord p).val) (-(1073741824#32))).toInt)
      = fun p => if M p.1 p.2 = 1#1 then ((coord p).val : Int) else -1073741824 :=
    funext fun p => toInt_sel_max _ _ (coord p).isLt
  rw [hg]
  have hinit : (2147483648#32 : BitVec 32).toInt = -2147483648 := rfl
  rw [hinit]
  have hmem : R.max' hne ∈ R := Finset.max'_mem _ _
  obtain ⟨p0, hp0, hc0⟩ := (hR _).mp hmem
  have hge : (0 : Int) ≤ ((R.max' hne).val : Int) := by exact_mod_cast Nat.zero_le _
  apply le_antisymm
  · rw [Finset.fold_max_le]
    refine ⟨by omega, fun p _ => ?_⟩
    by_cases hM : M p.1 p.2 = 1#1
    · rw [if_pos hM]
      have hle : coord p ≤ R.max' hne := Finset.le_max' _ _ ((hR _).mpr ⟨p, hM, rfl⟩)
      exact_mod_cast hle
    · rw [if_neg hM]; omega
  · rw [Finset.le_fold_max]
    refine Or.inr ⟨p0, Finset.mem_univ _, ?_⟩
    rw [if_pos hp0, hc0]

/-! ## Rows and columns of a mask's entry -/

/-- Entry b of the mask has a set pixel. -/
def hasPix (M : Mask) (b : Fin 16) : Prop := ∃ h w, M b h w = 1#1
/-- The rows of entry b that have a set pixel. -/
def rowsOf (M : Mask) (b : Fin 16) : Finset (Fin 512) := Finset.univ.filter fun h => ∃ w, M b h w = 1#1
/-- The columns of entry b that have a set pixel. -/
def colsOf (M : Mask) (b : Fin 16) : Finset (Fin 512) := Finset.univ.filter fun w => ∃ h, M b h w = 1#1

theorem mem_rowsOf {M : Mask} {b : Fin 16} {k : Fin 512} :
    k ∈ rowsOf M b ↔ ∃ p : Fin 512 × Fin 512, M b p.1 p.2 = 1#1 ∧ p.1 = k := by
  unfold rowsOf
  rw [Finset.mem_filter]
  constructor
  · rintro ⟨_, w, e⟩; exact ⟨(k, w), e, rfl⟩
  · rintro ⟨p, e, rfl⟩; exact ⟨Finset.mem_univ _, p.2, e⟩

theorem mem_colsOf {M : Mask} {b : Fin 16} {k : Fin 512} :
    k ∈ colsOf M b ↔ ∃ p : Fin 512 × Fin 512, M b p.1 p.2 = 1#1 ∧ p.2 = k := by
  unfold colsOf
  rw [Finset.mem_filter]
  constructor
  · rintro ⟨_, h, e⟩; exact ⟨(h, k), e, rfl⟩
  · rintro ⟨p, e, rfl⟩; exact ⟨Finset.mem_univ _, p.1, e⟩

theorem rows_nonempty {M : Mask} {b : Fin 16} (hp : hasPix M b) : (rowsOf M b).Nonempty := by
  obtain ⟨h, w, e⟩ := hp; exact ⟨h, mem_rowsOf.mpr ⟨(h, w), e, rfl⟩⟩
theorem cols_nonempty {M : Mask} {b : Fin 16} (hp : hasPix M b) : (colsOf M b).Nonempty := by
  obtain ⟨h, w, e⟩ := hp; exact ⟨w, mem_colsOf.mpr ⟨(h, w), e, rfl⟩⟩

/-- The four bounds of a non-empty entry as natural numbers: smallest and largest row, smallest and largest column. -/
def yminN (M : Mask) (b : Fin 16) (hp : hasPix M b) : ℕ := ((rowsOf M b).min' (rows_nonempty hp)).val
def ymaxN (M : Mask) (b : Fin 16) (hp : hasPix M b) : ℕ := ((rowsOf M b).max' (rows_nonempty hp)).val
def xminN (M : Mask) (b : Fin 16) (hp : hasPix M b) : ℕ := ((colsOf M b).min' (cols_nonempty hp)).val
def xmaxN (M : Mask) (b : Fin 16) (hp : hasPix M b) : ℕ := ((colsOf M b).max' (cols_nonempty hp)).val

theorem ymin_le_ymax (M : Mask) (b : Fin 16) (hp : hasPix M b) : yminN M b hp ≤ ymaxN M b hp :=
  Fin.le_def.mp (Finset.min'_le_max' _ _)
theorem xmin_le_xmax (M : Mask) (b : Fin 16) (hp : hasPix M b) : xminN M b hp ≤ xmaxN M b hp :=
  Fin.le_def.mp (Finset.min'_le_max' _ _)
theorem ymaxN_lt (M : Mask) (b : Fin 16) (hp : hasPix M b) : ymaxN M b hp < 512 := Fin.isLt _
theorem xmaxN_lt (M : Mask) (b : Fin 16) (hp : hasPix M b) : xmaxN M b hp < 512 := Fin.isLt _

/-! ## The reference's words are these numbers -/

theorem yminW_toInt (M : Mask) (b : Fin 16) (hp : hasPix M b) : (yminW M b).toInt = (yminN M b hp : Int) :=
  fold_min_sel (M b) Prod.fst (rowsOf M b) (fun _ => mem_rowsOf) (rows_nonempty hp)
theorem xminW_toInt (M : Mask) (b : Fin 16) (hp : hasPix M b) : (xminW M b).toInt = (xminN M b hp : Int) :=
  fold_min_sel (M b) Prod.snd (colsOf M b) (fun _ => mem_colsOf) (cols_nonempty hp)
theorem ymaxW_toInt (M : Mask) (b : Fin 16) (hp : hasPix M b) : (ymaxW M b).toInt = (ymaxN M b hp : Int) :=
  fold_max_sel (M b) Prod.fst (rowsOf M b) (fun _ => mem_rowsOf) (rows_nonempty hp)
theorem xmaxW_toInt (M : Mask) (b : Fin 16) (hp : hasPix M b) : (xmaxW M b).toInt = (xmaxN M b hp : Int) :=
  fold_max_sel (M b) Prod.snd (colsOf M b) (fun _ => mem_colsOf) (cols_nonempty hp)

/-- The "or" of an entry's bits is 1 exactly when the entry has a set pixel. -/
theorem anyW_eq_one_iff (M : Mask) (b : Fin 16) : anyW M b = 1#1 ↔ hasPix M b := by
  unfold anyW hasPix
  rw [fold_ori_eq_one]
  constructor
  · rintro ⟨p, _, e⟩; exact ⟨p.1, p.2, e⟩
  · rintro ⟨h, w, e⟩; exact ⟨(h, w), Finset.mem_univ _, e⟩

end Cert.RefSide

end
-- ==== Proof.RefTileJoin.lean ====
/-
  Order-theoretic glue for a computation that visits the 512 rows of a mask's entry in 16 tiles of 32 rows and keeps
  running minima / maxima / a running flag across the tiles.

  A running minimum (start value, then the minimum with each tile's value in turn) is the greatest lower bound of the
  start value and the tile values. If every tile's value is (a) at most the coordinate of every set pixel in that
  tile and (b) at least every common lower bound of the start value and of all set pixels' coordinates, then after the
  16 tiles the running minimum is the least coordinate of a set pixel, or the start value when no pixel is set. The
  same with the order reversed for maxima, and for a 0/1 flag that a tile raises exactly when it has a set pixel.
  The start values 1e9 and -1e9 (words 0x4E6E6B28, 0xCE6E6B28) are above, resp. below, every coordinate 0..511.
-/
import Mathlib.Tactic
import proofs.«124476_j14413910245512_2_alg».proof.Proof.RefBox

noncomputable section

namespace Cert.RefSide

open Idealize.ShloMosaic Idealize.ShloMosaic.ValueIdx

/-! ## Running minima and maxima over a linear order -/

section Run
variable {α : Type} [LinearOrder α]

/-- A running minimum over the first n steps: below the start, below each step's value, above every common lower bound. -/
theorem runMin_spec (acc tile : ℕ → α) (init : α) (N : ℕ) (h0 : acc 0 = init)
    (hs : ∀ T, T < N → acc (T + 1) = min (acc T) (tile T)) :
    ∀ n, n ≤ N → (acc n ≤ init ∧ (∀ T, T < n → acc n ≤ tile T)
      ∧ ∀ c, c ≤ init → (∀ T, T < n → c ≤ tile T) → c ≤ acc n) := by
  intro n
  induction n with
  | zero =>
    intro _
    rw [h0]
    exact ⟨le_refl _, fun T hT => absurd hT (Nat.not_lt_zero _), fun c hc _ => hc⟩
  | succ n ih =>
    intro hn
    obtain ⟨i1, i2, i3⟩ := ih (Nat.le_of_succ_le hn)
    rw [hs n (Nat.lt_of_succ_le hn)]
    refine ⟨le_trans (min_le_left _ _) i1, fun T hT => ?_, fun c hc ht => ?_⟩
    · rcases Nat.lt_succ_iff_lt_or_eq.mp hT with h | h
      · exact le_trans (min_le_left _ _) (i2 T h)
      · rw [h]; exact min_le_right _ _
    · exact le_min (i3 c hc (fun T hT => ht T (Nat.lt_succ_of_lt hT))) (ht n (Nat.lt_succ_self n))

/-- A running maximum over the first n steps: above the start, above each step's value, below every common upper bound. -/
theorem runMax_spec (acc tile : ℕ → α) (init : α) (N : ℕ) (h0 : acc 0 = init)
    (hs : ∀ T, T < N → acc (T + 1) = max (acc T) (tile T)) :
    ∀ n, n ≤ N → (init ≤ acc n ∧ (∀ T, T < n → tile T ≤ acc n)
      ∧ ∀ c, init ≤ c → (∀ T, T < n → tile T ≤ c) → acc n ≤ c) := by
  intro n
  induction n with
  | zero =>
    intro _
    rw [h0]
    exact ⟨le_refl _, fun T hT => absurd hT (Nat.not_lt_zero _), fun c hc _ => hc⟩
  | succ n ih =>
    intro hn
    obtain ⟨i1, i2, i3⟩ := ih (Nat.le_of_succ_le hn)
    rw [hs n (Nat.lt_of_succ_le hn)]
    refine ⟨le_trans i1 (le_max_left _ _), fun T hT => ?_, fun c hc ht => ?_⟩
    · rcases Nat.lt_succ_iff_lt_or_eq.mp hT with h | h
      · exact le_trans (i2 T h) (le_max_left _ _)
      · rw [h]; exact le_max_right _ _
    · exact max_le (i3 c hc (fun T hT => ht T (Nat.lt_succ_of_lt hT))) (ht n (Nat.lt_succ_self n))

end Run

/-- A natural-number coordinate as an extended real. -/
abbrev cE (n : ℕ) : EReal := ((n : ℝ) : EReal)

theorem cE_le_cE {a c : ℕ} (h : a ≤ c) : cE a ≤ cE c := by
  unfold cE; exact_mod_cast h

/-! ## Sixteen tiles of 32 rows: the running minimum / maximum of a coordinate of the set pixels -/

/-- After the 16 tiles the running minimum is the least element of R — the set of the set pixels' coordinates —
    or the start value when R is empty. -/
theorem runMin_eq (M : Fin 512 → Fin 512 → BitVec 1) (coord : Fin 512 × Fin 512 → Fin 512) (R : Finset (Fin 512))
    (hR : ∀ k, k ∈ R ↔ ∃ p : Fin 512 × Fin 512, M p.1 p.2 = 1#1 ∧ coord p = k)
    (big : EReal) (hbig : ∀ k : Fin 512, cE k.val ≤ big)
    (acc tile : ℕ → EReal) (h0 : acc 0 = big) (hs : ∀ T, T < 16 → acc (T + 1) = min (acc T) (tile T))
    (hlb : ∀ p : Fin 512 × Fin 512, M p.1 p.2 = 1#1 → tile (p.1.val / 32) ≤ cE (coord p).val)
    (hub : ∀ T, T < 16 → ∀ c : EReal, c ≤ big →
      (∀ p : Fin 512 × Fin 512, M p.1 p.2 = 1#1 → c ≤ cE (coord p).val) → c ≤ tile T) :
    (∀ hne : R.Nonempty, acc 16 = cE (R.min' hne).val) ∧ (¬ R.Nonempty → acc 16 = big) := by
  obtain ⟨i1, i2, i3⟩ := runMin_spec acc tile big 16 h0 hs 16 le_rfl
  constructor
  · intro hne
    obtain ⟨p0, hp0, hc0⟩ := (hR _).mp (Finset.min'_mem R hne)
    have hT0 : p0.1.val / 32 < 16 := by have := p0.1.isLt; omega
    apply le_antisymm
    · calc acc 16 ≤ tile (p0.1.val / 32) := i2 _ hT0
        _ ≤ cE (coord p0).val := hlb p0 hp0
        _ = cE (R.min' hne).val := by rw [hc0]
    · have hv : ∀ p : Fin 512 × Fin 512, M p.1 p.2 = 1#1 → cE (R.min' hne).val ≤ cE (coord p).val := fun p hp =>
        cE_le_cE (Fin.le_def.mp (Finset.min'_le _ _ ((hR _).mpr ⟨p, hp, rfl⟩)))
      exact i3 _ (hbig _) (fun T hT => hub T hT _ (hbig _) hv)
  · intro hne
    apply le_antisymm i1
    exact i3 big le_rfl (fun T hT => hub T hT big le_rfl
      (fun p hp => absurd ⟨coord p, (hR _).mpr ⟨p, hp, rfl⟩⟩ hne))

/-- After the 16 tiles the running maximum is the greatest element of R, or the start value when R is empty. -/
theorem runMax_eq (M : Fin 512 → Fin 512 → BitVec 1) (coord : Fin 512 × Fin 512 → Fin 512) (R : Finset (Fin 512))
    (hR : ∀ k, k ∈ R ↔ ∃ p : Fin 512 × Fin 512, M p.1 p.2 = 1#1 ∧ coord p = k)
    (small : EReal) (hsmall : ∀ k : Fin 512, small ≤ cE k.val)
    (acc tile : ℕ → EReal) (h0 : acc 0 = small) (hs : ∀ T, T < 16 → acc (T + 1) = max (acc T) (tile T))
    (hub : ∀ p : Fin 512 × Fin 512, M p.1 p.2 = 1#1 → cE (coord p).val ≤ tile (p.1.val / 32))
    (hlb : ∀ T, T < 16 → ∀ c : EReal, small ≤ c →
      (∀ p : Fin 512 × Fin 512, M p.1 p.2 = 1#1 → cE (coord p).val ≤ c) → tile T ≤ c) :
    (∀ hne : R.Nonempty, acc 16 = cE (R.max' hne).val) ∧ (¬ R.Nonempty → acc 16 = small) := by
  obtain ⟨i1, i2, i3⟩ := runMax_spec acc tile small 16 h0 hs 16 le_rfl
  constructor
  · intro hne
    obtain ⟨p0, hp0, hc0⟩ := (hR _).mp (Finset.max'_mem R hne)
    have hT0 : p0.1.val / 32 < 16 := by have := p0.1.isLt; omega
    apply le_antisymm
    · have hv : ∀ p : Fin 512 × Fin 512, M p.1 p.2 = 1#1 → cE (coord p).val ≤ cE (R.max' hne).val := fun p hp =>
        cE_le_cE (Fin.le_def.mp (Finset.le_max' _ _ ((hR _).mpr ⟨p, hp, rfl⟩)))
      exact i3 _ (hsmall _) (fun T hT => hlb T hT _ (hsmall _) hv)
    · calc cE (R.max' hne).val = cE (coord p0).val := by rw [hc0]
        _ ≤ tile (p0.1.val / 32) := hub p0 hp0
        _ ≤ acc 16 := i2 _ hT0
  · intro hne
    apply le_antisymm _ i1
    exact i3 small le_rfl (fun T hT => hlb T hT small le_rfl
      (fun p hp => absurd ⟨coord p, (hR _).mpr ⟨p, hp, rfl⟩⟩ hne))

/-- A running flag (start `zero`, then the maximum with each tile's flag) ends at `one` exactly when some pixel is set,
    if every tile's flag is `zero` or `one`, is `one` on a tile with a set pixel, and all are `zero` when none is set. -/
theorem runFlag_eq (M : Fin 512 → Fin 512 → BitVec 1) (zero one : EReal) (h01 : zero ≤ one)
    (acc flag : ℕ → EReal) (h0 : acc 0 = zero) (hs : ∀ T, T < 16 → acc (T + 1) = max (acc T) (flag T))
    (hf : ∀ T, T < 16 → flag T = zero ∨ flag T = one)
    (hf1 : ∀ p : Fin 512 × Fin 512, M p.1 p.2 = 1#1 → flag (p.1.val / 32) = one)
    (hf0 : (¬ ∃ p : Fin 512 × Fin 512, M p.1 p.2 = 1#1) → ∀ T, T < 16 → flag T = zero) :
    ((∃ p : Fin 512 × Fin 512, M p.1 p.2 = 1#1) → acc 16 = one)
      ∧ ((¬ ∃ p : Fin 512 × Fin 512, M p.1 p.2 = 1#1) → acc 16 = zero) := by
  obtain ⟨i1, i2, i3⟩ := runMax_spec acc flag zero 16 h0 hs 16 le_rfl
  constructor
  · rintro ⟨p, hp⟩
    have hT0 : p.1.val / 32 < 16 := by have := p.1.isLt; omega
    apply le_antisymm
    · exact i3 one h01 (fun T hT => by rcases hf T hT with h | h <;> rw [h]; exact h01)
    · rw [← hf1 p hp]; exact i2 _ hT0
  · intro hne
    apply le_antisymm _ i1
    exact i3 zero le_rfl (fun T hT => by rw [hf0 hne T hT])

/-! ## The start values -/

/-- The word 0x4E6E6B28 denotes 10^9. -/
theorem ofBits_big : Ideal.ofBits .f32 0x4E6E6B28#32 = ((1000000000 : ℝ) : EReal) := by
  simp [Ideal.ofBits, Ideal.ieee, -EReal.coe_mul]; norm_num

/-- The word 0xCE6E6B28 denotes -10^9. -/
theorem ofBits_negBig : Ideal.ofBits .f32 0xCE6E6B28#32 = ((-1000000000 : ℝ) : EReal) := by
  simp [Ideal.ofBits, Ideal.ieee, -EReal.coe_mul]; norm_num

/-- Every coordinate is below 10^9 … -/
theorem cE_le_big (k : Fin 512) : cE k.val ≤ Ideal.ofBits .f32 0x4E6E6B28#32 := by
  rw [ofBits_big]; unfold cE
  have : (k.val : ℝ) ≤ 1000000000 := by have := k.isLt; exact_mod_cast (by omega : k.val ≤ 1000000000)
  exact_mod_cast this

/-- … and above -10^9. -/
theorem negBig_le_cE (k : Fin 512) : Ideal.ofBits .f32 0xCE6E6B28#32 ≤ cE k.val := by
  rw [ofBits_negBig]; unfold cE
  have : (-1000000000 : ℝ) ≤ (k.val : ℝ) := le_trans (by norm_num) (Nat.cast_nonneg _)
  exact_mod_cast this

/-! ## For a mask's entry: rows, columns, and the non-empty flag -/

theorem hasPix_of_rows {M : Mask} {b : Fin 16} (h : (rowsOf M b).Nonempty) : hasPix M b := by
  obtain ⟨k, hk⟩ := h
  obtain ⟨p, e, _⟩ := mem_rowsOf.mp hk
  exact ⟨p.1, p.2, e⟩

theorem hasPix_of_cols {M : Mask} {b : Fin 16} (h : (colsOf M b).Nonempty) : hasPix M b := by
  obtain ⟨k, hk⟩ := h
  obtain ⟨p, e, _⟩ := mem_colsOf.mp hk
  exact ⟨p.1, p.2, e⟩

/-- Running minimum of the ROW coordinate over the 16 tiles: the smallest row with a set pixel, or the start value. -/
theorem run_ymin (M : Mask) (b : Fin 16) (big : EReal) (hbig : ∀ k : Fin 512, cE k.val ≤ big)
    (acc tile : ℕ → EReal) (h0 : acc 0 = big) (hs : ∀ T, T < 16 → acc (T + 1) = min (acc T) (tile T))
    (hlb : ∀ h w : Fin 512, M b h w = 1#1 → tile (h.val / 32) ≤ cE h.val)
    (hub : ∀ T, T < 16 → ∀ c : EReal, c ≤ big → (∀ h w : Fin 512, M b h w = 1#1 → c ≤ cE h.val) → c ≤ tile T) :
    (∀ hp : hasPix M b, acc 16 = cE (yminN M b hp)) ∧ (¬ hasPix M b → acc 16 = big) := by
  obtain ⟨r1, r2⟩ := runMin_eq (M b) Prod.fst (rowsOf M b) (fun _ => mem_rowsOf) big hbig acc tile h0 hs
    (fun p hp => hlb p.1 p.2 hp) (fun T hT c hc hall => hub T hT c hc (fun h w e => hall (h, w) e))
  exact ⟨fun hp => r1 (rows_nonempty hp), fun hn => r2 (fun hne => hn (hasPix_of_rows hne))⟩

/-- Running minimum of the COLUMN coordinate over the 16 tiles: the smallest column with a set pixel, or the start value. -/
theorem run_xmin (M : Mask) (b : Fin 16) (big : EReal) (hbig : ∀ k : Fin 512, cE k.val ≤ big)
    (acc tile : ℕ → EReal) (h0 : acc 0 = big) (hs : ∀ T, T < 16 → acc (T + 1) = min (acc T) (tile T))
    (hlb : ∀ h w : Fin 512, M b h w = 1#1 → tile (h.val / 32) ≤ cE w.val)
    (hub : ∀ T, T < 16 → ∀ c : EReal, c ≤ big → (∀ h w : Fin 512, M b h w = 1#1 → c ≤ cE w.val) → c ≤ tile T) :
    (∀ hp : hasPix M b, acc 16 = cE (xminN M b hp)) ∧ (¬ hasPix M b → acc 16 = big) := by
  obtain ⟨r1, r2⟩ := runMin_eq (M b) Prod.snd (colsOf M b) (fun _ => mem_colsOf) big hbig acc tile h0 hs
    (fun p hp => hlb p.1 p.2 hp) (fun T hT c hc hall => hub T hT c hc (fun h w e => hall (h, w) e))
  exact ⟨fun hp => r1 (cols_nonempty hp), fun hn => r2 (fun hne => hn (hasPix_of_cols hne))⟩

/-- Running maximum of the ROW coordinate over the 16 tiles: the largest row with a set pixel, or the start value. -/
theorem run_ymax (M : Mask) (b : Fin 16) (small : EReal) (hsmall : ∀ k : Fin 512, small ≤ cE k.val)
    (acc tile : ℕ → EReal) (h0 : acc 0 = small) (hs : ∀ T, T < 16 → acc (T + 1) = max (acc T) (tile T))
    (hub : ∀ h w : Fin 512, M b h w = 1#1 → cE h.val ≤ tile (h.val / 32))
    (hlb : ∀ T, T < 16 → ∀ c : EReal, small ≤ c → (∀ h w : Fin 512, M b h w = 1#1 → cE h.val ≤ c) → tile T ≤ c) :
    (∀ hp : hasPix M b, acc 16 = cE (ymaxN M b hp)) ∧ (¬ hasPix M b → acc 16 = small) := by
  obtain ⟨r1, r2⟩ := runMax_eq (M b) Prod.fst (rowsOf M b) (fun _ => mem_rowsOf) small hsmall acc tile h0 hs
    (fun p hp => hub p.1 p.2 hp) (fun T hT c hc hall => hlb T hT c hc (fun h w e => hall (h, w) e))
  exact ⟨fun hp => r1 (rows_nonempty hp), fun hn => r2 (fun hne => hn (hasPix_of_rows hne))⟩

/-- Running maximum of the COLUMN coordinate over the 16 tiles: the largest column with a set pixel, or the start value. -/
theorem run_xmax (M : Mask) (b : Fin 16) (small : EReal) (hsmall : ∀ k : Fin 512, small ≤ cE k.val)
    (acc tile : ℕ → EReal) (h0 : acc 0 = small) (hs : ∀ T, T < 16 → acc (T + 1) = max (acc T) (tile T))
    (hub : ∀ h w : Fin 512, M b h w = 1#1 → cE w.val ≤ tile (h.val / 32))
    (hlb : ∀ T, T < 16 → ∀ c : EReal, small ≤ c → (∀ h w : Fin 512, M b h w = 1#1 → cE w.val ≤ c) → tile T ≤ c) :
    (∀ hp : hasPix M b, acc 16 = cE (xmaxN M b hp)) ∧ (¬ hasPix M b → acc 16 = small) := by
  obtain ⟨r1, r2⟩ := runMax_eq (M b) Prod.snd (colsOf M b) (fun _ => mem_colsOf) small hsmall acc tile h0 hs
    (fun p hp => hub p.1 p.2 hp) (fun T hT c hc hall => hlb T hT c hc (fun h w e => hall (h, w) e))
  exact ⟨fun hp => r1 (cols_nonempty hp), fun hn => r2 (fun hne => hn (hasPix_of_cols hne))⟩

/-- The running non-empty flag over the 16 tiles ends at `one` exactly when the entry has a set pixel. -/
theorem run_any (M : Mask) (b : Fin 16) (zero one : EReal) (h01 : zero ≤ one)
    (acc flag : ℕ → EReal) (h0 : acc 0 = zero) (hs : ∀ T, T < 16 → acc (T + 1) = max (acc T) (flag T))
    (hf : ∀ T, T < 16 → flag T = zero ∨ flag T = one)
    (hf1 : ∀ h w : Fin 512, M b h w = 1#1 → flag (h.val / 32) = one)
    (hf0 : ¬ hasPix M b → ∀ T, T < 16 → flag T = zero) :
    (hasPix M b → acc 16 = one) ∧ (¬ hasPix M b → acc 16 = zero) := by
  have hiff : (∃ p : Fin 512 × Fin 512, M b p.1 p.2 = 1#1) ↔ hasPix M b :=
    ⟨fun ⟨p, e⟩ => ⟨p.1, p.2, e⟩, fun ⟨h, w, e⟩ => ⟨(h, w), e⟩⟩
  obtain ⟨r1, r2⟩ := runFlag_eq (M b) zero one h01 acc flag h0 hs hf (fun p hp => hf1 p.1 p.2 hp)
    (fun hn => hf0 (fun hp => hn (hiff.mpr hp)))
  exact ⟨fun hp => r1 (hiff.mpr hp), fun hn => r2 (fun he => hn (hiff.mp he))⟩

end Cert.RefSide

end
-- ==== Proof.KiStats.lean ====
/-
  The ten statistics of a batch entry after the sixteen row tiles of its batch block.

  The accumulators after the tiles of batch block `bi` are a sequence: the starting values, then one tile folded in
  at a time. For entry p of the block — batch entry 8·bi + p of the arguments — each of the eight bound accumulators
  is a running minimum (maximum) whose tile values are the tile's smallest (largest) masked row or column, and each
  flag a running maximum of the tiles' flags. A pixel (h, w) of the entry lies in tile h / 32 at tile row h % 32, and
  the tile's mask bit there is the argument's mask bit at (h, w); so after the sixteen tiles the bounds are the
  smallest and largest row and column with a pixel in the mask (when there is one), and the flag says whether there
  is one. At the block's last tile the ten accumulators are laid side by side as the entry's row of the statistics.
-/
import proofs.«124476_j14413910245512_2_alg».proof.Proof.KiValueDefs
import proofs.«124476_j14413910245512_2_alg».proof.Proof.TileFacts
import proofs.«124476_j14413910245512_2_alg».proof.Proof.TileUpd
import proofs.«124476_j14413910245512_2_alg».proof.Proof.TileMaskJoin
import proofs.«124476_j14413910245512_2_alg».proof.Proof.RefTileJoin

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Cert.TileSide hiding chanMax
open Cert.RefSide (Mask maskP maskT hasPix yminN xminN ymaxN xmaxN cE entryOf rowOf entryOf_val rowOf_val pay16_block pay17_block
  run_ymin run_xmin run_ymax run_xmax run_any cE_le_big negBig_le_cE)

variable (m : (ℓ : Loc nD τ sig) → Buf (Elt Ideal) ℓ) (c : Dev nD)

/-- The first argument as launched. -/
abbrev argX : FVec Ideal Cert.RefSide.SArg .f32 := m ((c : Thread nD τ).loc main_arg0)
/-- The second argument as launched. -/
abbrev argY : FVec Ideal Cert.RefSide.SArg .f32 := m ((c : Thread nD τ).loc main_arg1)

/-! ## Grid points of a batch block -/

/-- A grid point's two coordinates: batch block and row tile. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- Row tile `T` of batch block `bi` as a grid point. -/
def ptOf (bi : Fin 2) (T : ℕ) (hT : T < 16) : Fin cfg0.N :=
  ⟨16 * bi.val + T, by have := bi.isLt; have hN : cfg0.N = 32 := N_0; omega⟩

theorem ptOf_val (bi : Fin 2) (T : ℕ) (hT : T < 16) : (ptOf bi T hT).val = 16 * bi.val + T := rfl

/-- Entry `p` of batch block `bi` as a batch entry of the arguments. -/
def bEntry (bi : Fin 2) (p : Fin 8) : Fin 16 := ⟨8 * bi.val + p.val, by have := bi.isLt; have := p.isLt; omega⟩

theorem entryOf_ptOf (bi : Fin 2) (T : ℕ) (hT : T < 16) (p : Fin 8) : entryOf (ptOf bi T hT) p = bEntry bi p :=
  Fin.ext (by show 8 * ((16 * bi.val + T) / 16) + p.val = 8 * bi.val + p.val; omega)

/-- Row `h` of the image is row `h % 32` of tile `h / 32`. -/
theorem rowOf_div (bi : Fin 2) (h : Fin 512) :
    rowOf (ptOf bi (h.val / 32) (by have := h.isLt; omega)) ⟨h.val % 32, Nat.mod_lt _ (by decide)⟩ = h :=
  Fin.ext (by show 32 * ((16 * bi.val + h.val / 32) % 16) + h.val % 32 = h.val; have := h.isLt; omega)

/-- The row number the body computes for row `r` of a tile is the image row. -/
theorem rowNumber_ptOf (bi : Fin 2) (T : ℕ) (hT : T < 16) (r : Fin 32) :
    rowNumber (grid0.coords (ptOf bi T hT)) r = cE (rowOf (ptOf bi T hT) r).val := by
  unfold rowNumber cE
  rw [(coords_val (ptOf bi T hT)).2, rowOf_val, Nat.mul_comm]

/-- The word of zero is below the word of one. -/
theorem zero_le_one_words : Ideal.ofBits .f32 0x00000000#32 ≤ Ideal.ofBits .f32 0x3F800000#32 := by
  rw [Cert.TailSide.word_zero, Cert.TailSide.word_one]; exact zero_le_one

/-! ## The accumulators tile by tile -/

/-- The accumulators before tile `T` of batch block `bi` (after the sixteenth tile they stay). -/
def accSeq (bi : Fin 2) : ℕ → Acc Ideal
  | 0 => initAcc
  | T + 1 =>
    if hT : T < 16 then
      upd (grid0.coords (ptOf bi T hT)) (iblk m c 0 (ptOf bi T hT)) (iblk m c 1 (ptOf bi T hT)) (accSeq bi T)
    else accSeq bi T

theorem accSeq_succ (bi : Fin 2) (T : ℕ) (hT : T < 16) :
    accSeq m c bi (T + 1)
      = upd (grid0.coords (ptOf bi T hT)) (iblk m c 0 (ptOf bi T hT)) (iblk m c 1 (ptOf bi T hT)) (accSeq m c bi T) := by
  rw [accSeq, dif_pos hT]

/-- One step of the fold over grid points: a block's first tile starts from the starting values, any other tile from
    what the tile before left. -/
theorem chain_step (n : ℕ) (h : n < cfg0.N) :
    chain m c n h = upd (grid0.coords ⟨n, h⟩) (iblk m c 0 ⟨n, h⟩) (iblk m c 1 ⟨n, h⟩)
      (if hz : n % 16 = 0 then initAcc else chain m c (n - 1) (Nat.lt_of_le_of_lt (Nat.sub_le _ _) h)) := by
  cases n with
  | zero => rw [dif_pos (Nat.zero_mod _)]; rfl
  | succ n =>
    rw [chain]
    split_ifs with h0
    · rfl
    · rfl

theorem chain_congr (n n' : ℕ) (e : n = n') (h : n < cfg0.N) (h' : n' < cfg0.N) : chain m c n h = chain m c n' h' := by
  subst e; rfl

/-- The fold over grid points, at tile `T` of batch block `bi`, is the tile-by-tile sequence. -/
theorem chain_eq_accSeq (bi : Fin 2) : ∀ (T : ℕ) (hT : T < 16) (h : 16 * bi.val + T < cfg0.N),
    chain m c (16 * bi.val + T) h = accSeq m c bi (T + 1)
  | 0, hT, h => by
    rw [chain_step, dif_pos (by omega), accSeq_succ m c bi 0 hT]
    rfl
  | T + 1, hT, h => by
    have hprev : 16 * bi.val + T < cfg0.N := by omega
    have ih := chain_eq_accSeq bi T (Nat.lt_of_succ_lt hT) hprev
    rw [chain_step, dif_neg (by omega), accSeq_succ m c bi (T + 1) hT,
      chain_congr m c (16 * bi.val + (T + 1) - 1) (16 * bi.val + T) (by omega) _ hprev, ih]
    rfl

/-! ## The tiles' mask bits are the arguments' -/

section Entry
variable (bi : Fin 2) (p : Fin 8)

theorem bitP_tile (T : ℕ) (hT : T < 16) (r : Fin 32) (w : Fin 512) :
    k0_pay16 (iblk m c 0 (ptOf bi T hT) : Vec Ideal S8x1x21x32x512 .f32) (ix3 p r w)
      = maskP (argX m c) (bEntry bi p) (rowOf (ptOf bi T hT) r) w := by
  rw [pay16_block, entryOf_ptOf]

theorem bitT_tile (T : ℕ) (hT : T < 16) (r : Fin 32) (w : Fin 512) :
    k0_pay17 (iblk m c 1 (ptOf bi T hT) : Vec Ideal S8x1x21x32x512 .f32) (ix3 p r w)
      = maskT (argY m c) (bEntry bi p) (rowOf (ptOf bi T hT) r) w := by
  rw [pay17_block, entryOf_ptOf]

/-! ## The ten accumulators after the sixteen tiles -/

/-- The tile values of ymin1, tile by tile of the batch block (0 beyond the sixteenth). -/
def tile_ymin1 (T : ℕ) : EReal :=
  if hT : T < 16 then k0_pay22 (k0_pay18 (iblk m c 0 (ptOf bi T hT))) (k0_pay20 (F := Ideal) (grid0.coords (ptOf bi T hT))) (ix2 p 0) else 0

/-- After the sixteen tiles, ymin1 of entry `bEntry bi p`. -/
theorem run_ymin1 :
    (∀ hp : hasPix (maskP (argX m c)) (bEntry bi p), (accSeq m c bi 16).s0 (ix2 p 0) = cE (yminN (maskP (argX m c)) (bEntry bi p) hp))
      ∧ (¬hasPix (maskP (argX m c)) (bEntry bi p) → (accSeq m c bi 16).s0 (ix2 p 0) = Ideal.ofBits .f32 0x4E6E6B28#32) := by
  refine run_ymin (maskP (argX m c)) (bEntry bi p) _ cE_le_big (fun T => (accSeq m c bi T).s0 (ix2 p 0)) (tile_ymin1 m c bi p) ?h0 ?hs ?hlb ?hub
  case h0 =>
    exact pay5_apply (ix2 p 0)
  case hs =>
    intro T hT
    show (accSeq m c bi (T + 1)).s0 (ix2 p 0) = _
    rw [accSeq_succ m c bi T hT]
    unfold tile_ymin1
    rw [dif_pos hT]
    exact pay36_apply _ _ _
  case hlb =>
    intro h w hm
    have hT : h.val / 32 < 16 := by have := h.isLt; omega
    unfold tile_ymin1
    rw [dif_pos hT]
    have hb := (bitP_tile m c bi p (h.val / 32) hT ⟨h.val % 32, Nat.mod_lt _ (by decide)⟩ w).trans
      ((congrArg (fun q => maskP (argX m c) (bEntry bi p) q w) (rowOf_div bi h)).trans hm)
    refine (ymin1_le _ _ p _ w hb).trans_eq ?_
    rw [rowNumber_ptOf, rowOf_div]
  case hub =>
    intro T hT cc hc hall
    unfold tile_ymin1
    rw [dif_pos hT]
    refine le_ymin1 _ _ p cc hc fun r w hb => ?_
    rw [rowNumber_ptOf]
    exact hall _ w ((bitP_tile m c bi p T hT r w).symm.trans hb)

/-- The tile values of xmin1, tile by tile of the batch block (0 beyond the sixteenth). -/
def tile_xmin1 (T : ℕ) : EReal :=
  if hT : T < 16 then k0_pay24 (k0_pay19 (iblk m c 0 (ptOf bi T hT))) (k0_pay21 (F := Ideal)) (ix2 p 0) else 0

/-- After the sixteen tiles, xmin1 of entry `bEntry bi p`. -/
theorem run_xmin1 :
    (∀ hp : hasPix (maskP (argX m c)) (bEntry bi p), (accSeq m c bi 16).s1 (ix2 p 0) = cE (xminN (maskP (argX m c)) (bEntry bi p) hp))
      ∧ (¬hasPix (maskP (argX m c)) (bEntry bi p) → (accSeq m c bi 16).s1 (ix2 p 0) = Ideal.ofBits .f32 0x4E6E6B28#32) := by
  refine run_xmin (maskP (argX m c)) (bEntry bi p) _ cE_le_big (fun T => (accSeq m c bi T).s1 (ix2 p 0)) (tile_xmin1 m c bi p) ?h0 ?hs ?hlb ?hub
  case h0 =>
    exact pay6_apply (ix2 p 0)
  case hs =>
    intro T hT
    show (accSeq m c bi (T + 1)).s1 (ix2 p 0) = _
    rw [accSeq_succ m c bi T hT]
    unfold tile_xmin1
    rw [dif_pos hT]
    show k0_pay38 (k0_pay37 _ _) (ix2 p 0) = _
    rw [pay38_eq]
    exact pay37_apply _ _ _
  case hlb =>
    intro h w hm
    have hT : h.val / 32 < 16 := by have := h.isLt; omega
    unfold tile_xmin1
    rw [dif_pos hT]
    have hb := (bitP_tile m c bi p (h.val / 32) hT ⟨h.val % 32, Nat.mod_lt _ (by decide)⟩ w).trans
      ((congrArg (fun q => maskP (argX m c) (bEntry bi p) q w) (rowOf_div bi h)).trans hm)
    exact xmin1_le _ p _ w hb
  case hub =>
    intro T hT cc hc hall
    unfold tile_xmin1
    rw [dif_pos hT]
    refine le_xmin1 _ p cc hc fun r w hb => ?_
    exact hall _ w ((bitP_tile m c bi p T hT r w).symm.trans hb)

/-- The tile values of ymax1, tile by tile of the batch block (0 beyond the sixteenth). -/
def tile_ymax1 (T : ℕ) : EReal :=
  if hT : T < 16 then k0_pay23 (k0_pay18 (iblk m c 0 (ptOf bi T hT))) (k0_pay20 (F := Ideal) (grid0.coords (ptOf bi T hT))) (ix2 p 0) else 0

/-- After the sixteen tiles, ymax1 of entry `bEntry bi p`. -/
theorem run_ymax1 :
    (∀ hp : hasPix (maskP (argX m c)) (bEntry bi p), (accSeq m c bi 16).s2 (ix2 p 0) = cE (ymaxN (maskP (argX m c)) (bEntry bi p) hp))
      ∧ (¬hasPix (maskP (argX m c)) (bEntry bi p) → (accSeq m c bi 16).s2 (ix2 p 0) = Ideal.ofBits .f32 0xCE6E6B28#32) := by
  refine run_ymax (maskP (argX m c)) (bEntry bi p) _ negBig_le_cE (fun T => (accSeq m c bi T).s2 (ix2 p 0)) (tile_ymax1 m c bi p) ?h0 ?hs ?hub ?hlb
  case h0 =>
    exact pay7_apply (ix2 p 0)
  case hs =>
    intro T hT
    show (accSeq m c bi (T + 1)).s2 (ix2 p 0) = _
    rw [accSeq_succ m c bi T hT]
    unfold tile_ymax1
    rw [dif_pos hT]
    exact pay39_apply _ _ _
  case hub =>
    intro h w hm
    have hT : h.val / 32 < 16 := by have := h.isLt; omega
    unfold tile_ymax1
    rw [dif_pos hT]
    have hb := (bitP_tile m c bi p (h.val / 32) hT ⟨h.val % 32, Nat.mod_lt _ (by decide)⟩ w).trans
      ((congrArg (fun q => maskP (argX m c) (bEntry bi p) q w) (rowOf_div bi h)).trans hm)
    refine Eq.trans_le ?_ (le_ymax1 _ _ p _ w hb)
    rw [rowNumber_ptOf, rowOf_div]
  case hlb =>
    intro T hT cc hc hall
    unfold tile_ymax1
    rw [dif_pos hT]
    refine ymax1_le _ _ p cc hc fun r w hb => ?_
    rw [rowNumber_ptOf]
    exact hall _ w ((bitP_tile m c bi p T hT r w).symm.trans hb)

/-- The tile values of xmax1, tile by tile of the batch block (0 beyond the sixteenth). -/
def tile_xmax1 (T : ℕ) : EReal :=
  if hT : T < 16 then k0_pay25 (k0_pay19 (iblk m c 0 (ptOf bi T hT))) (k0_pay21 (F := Ideal)) (ix2 p 0) else 0

/-- After the sixteen tiles, xmax1 of entry `bEntry bi p`. -/
theorem run_xmax1 :
    (∀ hp : hasPix (maskP (argX m c)) (bEntry bi p), (accSeq m c bi 16).s3 (ix2 p 0) = cE (xmaxN (maskP (argX m c)) (bEntry bi p) hp))
      ∧ (¬hasPix (maskP (argX m c)) (bEntry bi p) → (accSeq m c bi 16).s3 (ix2 p 0) = Ideal.ofBits .f32 0xCE6E6B28#32) := by
  refine run_xmax (maskP (argX m c)) (bEntry bi p) _ negBig_le_cE (fun T => (accSeq m c bi T).s3 (ix2 p 0)) (tile_xmax1 m c bi p) ?h0 ?hs ?hub ?hlb
  case h0 =>
    exact pay8_apply (ix2 p 0)
  case hs =>
    intro T hT
    show (accSeq m c bi (T + 1)).s3 (ix2 p 0) = _
    rw [accSeq_succ m c bi T hT]
    unfold tile_xmax1
    rw [dif_pos hT]
    exact pay40_apply _ _ _
  case hub =>
    intro h w hm
    have hT : h.val / 32 < 16 := by have := h.isLt; omega
    unfold tile_xmax1
    rw [dif_pos hT]
    have hb := (bitP_tile m c bi p (h.val / 32) hT ⟨h.val % 32, Nat.mod_lt _ (by decide)⟩ w).trans
      ((congrArg (fun q => maskP (argX m c) (bEntry bi p) q w) (rowOf_div bi h)).trans hm)
    exact le_xmax1 _ p _ w hb
  case hlb =>
    intro T hT cc hc hall
    unfold tile_xmax1
    rw [dif_pos hT]
    refine xmax1_le _ p cc hc fun r w hb => ?_
    exact hall _ w ((bitP_tile m c bi p T hT r w).symm.trans hb)

/-- The tile values of ymin2, tile by tile of the batch block (0 beyond the sixteenth). -/
def tile_ymin2 (T : ℕ) : EReal :=
  if hT : T < 16 then k0_pay31 (F := Ideal) (k0_pay27 (F := Ideal) (k0_pay17 (iblk m c 1 (ptOf bi T hT)))) (tileBase (grid0.coords (ptOf bi T hT))) rowIota (ix2 p 0) else 0

/-- After the sixteen tiles, ymin2 of entry `bEntry bi p`. -/
theorem run_ymin2 :
    (∀ hp : hasPix (maskT (argY m c)) (bEntry bi p), (accSeq m c bi 16).s4 (ix2 p 0) = cE (yminN (maskT (argY m c)) (bEntry bi p) hp))
      ∧ (¬hasPix (maskT (argY m c)) (bEntry bi p) → (accSeq m c bi 16).s4 (ix2 p 0) = Ideal.ofBits .f32 0x4E6E6B28#32) := by
  refine run_ymin (maskT (argY m c)) (bEntry bi p) _ cE_le_big (fun T => (accSeq m c bi T).s4 (ix2 p 0)) (tile_ymin2 m c bi p) ?h0 ?hs ?hlb ?hub
  case h0 =>
    exact pay9_apply (ix2 p 0)
  case hs =>
    intro T hT
    show (accSeq m c bi (T + 1)).s4 (ix2 p 0) = _
    rw [accSeq_succ m c bi T hT]
    unfold tile_ymin2
    rw [dif_pos hT]
    exact pay41_apply _ _ _
  case hlb =>
    intro h w hm
    have hT : h.val / 32 < 16 := by have := h.isLt; omega
    unfold tile_ymin2
    rw [dif_pos hT]
    have hb := (bitT_tile m c bi p (h.val / 32) hT ⟨h.val % 32, Nat.mod_lt _ (by decide)⟩ w).trans
      ((congrArg (fun q => maskT (argY m c) (bEntry bi p) q w) (rowOf_div bi h)).trans hm)
    refine (ymin2_le _ _ p _ w hb).trans_eq ?_
    rw [rowNumber_ptOf, rowOf_div]
  case hub =>
    intro T hT cc hc hall
    unfold tile_ymin2
    rw [dif_pos hT]
    refine le_ymin2 _ _ p cc hc fun r w hb => ?_
    rw [rowNumber_ptOf]
    exact hall _ w ((bitT_tile m c bi p T hT r w).symm.trans hb)

/-- The tile values of xmin2, tile by tile of the batch block (0 beyond the sixteenth). -/
def tile_xmin2 (T : ℕ) : EReal :=
  if hT : T < 16 then k0_pay33 (F := Ideal) (k0_pay28 (F := Ideal) (k0_pay17 (iblk m c 1 (ptOf bi T hT)))) (ix2 p 0) else 0

/-- After the sixteen tiles, xmin2 of entry `bEntry bi p`. -/
theorem run_xmin2 :
    (∀ hp : hasPix (maskT (argY m c)) (bEntry bi p), (accSeq m c bi 16).s5 (ix2 p 0) = cE (xminN (maskT (argY m c)) (bEntry bi p) hp))
      ∧ (¬hasPix (maskT (argY m c)) (bEntry bi p) → (accSeq m c bi 16).s5 (ix2 p 0) = Ideal.ofBits .f32 0x4E6E6B28#32) := by
  refine run_xmin (maskT (argY m c)) (bEntry bi p) _ cE_le_big (fun T => (accSeq m c bi T).s5 (ix2 p 0)) (tile_xmin2 m c bi p) ?h0 ?hs ?hlb ?hub
  case h0 =>
    exact pay10_apply (ix2 p 0)
  case hs =>
    intro T hT
    show (accSeq m c bi (T + 1)).s5 (ix2 p 0) = _
    rw [accSeq_succ m c bi T hT]
    unfold tile_xmin2
    rw [dif_pos hT]
    exact pay42_apply _ _ _
  case hlb =>
    intro h w hm
    have hT : h.val / 32 < 16 := by have := h.isLt; omega
    unfold tile_xmin2
    rw [dif_pos hT]
    have hb := (bitT_tile m c bi p (h.val / 32) hT ⟨h.val % 32, Nat.mod_lt _ (by decide)⟩ w).trans
      ((congrArg (fun q => maskT (argY m c) (bEntry bi p) q w) (rowOf_div bi h)).trans hm)
    exact xmin2_le _ p _ w hb
  case hub =>
    intro T hT cc hc hall
    unfold tile_xmin2
    rw [dif_pos hT]
    refine le_xmin2 _ p cc hc fun r w hb => ?_
    exact hall _ w ((bitT_tile m c bi p T hT r w).symm.trans hb)

/-- The tile values of ymax2, tile by tile of the batch block (0 beyond the sixteenth). -/
def tile_ymax2 (T : ℕ) : EReal :=
  if hT : T < 16 then k0_pay32 (F := Ideal) (k0_pay27 (F := Ideal) (k0_pay17 (iblk m c 1 (ptOf bi T hT)))) (tileBase (grid0.coords (ptOf bi T hT))) rowIota (ix2 p 0) else 0

/-- After the sixteen tiles, ymax2 of entry `bEntry bi p`. -/
theorem run_ymax2 :
    (∀ hp : hasPix (maskT (argY m c)) (bEntry bi p), (accSeq m c bi 16).s6 (ix2 p 0) = cE (ymaxN (maskT (argY m c)) (bEntry bi p) hp))
      ∧ (¬hasPix (maskT (argY m c)) (bEntry bi p) → (accSeq m c bi 16).s6 (ix2 p 0) = Ideal.ofBits .f32 0xCE6E6B28#32) := by
  refine run_ymax (maskT (argY m c)) (bEntry bi p) _ negBig_le_cE (fun T => (accSeq m c bi T).s6 (ix2 p 0)) (tile_ymax2 m c bi p) ?h0 ?hs ?hub ?hlb
  case h0 =>
    exact pay11_apply (ix2 p 0)
  case hs =>
    intro T hT
    show (accSeq m c bi (T + 1)).s6 (ix2 p 0) = _
    rw [accSeq_succ m c bi T hT]
    unfold tile_ymax2
    rw [dif_pos hT]
    exact pay43_apply _ _ _
  case hub =>
    intro h w hm
    have hT : h.val / 32 < 16 := by have := h.isLt; omega
    unfold tile_ymax2
    rw [dif_pos hT]
    have hb := (bitT_tile m c bi p (h.val / 32) hT ⟨h.val % 32, Nat.mod_lt _ (by decide)⟩ w).trans
      ((congrArg (fun q => maskT (argY m c) (bEntry bi p) q w) (rowOf_div bi h)).trans hm)
    refine Eq.trans_le ?_ (le_ymax2 _ _ p _ w hb)
    rw [rowNumber_ptOf, rowOf_div]
  case hlb =>
    intro T hT cc hc hall
    unfold tile_ymax2
    rw [dif_pos hT]
    refine ymax2_le _ _ p cc hc fun r w hb => ?_
    rw [rowNumber_ptOf]
    exact hall _ w ((bitT_tile m c bi p T hT r w).symm.trans hb)

/-- The tile values of xmax2, tile by tile of the batch block (0 beyond the sixteenth). -/
def tile_xmax2 (T : ℕ) : EReal :=
  if hT : T < 16 then k0_pay34 (F := Ideal) (k0_pay28 (F := Ideal) (k0_pay17 (iblk m c 1 (ptOf bi T hT)))) (ix2 p 0) else 0

/-- After the sixteen tiles, xmax2 of entry `bEntry bi p`. -/
theorem run_xmax2 :
    (∀ hp : hasPix (maskT (argY m c)) (bEntry bi p), (accSeq m c bi 16).s7 (ix2 p 0) = cE (xmaxN (maskT (argY m c)) (bEntry bi p) hp))
      ∧ (¬hasPix (maskT (argY m c)) (bEntry bi p) → (accSeq m c bi 16).s7 (ix2 p 0) = Ideal.ofBits .f32 0xCE6E6B28#32) := by
  refine run_xmax (maskT (argY m c)) (bEntry bi p) _ negBig_le_cE (fun T => (accSeq m c bi T).s7 (ix2 p 0)) (tile_xmax2 m c bi p) ?h0 ?hs ?hub ?hlb
  case h0 =>
    show k0_pay13 (k0_pay12 (F := Ideal)) (ix2 p 0) = _
    rw [pay13_eq]
    exact pay12_apply (ix2 p 0)
  case hs =>
    intro T hT
    show (accSeq m c bi (T + 1)).s7 (ix2 p 0) = _
    rw [accSeq_succ m c bi T hT]
    unfold tile_xmax2
    rw [dif_pos hT]
    show k0_pay1 (k0_pay44 _ _) (ix2 p 0) = _
    rw [pay1_eq]
    exact pay44_apply _ _ _
  case hub =>
    intro h w hm
    have hT : h.val / 32 < 16 := by have := h.isLt; omega
    unfold tile_xmax2
    rw [dif_pos hT]
    have hb := (bitT_tile m c bi p (h.val / 32) hT ⟨h.val % 32, Nat.mod_lt _ (by decide)⟩ w).trans
      ((congrArg (fun q => maskT (argY m c) (bEntry bi p) q w) (rowOf_div bi h)).trans hm)
    exact le_xmax2 _ p _ w hb
  case hlb =>
    intro T hT cc hc hall
    unfold tile_xmax2
    rw [dif_pos hT]
    refine xmax2_le _ p cc hc fun r w hb => ?_
    exact hall _ w ((bitT_tile m c bi p T hT r w).symm.trans hb)

/-- The tile flags of any1, tile by tile of the batch block (0 beyond the sixteenth). -/
def tile_any1 (T : ℕ) : EReal :=
  if hT : T < 16 then k0_pay26 (F := Ideal) (k0_pay18 (iblk m c 0 (ptOf bi T hT))) (ix2 p 0) else 0

/-- After the sixteen tiles, the flag any1 of entry `bEntry bi p`. -/
theorem run_any1 :
    (hasPix (maskP (argX m c)) (bEntry bi p) → (accSeq m c bi 16).s8 (ix2 p 0) = Ideal.ofBits .f32 0x3F800000#32)
      ∧ (¬hasPix (maskP (argX m c)) (bEntry bi p) → (accSeq m c bi 16).s8 (ix2 p 0) = Ideal.ofBits .f32 0x00000000#32) := by
  refine run_any (maskP (argX m c)) (bEntry bi p) _ _ zero_le_one_words (fun T => (accSeq m c bi T).s8 (ix2 p 0)) (tile_any1 m c bi p) ?h0 ?hs ?hf ?hf1 ?hf0
  case h0 =>
    exact pay14_apply (ix2 p 0)
  case hs =>
    intro T hT
    show (accSeq m c bi (T + 1)).s8 (ix2 p 0) = _
    rw [accSeq_succ m c bi T hT]
    unfold tile_any1
    rw [dif_pos hT]
    exact pay2_apply _ _ _
  case hf =>
    intro T hT
    unfold tile_any1
    rw [dif_pos hT]
    exact any1_cases _ p
  case hf1 =>
    intro h w hm
    have hT : h.val / 32 < 16 := by have := h.isLt; omega
    unfold tile_any1
    rw [dif_pos hT]
    have hb := (bitP_tile m c bi p (h.val / 32) hT ⟨h.val % 32, Nat.mod_lt _ (by decide)⟩ w).trans
      ((congrArg (fun q => maskP (argX m c) (bEntry bi p) q w) (rowOf_div bi h)).trans hm)
    exact any1_of _ p _ w hb
  case hf0 =>
    intro hno T hT
    unfold tile_any1
    rw [dif_pos hT]
    refine any1_of_not _ p fun r w hb => hno ⟨_, w, (bitP_tile m c bi p T hT r w).symm.trans hb⟩

/-- The tile flags of any2, tile by tile of the batch block (0 beyond the sixteenth). -/
def tile_any2 (T : ℕ) : EReal :=
  if hT : T < 16 then k0_pay35 (F := Ideal) (k0_pay27 (F := Ideal) (k0_pay17 (iblk m c 1 (ptOf bi T hT)))) (ix2 p 0) else 0

/-- After the sixteen tiles, the flag any2 of entry `bEntry bi p`. -/
theorem run_any2 :
    (hasPix (maskT (argY m c)) (bEntry bi p) → (accSeq m c bi 16).s9 (ix2 p 0) = Ideal.ofBits .f32 0x3F800000#32)
      ∧ (¬hasPix (maskT (argY m c)) (bEntry bi p) → (accSeq m c bi 16).s9 (ix2 p 0) = Ideal.ofBits .f32 0x00000000#32) := by
  refine run_any (maskT (argY m c)) (bEntry bi p) _ _ zero_le_one_words (fun T => (accSeq m c bi T).s9 (ix2 p 0)) (tile_any2 m c bi p) ?h0 ?hs ?hf ?hf1 ?hf0
  case h0 =>
    exact pay15_apply (ix2 p 0)
  case hs =>
    intro T hT
    show (accSeq m c bi (T + 1)).s9 (ix2 p 0) = _
    rw [accSeq_succ m c bi T hT]
    unfold tile_any2
    rw [dif_pos hT]
    exact pay3_apply _ _ _
  case hf =>
    intro T hT
    unfold tile_any2
    rw [dif_pos hT]
    exact any2_cases _ p
  case hf1 =>
    intro h w hm
    have hT : h.val / 32 < 16 := by have := h.isLt; omega
    unfold tile_any2
    rw [dif_pos hT]
    have hb := (bitT_tile m c bi p (h.val / 32) hT ⟨h.val % 32, Nat.mod_lt _ (by decide)⟩ w).trans
      ((congrArg (fun q => maskT (argY m c) (bEntry bi p) q w) (rowOf_div bi h)).trans hm)
    exact any2_of _ p _ w hb
  case hf0 =>
    intro hno T hT
    unfold tile_any2
    rw [dif_pos hT]
    refine any2_of_not _ p fun r w hb => hno ⟨_, w, (bitT_tile m c bi p T hT r w).symm.trans hb⟩

/-! ## In terms of the fold over grid points, and the row of the statistics -/

/-- The last grid point of batch block `bi` is a grid point. -/
theorem lastPt_lt (bi : Fin 2) : 16 * bi.val + 15 < cfg0.N := by
  have := bi.isLt; have hN : cfg0.N = 32 := N_0; omega

/-- The accumulators after the last tile of batch block `bi`. -/
abbrev lastAcc : Acc Ideal := chain m c (16 * bi.val + 15) (lastPt_lt bi)

theorem lastAcc_eq : lastAcc m c bi = accSeq m c bi 16 := chain_eq_accSeq m c bi 15 (by decide) (lastPt_lt bi)

/-- FIRST MASK: with a pixel in the mask, the four bounds after the last tile are the smallest and largest masked row
    and column of the entry. -/
theorem stats_box1 (hp : hasPix (maskP (argX m c)) (bEntry bi p)) :
    (lastAcc m c bi).s0 (ix2 p 0) = cE (yminN (maskP (argX m c)) (bEntry bi p) hp)
      ∧ (lastAcc m c bi).s1 (ix2 p 0) = cE (xminN (maskP (argX m c)) (bEntry bi p) hp)
      ∧ (lastAcc m c bi).s2 (ix2 p 0) = cE (ymaxN (maskP (argX m c)) (bEntry bi p) hp)
      ∧ (lastAcc m c bi).s3 (ix2 p 0) = cE (xmaxN (maskP (argX m c)) (bEntry bi p) hp) := by
  rw [lastAcc_eq]
  exact ⟨(run_ymin1 m c bi p).1 hp, (run_xmin1 m c bi p).1 hp, (run_ymax1 m c bi p).1 hp, (run_xmax1 m c bi p).1 hp⟩

/-- SECOND MASK: the same four bounds. -/
theorem stats_box2 (hp : hasPix (maskT (argY m c)) (bEntry bi p)) :
    (lastAcc m c bi).s4 (ix2 p 0) = cE (yminN (maskT (argY m c)) (bEntry bi p) hp)
      ∧ (lastAcc m c bi).s5 (ix2 p 0) = cE (xminN (maskT (argY m c)) (bEntry bi p) hp)
      ∧ (lastAcc m c bi).s6 (ix2 p 0) = cE (ymaxN (maskT (argY m c)) (bEntry bi p) hp)
      ∧ (lastAcc m c bi).s7 (ix2 p 0) = cE (xmaxN (maskT (argY m c)) (bEntry bi p) hp) := by
  rw [lastAcc_eq]
  exact ⟨(run_ymin2 m c bi p).1 hp, (run_xmin2 m c bi p).1 hp, (run_ymax2 m c bi p).1 hp, (run_xmax2 m c bi p).1 hp⟩

/-- FIRST MASK: the flag after the last tile is the word of one when the entry has a pixel in the mask, of zero otherwise. -/
theorem stats_any1 :
    (hasPix (maskP (argX m c)) (bEntry bi p) → (lastAcc m c bi).s8 (ix2 p 0) = Ideal.ofBits .f32 0x3F800000#32)
      ∧ (¬hasPix (maskP (argX m c)) (bEntry bi p) → (lastAcc m c bi).s8 (ix2 p 0) = Ideal.ofBits .f32 0x00000000#32) := by
  rw [lastAcc_eq]; exact run_any1 m c bi p

/-- SECOND MASK: the flag likewise. -/
theorem stats_any2 :
    (hasPix (maskT (argY m c)) (bEntry bi p) → (lastAcc m c bi).s9 (ix2 p 0) = Ideal.ofBits .f32 0x3F800000#32)
      ∧ (¬hasPix (maskT (argY m c)) (bEntry bi p) → (lastAcc m c bi).s9 (ix2 p 0) = Ideal.ofBits .f32 0x00000000#32) := by
  rw [lastAcc_eq]; exact run_any2 m c bi p

end Entry

/-- The ten accumulators of an `Acc` as a family of columns. -/
def colsOfAcc (a : Acc Ideal) : Fin 10 → Vec Ideal S8x1 .f32 :=
  ![a.s0, a.s1, a.s2, a.s3, a.s4, a.s5, a.s6, a.s7, a.s8, a.s9]

/-- The block written out at a last tile: column `k` of row `p` is accumulator `k` at (p, 0). -/
theorem fin_out (a : Acc Ideal) (p : Fin 8) (k : Fin 10) : (fin a).out (ix2 p k) = colsOfAcc a k (ix2 p 0) :=
  pay4_apply (colsOfAcc a) p k

end Cert.KernelIdeal.Hand

end
-- ==== Proof.RefArith.lean ====
/-
  The reference's int32 arithmetic on the bounds of a non-empty entry never wraps: the bounds are below 512, so the
  extents ymax - ymin + 1 and xmax - xmin + 1 are at most 512, their product at most 512·512 < 2^31, and the sums
  ymin + ymax, xmin + xmax below 1024. Hence the exact conversion of the area word and of the two sum words is the
  extended-real coercion of the natural-number expression.
-/
import proofs.«124476_j14413910245512_2_alg».proof.Proof.RefBox

noncomputable section

namespace Cert.RefSide

open Idealize.ShloMosaic Idealize.ShloMosaic.ValueIdx

/-- A 32-bit two's-complement reduction leaves a number in [0, 2^31) alone. -/
theorem bmod_small (x : Int) (h0 : 0 ≤ x) (h1 : x < 2147483648) : x.bmod (2 ^ 32) = x :=
  Int.bmod_eq_of_le_mul_two (by norm_num; omega) (by norm_num; omega)

/-- The area word of a non-empty entry has the product of the two extents as signed value. -/
theorem areaW_toInt (M : Mask) (b : Fin 16) (hp : hasPix M b) :
    (areaW M b).toInt
      = (((ymaxN M b hp - yminN M b hp + 1) * (xmaxN M b hp - xminN M b hp + 1) : ℕ) : Int) := by
  have e1 := yminW_toInt M b hp
  have e2 := ymaxW_toInt M b hp
  have e3 := xminW_toInt M b hp
  have e4 := xmaxW_toInt M b hp
  have hy := ymin_le_ymax M b hp
  have hx := xmin_le_xmax M b hp
  have hY := ymaxN_lt M b hp
  have hX := xmaxN_lt M b hp
  have one : (1#32 : BitVec 32).toInt = 1 := rfl
  have dY : (IntOp.addi (IntOp.subi (ymaxW M b) (yminW M b)) 1#32).toInt
      = ((ymaxN M b hp - yminN M b hp + 1 : ℕ) : Int) := by
    unfold IntOp.addi IntOp.subi
    rw [BitVec.toInt_add, BitVec.toInt_sub, e1, e2, one, Int.bmod_add_bmod,
      bmod_small _ (by omega) (by omega)]
    push_cast [Nat.cast_sub hy]; ring
  have dX : (IntOp.addi (IntOp.subi (xmaxW M b) (xminW M b)) 1#32).toInt
      = ((xmaxN M b hp - xminN M b hp + 1 : ℕ) : Int) := by
    unfold IntOp.addi IntOp.subi
    rw [BitVec.toInt_add, BitVec.toInt_sub, e3, e4, one, Int.bmod_add_bmod,
      bmod_small _ (by omega) (by omega)]
    push_cast [Nat.cast_sub hx]; ring
  unfold areaW IntOp.muli
  rw [BitVec.toInt_mul, dY, dX, ← Nat.cast_mul]
  refine bmod_small _ (Int.natCast_nonneg _) ?_
  have hle : (ymaxN M b hp - yminN M b hp + 1) * (xmaxN M b hp - xminN M b hp + 1) ≤ 512 * 512 :=
    Nat.mul_le_mul (by omega) (by omega)
  exact_mod_cast (by omega : (ymaxN M b hp - yminN M b hp + 1) * (xmaxN M b hp - xminN M b hp + 1) < 2147483648)

/-- The row-sum word of a non-empty entry. -/
theorem ysumW_toInt (M : Mask) (b : Fin 16) (hp : hasPix M b) :
    (ysumW M b).toInt = ((yminN M b hp + ymaxN M b hp : ℕ) : Int) := by
  have hy := ymin_le_ymax M b hp
  have hY := ymaxN_lt M b hp
  unfold ysumW IntOp.addi
  rw [BitVec.toInt_add, yminW_toInt M b hp, ymaxW_toInt M b hp, bmod_small _ (by omega) (by omega)]
  push_cast; ring

/-- The column-sum word of a non-empty entry. -/
theorem xsumW_toInt (M : Mask) (b : Fin 16) (hp : hasPix M b) :
    (xsumW M b).toInt = ((xminN M b hp + xmaxN M b hp : ℕ) : Int) := by
  have hx := xmin_le_xmax M b hp
  have hX := xmaxN_lt M b hp
  unfold xsumW IntOp.addi
  rw [BitVec.toInt_add, xminW_toInt M b hp, xmaxW_toInt M b hp, bmod_small _ (by omega) (by omega)]
  push_cast; ring

/-- The exact conversion of a word whose signed value is a natural number is that number. -/
theorem toF_of_toInt (v : BitVec 32) (n : ℕ) (h : v.toInt = (n : Int)) : toF v = ((n : ℝ) : EReal) := by
  show (((v.toInt : ℝ)) : EReal) = _
  rw [h, Int.cast_natCast]

/-- The converted area of a non-empty entry: (ymax - ymin + 1)·(xmax - xmin + 1). -/
theorem toF_areaW (M : Mask) (b : Fin 16) (hp : hasPix M b) :
    toF (areaW M b)
      = ((((ymaxN M b hp - yminN M b hp + 1) * (xmaxN M b hp - xminN M b hp + 1) : ℕ) : ℝ) : EReal) :=
  toF_of_toInt _ _ (areaW_toInt M b hp)

/-- The converted row sum of a non-empty entry: ymin + ymax. -/
theorem toF_ysumW (M : Mask) (b : Fin 16) (hp : hasPix M b) :
    toF (ysumW M b) = (((yminN M b hp + ymaxN M b hp : ℕ) : ℝ) : EReal) :=
  toF_of_toInt _ _ (ysumW_toInt M b hp)

/-- The converted column sum of a non-empty entry: xmin + xmax. -/
theorem toF_xsumW (M : Mask) (b : Fin 16) (hp : hasPix M b) :
    toF (xsumW M b) = (((xminN M b hp + xmaxN M b hp : ℕ) : ℝ) : EReal) :=
  toF_of_toInt _ _ (xsumW_toInt M b hp)

end Cert.RefSide

end
-- ==== Proof.RefPen.lean ====
/-
  The reference's per-entry penalty in closed form: when both masks have a set pixel in entry b it is the float tail
  of the two boxes' natural-number bounds (areas as products of extents, centre sums as sums of bounds, all coerced
  exactly), and otherwise it is the word of 1.0.
-/
import proofs.«124476_j14413910245512_2_alg».proof.Proof.RefArith

noncomputable section

namespace Cert.RefSide

open Idealize.ShloMosaic Idealize.ShloMosaic.ValueIdx

/-- The float tail of two boxes given by natural-number bounds (y1, x1, y2, x2), prediction first. -/
def tailN (py1 px1 py2 px2 ty1 tx1 ty2 tx2 : ℕ) : Ideal .f32 :=
  tail ((((py2 - py1 + 1) * (px2 - px1 + 1) : ℕ) : ℝ) : EReal) ((((ty2 - ty1 + 1) * (tx2 - tx1 + 1) : ℕ) : ℝ) : EReal)
    (((py1 + py2 : ℕ) : ℝ) : EReal) (((px1 + px2 : ℕ) : ℝ) : EReal)
    (((ty1 + ty2 : ℕ) : ℝ) : EReal) (((tx1 + tx2 : ℕ) : ℝ) : EReal)

open Classical in
/-- The penalty of entry b: the tail of the two boxes when both masks have a set pixel there, else 1.0.
    (The case split is on a proposition, decided classically.) -/
theorem refPen_eq (P T : Mask) (b : Fin 16) :
    pen P T b
      = if h : hasPix P b ∧ hasPix T b then
          tailN (yminN P b h.1) (xminN P b h.1) (ymaxN P b h.1) (xmaxN P b h.1)
            (yminN T b h.2) (xminN T b h.2) (ymaxN T b h.2) (xmaxN T b h.2)
        else Ideal.ofBits .f32 0x3F800000#32 := by
  by_cases h : hasPix P b ∧ hasPix T b
  · rw [dif_pos h]
    unfold pen tailN
    rw [(anyW_eq_one_iff P b).mpr h.1, (anyW_eq_one_iff T b).mpr h.2,
      show IntOp.andi (1#1 : BitVec 1) 1#1 = 1#1 from rfl, select_one,
      toF_areaW P b h.1, toF_areaW T b h.2, toF_ysumW P b h.1, toF_xsumW P b h.1, toF_ysumW T b h.2, toF_xsumW T b h.2]
  · rw [dif_neg h]
    unfold pen
    have hz : IntOp.andi (anyW P b) (anyW T b) = 0#1 := by
      rcases BitVec.eq_zero_or_eq_one (anyW P b) with hP | hP
      · rw [hP]; generalize anyW T b = t; revert t; decide
      · rcases BitVec.eq_zero_or_eq_one (anyW T b) with hT | hT
        · rw [hT]; generalize anyW P b = t; revert t; decide
        · exact absurd ⟨(anyW_eq_one_iff P b).mp hP, (anyW_eq_one_iff T b).mp hT⟩ h
    rw [hz, select_zero]

end Cert.RefSide

end
-- ==== Proof.RefStats.lean ====
/-
  The per-entry penalty from ten statistics. A program that holds, per batch entry, the ten floats
  (ymin, xmin, ymax, xmax of the prediction's mask; the same four of the target's mask; "prediction non-empty" and
  "target non-empty" as 1.0 / 0.0) and computes from them
      valid = (s8 > 0.5) and (s9 > 0.5),
      areas (y2 - y1 + 1)·(x2 - x1 + 1), centre sums y1 + y2 and x1 + x2,  the float tail,  where(valid, tail, 1.0)
  in float arithmetic computes the reference's penalty of that entry: on coerced natural numbers the float
  differences, sums and products are the coerced natural-number ones (the smaller bound is subtracted from the larger).
-/
import proofs.«124476_j14413910245512_2_alg».proof.Proof.RefPen

noncomputable section

namespace Cert.RefSide

open Idealize.ShloMosaic Idealize.ShloMosaic.ValueIdx

/-- The word of 1.0 denotes 1. -/
theorem ofBits_one : Ideal.ofBits .f32 0x3F800000#32 = 1 := by
  simp [Ideal.ofBits, Ideal.ieee, -EReal.coe_mul]; norm_num

/-- The word of 0.5 denotes 1/2. -/
theorem ofBits_half : Ideal.ofBits .f32 0x3F000000#32 = ((1 / 2 : ℝ) : EReal) := by
  simp [Ideal.ofBits, Ideal.ieee, -EReal.coe_mul]; norm_num

/-- 1.0 > 0.5. -/
theorem cmp_one_half :
    FloatOps.cmpf (F := Ideal) .ogt (Ideal.ofBits .f32 0x3F800000#32) (Ideal.ofBits .f32 0x3F000000#32) = 1#1 := by
  rw [ofBits_one, ofBits_half]
  have h : (((1 / 2 : ℝ) : EReal)) < 1 := by
    rw [← EReal.coe_one]; exact_mod_cast (by norm_num : (1 / 2 : ℝ) < 1)
  show BitVec.ofBool (decide (_ < _)) = 1#1
  rw [decide_eq_true h]; rfl

/-- Not 0.0 > 0.5. -/
theorem cmp_zero_half :
    FloatOps.cmpf (F := Ideal) .ogt (Ideal.ofBits .f32 0x00000000#32) (Ideal.ofBits .f32 0x3F000000#32) = 0#1 := by
  rw [Ideal.ofBits_zero_f32, ofBits_half]
  have h : ¬ (((1 / 2 : ℝ) : EReal)) < 0 := by
    rw [← EReal.coe_zero]; exact_mod_cast (by norm_num : ¬ (1 / 2 : ℝ) < 0)
  show BitVec.ofBool (decide (_ < _)) = 0#1
  rw [decide_eq_false h]; rfl

/-- An extent in float arithmetic on coerced bounds is the coerced natural-number extent. -/
theorem ext_eq (a c : ℕ) (h : c ≤ a) :
    (((a : ℝ) : EReal) - ((c : ℝ) : EReal)) + 1 = (((a - c + 1 : ℕ) : ℝ) : EReal) := by
  rw [← EReal.coe_sub, ← EReal.coe_one, ← EReal.coe_add]
  push_cast [Nat.cast_sub h]; rfl

/-- An area in float arithmetic on coerced bounds is the coerced natural-number area. -/
theorem area_eq (a c a' c' : ℕ) (h : c ≤ a) (h' : c' ≤ a') :
    ((((a : ℝ) : EReal) - ((c : ℝ) : EReal)) + 1) * ((((a' : ℝ) : EReal) - ((c' : ℝ) : EReal)) + 1)
      = ((((a - c + 1) * (a' - c' + 1) : ℕ) : ℝ) : EReal) := by
  rw [ext_eq a c h, ext_eq a' c' h', ← EReal.coe_mul]
  push_cast; rfl

/-- A sum of two coerced bounds is the coerced sum. -/
theorem sum_eq (a c : ℕ) : ((a : ℝ) : EReal) + ((c : ℝ) : EReal) = (((a + c : ℕ) : ℝ) : EReal) := by
  rw [← EReal.coe_add]; push_cast; rfl

/-- The penalty as computed in float arithmetic from an entry's ten statistics. -/
def statPen (s : Fin 10 → Ideal .f32) : Ideal .f32 :=
  Scalar.select
    (IntOp.andi (FloatOps.cmpf (F := Ideal) .ogt (s 8) (Ideal.ofBits .f32 0x3F000000#32))
      (FloatOps.cmpf (F := Ideal) .ogt (s 9) (Ideal.ofBits .f32 0x3F000000#32)))
    (tail
      (((s 2 - s 0) + Ideal.ofBits .f32 0x3F800000#32) * ((s 3 - s 1) + Ideal.ofBits .f32 0x3F800000#32))
      (((s 6 - s 4) + Ideal.ofBits .f32 0x3F800000#32) * ((s 7 - s 5) + Ideal.ofBits .f32 0x3F800000#32))
      (s 0 + s 2) (s 1 + s 3) (s 4 + s 6) (s 5 + s 7))
    (Ideal.ofBits .f32 0x3F800000#32)

/-- From the right ten statistics of entry b the float computation gives the reference's penalty of entry b. -/
theorem statPen_eq (P T : Mask) (b : Fin 16) (s : Fin 10 → Ideal .f32)
    (h8 : hasPix P b → s 8 = Ideal.ofBits .f32 0x3F800000#32)
    (h8' : ¬ hasPix P b → s 8 = Ideal.ofBits .f32 0x00000000#32)
    (h9 : hasPix T b → s 9 = Ideal.ofBits .f32 0x3F800000#32)
    (h9' : ¬ hasPix T b → s 9 = Ideal.ofBits .f32 0x00000000#32)
    (hP : ∀ hp : hasPix P b, s 0 = ((yminN P b hp : ℝ) : EReal) ∧ s 1 = ((xminN P b hp : ℝ) : EReal)
      ∧ s 2 = ((ymaxN P b hp : ℝ) : EReal) ∧ s 3 = ((xmaxN P b hp : ℝ) : EReal))
    (hT : ∀ hp : hasPix T b, s 4 = ((yminN T b hp : ℝ) : EReal) ∧ s 5 = ((xminN T b hp : ℝ) : EReal)
      ∧ s 6 = ((ymaxN T b hp : ℝ) : EReal) ∧ s 7 = ((xmaxN T b hp : ℝ) : EReal)) :
    statPen s = pen P T b := by
  rw [refPen_eq]
  unfold statPen
  by_cases hp : hasPix P b
  · by_cases ht : hasPix T b
    · obtain ⟨e0, e1, e2, e3⟩ := hP hp
      obtain ⟨e4, e5, e6, e7⟩ := hT ht
      rw [dif_pos ⟨hp, ht⟩, h8 hp, h9 ht, cmp_one_half, show IntOp.andi (1#1 : BitVec 1) 1#1 = 1#1 from rfl, select_one,
        e0, e1, e2, e3, e4, e5, e6, e7, ofBits_one,
        area_eq _ _ _ _ (ymin_le_ymax P b hp) (xmin_le_xmax P b hp),
        area_eq _ _ _ _ (ymin_le_ymax T b ht) (xmin_le_xmax T b ht), sum_eq, sum_eq, sum_eq, sum_eq]
      rfl
    · rw [dif_neg (fun h => ht h.2), h8 hp, h9' ht, cmp_one_half, cmp_zero_half,
        show IntOp.andi (1#1 : BitVec 1) 0#1 = 0#1 from rfl, select_zero]
  · by_cases ht : hasPix T b
    · rw [dif_neg (fun h => hp h.1), h8' hp, h9 ht, cmp_one_half, cmp_zero_half,
        show IntOp.andi (0#1 : BitVec 1) 1#1 = 0#1 from rfl, select_zero]
    · rw [dif_neg (fun h => hp h.1), h8' hp, h9' ht, cmp_zero_half,
        show IntOp.andi (0#1 : BitVec 1) 0#1 = 0#1 from rfl, select_zero]

end Cert.RefSide

end
-- ==== Proof.RefJoin.lean ====
/-
  The statistics-side result is the reference's result. If an array of per-entry statistics holds, for every batch
  entry, the four bounds of each mask's box (as coerced natural numbers, whenever the mask has a set pixel) and the two
  "non-empty" flags as 1.0 / 0.0, then the result computed from the statistics in float arithmetic is the reference's
  specification of the two argument arrays: entry by entry the two penalties agree, and the two sums over the sixteen
  entries differ only in how the entry is indexed.
-/
import proofs.«124476_j14413910245512_2_alg».proof.Proof.TailSpec
import proofs.«124476_j14413910245512_2_alg».proof.Proof.RefStats

noncomputable section

open scoped BigOperators

namespace Cert.RefSide

open Idealize.ShloMosaic Idealize.ShloMosaic.ValueIdx

/-- A rank-1 index of extent 16 is its coordinate. -/
def batchIdxEquiv : (⟨1, ![16]⟩ : Shape).Idx ≃ Fin 16 where
  toFun i := i 0
  invFun b := ix1 b
  left_inv i := (eq_ix1 i).symm
  right_inv _ := rfl

/-- The penalty computed from row b of the statistics is the float computation on that row's ten numbers. -/
theorem penK_eq_statPen (s : Cert.TailSide.Stats) (b : Fin 16) :
    Cert.TailSide.penK s b = statPen (fun k => s (ix2 b k)) := rfl

/-- The result computed from the right statistics is the reference's specification. -/
theorem tailK_eq_refVal (s : Cert.TailSide.Stats) (x y : FVec Ideal SArg .f32)
    (h8 : ∀ b, hasPix (maskP x) b → s (ix2 b 8) = Ideal.ofBits .f32 0x3F800000#32)
    (h8' : ∀ b, ¬ hasPix (maskP x) b → s (ix2 b 8) = Ideal.ofBits .f32 0x00000000#32)
    (h9 : ∀ b, hasPix (maskT y) b → s (ix2 b 9) = Ideal.ofBits .f32 0x3F800000#32)
    (h9' : ∀ b, ¬ hasPix (maskT y) b → s (ix2 b 9) = Ideal.ofBits .f32 0x00000000#32)
    (hP : ∀ b (hp : hasPix (maskP x) b),
      s (ix2 b 0) = ((yminN (maskP x) b hp : ℝ) : EReal) ∧ s (ix2 b 1) = ((xminN (maskP x) b hp : ℝ) : EReal)
      ∧ s (ix2 b 2) = ((ymaxN (maskP x) b hp : ℝ) : EReal) ∧ s (ix2 b 3) = ((xmaxN (maskP x) b hp : ℝ) : EReal))
    (hT : ∀ b (hp : hasPix (maskT y) b),
      s (ix2 b 4) = ((yminN (maskT y) b hp : ℝ) : EReal) ∧ s (ix2 b 5) = ((xminN (maskT y) b hp : ℝ) : EReal)
      ∧ s (ix2 b 6) = ((ymaxN (maskT y) b hp : ℝ) : EReal) ∧ s (ix2 b 7) = ((xmaxN (maskT y) b hp : ℝ) : EReal)) :
    Cert.TailSide.tailK s = refVal x y := by
  have hpen : ∀ b : Fin 16, Cert.TailSide.penK s b = pen (maskP x) (maskT y) b := fun b =>
    (penK_eq_statPen s b).trans
      (statPen_eq (maskP x) (maskT y) b (fun k => s (ix2 b k)) (h8 b) (h8' b) (h9 b) (h9' b) (hP b) (hT b))
  have hsum : (∑ j : (⟨1, ![16]⟩ : Shape).Idx, Cert.TailSide.penK s (j 0))
      = ∑ b : Fin 16, pen (maskP x) (maskT y) b := by
    rw [← Equiv.sum_comp batchIdxEquiv.symm]
    exact Finset.sum_congr rfl (fun b _ => hpen b)
  funext i
  unfold Cert.TailSide.tailK refVal
  rw [hsum]

end Cert.RefSide

end
-- ==== Proof.KiJoin.lean ====
/-
  From the statistics array to the reference's result. Row 8·bi + p of the array the region leaves is row p of the
  block written back at the last tile of batch block bi, that is, the ten accumulators of entry p side by side. If row 8·bi + p of an array of statistics holds, column by
  column, the ten accumulators of entry p after the last tile of batch block bi, then the function of the statistics
  that the later host lines compute is the reference's specification of the two launched arguments: by the sixteen
  tiles' fold the ten numbers are the two boxes' bounds and the two "non-empty" flags of batch entry 8·bi + p.
-/
import proofs.«124476_j14413910245512_2_alg».proof.Proof.KiStatsArr
import proofs.«124476_j14413910245512_2_alg».proof.Proof.KiValue
import proofs.«124476_j14413910245512_2_alg».proof.Proof.KiStats
import proofs.«124476_j14413910245512_2_alg».proof.Proof.RefJoin

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Cert.RefSide (maskP maskT hasPix)

variable (m : (ℓ : Loc nD τ sig) → Buf (Elt Ideal) ℓ) (c : Dev nD)

/-- Every batch entry is entry `b % 8` of batch block `b / 8`. -/
theorem exists_bEntry (b : Fin 16) : ∃ (bi : Fin 2) (p : Fin 8), b = bEntry bi p :=
  ⟨⟨b.val / 8, by have := b.isLt; omega⟩, ⟨b.val % 8, Nat.mod_lt _ (by decide)⟩,
    Fin.ext (by show b.val = 8 * (b.val / 8) + b.val % 8; omega)⟩

/-- THE JOIN: an array whose row 8·bi + p is the ten accumulators of entry p after the last tile of block bi gives,
    through `tailK`, the reference's result on the launched arguments. -/
theorem tailK_of_stats (s : Cert.TailSide.Stats)
    (hs : ∀ (bi : Fin 2) (p : Fin 8) (k : Fin 10), s (ix2 (bEntry bi p) k) = colsOfAcc (lastAcc m c bi) k (ix2 p 0)) :
    Cert.TailSide.tailK s = Cert.RefSide.refVal (argX m c) (argY m c) := by
  refine Cert.RefSide.tailK_eq_refVal s (argX m c) (argY m c) (fun b hp => ?_) (fun b hp => ?_) (fun b hp => ?_)
    (fun b hp => ?_) (fun b hp => ?_) (fun b hp => ?_)
  · obtain ⟨bi, p, rfl⟩ := exists_bEntry b
    rw [hs bi p 8]; exact (stats_any1 m c bi p).1 hp
  · obtain ⟨bi, p, rfl⟩ := exists_bEntry b
    rw [hs bi p 8]; exact (stats_any1 m c bi p).2 hp
  · obtain ⟨bi, p, rfl⟩ := exists_bEntry b
    rw [hs bi p 9]; exact (stats_any2 m c bi p).1 hp
  · obtain ⟨bi, p, rfl⟩ := exists_bEntry b
    rw [hs bi p 9]; exact (stats_any2 m c bi p).2 hp
  · obtain ⟨bi, p, rfl⟩ := exists_bEntry b
    rw [hs bi p 0, hs bi p 1, hs bi p 2, hs bi p 3]; exact stats_box1 m c bi p hp
  · obtain ⟨bi, p, rfl⟩ := exists_bEntry b
    rw [hs bi p 4, hs bi p 5, hs bi p 6, hs bi p 7]; exact stats_box2 m c bi p hp

/-- Row 8·bi + p of the statistics array the region leaves, column k: accumulator k of entry p after the last tile of
    batch block bi. -/
theorem statsArr_row (bi : Fin 2) (p : Fin 8) (k : Fin 10) :
    (statsArr m c : S16x10.Idx → Elt Ideal .f32) (ix2 (bEntry bi p) k) = colsOfAcc (lastAcc m c bi) k (ix2 p 0) := by
  have h15 : (⟨16 * bi.val + 15, lastPt_lt bi⟩ : Fin cfg0.N).val % 16 = 15 := by
    show (16 * bi.val + 15) % 16 = 15; omega
  refine (statsArr_at m c ⟨16 * bi.val + 15, lastPt_lt bi⟩ h15 (ix2 (bEntry bi p) k) (ix2 p k)
    (by show 8 * bi.val + p.val = 8 * ((16 * bi.val + 15) / 16) + p.val; omega) rfl).trans ?_
  rw [outsAt_eq m c _ _, if_pos h15]
  exact fin_out (lastAcc m c bi) p k

/-- THE STATISTICS ARRAY GIVES THE REFERENCE'S RESULT. -/
theorem stats_eq_refVal : Cert.TailSide.tailK (statsArr m c) = Cert.RefSide.refVal (argX m c) (argY m c) :=
  tailK_of_stats m c (statsArr m c) (statsArr_row m c)

end Cert.KernelIdeal.Hand

end
-- ==== Proof.TailVec.lean ====
/-
  The same arithmetic written with whole-vector operations over the sixteen batch entries — column k of the
  statistics as a vector (the slice [0:16, k:k+1] with its unit axis dropped), the constants as splats, the
  penalties combined by elementwise operations and a select, then summed — and the proof that, read entry by
  entry, it is the function `tailK` of TailSpec: a slice-and-reshape of the statistics at entry b is the
  statistics at (b, k), a splat is its word everywhere, every elementwise operation acts on the entries, and the
  sum over the batch axis into a scalar is the initial value plus the sum of all sixteen entries.
-/
import proofs.«124476_j14413910245512_2_alg».proof.Proof.TailSpec
import Idealize.ShloMosaic.Lib.Pipeline.Value

noncomputable section

open scoped BigOperators

namespace Cert.TailSide

open Idealize.ShloMosaic Idealize.ShloMosaic.ValueIdx

/-- One column of the statistics, still with its unit axis. -/
abbrev SCol : Shape := ⟨2, ![16, 1]⟩

/-! ## The shape facts the vector operations take -/

theorem slices0 : SStats.Slices ![0, 0] SCol := by decide
theorem slices1 : SStats.Slices ![0, 1] SCol := by decide
theorem slices2 : SStats.Slices ![0, 2] SCol := by decide
theorem slices3 : SStats.Slices ![0, 3] SCol := by decide
theorem slices4 : SStats.Slices ![0, 4] SCol := by decide
theorem slices5 : SStats.Slices ![0, 5] SCol := by decide
theorem slices6 : SStats.Slices ![0, 6] SCol := by decide
theorem slices7 : SStats.Slices ![0, 7] SCol := by decide
theorem slices8 : SStats.Slices ![0, 8] SCol := by decide
theorem slices9 : SStats.Slices ![0, 9] SCol := by decide
theorem casts_col : SCol.ShapeCasts SBatch := by decide
theorem bcast_scalar : SScalar.BroadcastsInDim SBatch (![] : Fin 0 → Fin SBatch.rank) := by decide
theorem reducesTo_batch : SBatch.ReducesTo [0] SScalar := by decide
theorem scalar_pos : 0 < SScalar.numel := by decide

/-! ## The vectors -/

/-- Column `k` of the statistics as a vector over the batch entries. -/
def colV (s : Stats) (k : Nat) (h : SStats.Slices ![0, k] SCol) : FVec Ideal SBatch .f32 :=
  shapeCast SBatch (extractStridedSlice SCol ![0, k] s h) casts_col

/-- The word `w` at every batch entry. -/
def splatV (w : BitVec 32) : FVec Ideal SBatch .f32 :=
  broadcastInDim SBatch ![] bcast_scalar (constant SScalar .f32 w)

/-- Both masks non-empty, entry by entry. -/
def validV (s : Stats) : IVec SBatch 1 :=
  andi (cmpf .ogt (colV s 8 slices8) (splatV 0x3F000000#32)) (cmpf .ogt (colV s 9 slices9) (splatV 0x3F000000#32))

/-- The first mask's box areas. -/
def predAreaV (s : Stats) : FVec Ideal SBatch .f32 :=
  mulf (addf (subf (colV s 2 slices2) (colV s 0 slices0)) (splatV 0x3F800000#32))
    (addf (subf (colV s 3 slices3) (colV s 1 slices1)) (splatV 0x3F800000#32))

/-- The second mask's box areas. -/
def trueAreaV (s : Stats) : FVec Ideal SBatch .f32 :=
  mulf (addf (subf (colV s 6 slices6) (colV s 4 slices4)) (splatV 0x3F800000#32))
    (addf (subf (colV s 7 slices7) (colV s 5 slices5)) (splatV 0x3F800000#32))

/-- The area penalties. -/
def areaPenV (s : Stats) : FVec Ideal SBatch .f32 :=
  Host.divf (maximumf (subf (predAreaV s) (trueAreaV s)) (splatV 0x00000000#32)) (addf (trueAreaV s) (splatV 0x3F800000#32))

/-- The midpoints of two columns. -/
def midV (s : Stats) (lo hi : Nat) (hlo : SStats.Slices ![0, lo] SCol) (hhi : SStats.Slices ![0, hi] SCol) :
    FVec Ideal SBatch .f32 :=
  Host.divf (addf (colV s lo hlo) (colV s hi hhi)) (splatV 0x40000000#32)

/-- The centre offsets. -/
def offsetV (s : Stats) : FVec Ideal SBatch .f32 :=
  Host.divf
    (Host.sqrt (addf
      (mulf (subf (midV s 0 2 slices0 slices2) (midV s 4 6 slices4 slices6))
        (subf (midV s 0 2 slices0 slices2) (midV s 4 6 slices4 slices6)))
      (mulf (subf (midV s 1 3 slices1 slices3) (midV s 5 7 slices5 slices7))
        (subf (midV s 1 3 slices1 slices3) (midV s 5 7 slices5 slices7)))))
    (splatV 0x41A00000#32)

/-- The penalties. -/
def penV (s : Stats) : FVec Ideal SBatch .f32 :=
  select (validV s) (addf (areaPenV s) (offsetV s)) (splatV 0x3F800000#32)

/-- The result, with vector operations. -/
def tailVec (s : Stats) : FVec Ideal SScalar .f32 :=
  mulf (constant SScalar .f32 0x3D4CCCCD#32)
    (Host.divf (Host.reduceAdd (penV s) (constant SScalar .f32 0x00000000#32) reducesTo_batch scalar_pos)
      (constant SScalar .f32 0x41800000#32))

/-! ## Read entry by entry -/

/-- Column `k` at entry `j` is the statistics at (j, k). -/
theorem colV_apply (s : Stats) (k : Fin 10) (h : SStats.Slices ![0, k.val] SCol) (j : SBatch.Idx) :
    colV s k.val h j = s (ix2 (j 0) k) := by
  unfold colV
  refine (shapeCast_apply _ casts_col j (ix2 (j 0) (0 : Fin 1)) ?_).trans
    (extractStridedSlice_apply _ s h _ (ix2 (j 0) k) fun a => ?_)
  · rw [Shape.rowMajor_val_two, Shape.rowMajor_val_one]
    show (j 0).val * 1 + 0 = (j 0).val
    omega
  · match a with
    | ⟨0, _⟩ => show (j 0).val = 0 + (j 0).val; omega
    | ⟨1, _⟩ => show k.val = k.val + 0; omega

/-- A splat at any entry is its word. -/
theorem splatV_apply (w : BitVec 32) (j : SBatch.Idx) : splatV w j = Ideal.ofBits .f32 w := by
  unfold splatV
  exact (broadcastInDim_apply _ bcast_scalar _ j ix0 fun a => a.elim0).trans rfl

theorem validV_apply (s : Stats) (j : SBatch.Idx) : validV s j = validK s (j 0) := by
  show IntOp.andi (Ideal.cmp .ogt (colV s 8 slices8 j) (splatV 0x3F000000#32 j))
      (Ideal.cmp .ogt (colV s 9 slices9 j) (splatV 0x3F000000#32 j)) = _
  rw [show colV s 8 slices8 j = s (ix2 (j 0) 8) from colV_apply s 8 slices8 j,
    show colV s 9 slices9 j = s (ix2 (j 0) 9) from colV_apply s 9 slices9 j, splatV_apply]
  rfl

theorem predAreaV_apply (s : Stats) (j : SBatch.Idx) : predAreaV s j = predAreaK s (j 0) := by
  show (colV s 2 slices2 j - colV s 0 slices0 j + splatV 0x3F800000#32 j)
      * (colV s 3 slices3 j - colV s 1 slices1 j + splatV 0x3F800000#32 j) = _
  rw [show colV s 0 slices0 j = s (ix2 (j 0) 0) from colV_apply s 0 slices0 j,
    show colV s 1 slices1 j = s (ix2 (j 0) 1) from colV_apply s 1 slices1 j,
    show colV s 2 slices2 j = s (ix2 (j 0) 2) from colV_apply s 2 slices2 j,
    show colV s 3 slices3 j = s (ix2 (j 0) 3) from colV_apply s 3 slices3 j, splatV_apply]
  rfl

theorem trueAreaV_apply (s : Stats) (j : SBatch.Idx) : trueAreaV s j = trueAreaK s (j 0) := by
  show (colV s 6 slices6 j - colV s 4 slices4 j + splatV 0x3F800000#32 j)
      * (colV s 7 slices7 j - colV s 5 slices5 j + splatV 0x3F800000#32 j) = _
  rw [show colV s 4 slices4 j = s (ix2 (j 0) 4) from colV_apply s 4 slices4 j,
    show colV s 5 slices5 j = s (ix2 (j 0) 5) from colV_apply s 5 slices5 j,
    show colV s 6 slices6 j = s (ix2 (j 0) 6) from colV_apply s 6 slices6 j,
    show colV s 7 slices7 j = s (ix2 (j 0) 7) from colV_apply s 7 slices7 j, splatV_apply]
  rfl

theorem areaPenV_apply (s : Stats) (j : SBatch.Idx) : areaPenV s j = areaPenK s (j 0) := by
  show Ideal.div (max (predAreaV s j - trueAreaV s j) (splatV 0x00000000#32 j)) (trueAreaV s j + splatV 0x3F800000#32 j) = _
  rw [predAreaV_apply, trueAreaV_apply, splatV_apply, splatV_apply]
  rfl

theorem midV_apply (s : Stats) (lo hi : Fin 10) (hlo : SStats.Slices ![0, lo.val] SCol) (hhi : SStats.Slices ![0, hi.val] SCol)
    (j : SBatch.Idx) : midV s lo.val hi.val hlo hhi j = midK s (j 0) lo hi := by
  show Ideal.div (colV s lo.val hlo j + colV s hi.val hhi j) (splatV 0x40000000#32 j) = _
  rw [colV_apply, colV_apply, splatV_apply]
  rfl

theorem offsetV_apply (s : Stats) (j : SBatch.Idx) : offsetV s j = offsetK s (j 0) := by
  show Ideal.div (Ideal.sqrt
      ((midV s 0 2 slices0 slices2 j - midV s 4 6 slices4 slices6 j) * (midV s 0 2 slices0 slices2 j - midV s 4 6 slices4 slices6 j)
        + (midV s 1 3 slices1 slices3 j - midV s 5 7 slices5 slices7 j) * (midV s 1 3 slices1 slices3 j - midV s 5 7 slices5 slices7 j)))
      (splatV 0x41A00000#32 j) = _
  rw [show midV s 0 2 slices0 slices2 j = midK s (j 0) 0 2 from midV_apply s 0 2 slices0 slices2 j,
    show midV s 4 6 slices4 slices6 j = midK s (j 0) 4 6 from midV_apply s 4 6 slices4 slices6 j,
    show midV s 1 3 slices1 slices3 j = midK s (j 0) 1 3 from midV_apply s 1 3 slices1 slices3 j,
    show midV s 5 7 slices5 slices7 j = midK s (j 0) 5 7 from midV_apply s 5 7 slices5 slices7 j, splatV_apply]
  rfl

theorem penV_apply (s : Stats) (j : SBatch.Idx) : penV s j = penK s (j 0) := by
  show Scalar.select (validV s j) (areaPenV s j + offsetV s j) (splatV 0x3F800000#32 j) = _
  rw [validV_apply, areaPenV_apply, offsetV_apply, splatV_apply]
  rfl

/-- THE VECTOR FORM IS THE SPECIFICATION. -/
theorem tailVec_eq_tailK (s : Stats) : tailVec s = tailK s := by
  funext i
  have hsum : Host.reduceAdd (penV s) (constant (F := Ideal) SScalar .f32 0x00000000#32) reducesTo_batch scalar_pos i
      = Ideal.ofBits .f32 0x00000000#32 + ∑ j : SBatch.Idx, penV s j := by
    generalize penV s = y
    simp only [Host.reduceAdd, Ideal.hostReduceAdd_def]
    exact Ideal.hostReduceAdd_total reducesTo_batch (fun b => b.elim0) y _ i
  show Ideal.ofBits .f32 0x3D4CCCCD#32
      * Ideal.div (Host.reduceAdd (penV s) (constant (F := Ideal) SScalar .f32 0x00000000#32) reducesTo_batch scalar_pos i)
          (Ideal.ofBits .f32 0x41800000#32) = _
  rw [hsum]
  unfold tailK
  rw [Finset.sum_congr rfl fun j _ => penV_apply s j]

end Cert.TailSide

end
-- ==== Proof.TailRead.lean ====
/-
  The host operations that follow the kernel launch compute, from the statistics array the launch leaves, the
  function `tailK` of TailSpec. The operations are run as a fold over the buffer contents; composing their results
  gives the whole-vector form of TailVec (slices of the statistics' columns, splats, elementwise operations, a
  select and the final sum) applied to the statistics buffer, which TailVec proves equal to `tailK` entry by entry.
-/
import proofs.«124476_j14413910245512_2_alg».proof.Proof.Gen.KernelIdeal.Launch
import proofs.«124476_j14413910245512_2_alg».proof.Proof.TailVec

noncomputable section

namespace Cert.TailSide

open Cert.KernelIdeal Cert.KernelIdeal.Gen Idealize.ShloMosaic Idealize.ShloMosaic.TcCoe Idealize.SL.Sem Idealize.ShloMosaic.StableHlo

set_option maxHeartbeats 1000000 in
/-- After the eighty-nine host operations that follow the launch, run from any buffer contents `W`, the result
    buffer holds `tailK` of what `W` has in the statistics buffer. -/
theorem tail_read (W : Valuation Cert.KernelIdeal.τ Cert.KernelIdeal.sig (Elt Ideal)) :
    StableHlo.after (List.flatten [Cert.KernelIdeal.Gen.hostOps1, Cert.KernelIdeal.Gen.hostOps1_1,
        Cert.KernelIdeal.Gen.hostOps1_2, Cert.KernelIdeal.Gen.hostOps1_3, Cert.KernelIdeal.Gen.hostOps1_4] :
        List (HloOp Cert.KernelIdeal.τ Cert.KernelIdeal.sig (Elt Ideal))) W (Proc.devRef .tc Cert.KernelIdeal.main_v71)
      = tailK (W (Proc.devRef .tc Cert.KernelIdeal.main_v2)) := by
  simp only [hostOps1, hostOps1_1, hostOps1_2, hostOps1_3, hostOps1_4, List.flatten_cons, List.flatten_nil,
    List.append_nil, List.cons_append, List.nil_append]
  after_results_simp
  exact tailVec_eq_tailK (W (Proc.devRef .tc main_v2))

end Cert.TailSide

end
-- ==== Proof.KiFinal.lean ====
/-
  The statistics array the pallas_call leaves, and the run of the whole program read at its result.

  The output window (sixteen rows of ten numbers, blocks of eight rows) is written back only at the last row tile of
  each batch block: at grid point 16·bi + 15 the block of rows 8·bi … 8·bi + 7 receives what the body left in the
  output's staging buffer there. So after the run, row j of the array is row j % 8 of what point 16·(j / 8) + 15
  left; the two flushing points' blocks cover the array. The lines after the region then compute the result from that
  array, and neither they nor the region touch the two arguments.
-/
import proofs.«124476_j14413910245512_2_alg».proof.Proof.KiStatsArr
import proofs.«124476_j14413910245512_2_alg».proof.Proof.KiFrame
import proofs.«124476_j14413910245512_2_alg».proof.Proof.TailRead
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Array

variable {F : FTy → Type} [FloatOps F]
variable (m : (ℓ : Loc nD τ sig) → Buf (Elt F) ℓ) (ρ : Dev nD → PrngReg)

/-- Which block of the array point t's write-back addresses: rows 8·(t / 16) …, all ten columns. -/
theorem idx2 : ∀ t : Fin cfg0.N, win0_2.index t 0 = t.val / 16 ∧ win0_2.index t 1 = 0 :=
  (by decide +kernel : ∀ t : Fin grid0.N, win0_2.index t 0 = t.val / 16 ∧ win0_2.index t 1 = 0)

/-- WHAT A FLUSHING POINT WRITES BACK is its block of the statistics array. -/
theorem flushed2_eq (c : Dev nD) (t : Fin cfg0.N) (hf : (cfg0.win 2).flush t = true) :
    (dats m 0 c).flushed 2 t = ((cfg0.win 2).blk t).view.read (Elt F) (statsArr m c) := by
  have h15 : t.val % 16 = 15 := (flush0_2 t).mp hf
  obtain ⟨i0, i1⟩ := idx2 t
  show (cfg0.win 2).cut (grid0.coords t) ((dats m 0 c).after 2 t) = _
  rw [after0_2]
  funext y
  rw [View.read_apply]
  refine (statsArr_at m c t h15 _ _ ?_ ?_).symm
  · show win0_2.index t 0 * 8 + 1 * (y 0).val = 8 * (t.val / 16) + (y 0).val
    rw [i0]; omega
  · show win0_2.index t 1 * 10 + 1 * (y 1).val = (y 1).val
    rw [i1]; omega

/-- An index of the array is in point t's block iff each coordinate is in the block's range on its axis. -/
theorem mem_blk2 (t : Fin cfg0.N) (i : S16x10.Idx) :
    i ∈ ((cfg0.win 2).blk t).view.set
      ↔ ∀ a : Fin 2, win0_2.index t a * S8x10.size a ≤ (i a).val ∧ (i a).val < win0_2.index t a * S8x10.size a + S8x10.size a := by
  show i ∈ ((View.whole main_v2).slice (win0_2.rect t)).set ↔ _
  rw [View.set_slice_whole, Rect.mem_set_unit]
  exact Iff.rfl

/-- Every index of the array is in the block of a flushing point: row j in that of point 16·(j / 8) + 15. -/
theorem cover2 (i : S16x10.Idx) :
    ∃ t : Fin cfg0.N, (cfg0.win 2).flush t = true ∧ i ∈ ((cfg0.win 2).blk t).view.set := by
  have hN : cfg0.N = 32 := N_0
  have hi0 : (i 0).val < 16 := (i 0).isLt
  have hi1 : (i 1).val < 10 := (i 1).isLt
  have hlt : 16 * ((i 0).val / 8) + 15 < cfg0.N := by omega
  have h15 : (⟨16 * ((i 0).val / 8) + 15, hlt⟩ : Fin cfg0.N).val % 16 = 15 := by
    show (16 * ((i 0).val / 8) + 15) % 16 = 15; omega
  obtain ⟨i0, i1⟩ := idx2 ⟨16 * ((i 0).val / 8) + 15, hlt⟩
  refine ⟨⟨16 * ((i 0).val / 8) + 15, hlt⟩, (flush0_2 _).mpr h15, ?_⟩
  rw [mem_blk2]
  intro a
  match a with
  | ⟨0, _⟩ =>
    show win0_2.index ⟨16 * ((i 0).val / 8) + 15, hlt⟩ 0 * 8 ≤ (i 0).val
      ∧ (i 0).val < win0_2.index ⟨16 * ((i 0).val / 8) + 15, hlt⟩ 0 * 8 + 8
    rw [i0]
    show (16 * ((i 0).val / 8) + 15) / 16 * 8 ≤ (i 0).val
      ∧ (i 0).val < (16 * ((i 0).val / 8) + 15) / 16 * 8 + 8
    omega
  | ⟨1, _⟩ =>
    show win0_2.index ⟨16 * ((i 0).val / 8) + 15, hlt⟩ 1 * 10 ≤ (i 1).val
      ∧ (i 1).val < win0_2.index ⟨16 * ((i 0).val / 8) + 15, hlt⟩ 1 * 10 + 10
    rw [i1]; omega

/-- THE ARRAY AFTER THE RUN is the statistics array: the two flushing points' blocks cover it. -/
theorem final_stats (c : Dev nD) : (dats m 0 c).arrAt 2 cfg0.N = statsArr m c :=
  (dats m 0 c).arrAt_eq_of_cover 2 (statsArr m c) (flushed2_eq m c) fun i => cover2 i

end Array

/-! ## The run of the whole program, read at its result -/

section Run

variable (m : (ℓ : Loc nD τ sig) → Buf (Elt Ideal) ℓ) (ρ : Dev nD → PrngReg)

/-- The lines after the region compute, from the statistics array the region leaves, the function `tailK` of it. -/
theorem tail_of_stats (c : Dev nD) :
    Pipeline.afterTail₀ cfgs (dats m) 0 (V0 m) sfx c main_v71 = Cert.TailSide.tailK (statsArr m c) := by
  unfold Pipeline.afterTail₀
  refine (Cert.TailSide.tail_read _).trans ?_
  exact congrArg (fun s : Buf (Elt Ideal) ((c : Thread nD τ).loc main_v2) => Cert.TailSide.tailK s)
    ((Pipeline.withArrays_arr spec0 launch0.win.arr_inj c _ _ 2).trans (final_stats m c))

/-- Every weakly fair execution of the program terminates with `tailK` of the statistics array in the result buffer
    and both arguments as launched. -/
theorem kernel_run :
    θ_run (defs (F := Ideal)) (onTc (τ := τ) (main (F := Ideal))) ⟨m, fun _ => 0, ρ⟩ (fun r => ∀ c : Dev nD,
      r.2.mem ((c.tc : Thread nD τ).loc main_v71) = Cert.TailSide.tailK (statsArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v71 (Pipeline.mem_restRefs_of main_v71 (by decide) (by decide))).trans (tail_of_stats m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Run

end Cert.KernelIdeal.Hand

end
-- ==== Proof.RefImports.lean ====
/-
  The reference program's run and its operations read one at a time: the two generated modules the
  reference side of the proof is written over, gathered behind one import.
-/
import proofs.«124476_j14413910245512_2_alg».proof.Proof.Gen.ReferenceIdeal.Run
import proofs.«124476_j14413910245512_2_alg».proof.Proof.Gen.ReferenceIdeal.Read
-- ==== Proof.RefRead.lean ====
/-
  The reference program's stages read at an index, up to the per-entry penalty: each stage of the generated
  reading at the index built from explicit coordinates is the specification's term. The reduces over the
  pixel axes are read as folds over the set of pixels (the fold's order is immaterial: the bodies commute and
  associate), re-indexed through (h, w) ↦ (b, 0, h, w).
-/
import proofs.«124476_j14413910245512_2_alg».proof.Proof.RefImports
import proofs.«124476_j14413910245512_2_alg».proof.Proof.RefSpec

noncomputable section

open scoped BigOperators

namespace Cert.RefSide

open Idealize.ShloMosaic Idealize.ShloMosaic.ValueIdx Cert.ReferenceIdeal Cert.ReferenceIdeal.Gen Cert.ReferenceIdeal.Read

/-- A reduce over axes 1, 2, 3 of a [16, 1, 512, 512] array with a commutative associative body is, at entry b,
    the fold from the initial value over all pixels (h, w) of the array at (b, 0, h, w). -/
theorem reduce_hw {α : Type} (op : α → α → α) [Std.Commutative op] [Std.Associative op]
    (v : S16x1x512x512.Idx → α) (init : S_.Idx → α)
    (h' : S16x1x512x512.ReducesTo [1, 2, 3] S16) (hu : 0 < S_.numel) (b : Fin 16) :
    Host.reduce op v init h' hu (ix1 b)
      = (Finset.univ : Finset (Fin 512 × Fin 512)).fold op (init (Shape.Idx.first hu))
          (fun p => v (ix4 b (0 : Fin 1) p.1 p.2)) := by
  rw [Host.reduce_eq_fold]
  have himg : (Finset.univ.filter fun i : S16x1x512x512.Idx => h'.drop i = ix1 b)
      = (Finset.univ : Finset (Fin 512 × Fin 512)).image (fun p => ix4 b (0 : Fin 1) p.1 p.2) := by
    ext i
    simp only [Finset.mem_filter, Finset.mem_univ, true_and, Finset.mem_image]
    constructor
    · intro hi
      have h0 : (i 0 : Nat) = b.val := by
        have e1 : (h'.drop i 0 : Nat) = (i 0 : Nat) := h'.drop_apply_val_of_eq i 0 0
        have e2 : (h'.drop i 0 : Nat) = b.val := congrArg (fun j : S16.Idx => ((j 0 : Fin 16) : Nat)) hi
        exact e1.symm.trans e2
      have h1 : (i 1 : Nat) = 0 := by have hlt : (i 1).val < 1 := (i 1).isLt; omega
      refine ⟨((⟨(i 2).val, (i 2).isLt⟩ : Fin 512), (⟨(i 3).val, (i 3).isLt⟩ : Fin 512)), ?_⟩
      funext a
      match a with
      | ⟨0, _⟩ => exact Fin.ext h0.symm
      | ⟨1, _⟩ => exact Fin.ext h1.symm
      | ⟨2, _⟩ => rfl
      | ⟨3, _⟩ => rfl
    · rintro ⟨p, rfl⟩
      funext a
      match a with
      | ⟨0, _⟩ => exact Fin.ext (h'.drop_apply_val_of_eq _ 0 0)
  rw [himg, Finset.fold_image (fun p _ q _ e => Prod.ext (congrFun e 2) (congrFun e 3))]
  rfl

/-- The maximum over the channel axis of a [16, 1, 512, 512, 21] array, at a pixel: the fold over the 21 channels. -/
theorem chan_read (x : FVec Ideal SArg .f32) (init : S_.Idx → Ideal .f32) (b : Fin 16) (h w : Fin 512) :
    Host.reduce (FloatOps.maximumf (F := Ideal) (φ := .f32)) x init reducesTo_S16x1x512x512x21_S16x1x512x512_d4 h_S_
        (ix4 b (0 : Fin 1) h w)
      = (Finset.univ : Finset (Fin 21)).fold (FloatOps.maximumf (F := Ideal) (φ := .f32)) (init (Shape.Idx.first h_S_))
          (fun c => x (ix5 b (0 : Fin 1) h w c)) := by
  have hR : S16x1x512x512x21.Reduces [4] S16x1x512x512 := by decide
  have hf : (x ∘ hR.lift (ix4 b (0 : Fin 1) h w)) = fun c => x (ix5 b (0 : Fin 1) h w c) := by
    funext c
    exact congrArg x (funext fun a => match a with
      | ⟨0, _⟩ => rfl | ⟨1, _⟩ => rfl | ⟨2, _⟩ => rfl | ⟨3, _⟩ => rfl | ⟨4, _⟩ => rfl)
  refine (Host.reduce_eq_fold_single _ x init _ hR h_S_ _).trans ?_
  rw [hf]; rfl

/-- The channel maximum of the prediction at a pixel. -/
theorem v0_read (x : FVec Ideal SArg .f32) (b : Fin 16) (h w : Fin 512) :
    val_main_v0 (F := Ideal) x (ix4 b (0 : Fin 1) h w) = chanMax x b h w := by
  unfold val_main_v0 chanMax
  exact chan_read x _ b h w

/-- The channel maximum of the target at a pixel. -/
theorem v3_read (y : FVec Ideal SArg .f32) (b : Fin 16) (h w : Fin 512) :
    val_main_v3 (F := Ideal) y (ix4 b (0 : Fin 1) h w) = chanMax y b h w := by
  unfold val_main_v3 chanMax
  exact chan_read y _ b h w

/-- The prediction's mask bit at a pixel. -/
theorem v2_read (x : FVec Ideal SArg .f32) (b : Fin 16) (h w : Fin 512) :
    val_main_v2 (F := Ideal) x (ix4 b (0 : Fin 1) h w) = maskP x b h w := by
  rw [val_main_v2_apply, v0_read, val_main_v1_apply, val_main_cst_0_apply]; rfl

/-- The target's mask bit at a pixel. -/
theorem v5_read (y : FVec Ideal SArg .f32) (b : Fin 16) (h w : Fin 512) :
    val_main_v5 (F := Ideal) y (ix4 b (0 : Fin 1) h w) = maskT y b h w := by
  rw [val_main_v5_apply, v3_read, val_main_v4_apply, val_main_cst_2_apply]; rfl

/-- The row coordinate broadcast over the array, at a pixel. -/
theorem call0_v0_read (b : Fin 16) (h w : Fin 512) :
    val_main_call0_v0 (F := Ideal) (ix4 b (0 : Fin 1) h w) = BitVec.ofNat 32 h.val := by
  rw [val_main_call0_v0_apply, val_main_v7_apply, val_main_v6_apply]
  show BitVec.ofNat 32 (((0 * 1 + 0) * 512 + h.val) * 1 + 0) = _
  congr 1; omega

/-- The fill value broadcast over the array, at a pixel. -/
theorem call0_v1_read (b : Fin 16) (h w : Fin 512) :
    val_main_call0_v1 (F := Ideal) (ix4 b (0 : Fin 1) h w) = 1073741824#32 := by
  rw [val_main_call0_v1_apply, val_main_c_apply]

/-- The selected coordinate at a pixel. -/
theorem v10_read (x : FVec Ideal SArg .f32) (b : Fin 16) (h w : Fin 512) :
    val_main_v10 (F := Ideal) x (ix4 b (0 : Fin 1) h w)
      = Scalar.select (maskP x b h w) (BitVec.ofNat 32 h.val) (1073741824#32) := by
  rw [val_main_v10_apply, v2_read, call0_v0_read, call0_v1_read]

/-- The reduce over the pixels of entry b is the specification's fold. -/
theorem v11_read (x : FVec Ideal SArg .f32) (b : Fin 16) :
    val_main_v11 (F := Ideal) x (ix1 b) = yminW (maskP x) b := by
  unfold val_main_v11 yminW
  refine (reduce_hw IntOp.minsi _ _ _ _ b).trans ?_
  exact congrArg (fun f => Finset.fold IntOp.minsi _ f Finset.univ) (funext fun p => v10_read x b p.1 p.2)

/-- The column coordinate broadcast over the array, at a pixel. -/
theorem call1_v0_read (b : Fin 16) (h w : Fin 512) :
    val_main_call1_v0 (F := Ideal) (ix4 b (0 : Fin 1) h w) = BitVec.ofNat 32 w.val := by
  rw [val_main_call1_v0_apply, val_main_v9_apply, val_main_v8_apply]
  show BitVec.ofNat 32 (((0 * 1 + 0) * 1 + 0) * 512 + w.val) = _
  congr 1; omega

/-- The fill value broadcast over the array, at a pixel. -/
theorem call1_v1_read (b : Fin 16) (h w : Fin 512) :
    val_main_call1_v1 (F := Ideal) (ix4 b (0 : Fin 1) h w) = 1073741824#32 := by
  rw [val_main_call1_v1_apply, val_main_c_4_apply]

/-- The selected coordinate at a pixel. -/
theorem v12_read (x : FVec Ideal SArg .f32) (b : Fin 16) (h w : Fin 512) :
    val_main_v12 (F := Ideal) x (ix4 b (0 : Fin 1) h w)
      = Scalar.select (maskP x b h w) (BitVec.ofNat 32 w.val) (1073741824#32) := by
  rw [val_main_v12_apply, v2_read, call1_v0_read, call1_v1_read]

/-- The reduce over the pixels of entry b is the specification's fold. -/
theorem v13_read (x : FVec Ideal SArg .f32) (b : Fin 16) :
    val_main_v13 (F := Ideal) x (ix1 b) = xminW (maskP x) b := by
  unfold val_main_v13 xminW
  refine (reduce_hw IntOp.minsi _ _ _ _ b).trans ?_
  exact congrArg (fun f => Finset.fold IntOp.minsi _ f Finset.univ) (funext fun p => v12_read x b p.1 p.2)

/-- The row coordinate broadcast over the array, at a pixel. -/
theorem call2_v0_read (b : Fin 16) (h w : Fin 512) :
    val_main_call2_v0 (F := Ideal) (ix4 b (0 : Fin 1) h w) = BitVec.ofNat 32 h.val := by
  rw [val_main_call2_v0_apply, val_main_v7_apply, val_main_v6_apply]
  show BitVec.ofNat 32 (((0 * 1 + 0) * 512 + h.val) * 1 + 0) = _
  congr 1; omega

/-- The fill value broadcast over the array, at a pixel. -/
theorem call2_v1_read (b : Fin 16) (h w : Fin 512) :
    val_main_call2_v1 (F := Ideal) (ix4 b (0 : Fin 1) h w) = -(1073741824#32) := by
  rw [val_main_call2_v1_apply, val_main_v14_apply, val_main_c_6_apply]

/-- The selected coordinate at a pixel. -/
theorem v15_read (x : FVec Ideal SArg .f32) (b : Fin 16) (h w : Fin 512) :
    val_main_v15 (F := Ideal) x (ix4 b (0 : Fin 1) h w)
      = Scalar.select (maskP x b h w) (BitVec.ofNat 32 h.val) (-(1073741824#32)) := by
  rw [val_main_v15_apply, v2_read, call2_v0_read, call2_v1_read]

/-- The reduce over the pixels of entry b is the specification's fold. -/
theorem v16_read (x : FVec Ideal SArg .f32) (b : Fin 16) :
    val_main_v16 (F := Ideal) x (ix1 b) = ymaxW (maskP x) b := by
  unfold val_main_v16 ymaxW
  refine (reduce_hw IntOp.maxsi _ _ _ _ b).trans ?_
  exact congrArg (fun f => Finset.fold IntOp.maxsi _ f Finset.univ) (funext fun p => v15_read x b p.1 p.2)

/-- The column coordinate broadcast over the array, at a pixel. -/
theorem call3_v0_read (b : Fin 16) (h w : Fin 512) :
    val_main_call3_v0 (F := Ideal) (ix4 b (0 : Fin 1) h w) = BitVec.ofNat 32 w.val := by
  rw [val_main_call3_v0_apply, val_main_v9_apply, val_main_v8_apply]
  show BitVec.ofNat 32 (((0 * 1 + 0) * 1 + 0) * 512 + w.val) = _
  congr 1; omega

/-- The fill value broadcast over the array, at a pixel. -/
theorem call3_v1_read (b : Fin 16) (h w : Fin 512) :
    val_main_call3_v1 (F := Ideal) (ix4 b (0 : Fin 1) h w) = -(1073741824#32) := by
  rw [val_main_call3_v1_apply, val_main_v17_apply, val_main_c_8_apply]

/-- The selected coordinate at a pixel. -/
theorem v18_read (x : FVec Ideal SArg .f32) (b : Fin 16) (h w : Fin 512) :
    val_main_v18 (F := Ideal) x (ix4 b (0 : Fin 1) h w)
      = Scalar.select (maskP x b h w) (BitVec.ofNat 32 w.val) (-(1073741824#32)) := by
  rw [val_main_v18_apply, v2_read, call3_v0_read, call3_v1_read]

/-- The reduce over the pixels of entry b is the specification's fold. -/
theorem v19_read (x : FVec Ideal SArg .f32) (b : Fin 16) :
    val_main_v19 (F := Ideal) x (ix1 b) = xmaxW (maskP x) b := by
  unfold val_main_v19 xmaxW
  refine (reduce_hw IntOp.maxsi _ _ _ _ b).trans ?_
  exact congrArg (fun f => Finset.fold IntOp.maxsi _ f Finset.univ) (funext fun p => v18_read x b p.1 p.2)

/-- The row coordinate broadcast over the array, at a pixel. -/
theorem call4_v0_read (b : Fin 16) (h w : Fin 512) :
    val_main_call4_v0 (F := Ideal) (ix4 b (0 : Fin 1) h w) = BitVec.ofNat 32 h.val := by
  rw [val_main_call4_v0_apply, val_main_v21_apply, val_main_v20_apply]
  show BitVec.ofNat 32 (((0 * 1 + 0) * 512 + h.val) * 1 + 0) = _
  congr 1; omega

/-- The fill value broadcast over the array, at a pixel. -/
theorem call4_v1_read (b : Fin 16) (h w : Fin 512) :
    val_main_call4_v1 (F := Ideal) (ix4 b (0 : Fin 1) h w) = 1073741824#32 := by
  rw [val_main_call4_v1_apply, val_main_c_10_apply]

/-- The selected coordinate at a pixel. -/
theorem v24_read (y : FVec Ideal SArg .f32) (b : Fin 16) (h w : Fin 512) :
    val_main_v24 (F := Ideal) y (ix4 b (0 : Fin 1) h w)
      = Scalar.select (maskT y b h w) (BitVec.ofNat 32 h.val) (1073741824#32) := by
  rw [val_main_v24_apply, v5_read, call4_v0_read, call4_v1_read]

/-- The reduce over the pixels of entry b is the specification's fold. -/
theorem v25_read (y : FVec Ideal SArg .f32) (b : Fin 16) :
    val_main_v25 (F := Ideal) y (ix1 b) = yminW (maskT y) b := by
  unfold val_main_v25 yminW
  refine (reduce_hw IntOp.minsi _ _ _ _ b).trans ?_
  exact congrArg (fun f => Finset.fold IntOp.minsi _ f Finset.univ) (funext fun p => v24_read y b p.1 p.2)

/-- The column coordinate broadcast over the array, at a pixel. -/
theorem call5_v0_read (b : Fin 16) (h w : Fin 512) :
    val_main_call5_v0 (F := Ideal) (ix4 b (0 : Fin 1) h w) = BitVec.ofNat 32 w.val := by
  rw [val_main_call5_v0_apply, val_main_v23_apply, val_main_v22_apply]
  show BitVec.ofNat 32 (((0 * 1 + 0) * 1 + 0) * 512 + w.val) = _
  congr 1; omega

/-- The fill value broadcast over the array, at a pixel. -/
theorem call5_v1_read (b : Fin 16) (h w : Fin 512) :
    val_main_call5_v1 (F := Ideal) (ix4 b (0 : Fin 1) h w) = 1073741824#32 := by
  rw [val_main_call5_v1_apply, val_main_c_12_apply]

/-- The selected coordinate at a pixel. -/
theorem v26_read (y : FVec Ideal SArg .f32) (b : Fin 16) (h w : Fin 512) :
    val_main_v26 (F := Ideal) y (ix4 b (0 : Fin 1) h w)
      = Scalar.select (maskT y b h w) (BitVec.ofNat 32 w.val) (1073741824#32) := by
  rw [val_main_v26_apply, v5_read, call5_v0_read, call5_v1_read]

/-- The reduce over the pixels of entry b is the specification's fold. -/
theorem v27_read (y : FVec Ideal SArg .f32) (b : Fin 16) :
    val_main_v27 (F := Ideal) y (ix1 b) = xminW (maskT y) b := by
  unfold val_main_v27 xminW
  refine (reduce_hw IntOp.minsi _ _ _ _ b).trans ?_
  exact congrArg (fun f => Finset.fold IntOp.minsi _ f Finset.univ) (funext fun p => v26_read y b p.1 p.2)

/-- The row coordinate broadcast over the array, at a pixel. -/
theorem call6_v0_read (b : Fin 16) (h w : Fin 512) :
    val_main_call6_v0 (F := Ideal) (ix4 b (0 : Fin 1) h w) = BitVec.ofNat 32 h.val := by
  rw [val_main_call6_v0_apply, val_main_v21_apply, val_main_v20_apply]
  show BitVec.ofNat 32 (((0 * 1 + 0) * 512 + h.val) * 1 + 0) = _
  congr 1; omega

/-- The fill value broadcast over the array, at a pixel. -/
theorem call6_v1_read (b : Fin 16) (h w : Fin 512) :
    val_main_call6_v1 (F := Ideal) (ix4 b (0 : Fin 1) h w) = -(1073741824#32) := by
  rw [val_main_call6_v1_apply, val_main_v28_apply, val_main_c_14_apply]

/-- The selected coordinate at a pixel. -/
theorem v29_read (y : FVec Ideal SArg .f32) (b : Fin 16) (h w : Fin 512) :
    val_main_v29 (F := Ideal) y (ix4 b (0 : Fin 1) h w)
      = Scalar.select (maskT y b h w) (BitVec.ofNat 32 h.val) (-(1073741824#32)) := by
  rw [val_main_v29_apply, v5_read, call6_v0_read, call6_v1_read]

/-- The reduce over the pixels of entry b is the specification's fold. -/
theorem v30_read (y : FVec Ideal SArg .f32) (b : Fin 16) :
    val_main_v30 (F := Ideal) y (ix1 b) = ymaxW (maskT y) b := by
  unfold val_main_v30 ymaxW
  refine (reduce_hw IntOp.maxsi _ _ _ _ b).trans ?_
  exact congrArg (fun f => Finset.fold IntOp.maxsi _ f Finset.univ) (funext fun p => v29_read y b p.1 p.2)

/-- The column coordinate broadcast over the array, at a pixel. -/
theorem call7_v0_read (b : Fin 16) (h w : Fin 512) :
    val_main_call7_v0 (F := Ideal) (ix4 b (0 : Fin 1) h w) = BitVec.ofNat 32 w.val := by
  rw [val_main_call7_v0_apply, val_main_v23_apply, val_main_v22_apply]
  show BitVec.ofNat 32 (((0 * 1 + 0) * 1 + 0) * 512 + w.val) = _
  congr 1; omega

/-- The fill value broadcast over the array, at a pixel. -/
theorem call7_v1_read (b : Fin 16) (h w : Fin 512) :
    val_main_call7_v1 (F := Ideal) (ix4 b (0 : Fin 1) h w) = -(1073741824#32) := by
  rw [val_main_call7_v1_apply, val_main_v31_apply, val_main_c_16_apply]

/-- The selected coordinate at a pixel. -/
theorem v32_read (y : FVec Ideal SArg .f32) (b : Fin 16) (h w : Fin 512) :
    val_main_v32 (F := Ideal) y (ix4 b (0 : Fin 1) h w)
      = Scalar.select (maskT y b h w) (BitVec.ofNat 32 w.val) (-(1073741824#32)) := by
  rw [val_main_v32_apply, v5_read, call7_v0_read, call7_v1_read]

/-- The reduce over the pixels of entry b is the specification's fold. -/
theorem v33_read (y : FVec Ideal SArg .f32) (b : Fin 16) :
    val_main_v33 (F := Ideal) y (ix1 b) = xmaxW (maskT y) b := by
  unfold val_main_v33 xmaxW
  refine (reduce_hw IntOp.maxsi _ _ _ _ b).trans ?_
  exact congrArg (fun f => Finset.fold IntOp.maxsi _ f Finset.univ) (funext fun p => v32_read y b p.1 p.2)

/-- Whether the prediction's mask has a set pixel in entry b. -/
theorem v34_read (x : FVec Ideal SArg .f32) (b : Fin 16) :
    val_main_v34 (F := Ideal) x (ix1 b) = anyW (maskP x) b := by
  unfold val_main_v34 anyW
  refine (reduce_hw IntOp.ori _ _ _ _ b).trans ?_
  exact congrArg (fun f => Finset.fold IntOp.ori _ f Finset.univ) (funext fun p => v2_read x b p.1 p.2)

/-- Whether the target's mask has a set pixel in entry b. -/
theorem v35_read (y : FVec Ideal SArg .f32) (b : Fin 16) :
    val_main_v35 (F := Ideal) y (ix1 b) = anyW (maskT y) b := by
  unfold val_main_v35 anyW
  refine (reduce_hw IntOp.ori _ _ _ _ b).trans ?_
  exact congrArg (fun f => Finset.fold IntOp.ori _ f Finset.univ) (funext fun p => v5_read y b p.1 p.2)

end Cert.RefSide

end
-- ==== Proof.RefValue.lean ====
/-
  The reference program's result IS the specification `refVal` of its two arguments, and so every weakly fair
  execution of the reference ends with `refVal` of the argument arrays in its result buffer, the arguments unchanged.
  The per-entry stages (integer arithmetic on the four bounds, the exact conversions, the float tail, the select on
  "both masks non-empty") read through pointwise; the final sum over the 16 entries is re-indexed by the entry number.
-/
import proofs.«124476_j14413910245512_2_alg».proof.Proof.RefRead

noncomputable section

open scoped BigOperators

namespace Cert.RefSide

open Idealize.ShloMosaic Idealize.ShloMosaic.ValueIdx Idealize.ShloMosaic.TcCoe Idealize.SL.Sem
open Cert.ReferenceIdeal Cert.ReferenceIdeal.Gen Cert.ReferenceIdeal.Read

/-- The penalty stage at entry b is the specification's penalty of the two masks. -/
theorem v83_read (x y : FVec Ideal SArg .f32) (b : Fin 16) :
    val_main_v83 (F := Ideal) x y (ix1 b) = pen (maskP x) (maskT y) b := by
  simp only [val_main_v83_apply, val_main_v36_apply, val_main_call9_v1_apply, val_main_call9_v0_apply, val_main_cst_30_apply, val_main_v82_apply, val_main_v57_apply, val_main_v54_apply, val_main_call8_v0_apply, val_main_call8_cst_apply, val_main_v53_apply, val_main_v44_apply, val_main_v43_apply, val_main_v39_apply, val_main_v37_apply, val_main_v38_apply, val_main_c_20_apply, val_main_v42_apply, val_main_v40_apply, val_main_v41_apply, val_main_c_21_apply, val_main_v52_apply, val_main_v51_apply, val_main_v47_apply, val_main_v45_apply, val_main_v46_apply, val_main_c_22_apply, val_main_v50_apply, val_main_v48_apply, val_main_v49_apply, val_main_c_23_apply, val_main_v56_apply, val_main_v55_apply, val_main_cst_24_apply, val_main_v81_apply, val_main_v80_apply, val_main_cst_29_apply, val_main_v79_apply, val_main_v78_apply, val_main_v75_apply, val_main_v74_apply, val_main_v61_apply, val_main_v59_apply, val_main_v58_apply, val_main_v60_apply, val_main_cst_25_apply, val_main_v69_apply, val_main_v67_apply, val_main_v66_apply, val_main_v68_apply, val_main_cst_27_apply, val_main_v77_apply, val_main_v76_apply, val_main_v65_apply, val_main_v63_apply, val_main_v62_apply, val_main_v64_apply, val_main_cst_26_apply, val_main_v73_apply, val_main_v71_apply, val_main_v70_apply, val_main_v72_apply, val_main_cst_28_apply,
    v11_read, v13_read, v16_read, v19_read, v25_read, v27_read, v30_read, v33_read, v34_read, v35_read]
  rfl

/-- A rank-1 index of extent 16 is its coordinate. -/
def idxEquiv16 : S16.Idx ≃ Fin 16 where
  toFun i := i 0
  invFun b := ix1 b
  left_inv i := (eq_ix1 i).symm
  right_inv _ := rfl

/-- The reference's last stage is the specification. -/
theorem val_eq (x y : FVec Ideal SArg .f32) : val_main_v86 (F := Ideal) x y = refVal x y := by
  funext i
  rw [val_main_v86_apply, val_main_v85_apply, val_main_v84_apply, val_main_cst_33_apply, val_main_cst_32_apply,
    val_main_cst_31_apply]
  have hsum : (∑ j : S16.Idx, val_main_v83 (F := Ideal) x y j) = ∑ b : Fin 16, pen (maskP x) (maskT y) b := by
    rw [← Equiv.sum_comp idxEquiv16.symm]
    exact Finset.sum_congr rfl (fun b _ => v83_read x y b)
  rw [hsum]
  rfl

/-- Every weakly fair execution of the reference from a memory `m'` terminates with the specification of the two
    argument arrays in the result buffer, and the argument arrays unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v86)
            = refVal (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v86_eq m' c).trans (val_eq _ _)), (h c).2⟩)
    (Cert.ReferenceIdeal.Value.run (F := Ideal) m' g')

end Cert.RefSide

end
-- ==== Proof.RefAssemble.lean ====
/-
  The two-program claim from the kernel's run alone: if every weakly fair execution of the idealized kernel ends
  with the specification `refVal` of its two argument arrays in its result buffer (arguments unchanged), then the
  idealized kernel and the idealized reference, run from memories that agree on the arguments, end with equal results:
  the reference's run ends with the same specification of the same arrays.
-/
import proofs.«124476_j14413910245512_2_alg».proof.Defs
import proofs.«124476_j14413910245512_2_alg».proof.Proof.Gen.KernelIdeal
import proofs.«124476_j14413910245512_2_alg».proof.Proof.Gen.ReferenceIdeal
import proofs.«124476_j14413910245512_2_alg».proof.Proof.Gen.Pre_finite_inputs
import proofs.«124476_j14413910245512_2_alg».proof.Proof.RefValue

noncomputable section

namespace Cert.RefSide

open Idealize.ShloMosaic Idealize.ShloMosaic.TcCoe Idealize.SL.Sem

/-- The algebraic claim, given that the kernel's run ends with `refVal` of its arguments. -/
theorem algebraic_of_kernel_run
    (hk : ∀ (m : (ℓ : Loc Cert.KernelIdeal.nD Cert.KernelIdeal.τ Cert.KernelIdeal.sig) → Buf (Elt Ideal) ℓ)
        (g : Dev Cert.KernelIdeal.nD → PrngReg), Cert.Pre_KernelIdeal m →
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v71)
              = refVal (m ((c.tc : Thread Cert.KernelIdeal.nD Cert.KernelIdeal.τ).loc Cert.KernelIdeal.main_arg0))
                  (m ((c.tc : Thread Cert.KernelIdeal.nD Cert.KernelIdeal.τ).loc Cert.KernelIdeal.main_arg1))
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))) :
    Cert.algebraic_KernelIdeal_ReferenceIdeal := by
  intro m g m' g' hpre hagree
  refine ⟨fun c => refVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), hk m g hpre, ?_⟩
  refine (θ_run Cert.ReferenceIdeal.defs _ _).mono (fun _ h c => ⟨(h c).1.trans ?_, (h c).2⟩) (ref_run m' g')
  rw [(hagree c).1, (hagree c).2]

end Cert.RefSide

end
-- ==== Proof.KiAlg.lean ====
/-
  The two idealized programs end with equal results. Every weakly fair execution of the idealized kernel ends with
  the function `tailK` of the statistics array in its result buffer and its arguments unchanged; that value is the
  reference's specification of the two arguments; and the idealized reference, run from a memory that agrees on the
  arguments, ends with the same specification of the same arrays.
-/
import proofs.«124476_j14413910245512_2_alg».proof.Proof.KiJoin
import proofs.«124476_j14413910245512_2_alg».proof.Proof.KiFinal
import proofs.«124476_j14413910245512_2_alg».proof.Proof.RefAssemble

noncomputable section

namespace Cert.KernelIdeal.Hand

open Idealize.ShloMosaic Idealize.ShloMosaic.TcCoe Idealize.SL.Sem
open Cert.KernelIdeal Cert.KernelIdeal.Gen

/-- The algebraic claim between the idealized kernel and the idealized reference. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  Cert.RefSide.algebraic_of_kernel_run fun m g _ =>
    (θ_run (defs (F := Ideal)) _ _).mono
      (fun _ h c => ⟨(h c).1.trans (stats_eq_refVal m c), (h c).2.1, (h c).2.2⟩) (kernel_run m g)

end Cert.KernelIdeal.Hand

end
-- ==== Proof.lean ====
/-
  The certificate of the bounding-box penalty kernel against its reference.

  Both programs threshold the channel maximum of two f32[16,1,512,512,21] arrays into two masks per
  batch entry, take each mask's bounding box (least and greatest row and column holding a set
  pixel) and whether it is empty, and average over the sixteen entries a penalty that is 1 where
  either mask is empty and otherwise  max(predArea − trueArea, 0) / (trueArea + 1)  +  the distance of
  the two box centres / 20,  scaled by 0.05.

  The kernel walks each batch block of eight entries in sixteen row tiles, keeping ten running
  statistics per entry (four minima started at 1e9, four maxima started at −1e9, two flags started
  at 0) and writing them out side by side after the last tile; the host lines after it do the
  penalty in floats. The reference takes the minima and maxima over all pixels at once in 32-bit
  integers (sentinels ±2^30) and converts to float only the areas and the coordinate sums.

  Over the extended reals the two agree: a running minimum over tiles of per-tile minima is the
  minimum over all rows, so where a mask is non-empty both sides hold the same natural numbers below
  512 (no integer wrap-around: the areas are at most 512·512), the float arithmetic on them is the
  same expression on both sides, and where a mask is empty both sides select the constant 1. No
  finiteness of the inputs is used: only order (max, min, comparison) touches them.

  The frames: each kernel program is "two transposes, the pallas_call, eighty-nine host lines"; the
  pallas_call's body is run symbolically once per control case (first tile of a block, inner tile,
  last tile), the ten accumulators are carried between grid points as the region invariant, and the
  launch theorem for "host lines, region, host lines" gives the run. The reference's frame is its
  straight-line run with the result dropped. The idealization rewrote nothing, so `preserves` is
  `True`.
-/
import proofs.«124476_j14413910245512_2_alg».proof.Defs
import proofs.«124476_j14413910245512_2_alg».proof.Proof.Gen.Kernel
import proofs.«124476_j14413910245512_2_alg».proof.Proof.Gen.KernelIdeal
import proofs.«124476_j14413910245512_2_alg».proof.Proof.Gen.ReferenceIdeal
import proofs.«124476_j14413910245512_2_alg».proof.Proof.Gen.Pre_finite_inputs
import proofs.«124476_j14413910245512_2_alg».proof.Proof.KbFrame
import proofs.«124476_j14413910245512_2_alg».proof.Proof.KiFrame
import proofs.«124476_j14413910245512_2_alg».proof.Proof.KiAlg
import proofs.«124476_j14413910245512_2_alg».proof.Proof.RefValue

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefSide.ref_run m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.KernelIdeal.Hand.algebraic⟩

end Cert.Proof

end
